-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 132
  | .vmem => 64
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x1, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S1x128, .f32⟩
  | 65 => ⟨S100000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x1, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1x128, .f32⟩
  | 97 => ⟨S100000x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S100000x128, .f32⟩
  | 111 => ⟨S100000x64, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S1x64, .f32⟩
  | 3 => ⟨S1x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x1, .f32⟩
  | .local _ .vmem, ⟨34, _⟩ => ⟨S4000x1, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S1x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x1, .f32⟩
  | .local _ .vmem, ⟨58, _⟩ => ⟨S4000x1, .f32⟩
  | .local _ .vmem, ⟨59, _⟩ => ⟨S1x64, .f32⟩
  | .local _ .vmem, ⟨60, _⟩ => ⟨S4000x64, .f32⟩
  | .local _ .vmem, ⟨61, _⟩ => ⟨S4000x64, .f32⟩
  | .local _ .vmem, ⟨62, _⟩ => ⟨S1x64, .f32⟩
  | .local _ .vmem, ⟨63, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v43_2 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_v68_2 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93_0 : Ref sig .tc := ⟨.hbm, 129, rfl⟩
abbrev main_v93_1 : Ref sig .tc := ⟨.hbm, 130, rfl⟩
abbrev main_v93_2 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S4000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S1x128_S1x128 : S1x128.ShapeCasts S1x128
  broadcasts_S1x128_S4000x128 : S1x128.Broadcasts S4000x128
  broadcasts_S4000x1_S4000x128 : S4000x1.Broadcasts S4000x128
  reduces_S4000x128_S128 : S4000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S4000x64_S4000x64 : S4000x64.ShapeCasts S4000x64
  shapeCasts_S1x64_S1x64 : S1x64.ShapeCasts S1x64
  broadcasts_S1x64_S4000x64 : S1x64.Broadcasts S4000x64
  broadcasts_S4000x1_S4000x64 : S4000x1.Broadcasts S4000x64
  reduces_S4000x64_S64 : S4000x64.Reduces [0] S64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S100000x128.size a
  hwx4_4 : ∀ i : grid4.Coords, EltTy.bits .f32 = 32 ∨ (Rect.block (s := S100000x128) S4000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S100000x64.size a
  hwx7_1 : ∀ i : grid7.Coords, EltTy.bits .f32 = 32 ∨ (Rect.block (s := S100000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x1.size a ≤ S100000x1.size a
  hwx7_2 : ∀ i : grid7.Coords, EltTy.bits .f32 = 32 ∨ (Rect.block (s := S100000x1) S4000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x64.size a ≤ S100000x64.size a
  hwx7_4 : ∀ i : grid7.Coords, EltTy.bits .f32 = 32 ∨ (Rect.block (s := S100000x64) S4000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68_0) S4000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v68_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v77) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S4000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S4000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93_0) S4000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v93_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v93_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S1600000x1, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S100000x1, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x1, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_11 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call1_cst : Ref sig .tc := ⟨.hbm, 114, rfl⟩
abbrev main_call1_v0 : Ref sig .tc := ⟨.hbm, 115, rfl⟩
abbrev main_v67 : Ref sig .tc := ⟨.hbm, 116, rfl⟩
abbrev main_v68 : Ref sig .tc := ⟨.hbm, 117, rfl⟩
abbrev main_c_12 : Ref sig .tc := ⟨.hbm, 118, rfl⟩
abbrev main_v69 : Ref sig .tc := ⟨.hbm, 119, rfl⟩
abbrev main_v70 : Ref sig .tc := ⟨.hbm, 120, rfl⟩
abbrev main_c_13 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_14 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_15 : Ref sig .tc := ⟨.hbm, 141, rfl⟩
abbrev main_v89 : Ref sig .tc := ⟨.hbm, 142, rfl⟩
abbrev main_cst_16 : Ref sig .tc := ⟨.hbm, 143, rfl⟩
abbrev main_v90 : Ref sig .tc := ⟨.hbm, 144, rfl⟩
abbrev main_v91 : Ref sig .tc := ⟨.hbm, 145, rfl⟩
abbrev main_c_17 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_cst_18 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_call3_cst : Ref sig .tc := ⟨.hbm, 185, rfl⟩
abbrev main_call3_v0 : Ref sig .tc := ⟨.hbm, 186, rfl⟩
abbrev main_v108 : Ref sig .tc := ⟨.hbm, 187, rfl⟩
abbrev main_v109 : Ref sig .tc := ⟨.hbm, 188, rfl⟩
abbrev main_c_19 : Ref sig .tc := ⟨.hbm, 189, rfl⟩
abbrev main_v110 : Ref sig .tc := ⟨.hbm, 190, rfl⟩
abbrev main_v111 : Ref sig .tc := ⟨.hbm, 191, rfl⟩
abbrev main_c_20 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_cst_21 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with its result array kept.

  The program is eight kernel regions among stretches of host operations.  Every weakly fair execution
  from a memory with zero counters terminates without a fault; the final state holds, in every buffer
  that outlives the run, the contents the segments leave one after the other — each host stretch applies
  its operations to what the segment before left, each region replaces its output arrays by what its
  grid points wrote back.  Read at the result buffer this gives the result array as the last segment's
  contents there; read at the twelve argument buffers it gives them back as launched.
-/
import proofs.«153408_j3753801416995_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last segment's contents there and every argument array as launched. -/
theorem run_out : θ_run defs (onTc (τ := τ) (main (F := F))) ⟨m, fun _ => 0, ρ⟩ (fun r => ∀ c : Dev nD,
      r.2.mem ((c.tc : Thread nD τ).loc main_v93_0) = W14 m ρ c (Proc.devRef .tc main_v93_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v93_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KRun

end
-- ==== Proof.KSpec.lean ====
/-
  The whole-array functions the kernel regions compute, at the ideal values.

  Floats are extended reals and every operation is exact.  For N = 100000 rows and a width p:
  the feature product of all rows with a weight matrix [128, p]; the convolution output, at (r, c) the
  aggregate plus the product entry times the row's self weight plus the bias entry of column c; the
  column sums and the column sums of squares of an array over all its rows; and the batch normalisation
  (x − mean) · (var + ε)^(−1/2) · g + be of column c followed by the maximum with zero.
-/
import Idealize.ShloMosaic.Lib.ValueIdx
import Idealize.ShloMosaic.PureOps.Ideal

noncomputable section

namespace Cert.KernelIdeal.KSpec

open Idealize.ShloMosaic Idealize.ShloMosaic.ValueIdx
open scoped BigOperators

/-- The row coordinate of a rank-2 index. -/
abbrev row {n p : Nat} (i : (⟨2, ![n, p]⟩ : Shape).Idx) : Fin n := i 0
/-- The column coordinate of a rank-2 index. -/
abbrev col {n p : Nat} (i : (⟨2, ![n, p]⟩ : Shape).Idx) : Fin p := i 1

/-- All 100000 rows times a weight matrix [128, p]. -/
def mm (p : Nat) (x : FVec Ideal ⟨2, ![100000, 128]⟩ .f32) (w : FVec Ideal ⟨2, ![128, p]⟩ .f32) :
    FVec Ideal ⟨2, ![100000, p]⟩ .f32 :=
  Host.dotGeneral (DotDims.plain 100000 128 p) none x w

/-- The convolution output: aggregate + product · self weight of the row + bias of the column. -/
def conv (p : Nat) (agg hw : FVec Ideal ⟨2, ![100000, p]⟩ .f32) (sn : FVec Ideal ⟨2, ![100000, 1]⟩ .f32)
    (b : FVec Ideal ⟨2, ![1, p]⟩ .f32) : FVec Ideal ⟨2, ![100000, p]⟩ .f32 :=
  fun i => FloatOps.addf (FloatOps.addf (agg i) (FloatOps.mulf (hw i) (sn (ix2 (row i) 0)))) (b (ix2 0 (col i)))

/-- The sum of each column over all rows, as a row [1, p]. -/
def colsum (p : Nat) (v : FVec Ideal ⟨2, ![100000, p]⟩ .f32) : FVec Ideal ⟨2, ![1, p]⟩ .f32 :=
  fun j => ∑ r : Fin 100000, v (ix2 r (col j))

/-- The sum of squares of each column over all rows, as a row [1, p]. -/
def colsumsq (p : Nat) (v : FVec Ideal ⟨2, ![100000, p]⟩ .f32) : FVec Ideal ⟨2, ![1, p]⟩ .f32 :=
  fun j => ∑ r : Fin 100000, FloatOps.mulf (v (ix2 r (col j))) (v (ix2 r (col j)))

/-- Batch normalisation with the column's mean, variance, scale and shift, then the maximum with zero. -/
def bnrelu (p : Nat) (x : FVec Ideal ⟨2, ![100000, p]⟩ .f32) (mean var g be : FVec Ideal ⟨2, ![1, p]⟩ .f32) :
    FVec Ideal ⟨2, ![100000, p]⟩ .f32 :=
  fun i => FloatOps.maximumf
    (FloatOps.addf
      (FloatOps.mulf
        (FloatOps.mulf (FloatOps.subf (x i) (mean (ix2 0 (col i))))
          (FloatOps.rsqrt (FloatOps.addf (var (ix2 0 (col i))) (Scalar.ofBits (F := Ideal) .f32 0x3727C5AC#32))))
        (g (ix2 0 (col i))))
      (be (ix2 0 (col i))))
    (Scalar.ofBits (F := Ideal) .f32 0x00000000#32)

end Cert.KernelIdeal.KSpec

end
-- ==== Proof.KTerm.lean ====
/-
  The idealized kernel program's values, one named term per buffer.

  A three-layer graph convolution over 100000 nodes and 1600000 edges.  Each term below is what one
  buffer of the program holds, as a function of the twelve argument arrays: a host operation's buffer is
  that operation applied to the terms of its operands, and a kernel region's output is a whole-array
  function (module KSpec): the feature product of all rows; the convolution output, aggregate plus
  self term plus bias; its column sums and column sums of squares; the batch normalisation followed by
  the clamp at zero.  Floats are extended reals and every operation is exact.
-/
import proofs.«153408_j3753801416995_1_alg».proof.Proof.KSpec
import proofs.«153408_j3753801416995_1_alg».proof.Proof.Gen.KernelIdeal

noncomputable section

namespace Cert.KernelIdeal.KTerm

open Cert.KernelIdeal Cert.KernelIdeal.Facts₀ Cert.KernelIdeal.Facts Idealize.ShloMosaic

def k_v0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x1600000, .i32⟩ : BufTy).Contents (Elt Ideal) :=
  ((extractStridedSlice S1x1600000 ![0, 0] · slices_S2x1600000_S1x1600000_0_0) : (⟨S2x1600000, .i32⟩ : BufTy).Contents (Elt Ideal) → (⟨S1x1600000, .i32⟩ : BufTy).Contents (Elt Ideal)) a1

def k_v1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  fun i => shapeCast S1600000 (k_v0 a0 a1 a2 a3 a4 a5 a6 a7 a8 a9 a10 a11) shapeCasts_S1x1600000_S1600000 i

def k_v2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x1600000, .i32⟩ : BufTy).Contents (Elt Ideal) :=
  ((extractStridedSlice S1x1600000 ![1, 0] · slices_S2x1600000_S1x1600000_1_0) : (⟨S2x1600000, .i32⟩ : BufTy).Contents (Elt Ideal) → (⟨S1x1600000, .i32⟩ : BufTy).Contents (Elt Ideal)) a1

def k_v3 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  fun i => shapeCast S1600000 (k_v2 a0 a1 a2 a3 a4 a5 a6 a7 a8 a9 a10 a11) shapeCasts_S1x1600000_S1600000 i

def k_cst (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x3F800000#32

def k_v4 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .f32⟩ : BufTy).Contents (Elt Ideal) :=
  (broadcastInDim S1600000 ![] bcast_S_S1600000 : (⟨S_, .f32⟩ : BufTy).Contents (Elt Ideal) → (⟨S1600000, .f32⟩ : BufTy).Contents (Elt Ideal)) (k_cst a0 a1 a2 a3 a4 a5 a6 a7 a8 a9 a10 a11)

def k_cst_0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x00000000#32

def k_v5 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  (broadcastInDim S100000 ![] bcast_S_S100000 : (⟨S_, .f32⟩ : BufTy).Contents (Elt Ideal) → (⟨S100000, .f32⟩ : BufTy).Contents (Elt Ideal)) (k_cst_0 a0 a1 a2 a3 a4 a5 a6 a7 a8 a9 a10 a11)

def k_v6 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v3 a0 a1 a2 a3 a4 a5 a6 a7 a8 a9 a10 a11)

def k_v7 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  ((fun x i u => Host.scatterAdd (F := Ideal) (φ := .f32) scatter_S100000_S1600000x1_S1600000_n_0_0_1 x i u) : (⟨S100000, .f32⟩ : BufTy).Contents (Elt Ideal) → (⟨S1600000x1, .i32⟩ : BufTy).Contents (Elt Ideal) → (⟨S1600000, .f32⟩ : BufTy).Contents (Elt Ideal) → (⟨S100000, .f32⟩ : BufTy).Contents (Elt Ideal)) (k_v5 a0 a1 a2 a3 a4 a5 a6 a7 a8 a9 a10 a11) (k_v6 a0 a1 a2 a3 a4 a5 a6 a7 a8 a9 a10 a11) (k_v4 a0 a1 a2 a3 a4 a5 a6 a7 a8 a9 a10 a11)

def k_cst_1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x3F800000#32

def k_v8 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  (broadcastInDim S100000 ![] bcast_S_S100000 : (⟨S_, .f32⟩ : BufTy).Contents (Elt Ideal) → (⟨S100000, .f32⟩ : BufTy).Contents (Elt Ideal)) (k_cst_1 a0 a1 a2 a3 a4 a5 a6 a7 a8 a9 a10 a11)

def k_v9 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  (addf (F := Ideal) (φ := .f32) : (⟨S100000, .f32⟩ : BufTy).Contents (Elt Ideal) → (⟨S100000, .f32⟩ : BufTy).Contents (Elt Ideal) → (⟨S100000, .f32⟩ : BufTy).Contents (Elt Ideal)) (k_v7 a0 a1 a2 a3 a4 a5 a6 a7 a8 a9 a10 a11) (k_v8 a0 a1 a2 a3 a4 a5 a6 a7 a8 a9 a10 a11)

def k_v10 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  (Host.rsqrt (F := Ideal) (φ := .f32) : (⟨S100000, .f32⟩ : BufTy).Contents (Elt Ideal) → (⟨S100000, .f32⟩ : BufTy).Contents (Elt Ideal)) (k_v9 a0 a1 a2 a3 a4 a5 a6 a7 a8 a9 a10 a11)

def k_c (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 0#32

def k_v11 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c a0 a1 a2 a3 a4 a5 a6 a7 a8 a9 a10 a11)

def k_v12 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i1⟩ : BufTy).Contents (Elt Ideal) :=
  (cmpi .slt : (⟨S1600000, .i32⟩ : BufTy).Contents (Elt Ideal) → (⟨S1600000, .i32⟩ : BufTy).Contents (Elt Ideal) → (⟨S1600000, .i1⟩ : BufTy).Contents (Elt Ideal)) (k_v1 a0 a1 a2 a3 a4 a5 a6 a7 a8 a9 a10 a11) (k_v11 a0 a1 a2 a3 a4 a5 a6 a7 a8 a9 a10 a11)

def k_c_2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 100000#32

def k_v13 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_2 a0 a1 a2 a3 a4 a5 a6 a7 a8 a9 a10 a11)

def k_v14 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (addi : (⟨S1600000, .i32⟩ : BufTy).Contents (Elt Ideal) → (⟨S1600000, .i32⟩ : BufTy).Contents (Elt Ideal) → (⟨S1600000, .i32⟩ : BufTy).Contents (Elt Ideal)) (k_v1 a0 a1 a2 a3 a4 a5 a6 a7 a8 a9 a10 a11) (k_v13 a0 a1 a2 a3 a4 a5 a6 a7 a8 a9 a10 a11)

def k_v15 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) (k_v12 a0 a1 a2 a3 a4 a5 a6 a7 a8 a9 a10 a11) (k_v14 a0 a1 a2 a3 a4 a5 a6 a7 a8 a9 a10 a11) (k_v1 a0 a1 a2 a3 a4 a5 a6 a7 a8 a9 a10 a11)

def k_v16 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v15 a0 a1 a2 a3 a4 a5 a6 a7 a8 a9 a10 a11)

def k_v17 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .f32⟩ : BufTy).Contents (Elt Ideal) :=
  ((fun x i => Host.gather gather_S100000_S1600000x1_S1600000_n_0_n_n_0_1_1 x i) : (⟨S100000, .f32⟩ : BufTy).Contents (Elt Ideal) → (⟨S1600000x1, .i32⟩ : BufTy).Contents (Elt Ideal) → (⟨S1600000, .f32⟩ : BufTy).Contents (Elt Ideal)) (k_v10 a0 a1 a2 a3 a4 a5 a6 a7 a8 a9 a10 a11) (k_v16 a0 a1 a2 a3 a4 a5 a6 a7 a8 a9 a10 a11)

def k_c_3 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 0#32

def k_v18 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_3 a0 a1 a2 a3 a4 a5 a6 a7 a8 a9 a10 a11)

def k_v19 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i1⟩ : BufTy).Contents (Elt Ideal) :=
  (cmpi .slt : (⟨S1600000, .i32⟩ : BufTy).Contents (Elt Ideal) → (⟨S1600000, .i32⟩ : BufTy).Contents (Elt Ideal) → (⟨S1600000, .i1⟩ : BufTy).Contents (Elt Ideal)) (k_v3 a0 a1 a2 a3 a4 a5 a6 a7 a8 a9 a10 a11) (k_v18 a0 a1 a2 a3 a4 a5 a6 a7 a8 a9 a10 a11)

def k_c_4 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 100000#32

def k_v20 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_4 a0 a1 a2 a3 a4 a5 a6 a7 a8 a9 a10 a11)

def k_v21 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (addi : (⟨S1600000, .i32⟩ : BufTy).Contents (Elt Ideal) → (⟨S1600000, .i32⟩ : BufTy).Contents (Elt Ideal) → (⟨S1600000, .i32⟩ : BufTy).Contents (Elt Ideal)) (k_v3 a0 a1 a2 a3 a4 a5 a6 a7 a8 a9 a10 a11) (k_v20 a0 a1 a2 a3 a4 a5 a6 a7 a8 a9 a10 a11)

def k_v22 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) (k_v19 a0 a1 a2 a3 a4 a5 a6 a7 a8 a9 a10 a11) (k_v21 a0 a1 a2 a3 a4 a5 a6 a7 a8 a9 a10 a11) (k_v3 a0 a1 a2 a3 a4 a5 a6 a7 a8 a9 a10 a11)

def k_v23 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v22 a0 a1 a2 a3 a4 a5 a6 a7 a8 a9 a10 a11)

def k_v24 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .f32⟩ : BufTy).Contents (Elt Ideal) :=
  ((fun x i => Host.gather gather_S100000_S1600000x1_S1600000_n_0_n_n_0_1_1 x i) : (⟨S100000, .f32⟩ : BufTy).Contents (Elt Ideal) → (⟨S1600000x1, .i32⟩ : BufTy).Contents (Elt Ideal) → (⟨S1600000, .f32⟩ : BufTy).Contents (Elt Ideal)) (k_v10 a0 a1 a2 a3 a4 a5 a6 a7 a8 a9 a10 a11) (k_v23 a0 a1 a2 a3 a4 a5 a6 a7 a8 a9 a10 a11)

def k_v25 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .f32⟩ : BufTy).Contents (Elt Ideal) :=
  (mulf (F := Ideal) (φ := .f32) : (⟨S1600000, .f32⟩ : BufTy).Contents (Elt Ideal) → (⟨S1600000, .f32⟩ : BufTy).Contents (Elt Ideal) → (⟨S1600000, .f32⟩ : BufTy).Contents (Elt Ideal)) (k_v17 a0 a1 a2 a3 a4 a5 a6 a7 a8 a9 a10 a11) (k_v24 a0 a1 a2 a3 a4 a5 a6 a7 a8 a9 a10 a11)

def k_v26 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000, .f32⟩ : BufTy).Contents (Elt Ideal) :=
  (mulf (F := Ideal) (φ := .f32) : (⟨S100000, .f32⟩ : BufTy).Contents (Elt Ideal) → (⟨S100000, .f32⟩ : BufTy).Contents (Elt Ideal) → (⟨S100000, .f32⟩ : BufTy).Contents (Elt Ideal)) (k_v10 a0 a1 a2 a3 a4 a5 a6 a7 a8 a9 a10 a11) (k_v10 a0 a1 a2 a3 a4 a5 a6 a7 a8 a9 a10 a11)

def k_v27 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x1, .f32⟩ : BufTy).Contents (Elt Ideal) :=
  fun i => shapeCast S100000x1 (k_v26 a0 a1 a2 a3 a4 a5 a6 a7 a8 a9 a10 a11) shapeCasts_S100000_S100000x1 i

/-- Layer 1's feature product, all rows. -/
def k_v28 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.mm 128 a0 a2

def k_c_5 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 0#32

def k_v29 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_5 a0 a1 a2 a3 a4 a5 a6 a7 a8 a9 a10 a11)

def k_v30 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i1⟩ : BufTy).Contents (Elt Ideal) :=
  (cmpi .slt : (⟨S1600000, .i32⟩ : BufTy).Contents (Elt Ideal) → (⟨S1600000, .i32⟩ : BufTy).Contents (Elt Ideal) → (⟨S1600000, .i1⟩ : BufTy).Contents (Elt Ideal)) (k_v1 a0 a1 a2 a3 a4 a5 a6 a7 a8 a9 a10 a11) (k_v29 a0 a1 a2 a3 a4 a5 a6 a7 a8 a9 a10 a11)

def k_c_6 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 100000#32

def k_v31 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_6 a0 a1 a2 a3 a4 a5 a6 a7 a8 a9 a10 a11)

def k_v32 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (addi : (⟨S1600000, .i32⟩ : BufTy).Contents (Elt Ideal) → (⟨S1600000, .i32⟩ : BufTy).Contents (Elt Ideal) → (⟨S1600000, .i32⟩ : BufTy).Contents (Elt Ideal)) (k_v1 a0 a1 a2 a3 a4 a5 a6 a7 a8 a9 a10 a11) (k_v31 a0 a1 a2 a3 a4 a5 a6 a7 a8 a9 a10 a11)

def k_v33 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) (k_v30 a0 a1 a2 a3 a4 a5 a6 a7 a8 a9 a10 a11) (k_v32 a0 a1 a2 a3 a4 a5 a6 a7 a8 a9 a10 a11) (k_v1 a0 a1 a2 a3 a4 a5 a6 a7 a8 a9 a10 a11)

def k_v34 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v33 a0 a1 a2 a3 a4 a5 a6 a7 a8 a9 a10 a11)

def k_v35 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)) (k_v28 a0 a1 a2 a3 a4 a5 a6 a7 a8 a9 a10 a11) (k_v34 a0 a1 a2 a3 a4 a5 a6 a7 a8 a9 a10 a11)

def k_v36 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .f32⟩ : BufTy).Contents (Elt Ideal) :=
  (broadcastInDim S1600000x1 ![0] bcast_S1600000_S1600000x1_0 : (⟨S1600000, .f32⟩ : BufTy).Contents (Elt Ideal) → (⟨S1600000x1, .f32⟩ : BufTy).Contents (Elt Ideal)) (k_v25 a0 a1 a2 a3 a4 a5 a6 a7 a8 a9 a10 a11)

def k_v37 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  (broadcastInDim S1600000x128 ![0, 1] bcast_S1600000x1_S1600000x128_0_1 : (⟨S1600000x1, .f32⟩ : BufTy).Contents (Elt Ideal) → (⟨S1600000x128, .f32⟩ : BufTy).Contents (Elt Ideal)) (k_v36 a0 a1 a2 a3 a4 a5 a6 a7 a8 a9 a10 a11)

def k_v38 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  (mulf (F := Ideal) (φ := .f32) : (⟨S1600000x128, .f32⟩ : BufTy).Contents (Elt Ideal) → (⟨S1600000x128, .f32⟩ : BufTy).Contents (Elt Ideal) → (⟨S1600000x128, .f32⟩ : BufTy).Contents (Elt Ideal)) (k_v35 a0 a1 a2 a3 a4 a5 a6 a7 a8 a9 a10 a11) (k_v37 a0 a1 a2 a3 a4 a5 a6 a7 a8 a9 a10 a11)

def k_cst_7 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x00000000#32

def k_v39 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  (broadcastInDim S100000x128 ![] bcast_S_S100000x128 : (⟨S_, .f32⟩ : BufTy).Contents (Elt Ideal) → (⟨S100000x128, .f32⟩ : BufTy).Contents (Elt Ideal)) (k_cst_7 a0 a1 a2 a3 a4 a5 a6 a7 a8 a9 a10 a11)

def k_v40 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v3 a0 a1 a2 a3 a4 a5 a6 a7 a8 a9 a10 a11)

def k_v41 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) (k_v39 a0 a1 a2 a3 a4 a5 a6 a7 a8 a9 a10 a11) (k_v40 a0 a1 a2 a3 a4 a5 a6 a7 a8 a9 a10 a11) (k_v38 a0 a1 a2 a3 a4 a5 a6 a7 a8 a9 a10 a11)

def k_v42 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a3 shapeCasts_S128_S1x128 i

/-- Layer 1's convolution output: aggregate plus self term plus bias. -/
def k_v43_0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.conv 128 (k_v41 a0 a1 a2 a3 a4 a5 a6 a7 a8 a9 a10 a11) (k_v28 a0 a1 a2 a3 a4 a5 a6 a7 a8 a9 a10 a11) (k_v27 a0 a1 a2 a3 a4 a5 a6 a7 a8 a9 a10 a11) (k_v42 a0 a1 a2 a3 a4 a5 a6 a7 a8 a9 a10 a11)

/-- Its column sums over all rows. -/
def k_v43_1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  KSpec.colsum 128 (k_v43_0 a0 a1 a2 a3 a4 a5 a6 a7 a8 a9 a10 a11)

/-- Its column sums of squares over all rows. -/
def k_v43_2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  KSpec.colsumsq 128 (k_v43_0 a0 a1 a2 a3 a4 a5 a6 a7 a8 a9 a10 a11)

def k_cst_8 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x47C35000#32

def k_v44 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (broadcastInDim S1x128 ![] bcast_S_S1x128 : (⟨S_, .f32⟩ : BufTy).Contents (Elt Ideal) → (⟨S1x128, .f32⟩ : BufTy).Contents (Elt Ideal)) (k_cst_8 a0 a1 a2 a3 a4 a5 a6 a7 a8 a9 a10 a11)

def k_v45 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (Host.divf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v43_1 a0 a1 a2 a3 a4 a5 a6 a7 a8 a9 a10 a11) (k_v44 a0 a1 a2 a3 a4 a5 a6 a7 a8 a9 a10 a11)

def k_cst_9 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x47C35000#32

def k_v46 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (broadcastInDim S1x128 ![] bcast_S_S1x128 : (⟨S_, .f32⟩ : BufTy).Contents (Elt Ideal) → (⟨S1x128, .f32⟩ : BufTy).Contents (Elt Ideal)) (k_cst_9 a0 a1 a2 a3 a4 a5 a6 a7 a8 a9 a10 a11)

def k_v47 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (Host.divf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v43_2 a0 a1 a2 a3 a4 a5 a6 a7 a8 a9 a10 a11) (k_v46 a0 a1 a2 a3 a4 a5 a6 a7 a8 a9 a10 a11)

def k_v48 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v45 a0 a1 a2 a3 a4 a5 a6 a7 a8 a9 a10 a11) (k_v45 a0 a1 a2 a3 a4 a5 a6 a7 a8 a9 a10 a11)

def k_v49 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (subf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v47 a0 a1 a2 a3 a4 a5 a6 a7 a8 a9 a10 a11) (k_v48 a0 a1 a2 a3 a4 a5 a6 a7 a8 a9 a10 a11)

def k_v50 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a4 shapeCasts_S128_S1x128 i

def k_v51 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a5 shapeCasts_S128_S1x128 i

/-- Layer 1 normalised, scaled, shifted and clamped at zero. -/
def k_v52 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.bnrelu 128 (k_v43_0 a0 a1 a2 a3 a4 a5 a6 a7 a8 a9 a10 a11) (k_v45 a0 a1 a2 a3 a4 a5 a6 a7 a8 a9 a10 a11) (k_v49 a0 a1 a2 a3 a4 a5 a6 a7 a8 a9 a10 a11) (k_v50 a0 a1 a2 a3 a4 a5 a6 a7 a8 a9 a10 a11) (k_v51 a0 a1 a2 a3 a4 a5 a6 a7 a8 a9 a10 a11)

/-- Layer 2's feature product. -/
def k_v53 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.mm 128 (k_v52 a0 a1 a2 a3 a4 a5 a6 a7 a8 a9 a10 a11) a6

def k_c_10 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 0#32

def k_v54 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_10 a0 a1 a2 a3 a4 a5 a6 a7 a8 a9 a10 a11)

def k_v55 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i1⟩ : BufTy).Contents (Elt Ideal) :=
  (cmpi .slt : (⟨S1600000, .i32⟩ : BufTy).Contents (Elt Ideal) → (⟨S1600000, .i32⟩ : BufTy).Contents (Elt Ideal) → (⟨S1600000, .i1⟩ : BufTy).Contents (Elt Ideal)) (k_v1 a0 a1 a2 a3 a4 a5 a6 a7 a8 a9 a10 a11) (k_v54 a0 a1 a2 a3 a4 a5 a6 a7 a8 a9 a10 a11)

def k_c_11 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 100000#32

def k_v56 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_11 a0 a1 a2 a3 a4 a5 a6 a7 a8 a9 a10 a11)

def k_v57 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (addi : (⟨S1600000, .i32⟩ : BufTy).Contents (Elt Ideal) → (⟨S1600000, .i32⟩ : BufTy).Contents (Elt Ideal) → (⟨S1600000, .i32⟩ : BufTy).Contents (Elt Ideal)) (k_v1 a0 a1 a2 a3 a4 a5 a6 a7 a8 a9 a10 a11) (k_v56 a0 a1 a2 a3 a4 a5 a6 a7 a8 a9 a10 a11)

def k_v58 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) (k_v55 a0 a1 a2 a3 a4 a5 a6 a7 a8 a9 a10 a11) (k_v57 a0 a1 a2 a3 a4 a5 a6 a7 a8 a9 a10 a11) (k_v1 a0 a1 a2 a3 a4 a5 a6 a7 a8 a9 a10 a11)

def k_v59 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v58 a0 a1 a2 a3 a4 a5 a6 a7 a8 a9 a10 a11)

def k_v60 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)) (k_v53 a0 a1 a2 a3 a4 a5 a6 a7 a8 a9 a10 a11) (k_v59 a0 a1 a2 a3 a4 a5 a6 a7 a8 a9 a10 a11)

def k_v61 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .f32⟩ : BufTy).Contents (Elt Ideal) :=
  (broadcastInDim S1600000x1 ![0] bcast_S1600000_S1600000x1_0 : (⟨S1600000, .f32⟩ : BufTy).Contents (Elt Ideal) → (⟨S1600000x1, .f32⟩ : BufTy).Contents (Elt Ideal)) (k_v25 a0 a1 a2 a3 a4 a5 a6 a7 a8 a9 a10 a11)

def k_v62 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  (broadcastInDim S1600000x128 ![0, 1] bcast_S1600000x1_S1600000x128_0_1 : (⟨S1600000x1, .f32⟩ : BufTy).Contents (Elt Ideal) → (⟨S1600000x128, .f32⟩ : BufTy).Contents (Elt Ideal)) (k_v61 a0 a1 a2 a3 a4 a5 a6 a7 a8 a9 a10 a11)

def k_v63 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x128, .f32⟩ : BufTy).Contents (Elt Ideal) :=
  (mulf (F := Ideal) (φ := .f32) : (⟨S1600000x128, .f32⟩ : BufTy).Contents (Elt Ideal) → (⟨S1600000x128, .f32⟩ : BufTy).Contents (Elt Ideal) → (⟨S1600000x128, .f32⟩ : BufTy).Contents (Elt Ideal)) (k_v60 a0 a1 a2 a3 a4 a5 a6 a7 a8 a9 a10 a11) (k_v62 a0 a1 a2 a3 a4 a5 a6 a7 a8 a9 a10 a11)

def k_cst_12 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x00000000#32

def k_v64 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  (broadcastInDim S100000x128 ![] bcast_S_S100000x128 : (⟨S_, .f32⟩ : BufTy).Contents (Elt Ideal) → (⟨S100000x128, .f32⟩ : BufTy).Contents (Elt Ideal)) (k_cst_12 a0 a1 a2 a3 a4 a5 a6 a7 a8 a9 a10 a11)

def k_v65 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v3 a0 a1 a2 a3 a4 a5 a6 a7 a8 a9 a10 a11)

def k_v66 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) (k_v64 a0 a1 a2 a3 a4 a5 a6 a7 a8 a9 a10 a11) (k_v65 a0 a1 a2 a3 a4 a5 a6 a7 a8 a9 a10 a11) (k_v63 a0 a1 a2 a3 a4 a5 a6 a7 a8 a9 a10 a11)

def k_v67 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a7 shapeCasts_S128_S1x128 i

/-- Layer 2's convolution output. -/
def k_v68_0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.conv 128 (k_v66 a0 a1 a2 a3 a4 a5 a6 a7 a8 a9 a10 a11) (k_v53 a0 a1 a2 a3 a4 a5 a6 a7 a8 a9 a10 a11) (k_v27 a0 a1 a2 a3 a4 a5 a6 a7 a8 a9 a10 a11) (k_v67 a0 a1 a2 a3 a4 a5 a6 a7 a8 a9 a10 a11)

/-- Its column sums. -/
def k_v68_1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  KSpec.colsum 128 (k_v68_0 a0 a1 a2 a3 a4 a5 a6 a7 a8 a9 a10 a11)

/-- Its column sums of squares. -/
def k_v68_2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  KSpec.colsumsq 128 (k_v68_0 a0 a1 a2 a3 a4 a5 a6 a7 a8 a9 a10 a11)

def k_cst_13 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x47C35000#32

def k_v69 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (broadcastInDim S1x128 ![] bcast_S_S1x128 : (⟨S_, .f32⟩ : BufTy).Contents (Elt Ideal) → (⟨S1x128, .f32⟩ : BufTy).Contents (Elt Ideal)) (k_cst_13 a0 a1 a2 a3 a4 a5 a6 a7 a8 a9 a10 a11)

def k_v70 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (Host.divf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v68_1 a0 a1 a2 a3 a4 a5 a6 a7 a8 a9 a10 a11) (k_v69 a0 a1 a2 a3 a4 a5 a6 a7 a8 a9 a10 a11)

def k_cst_14 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x47C35000#32

def k_v71 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (broadcastInDim S1x128 ![] bcast_S_S1x128 : (⟨S_, .f32⟩ : BufTy).Contents (Elt Ideal) → (⟨S1x128, .f32⟩ : BufTy).Contents (Elt Ideal)) (k_cst_14 a0 a1 a2 a3 a4 a5 a6 a7 a8 a9 a10 a11)

def k_v72 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (Host.divf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v68_2 a0 a1 a2 a3 a4 a5 a6 a7 a8 a9 a10 a11) (k_v71 a0 a1 a2 a3 a4 a5 a6 a7 a8 a9 a10 a11)

def k_v73 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v70 a0 a1 a2 a3 a4 a5 a6 a7 a8 a9 a10 a11) (k_v70 a0 a1 a2 a3 a4 a5 a6 a7 a8 a9 a10 a11)

def k_v74 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  (subf (F := Ideal) (φ := .f32) : (⟨S1x128, .f32⟩ : BufTy).Contents (Elt Ideal) → (⟨S1x128, .f32⟩ : BufTy).Contents (Elt Ideal) → (⟨S1x128, .f32⟩ : BufTy).Contents (Elt Ideal)) (k_v72 a0 a1 a2 a3 a4 a5 a6 a7 a8 a9 a10 a11) (k_v73 a0 a1 a2 a3 a4 a5 a6 a7 a8 a9 a10 a11)

def k_v75 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a8 shapeCasts_S128_S1x128 i

def k_v76 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x128, .f32⟩ : BufTy).Contents (Elt Ideal) :=
  fun i => shapeCast S1x128 a9 shapeCasts_S128_S1x128 i

/-- Layer 2 normalised, scaled, shifted and clamped at zero. -/
def k_v77 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x128, .f32⟩ : BufTy).Contents (Elt Ideal) :=
  KSpec.bnrelu 128 (k_v68_0 a0 a1 a2 a3 a4 a5 a6 a7 a8 a9 a10 a11) (k_v70 a0 a1 a2 a3 a4 a5 a6 a7 a8 a9 a10 a11) (k_v74 a0 a1 a2 a3 a4 a5 a6 a7 a8 a9 a10 a11) (k_v75 a0 a1 a2 a3 a4 a5 a6 a7 a8 a9 a10 a11) (k_v76 a0 a1 a2 a3 a4 a5 a6 a7 a8 a9 a10 a11)

/-- Layer 3's feature product. -/
def k_v78 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x64, .f32⟩ : BufTy).Contents (Elt Ideal) :=
  KSpec.mm 64 (k_v77 a0 a1 a2 a3 a4 a5 a6 a7 a8 a9 a10 a11) a10

def k_c_15 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 0#32

def k_v79 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_15 a0 a1 a2 a3 a4 a5 a6 a7 a8 a9 a10 a11)

def k_v80 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i1⟩ : BufTy).Contents (Elt Ideal) :=
  (cmpi .slt : (⟨S1600000, .i32⟩ : BufTy).Contents (Elt Ideal) → (⟨S1600000, .i32⟩ : BufTy).Contents (Elt Ideal) → (⟨S1600000, .i1⟩ : BufTy).Contents (Elt Ideal)) (k_v1 a0 a1 a2 a3 a4 a5 a6 a7 a8 a9 a10 a11) (k_v79 a0 a1 a2 a3 a4 a5 a6 a7 a8 a9 a10 a11)

def k_c_16 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .i32⟩ : BufTy).Contents (Elt Ideal) :=
  constantI S_ 32 100000#32

def k_v81 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (broadcastInDim S1600000 ![] bcast_S_S1600000 : (⟨S_, .i32⟩ : BufTy).Contents (Elt Ideal) → (⟨S1600000, .i32⟩ : BufTy).Contents (Elt Ideal)) (k_c_16 a0 a1 a2 a3 a4 a5 a6 a7 a8 a9 a10 a11)

def k_v82 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (addi : (⟨S1600000, .i32⟩ : BufTy).Contents (Elt Ideal) → (⟨S1600000, .i32⟩ : BufTy).Contents (Elt Ideal) → (⟨S1600000, .i32⟩ : BufTy).Contents (Elt Ideal)) (k_v1 a0 a1 a2 a3 a4 a5 a6 a7 a8 a9 a10 a11) (k_v81 a0 a1 a2 a3 a4 a5 a6 a7 a8 a9 a10 a11)

def k_v83 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000, .i32⟩ : BufTy).Contents (Elt Ideal) :=
  (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) (k_v80 a0 a1 a2 a3 a4 a5 a6 a7 a8 a9 a10 a11) (k_v82 a0 a1 a2 a3 a4 a5 a6 a7 a8 a9 a10 a11) (k_v1 a0 a1 a2 a3 a4 a5 a6 a7 a8 a9 a10 a11)

def k_v84 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v83 a0 a1 a2 a3 a4 a5 a6 a7 a8 a9 a10 a11)

def k_v85 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x64, .f32⟩ : BufTy).Contents (Elt Ideal) :=
  ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)) (k_v78 a0 a1 a2 a3 a4 a5 a6 a7 a8 a9 a10 a11) (k_v84 a0 a1 a2 a3 a4 a5 a6 a7 a8 a9 a10 a11)

def k_v86 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .f32⟩ : BufTy).Contents (Elt Ideal) :=
  (broadcastInDim S1600000x1 ![0] bcast_S1600000_S1600000x1_0 : (⟨S1600000, .f32⟩ : BufTy).Contents (Elt Ideal) → (⟨S1600000x1, .f32⟩ : BufTy).Contents (Elt Ideal)) (k_v25 a0 a1 a2 a3 a4 a5 a6 a7 a8 a9 a10 a11)

def k_v87 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x64, .f32⟩ : BufTy).Contents (Elt Ideal) :=
  (broadcastInDim S1600000x64 ![0, 1] bcast_S1600000x1_S1600000x64_0_1 : (⟨S1600000x1, .f32⟩ : BufTy).Contents (Elt Ideal) → (⟨S1600000x64, .f32⟩ : BufTy).Contents (Elt Ideal)) (k_v86 a0 a1 a2 a3 a4 a5 a6 a7 a8 a9 a10 a11)

def k_v88 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x64, .f32⟩ : BufTy).Contents (Elt Ideal) :=
  (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)) (k_v85 a0 a1 a2 a3 a4 a5 a6 a7 a8 a9 a10 a11) (k_v87 a0 a1 a2 a3 a4 a5 a6 a7 a8 a9 a10 a11)

def k_cst_17 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S_, .f32⟩ : BufTy).Contents (Elt Ideal) :=
  constant (F := Ideal) S_ .f32 0x00000000#32

def k_v89 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x64, .f32⟩ : BufTy).Contents (Elt Ideal) :=
  (broadcastInDim S100000x64 ![] bcast_S_S100000x64 : (⟨S_, .f32⟩ : BufTy).Contents (Elt Ideal) → (⟨S100000x64, .f32⟩ : BufTy).Contents (Elt Ideal)) (k_cst_17 a0 a1 a2 a3 a4 a5 a6 a7 a8 a9 a10 a11)

def k_v90 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1600000x1, .i32⟩ : BufTy).Contents (Elt Ideal) :=
  (broadcastInDim S1600000x1 ![0] bcast_S1600000_S1600000x1_0 : (⟨S1600000, .i32⟩ : BufTy).Contents (Elt Ideal) → (⟨S1600000x1, .i32⟩ : BufTy).Contents (Elt Ideal)) (k_v3 a0 a1 a2 a3 a4 a5 a6 a7 a8 a9 a10 a11)

def k_v91 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x64, .f32⟩ : BufTy).Contents (Elt Ideal) :=
  ((fun x i u => Host.scatterAdd (F := Ideal) (φ := .f32) scatter_S100000x64_S1600000x1_S1600000x64_1_0_0_1 x i u) : (⟨S100000x64, .f32⟩ : BufTy).Contents (Elt Ideal) → (⟨S1600000x1, .i32⟩ : BufTy).Contents (Elt Ideal) → (⟨S1600000x64, .f32⟩ : BufTy).Contents (Elt Ideal) → (⟨S100000x64, .f32⟩ : BufTy).Contents (Elt Ideal)) (k_v89 a0 a1 a2 a3 a4 a5 a6 a7 a8 a9 a10 a11) (k_v90 a0 a1 a2 a3 a4 a5 a6 a7 a8 a9 a10 a11) (k_v88 a0 a1 a2 a3 a4 a5 a6 a7 a8 a9 a10 a11)

def k_v92 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S1x64, .f32⟩ : BufTy).Contents (Elt Ideal) :=
  fun i => shapeCast S1x64 a11 shapeCasts_S64_S1x64 i

/-- Layer 3's convolution output: the program's result. -/
def k_v93_0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) : (⟨S100000x64, .f32⟩ : BufTy).Contents (Elt Ideal) :=
  KSpec.conv 64 (k_v91 a0 a1 a2 a3 a4 a5 a6 a7 a8 a9 a10 a11) (k_v78 a0 a1 a2 a3 a4 a5 a6 a7 a8 a9 a10 a11) (k_v27 a0 a1 a2 a3 a4 a5 a6 a7 a8 a9 a10 a11) (k_v92 a0 a1 a2 a3 a4 a5 a6 a7 a8 a9 a10 a11)

end Cert.KernelIdeal.KTerm

end
-- ==== Proof.RefTerm.lean ====
/-
  The reference network's intermediate values, one per tensor value of its program, as functions of the twelve
  argument arrays (node features a0, the edge list a1, and per layer the weight matrix, bias and, for the two
  normalised layers, the scale and shift): `res_<value>` is the pure operation that defines the value applied to
  the terms of the values it reads, in program order.  The values of an outlined function (the variance `_var`
  with its inner `_where`, and `relu`) are those of its body at the call's operands: `res_call<j>_<value>`
  for the j-th call, `res_call<j>_call0_<value>` for the `_where` inside a `_var`; a call's returned value
  carries the name of the result it becomes.  Each definition takes all twelve arrays, so that every term is a
  closed function of the inputs; the definitions stay folded (one level each), a three-layer graph convolution
  being some two hundred such steps deep.
-/
import proofs.«153408_j3753801416995_1_alg».proof.ReferenceIdeal

noncomputable section

namespace Cert.ReferenceIdeal.RefRun

open Cert.ReferenceIdeal Idealize.ShloMosaic Idealize.SL.Sem

variable {F : FTy → Type} [FloatOps F] [Facts]
open Facts₀ Facts

def res_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x1600000, .i32⟩ : BufTy).Contents (Elt F) :=
  extractStridedSlice S1x1600000 ![0, 0] a1 slices_S2x1600000_S1x1600000_0_0

def res_v1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  shapeCast S1600000 (res_v0 a0 a1 a2 a3 a4 a5 a6 a7 a8 a9 a10 a11) shapeCasts_S1x1600000_S1600000

def res_v2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x1600000, .i32⟩ : BufTy).Contents (Elt F) :=
  extractStridedSlice S1x1600000 ![1, 0] a1 slices_S2x1600000_S1x1600000_1_0

def res_v3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  shapeCast S1600000 (res_v2 a0 a1 a2 a3 a4 a5 a6 a7 a8 a9 a10 a11) shapeCasts_S1x1600000_S1600000

def res_cst (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x3F800000#32

def res_v4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .f32⟩ : BufTy).Contents (Elt F) :=
  broadcastInDim S1600000 ![] bcast_S_S1600000 (res_cst a0 a1 a2 a3 a4 a5 a6 a7 a8 a9 a10 a11)

def res_cst_0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v5 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  broadcastInDim S100000 ![] bcast_S_S100000 (res_cst_0 a0 a1 a2 a3 a4 a5 a6 a7 a8 a9 a10 a11)

def res_v6 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v3 a0 a1 a2 a3 a4 a5 a6 a7 a8 a9 a10 a11)

def res_v7 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  Host.scatterAdd scatter_S100000_S1600000x1_S1600000_n_0_0_1 (res_v5 a0 a1 a2 a3 a4 a5 a6 a7 a8 a9 a10 a11) (res_v6 a0 a1 a2 a3 a4 a5 a6 a7 a8 a9 a10 a11) (res_v4 a0 a1 a2 a3 a4 a5 a6 a7 a8 a9 a10 a11)

def res_cst_1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x3F800000#32

def res_v8 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  broadcastInDim S100000 ![] bcast_S_S100000 (res_cst_1 a0 a1 a2 a3 a4 a5 a6 a7 a8 a9 a10 a11)

def res_v9 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  addf (res_v7 a0 a1 a2 a3 a4 a5 a6 a7 a8 a9 a10 a11) (res_v8 a0 a1 a2 a3 a4 a5 a6 a7 a8 a9 a10 a11)

def res_v10 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  Host.rsqrt (res_v9 a0 a1 a2 a3 a4 a5 a6 a7 a8 a9 a10 a11)

def res_c (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_v11 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c a0 a1 a2 a3 a4 a5 a6 a7 a8 a9 a10 a11)

def res_v12 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i1⟩ : BufTy).Contents (Elt F) :=
  cmpi .slt (res_v1 a0 a1 a2 a3 a4 a5 a6 a7 a8 a9 a10 a11) (res_v11 a0 a1 a2 a3 a4 a5 a6 a7 a8 a9 a10 a11)

def res_c_2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 100000#32

def res_v13 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_2 a0 a1 a2 a3 a4 a5 a6 a7 a8 a9 a10 a11)

def res_v14 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  addi (res_v1 a0 a1 a2 a3 a4 a5 a6 a7 a8 a9 a10 a11) (res_v13 a0 a1 a2 a3 a4 a5 a6 a7 a8 a9 a10 a11)

def res_v15 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  select (res_v12 a0 a1 a2 a3 a4 a5 a6 a7 a8 a9 a10 a11) (res_v14 a0 a1 a2 a3 a4 a5 a6 a7 a8 a9 a10 a11) (res_v1 a0 a1 a2 a3 a4 a5 a6 a7 a8 a9 a10 a11)

def res_v16 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v15 a0 a1 a2 a3 a4 a5 a6 a7 a8 a9 a10 a11)

def res_v17 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .f32⟩ : BufTy).Contents (Elt F) :=
  Host.gather gather_S100000_S1600000x1_S1600000_n_0_n_n_0_1_1 (res_v10 a0 a1 a2 a3 a4 a5 a6 a7 a8 a9 a10 a11) (res_v16 a0 a1 a2 a3 a4 a5 a6 a7 a8 a9 a10 a11)

def res_c_3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_v18 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_3 a0 a1 a2 a3 a4 a5 a6 a7 a8 a9 a10 a11)

def res_v19 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i1⟩ : BufTy).Contents (Elt F) :=
  cmpi .slt (res_v3 a0 a1 a2 a3 a4 a5 a6 a7 a8 a9 a10 a11) (res_v18 a0 a1 a2 a3 a4 a5 a6 a7 a8 a9 a10 a11)

def res_c_4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 100000#32

def res_v20 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_4 a0 a1 a2 a3 a4 a5 a6 a7 a8 a9 a10 a11)

def res_v21 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  addi (res_v3 a0 a1 a2 a3 a4 a5 a6 a7 a8 a9 a10 a11) (res_v20 a0 a1 a2 a3 a4 a5 a6 a7 a8 a9 a10 a11)

def res_v22 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  select (res_v19 a0 a1 a2 a3 a4 a5 a6 a7 a8 a9 a10 a11) (res_v21 a0 a1 a2 a3 a4 a5 a6 a7 a8 a9 a10 a11) (res_v3 a0 a1 a2 a3 a4 a5 a6 a7 a8 a9 a10 a11)

def res_v23 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v22 a0 a1 a2 a3 a4 a5 a6 a7 a8 a9 a10 a11)

def res_v24 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .f32⟩ : BufTy).Contents (Elt F) :=
  Host.gather gather_S100000_S1600000x1_S1600000_n_0_n_n_0_1_1 (res_v10 a0 a1 a2 a3 a4 a5 a6 a7 a8 a9 a10 a11) (res_v23 a0 a1 a2 a3 a4 a5 a6 a7 a8 a9 a10 a11)

def res_v25 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .f32⟩ : BufTy).Contents (Elt F) :=
  mulf (res_v17 a0 a1 a2 a3 a4 a5 a6 a7 a8 a9 a10 a11) (res_v24 a0 a1 a2 a3 a4 a5 a6 a7 a8 a9 a10 a11)

def res_v26 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000, .f32⟩ : BufTy).Contents (Elt F) :=
  mulf (res_v10 a0 a1 a2 a3 a4 a5 a6 a7 a8 a9 a10 a11) (res_v10 a0 a1 a2 a3 a4 a5 a6 a7 a8 a9 a10 a11)

def res_v27 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  Host.dotGeneral dot_S100000x128_S128x128_S100000x128_1_0_0_1_n_n none a0 a2

def res_c_5 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_v28 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_5 a0 a1 a2 a3 a4 a5 a6 a7 a8 a9 a10 a11)

def res_v29 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i1⟩ : BufTy).Contents (Elt F) :=
  cmpi .slt (res_v1 a0 a1 a2 a3 a4 a5 a6 a7 a8 a9 a10 a11) (res_v28 a0 a1 a2 a3 a4 a5 a6 a7 a8 a9 a10 a11)

def res_c_6 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 100000#32

def res_v30 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_6 a0 a1 a2 a3 a4 a5 a6 a7 a8 a9 a10 a11)

def res_v31 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  addi (res_v1 a0 a1 a2 a3 a4 a5 a6 a7 a8 a9 a10 a11) (res_v30 a0 a1 a2 a3 a4 a5 a6 a7 a8 a9 a10 a11)

def res_v32 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  select (res_v29 a0 a1 a2 a3 a4 a5 a6 a7 a8 a9 a10 a11) (res_v31 a0 a1 a2 a3 a4 a5 a6 a7 a8 a9 a10 a11) (res_v1 a0 a1 a2 a3 a4 a5 a6 a7 a8 a9 a10 a11)

def res_v33 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v32 a0 a1 a2 a3 a4 a5 a6 a7 a8 a9 a10 a11)

def res_v34 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  Host.gather gather_S100000x128_S1600000x1_S1600000x128_1_0_n_n_0_1_1128 (res_v27 a0 a1 a2 a3 a4 a5 a6 a7 a8 a9 a10 a11) (res_v33 a0 a1 a2 a3 a4 a5 a6 a7 a8 a9 a10 a11)

def res_v35 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .f32⟩ : BufTy).Contents (Elt F) :=
  broadcastInDim S1600000x1 ![0] bcast_S1600000_S1600000x1_0 (res_v25 a0 a1 a2 a3 a4 a5 a6 a7 a8 a9 a10 a11)

def res_v36 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  broadcastInDim S1600000x128 ![0, 1] bcast_S1600000x1_S1600000x128_0_1 (res_v35 a0 a1 a2 a3 a4 a5 a6 a7 a8 a9 a10 a11)

def res_v37 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  mulf (res_v34 a0 a1 a2 a3 a4 a5 a6 a7 a8 a9 a10 a11) (res_v36 a0 a1 a2 a3 a4 a5 a6 a7 a8 a9 a10 a11)

def res_cst_7 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v38 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![] bcast_S_S100000x128 (res_cst_7 a0 a1 a2 a3 a4 a5 a6 a7 a8 a9 a10 a11)

def res_v39 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v3 a0 a1 a2 a3 a4 a5 a6 a7 a8 a9 a10 a11)

def res_v40 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  Host.scatterAdd scatter_S100000x128_S1600000x1_S1600000x128_1_0_0_1 (res_v38 a0 a1 a2 a3 a4 a5 a6 a7 a8 a9 a10 a11) (res_v39 a0 a1 a2 a3 a4 a5 a6 a7 a8 a9 a10 a11) (res_v37 a0 a1 a2 a3 a4 a5 a6 a7 a8 a9 a10 a11)

def res_v41 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x1, .f32⟩ : BufTy).Contents (Elt F) :=
  broadcastInDim S100000x1 ![0] bcast_S100000_S100000x1_0 (res_v26 a0 a1 a2 a3 a4 a5 a6 a7 a8 a9 a10 a11)

def res_v42 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S100000x1_S100000x128_0_1 (res_v41 a0 a1 a2 a3 a4 a5 a6 a7 a8 a9 a10 a11)

def res_v43 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v27 a0 a1 a2 a3 a4 a5 a6 a7 a8 a9 a10 a11) (res_v42 a0 a1 a2 a3 a4 a5 a6 a7 a8 a9 a10 a11)

def res_v44 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v40 a0 a1 a2 a3 a4 a5 a6 a7 a8 a9 a10 a11) (res_v43 a0 a1 a2 a3 a4 a5 a6 a7 a8 a9 a10 a11)

def res_v45 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a3

def res_v46 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v45 a0 a1 a2 a3 a4 a5 a6 a7 a8 a9 a10 a11)

def res_v47 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v44 a0 a1 a2 a3 a4 a5 a6 a7 a8 a9 a10 a11) (res_v46 a0 a1 a2 a3 a4 a5 a6 a7 a8 a9 a10 a11)

def res_cst_8 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v48 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_v47 a0 a1 a2 a3 a4 a5 a6 a7 a8 a9 a10 a11) (res_cst_8 a0 a1 a2 a3 a4 a5 a6 a7 a8 a9 a10 a11) reducesTo_S100000x128_S128_d0 h_S_

def res_cst_9 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_v49 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_cst_9 a0 a1 a2 a3 a4 a5 a6 a7 a8 a9 a10 a11)

def res_v50 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.divf (res_v48 a0 a1 a2 a3 a4 a5 a6 a7 a8 a9 a10 a11) (res_v49 a0 a1 a2 a3 a4 a5 a6 a7 a8 a9 a10 a11)

def res_c_10 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_call0_cst (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call0_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_v47 a0 a1 a2 a3 a4 a5 a6 a7 a8 a9 a10 a11) (res_call0_cst a0 a1 a2 a3 a4 a5 a6 a7 a8 a9 a10 a11) reducesTo_S100000x128_S128_d0 h_S_

def res_call0_v1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_call0_v0 a0 a1 a2 a3 a4 a5 a6 a7 a8 a9 a10 a11)

def res_call0_cst_0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_call0_v2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![] bcast_S_S1x128 (res_call0_cst_0 a0 a1 a2 a3 a4 a5 a6 a7 a8 a9 a10 a11)

def res_call0_v3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  Host.divf (res_call0_v1 a0 a1 a2 a3 a4 a5 a6 a7 a8 a9 a10 a11) (res_call0_v2 a0 a1 a2 a3 a4 a5 a6 a7 a8 a9 a10 a11)

def res_call0_v4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_call0_v3 a0 a1 a2 a3 a4 a5 a6 a7 a8 a9 a10 a11)

def res_call0_v5 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  subf (res_v47 a0 a1 a2 a3 a4 a5 a6 a7 a8 a9 a10 a11) (res_call0_v4 a0 a1 a2 a3 a4 a5 a6 a7 a8 a9 a10 a11)

def res_call0_v6 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_call0_v5 a0 a1 a2 a3 a4 a5 a6 a7 a8 a9 a10 a11) (res_call0_v5 a0 a1 a2 a3 a4 a5 a6 a7 a8 a9 a10 a11)

def res_call0_v7 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  sitofp .f32 (res_c_10 a0 a1 a2 a3 a4 a5 a6 a7 a8 a9 a10 a11)

def res_call0_cst_1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_call0_v8 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  subf (res_call0_cst_1 a0 a1 a2 a3 a4 a5 a6 a7 a8 a9 a10 a11) (res_call0_v7 a0 a1 a2 a3 a4 a5 a6 a7 a8 a9 a10 a11)

def res_call0_cst_2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call0_v9 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_call0_v6 a0 a1 a2 a3 a4 a5 a6 a7 a8 a9 a10 a11) (res_call0_cst_2 a0 a1 a2 a3 a4 a5 a6 a7 a8 a9 a10 a11) reducesTo_S100000x128_S128_d0 h_S_

def res_call0_v10 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_call0_v8 a0 a1 a2 a3 a4 a5 a6 a7 a8 a9 a10 a11)

def res_call0_v11 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.divf (res_call0_v9 a0 a1 a2 a3 a4 a5 a6 a7 a8 a9 a10 a11) (res_call0_v10 a0 a1 a2 a3 a4 a5 a6 a7 a8 a9 a10 a11)

def res_call0_cst_3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call0_v12 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i1⟩ : BufTy).Contents (Elt F) :=
  cmpf .ogt (res_call0_v8 a0 a1 a2 a3 a4 a5 a6 a7 a8 a9 a10 a11) (res_call0_cst_3 a0 a1 a2 a3 a4 a5 a6 a7 a8 a9 a10 a11)

def res_call0_cst_4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x7FC00000#32

def res_call0_call0_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  id (res_call0_cst_4 a0 a1 a2 a3 a4 a5 a6 a7 a8 a9 a10 a11)

def res_call0_call0_v1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_call0_call0_v0 a0 a1 a2 a3 a4 a5 a6 a7 a8 a9 a10 a11)

def res_v51 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  select (broadcastInDim S128 ![] bcast_S_S128 (res_call0_v12 a0 a1 a2 a3 a4 a5 a6 a7 a8 a9 a10 a11)) (res_call0_v11 a0 a1 a2 a3 a4 a5 a6 a7 a8 a9 a10 a11) (res_call0_call0_v1 a0 a1 a2 a3 a4 a5 a6 a7 a8 a9 a10 a11)

def res_v52 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_v50 a0 a1 a2 a3 a4 a5 a6 a7 a8 a9 a10 a11)

def res_v53 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v52 a0 a1 a2 a3 a4 a5 a6 a7 a8 a9 a10 a11)

def res_v54 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  subf (res_v47 a0 a1 a2 a3 a4 a5 a6 a7 a8 a9 a10 a11) (res_v53 a0 a1 a2 a3 a4 a5 a6 a7 a8 a9 a10 a11)

def res_cst_11 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x3727C5AC#32

def res_v55 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_cst_11 a0 a1 a2 a3 a4 a5 a6 a7 a8 a9 a10 a11)

def res_v56 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  addf (res_v51 a0 a1 a2 a3 a4 a5 a6 a7 a8 a9 a10 a11) (res_v55 a0 a1 a2 a3 a4 a5 a6 a7 a8 a9 a10 a11)

def res_v57 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.rsqrt (res_v56 a0 a1 a2 a3 a4 a5 a6 a7 a8 a9 a10 a11)

def res_v58 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_v57 a0 a1 a2 a3 a4 a5 a6 a7 a8 a9 a10 a11)

def res_v59 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v58 a0 a1 a2 a3 a4 a5 a6 a7 a8 a9 a10 a11)

def res_v60 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v54 a0 a1 a2 a3 a4 a5 a6 a7 a8 a9 a10 a11) (res_v59 a0 a1 a2 a3 a4 a5 a6 a7 a8 a9 a10 a11)

def res_v61 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a4

def res_v62 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v61 a0 a1 a2 a3 a4 a5 a6 a7 a8 a9 a10 a11)

def res_v63 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v60 a0 a1 a2 a3 a4 a5 a6 a7 a8 a9 a10 a11) (res_v62 a0 a1 a2 a3 a4 a5 a6 a7 a8 a9 a10 a11)

def res_v64 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a5

def res_v65 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v64 a0 a1 a2 a3 a4 a5 a6 a7 a8 a9 a10 a11)

def res_v66 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v63 a0 a1 a2 a3 a4 a5 a6 a7 a8 a9 a10 a11) (res_v65 a0 a1 a2 a3 a4 a5 a6 a7 a8 a9 a10 a11)

def res_call1_cst (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call1_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![] bcast_S_S100000x128 (res_call1_cst a0 a1 a2 a3 a4 a5 a6 a7 a8 a9 a10 a11)

def res_v67 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  maximumf (res_v66 a0 a1 a2 a3 a4 a5 a6 a7 a8 a9 a10 a11) (res_call1_v0 a0 a1 a2 a3 a4 a5 a6 a7 a8 a9 a10 a11)

def res_v68 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  Host.dotGeneral dot_S100000x128_S128x128_S100000x128_1_0_0_1_n_n none (res_v67 a0 a1 a2 a3 a4 a5 a6 a7 a8 a9 a10 a11) a6

def res_c_12 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_v69 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_12 a0 a1 a2 a3 a4 a5 a6 a7 a8 a9 a10 a11)

def res_v70 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i1⟩ : BufTy).Contents (Elt F) :=
  cmpi .slt (res_v1 a0 a1 a2 a3 a4 a5 a6 a7 a8 a9 a10 a11) (res_v69 a0 a1 a2 a3 a4 a5 a6 a7 a8 a9 a10 a11)

def res_c_13 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 100000#32

def res_v71 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_13 a0 a1 a2 a3 a4 a5 a6 a7 a8 a9 a10 a11)

def res_v72 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  addi (res_v1 a0 a1 a2 a3 a4 a5 a6 a7 a8 a9 a10 a11) (res_v71 a0 a1 a2 a3 a4 a5 a6 a7 a8 a9 a10 a11)

def res_v73 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  select (res_v70 a0 a1 a2 a3 a4 a5 a6 a7 a8 a9 a10 a11) (res_v72 a0 a1 a2 a3 a4 a5 a6 a7 a8 a9 a10 a11) (res_v1 a0 a1 a2 a3 a4 a5 a6 a7 a8 a9 a10 a11)

def res_v74 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v73 a0 a1 a2 a3 a4 a5 a6 a7 a8 a9 a10 a11)

def res_v75 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  Host.gather gather_S100000x128_S1600000x1_S1600000x128_1_0_n_n_0_1_1128 (res_v68 a0 a1 a2 a3 a4 a5 a6 a7 a8 a9 a10 a11) (res_v74 a0 a1 a2 a3 a4 a5 a6 a7 a8 a9 a10 a11)

def res_v76 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .f32⟩ : BufTy).Contents (Elt F) :=
  broadcastInDim S1600000x1 ![0] bcast_S1600000_S1600000x1_0 (res_v25 a0 a1 a2 a3 a4 a5 a6 a7 a8 a9 a10 a11)

def res_v77 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  broadcastInDim S1600000x128 ![0, 1] bcast_S1600000x1_S1600000x128_0_1 (res_v76 a0 a1 a2 a3 a4 a5 a6 a7 a8 a9 a10 a11)

def res_v78 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x128, .f32⟩ : BufTy).Contents (Elt F) :=
  mulf (res_v75 a0 a1 a2 a3 a4 a5 a6 a7 a8 a9 a10 a11) (res_v77 a0 a1 a2 a3 a4 a5 a6 a7 a8 a9 a10 a11)

def res_cst_14 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v79 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![] bcast_S_S100000x128 (res_cst_14 a0 a1 a2 a3 a4 a5 a6 a7 a8 a9 a10 a11)

def res_v80 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v3 a0 a1 a2 a3 a4 a5 a6 a7 a8 a9 a10 a11)

def res_v81 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  Host.scatterAdd scatter_S100000x128_S1600000x1_S1600000x128_1_0_0_1 (res_v79 a0 a1 a2 a3 a4 a5 a6 a7 a8 a9 a10 a11) (res_v80 a0 a1 a2 a3 a4 a5 a6 a7 a8 a9 a10 a11) (res_v78 a0 a1 a2 a3 a4 a5 a6 a7 a8 a9 a10 a11)

def res_v82 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x1, .f32⟩ : BufTy).Contents (Elt F) :=
  broadcastInDim S100000x1 ![0] bcast_S100000_S100000x1_0 (res_v26 a0 a1 a2 a3 a4 a5 a6 a7 a8 a9 a10 a11)

def res_v83 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S100000x1_S100000x128_0_1 (res_v82 a0 a1 a2 a3 a4 a5 a6 a7 a8 a9 a10 a11)

def res_v84 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v68 a0 a1 a2 a3 a4 a5 a6 a7 a8 a9 a10 a11) (res_v83 a0 a1 a2 a3 a4 a5 a6 a7 a8 a9 a10 a11)

def res_v85 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v81 a0 a1 a2 a3 a4 a5 a6 a7 a8 a9 a10 a11) (res_v84 a0 a1 a2 a3 a4 a5 a6 a7 a8 a9 a10 a11)

def res_v86 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a7

def res_v87 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v86 a0 a1 a2 a3 a4 a5 a6 a7 a8 a9 a10 a11)

def res_v88 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v85 a0 a1 a2 a3 a4 a5 a6 a7 a8 a9 a10 a11) (res_v87 a0 a1 a2 a3 a4 a5 a6 a7 a8 a9 a10 a11)

def res_cst_15 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v89 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_v88 a0 a1 a2 a3 a4 a5 a6 a7 a8 a9 a10 a11) (res_cst_15 a0 a1 a2 a3 a4 a5 a6 a7 a8 a9 a10 a11) reducesTo_S100000x128_S128_d0 h_S_

def res_cst_16 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_v90 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_cst_16 a0 a1 a2 a3 a4 a5 a6 a7 a8 a9 a10 a11)

def res_v91 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.divf (res_v89 a0 a1 a2 a3 a4 a5 a6 a7 a8 a9 a10 a11) (res_v90 a0 a1 a2 a3 a4 a5 a6 a7 a8 a9 a10 a11)

def res_c_17 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_call2_cst (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call2_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_v88 a0 a1 a2 a3 a4 a5 a6 a7 a8 a9 a10 a11) (res_call2_cst a0 a1 a2 a3 a4 a5 a6 a7 a8 a9 a10 a11) reducesTo_S100000x128_S128_d0 h_S_

def res_call2_v1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_call2_v0 a0 a1 a2 a3 a4 a5 a6 a7 a8 a9 a10 a11)

def res_call2_cst_0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_call2_v2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![] bcast_S_S1x128 (res_call2_cst_0 a0 a1 a2 a3 a4 a5 a6 a7 a8 a9 a10 a11)

def res_call2_v3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  Host.divf (res_call2_v1 a0 a1 a2 a3 a4 a5 a6 a7 a8 a9 a10 a11) (res_call2_v2 a0 a1 a2 a3 a4 a5 a6 a7 a8 a9 a10 a11)

def res_call2_v4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_call2_v3 a0 a1 a2 a3 a4 a5 a6 a7 a8 a9 a10 a11)

def res_call2_v5 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  subf (res_v88 a0 a1 a2 a3 a4 a5 a6 a7 a8 a9 a10 a11) (res_call2_v4 a0 a1 a2 a3 a4 a5 a6 a7 a8 a9 a10 a11)

def res_call2_v6 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_call2_v5 a0 a1 a2 a3 a4 a5 a6 a7 a8 a9 a10 a11) (res_call2_v5 a0 a1 a2 a3 a4 a5 a6 a7 a8 a9 a10 a11)

def res_call2_v7 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  sitofp .f32 (res_c_17 a0 a1 a2 a3 a4 a5 a6 a7 a8 a9 a10 a11)

def res_call2_cst_1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x47C35000#32

def res_call2_v8 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  subf (res_call2_cst_1 a0 a1 a2 a3 a4 a5 a6 a7 a8 a9 a10 a11) (res_call2_v7 a0 a1 a2 a3 a4 a5 a6 a7 a8 a9 a10 a11)

def res_call2_cst_2 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call2_v9 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.reduceAdd (res_call2_v6 a0 a1 a2 a3 a4 a5 a6 a7 a8 a9 a10 a11) (res_call2_cst_2 a0 a1 a2 a3 a4 a5 a6 a7 a8 a9 a10 a11) reducesTo_S100000x128_S128_d0 h_S_

def res_call2_v10 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_call2_v8 a0 a1 a2 a3 a4 a5 a6 a7 a8 a9 a10 a11)

def res_call2_v11 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.divf (res_call2_v9 a0 a1 a2 a3 a4 a5 a6 a7 a8 a9 a10 a11) (res_call2_v10 a0 a1 a2 a3 a4 a5 a6 a7 a8 a9 a10 a11)

def res_call2_cst_3 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call2_v12 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i1⟩ : BufTy).Contents (Elt F) :=
  cmpf .ogt (res_call2_v8 a0 a1 a2 a3 a4 a5 a6 a7 a8 a9 a10 a11) (res_call2_cst_3 a0 a1 a2 a3 a4 a5 a6 a7 a8 a9 a10 a11)

def res_call2_cst_4 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x7FC00000#32

def res_call2_call0_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  id (res_call2_cst_4 a0 a1 a2 a3 a4 a5 a6 a7 a8 a9 a10 a11)

def res_call2_call0_v1 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_call2_call0_v0 a0 a1 a2 a3 a4 a5 a6 a7 a8 a9 a10 a11)

def res_v92 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  select (broadcastInDim S128 ![] bcast_S_S128 (res_call2_v12 a0 a1 a2 a3 a4 a5 a6 a7 a8 a9 a10 a11)) (res_call2_v11 a0 a1 a2 a3 a4 a5 a6 a7 a8 a9 a10 a11) (res_call2_call0_v1 a0 a1 a2 a3 a4 a5 a6 a7 a8 a9 a10 a11)

def res_v93 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_v91 a0 a1 a2 a3 a4 a5 a6 a7 a8 a9 a10 a11)

def res_v94 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v93 a0 a1 a2 a3 a4 a5 a6 a7 a8 a9 a10 a11)

def res_v95 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  subf (res_v88 a0 a1 a2 a3 a4 a5 a6 a7 a8 a9 a10 a11) (res_v94 a0 a1 a2 a3 a4 a5 a6 a7 a8 a9 a10 a11)

def res_cst_18 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x3727C5AC#32

def res_v96 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  broadcastInDim S128 ![] bcast_S_S128 (res_cst_18 a0 a1 a2 a3 a4 a5 a6 a7 a8 a9 a10 a11)

def res_v97 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  addf (res_v92 a0 a1 a2 a3 a4 a5 a6 a7 a8 a9 a10 a11) (res_v96 a0 a1 a2 a3 a4 a5 a6 a7 a8 a9 a10 a11)

def res_v98 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S128, .f32⟩ : BufTy).Contents (Elt F) :=
  Host.rsqrt (res_v97 a0 a1 a2 a3 a4 a5 a6 a7 a8 a9 a10 a11)

def res_v99 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 (res_v98 a0 a1 a2 a3 a4 a5 a6 a7 a8 a9 a10 a11)

def res_v100 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v99 a0 a1 a2 a3 a4 a5 a6 a7 a8 a9 a10 a11)

def res_v101 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v95 a0 a1 a2 a3 a4 a5 a6 a7 a8 a9 a10 a11) (res_v100 a0 a1 a2 a3 a4 a5 a6 a7 a8 a9 a10 a11)

def res_v102 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a8

def res_v103 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v102 a0 a1 a2 a3 a4 a5 a6 a7 a8 a9 a10 a11)

def res_v104 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  mulf (res_v101 a0 a1 a2 a3 a4 a5 a6 a7 a8 a9 a10 a11) (res_v103 a0 a1 a2 a3 a4 a5 a6 a7 a8 a9 a10 a11)

def res_v105 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x128, .f32⟩ : BufTy).Contents (Elt F) :=
  broadcastInDim S1x128 ![1] bcast_S128_S1x128_1 a9

def res_v106 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![0, 1] bcast_S1x128_S100000x128_0_1 (res_v105 a0 a1 a2 a3 a4 a5 a6 a7 a8 a9 a10 a11)

def res_v107 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  addf (res_v104 a0 a1 a2 a3 a4 a5 a6 a7 a8 a9 a10 a11) (res_v106 a0 a1 a2 a3 a4 a5 a6 a7 a8 a9 a10 a11)

def res_call3_cst (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_call3_v0 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  broadcastInDim S100000x128 ![] bcast_S_S100000x128 (res_call3_cst a0 a1 a2 a3 a4 a5 a6 a7 a8 a9 a10 a11)

def res_v108 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x128, .f32⟩ : BufTy).Contents (Elt F) :=
  maximumf (res_v107 a0 a1 a2 a3 a4 a5 a6 a7 a8 a9 a10 a11) (res_call3_v0 a0 a1 a2 a3 a4 a5 a6 a7 a8 a9 a10 a11)

def res_v109 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  Host.dotGeneral dot_S100000x128_S128x64_S100000x64_1_0_0_1_n_n none (res_v108 a0 a1 a2 a3 a4 a5 a6 a7 a8 a9 a10 a11) a10

def res_c_19 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 0#32

def res_v110 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_19 a0 a1 a2 a3 a4 a5 a6 a7 a8 a9 a10 a11)

def res_v111 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i1⟩ : BufTy).Contents (Elt F) :=
  cmpi .slt (res_v1 a0 a1 a2 a3 a4 a5 a6 a7 a8 a9 a10 a11) (res_v110 a0 a1 a2 a3 a4 a5 a6 a7 a8 a9 a10 a11)

def res_c_20 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .i32⟩ : BufTy).Contents (Elt F) :=
  constantI S_ 32 100000#32

def res_v112 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  broadcastInDim S1600000 ![] bcast_S_S1600000 (res_c_20 a0 a1 a2 a3 a4 a5 a6 a7 a8 a9 a10 a11)

def res_v113 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  addi (res_v1 a0 a1 a2 a3 a4 a5 a6 a7 a8 a9 a10 a11) (res_v112 a0 a1 a2 a3 a4 a5 a6 a7 a8 a9 a10 a11)

def res_v114 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000, .i32⟩ : BufTy).Contents (Elt F) :=
  select (res_v111 a0 a1 a2 a3 a4 a5 a6 a7 a8 a9 a10 a11) (res_v113 a0 a1 a2 a3 a4 a5 a6 a7 a8 a9 a10 a11) (res_v1 a0 a1 a2 a3 a4 a5 a6 a7 a8 a9 a10 a11)

def res_v115 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v114 a0 a1 a2 a3 a4 a5 a6 a7 a8 a9 a10 a11)

def res_v116 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x64, .f32⟩ : BufTy).Contents (Elt F) :=
  Host.gather gather_S100000x64_S1600000x1_S1600000x64_1_0_n_n_0_1_164 (res_v109 a0 a1 a2 a3 a4 a5 a6 a7 a8 a9 a10 a11) (res_v115 a0 a1 a2 a3 a4 a5 a6 a7 a8 a9 a10 a11)

def res_v117 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .f32⟩ : BufTy).Contents (Elt F) :=
  broadcastInDim S1600000x1 ![0] bcast_S1600000_S1600000x1_0 (res_v25 a0 a1 a2 a3 a4 a5 a6 a7 a8 a9 a10 a11)

def res_v118 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x64, .f32⟩ : BufTy).Contents (Elt F) :=
  broadcastInDim S1600000x64 ![0, 1] bcast_S1600000x1_S1600000x64_0_1 (res_v117 a0 a1 a2 a3 a4 a5 a6 a7 a8 a9 a10 a11)

def res_v119 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x64, .f32⟩ : BufTy).Contents (Elt F) :=
  mulf (res_v116 a0 a1 a2 a3 a4 a5 a6 a7 a8 a9 a10 a11) (res_v118 a0 a1 a2 a3 a4 a5 a6 a7 a8 a9 a10 a11)

def res_cst_21 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S_, .f32⟩ : BufTy).Contents (Elt F) :=
  constant S_ .f32 0x00000000#32

def res_v120 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  broadcastInDim S100000x64 ![] bcast_S_S100000x64 (res_cst_21 a0 a1 a2 a3 a4 a5 a6 a7 a8 a9 a10 a11)

def res_v121 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1600000x1, .i32⟩ : BufTy).Contents (Elt F) :=
  broadcastInDim S1600000x1 ![0] bcast_S1600000_S1600000x1_0 (res_v3 a0 a1 a2 a3 a4 a5 a6 a7 a8 a9 a10 a11)

def res_v122 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  Host.scatterAdd scatter_S100000x64_S1600000x1_S1600000x64_1_0_0_1 (res_v120 a0 a1 a2 a3 a4 a5 a6 a7 a8 a9 a10 a11) (res_v121 a0 a1 a2 a3 a4 a5 a6 a7 a8 a9 a10 a11) (res_v119 a0 a1 a2 a3 a4 a5 a6 a7 a8 a9 a10 a11)

def res_v123 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x1, .f32⟩ : BufTy).Contents (Elt F) :=
  broadcastInDim S100000x1 ![0] bcast_S100000_S100000x1_0 (res_v26 a0 a1 a2 a3 a4 a5 a6 a7 a8 a9 a10 a11)

def res_v124 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  broadcastInDim S100000x64 ![0, 1] bcast_S100000x1_S100000x64_0_1 (res_v123 a0 a1 a2 a3 a4 a5 a6 a7 a8 a9 a10 a11)

def res_v125 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  mulf (res_v109 a0 a1 a2 a3 a4 a5 a6 a7 a8 a9 a10 a11) (res_v124 a0 a1 a2 a3 a4 a5 a6 a7 a8 a9 a10 a11)

def res_v126 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  addf (res_v122 a0 a1 a2 a3 a4 a5 a6 a7 a8 a9 a10 a11) (res_v125 a0 a1 a2 a3 a4 a5 a6 a7 a8 a9 a10 a11)

def res_v127 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S1x64, .f32⟩ : BufTy).Contents (Elt F) :=
  broadcastInDim S1x64 ![1] bcast_S64_S1x64_1 a11

def res_v128 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  broadcastInDim S100000x64 ![0, 1] bcast_S1x64_S100000x64_0_1 (res_v127 a0 a1 a2 a3 a4 a5 a6 a7 a8 a9 a10 a11)

def res_v129 (a0 : (⟨S100000x128, .f32⟩ : BufTy).Contents (Elt F)) (a1 : (⟨S2x1600000, .i32⟩ : BufTy).Contents (Elt F)) (a2 : (⟨S128x128, .f32⟩ : BufTy).Contents (Elt F)) (a3 a4 a5 : (⟨S128, .f32⟩ : BufTy).Contents (Elt F)) (a6 : (⟨S128x128, .f32⟩ : BufTy).Contents (Elt F)) (a7 a8 a9 : (⟨S128, .f32⟩ : BufTy).Contents (Elt F)) (a10 : (⟨S128x64, .f32⟩ : BufTy).Contents (Elt F)) (a11 : (⟨S64, .f32⟩ : BufTy).Contents (Elt F)) :
    (⟨S100000x64, .f32⟩ : BufTy).Contents (Elt F) :=
  addf (res_v126 a0 a1 a2 a3 a4 a5 a6 a7 a8 a9 a10 a11) (res_v128 a0 a1 a2 a3 a4 a5 a6 a7 a8 a9 a10 a11)

end Cert.ReferenceIdeal.RefRun

end
-- ==== Proof.RefRun.lean ====
/-
  The reference network run to its end.  Its program is a straight line of two hundred tensor operations once the
  outlined functions (the variance with its inner select, and relu, each called twice) are unfolded at their calls:
  `ops` lists them in order, in twenty consecutive windows of ten.  Because every operation writes a buffer of its
  own, the contents of the device after the first K windows (`valK`) are read off one window at a time: a buffer
  the window does not write keeps what it held, a buffer it writes holds its operation's pure function of the
  operands' contents, which are either argument arrays or earlier values already known to be their `res_` terms.
  By induction along the windows every value still to be read holds its `res_` term of the twelve argument
  arrays, and at the end the output holds `res_v129` while the arguments are unchanged.  The run itself (every
  weakly fair execution terminates in that state) is the library's theorem for a straight line of operations.
-/
import proofs.«153408_j3753801416995_1_alg».proof.Proof.RefTerm
import proofs.«153408_j3753801416995_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A function of the twelve argument arrays, at the arrays a valuation holds. -/
abbrev atArgs {α : Type}
    (f : (⟨S100000x128, .f32⟩ : BufTy).Contents (Elt F) → (⟨S2x1600000, .i32⟩ : BufTy).Contents (Elt F) → (⟨S128x128, .f32⟩ : BufTy).Contents (Elt F) → (⟨S128, .f32⟩ : BufTy).Contents (Elt F) → (⟨S128, .f32⟩ : BufTy).Contents (Elt F) → (⟨S128, .f32⟩ : BufTy).Contents (Elt F) → (⟨S128x128, .f32⟩ : BufTy).Contents (Elt F) → (⟨S128, .f32⟩ : BufTy).Contents (Elt F) → (⟨S128, .f32⟩ : BufTy).Contents (Elt F) → (⟨S128, .f32⟩ : BufTy).Contents (Elt F) → (⟨S128x64, .f32⟩ : BufTy).Contents (Elt F) → (⟨S64, .f32⟩ : BufTy).Contents (Elt F) → α)
    (V0 : Valuation τ sig (Elt F)) : α :=
  f (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))

/-- Two lines run one after the other leave what the second leaves from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 10 of 200. -/
abbrev w0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Operations 11 … 20 of 200. -/
abbrev w1 : List (HloOp τ sig (Elt F)) :=
  [ nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)) ]

/-- Operations 21 … 30 of 200. -/
abbrev w2 : List (HloOp τ sig (Elt F)) :=
  [ ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- Operations 31 … 40 of 200. -/
abbrev w3 : List (HloOp τ sig (Elt F)) :=
  [ unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)),
    binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)) ]

/-- Operations 41 … 50 of 200. -/
abbrev w4 : List (HloOp τ sig (Elt F)) :=
  [ binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v25 main_v35 (broadcastInDim S1600000x1 ![0] bcast_S1600000_S1600000x1_0 : (⟨S1600000, .f32⟩ : BufTy).Contents (Elt F) → (⟨S1600000x1, .f32⟩ : BufTy).Contents (Elt F)),
    unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v38 (broadcastInDim S100000x128 ![] bcast_S_S100000x128 : (⟨S_, .f32⟩ : BufTy).Contents (Elt F) → (⟨S100000x128, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)) ]

/-- Operations 51 … 60 of 200. -/
abbrev w5 : List (HloOp τ sig (Elt F)) :=
  [ ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v27 main_v42 main_v43 (mulf : (⟨S100000x128, .f32⟩ : BufTy).Contents (Elt F) → (⟨S100000x128, .f32⟩ : BufTy).Contents (Elt F) → (⟨S100000x128, .f32⟩ : BufTy).Contents (Elt F)),
    binary main_v40 main_v43 main_v44 (addf : (⟨S100000x128, .f32⟩ : BufTy).Contents (Elt F) → (⟨S100000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v47 main_cst_8 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- Operations 61 … 70 of 200. -/
abbrev w6 : List (HloOp τ sig (Elt F)) :=
  [ nullary main_cst_9 (constant S_ .f32 0x47C35000#32),
    unary main_cst_9 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (.of main_v47) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf ]

/-- Operations 71 … 80 of 200. -/
abbrev w7 : List (HloOp τ sig (Elt F)) :=
  [ TRef.unary main_call0.v3 main_call0.v4 (broadcastInDim S100000x128 ![0, 1] bcast_S1x128_S100000x128_0_1),
    TRef.binary (.of main_v47) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf ]

/-- Operations 81 … 90 of 200. -/
abbrev w8 : List (HloOp τ sig (Elt F)) :=
  [ TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v50 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v47 main_v53 main_v54 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32) ]

/-- Operations 91 … 100 of 200. -/
abbrev w9 : List (HloOp τ sig (Elt F)) :=
  [ unary main_cst_11 main_v55 (broadcastInDim S128 ![] bcast_S_S128 : (⟨S_, .f32⟩ : BufTy).Contents (Elt F) → (⟨S128, .f32⟩ : BufTy).Contents (Elt F)),
    binary main_v51 main_v55 main_v56 (addf : (⟨S128, .f32⟩ : BufTy).Contents (Elt F) → (⟨S128, .f32⟩ : BufTy).Contents (Elt F) → (⟨S128, .f32⟩ : BufTy).Contents (Elt F)),
    unary main_v56 main_v57 (Host.rsqrt : (⟨S128, .f32⟩ : BufTy).Contents (Elt F) → (⟨S128, .f32⟩ : BufTy).Contents (Elt F)),
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v54 main_v59 main_v60 (mulf : (⟨S100000x128, .f32⟩ : BufTy).Contents (Elt F) → (⟨S100000x128, .f32⟩ : BufTy).Contents (Elt F) → (⟨S100000x128, .f32⟩ : BufTy).Contents (Elt F)),
    unary main_arg4 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (mulf : (⟨S100000x128, .f32⟩ : BufTy).Contents (Elt F) → (⟨S100000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)) ]

/-- Operations 101 … 110 of 200. -/
abbrev w10 : List (HloOp τ sig (Elt F)) :=
  [ unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v66) main_call1.v0 main_call1.v1 maximumf,
    binary main_v67 main_arg6 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v69 (broadcastInDim S1600000 ![] bcast_S_S1600000 : (⟨S_, .i32⟩ : BufTy).Contents (Elt F) → (⟨S1600000, .i32⟩ : BufTy).Contents (Elt F)),
    binary main_v1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32) ]

/-- Operations 111 … 120 of 200. -/
abbrev w11 : List (HloOp τ sig (Elt F)) :=
  [ unary main_c_13 main_v71 (broadcastInDim S1600000 ![] bcast_S_S1600000 : (⟨S_, .i32⟩ : BufTy).Contents (Elt F) → (⟨S1600000, .i32⟩ : BufTy).Contents (Elt F)),
    binary main_v1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v25 main_v76 (broadcastInDim S1600000x1 ![0] bcast_S1600000_S1600000x1_0 : (⟨S1600000, .f32⟩ : BufTy).Contents (Elt F) → (⟨S1600000x1, .f32⟩ : BufTy).Contents (Elt F)),
    unary main_v76 main_v77 (broadcastInDim S1600000x128 ![0, 1] bcast_S1600000x1_S1600000x128_0_1 : (⟨S1600000x1, .f32⟩ : BufTy).Contents (Elt F) → (⟨S1600000x128, .f32⟩ : BufTy).Contents (Elt F)),
    binary main_v75 main_v77 main_v78 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v79 (broadcastInDim S100000x128 ![] bcast_S_S100000x128 : (⟨S_, .f32⟩ : BufTy).Contents (Elt F) → (⟨S100000x128, .f32⟩ : BufTy).Contents (Elt F)) ]

/-- Operations 121 … 130 of 200. -/
abbrev w12 : List (HloOp τ sig (Elt F)) :=
  [ unary main_v3 main_v80 (broadcastInDim S1600000x1 ![0] bcast_S1600000_S1600000x1_0 : (⟨S1600000, .i32⟩ : BufTy).Contents (Elt F) → (⟨S1600000x1, .i32⟩ : BufTy).Contents (Elt F)),
    ternary main_v79 main_v80 main_v78 main_v81 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v26 main_v82 (broadcastInDim S100000x1 ![0] bcast_S100000_S100000x1_0 : (⟨S100000, .f32⟩ : BufTy).Contents (Elt F) → (⟨S100000x1, .f32⟩ : BufTy).Contents (Elt F)),
    unary main_v82 main_v83 (broadcastInDim S100000x128 ![0, 1] bcast_S100000x1_S100000x128_0_1 : (⟨S100000x1, .f32⟩ : BufTy).Contents (Elt F) → (⟨S100000x128, .f32⟩ : BufTy).Contents (Elt F)),
    binary main_v68 main_v83 main_v84 (mulf : (⟨S100000x128, .f32⟩ : BufTy).Contents (Elt F) → (⟨S100000x128, .f32⟩ : BufTy).Contents (Elt F) → (⟨S100000x128, .f32⟩ : BufTy).Contents (Elt F)),
    binary main_v81 main_v84 main_v85 (addf : (⟨S100000x128, .f32⟩ : BufTy).Contents (Elt F) → (⟨S100000x128, .f32⟩ : BufTy).Contents (Elt F) → (⟨S100000x128, .f32⟩ : BufTy).Contents (Elt F)),
    unary main_arg7 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32) ]

/-- Operations 131 … 140 of 200. -/
abbrev w13 : List (HloOp τ sig (Elt F)) :=
  [ binary main_v88 main_cst_15 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v90 (broadcastInDim S128 ![] bcast_S_S128 : (⟨S_, .f32⟩ : BufTy).Contents (Elt F) → (⟨S128, .f32⟩ : BufTy).Contents (Elt F)),
    binary main_v89 main_v90 main_v91 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call2.cst (constant S_ .f32 0x00000000#32),
    TRef.binary (.of main_v88) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128) ]

/-- Operations 141 … 150 of 200. -/
abbrev w14 : List (HloOp τ sig (Elt F)) :=
  [ TRef.binary main_call2.v1 main_call2.v2 main_call2.v3 Host.divf,
    TRef.unary main_call2.v3 main_call2.v4 (broadcastInDim S100000x128 ![0, 1] bcast_S1x128_S100000x128_0_1),
    TRef.binary (.of main_v88) main_call2.v4 main_call2.v5 subf,
    TRef.binary main_call2.v5 main_call2.v5 main_call2.v6 mulf,
    TRef.unary (.of main_c_17) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128) ]

/-- Operations 151 … 160 of 200. -/
abbrev w15 : List (HloOp τ sig (Elt F)) :=
  [ TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v91 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v88 main_v94 main_v95 (subf : (⟨S100000x128, .f32⟩ : BufTy).Contents (Elt F) → (⟨S100000x128, .f32⟩ : BufTy).Contents (Elt F) → (⟨S100000x128, .f32⟩ : BufTy).Contents (Elt F)) ]

/-- Operations 161 … 170 of 200. -/
abbrev w16 : List (HloOp τ sig (Elt F)) :=
  [ nullary main_cst_18 (constant S_ .f32 0x3727C5AC#32),
    unary main_cst_18 main_v96 (broadcastInDim S128 ![] bcast_S_S128 : (⟨S_, .f32⟩ : BufTy).Contents (Elt F) → (⟨S128, .f32⟩ : BufTy).Contents (Elt F)),
    binary main_v92 main_v96 main_v97 (addf : (⟨S128, .f32⟩ : BufTy).Contents (Elt F) → (⟨S128, .f32⟩ : BufTy).Contents (Elt F) → (⟨S128, .f32⟩ : BufTy).Contents (Elt F)),
    unary main_v97 main_v98 (Host.rsqrt : (⟨S128, .f32⟩ : BufTy).Contents (Elt F) → (⟨S128, .f32⟩ : BufTy).Contents (Elt F)),
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v95 main_v100 main_v101 (mulf : (⟨S100000x128, .f32⟩ : BufTy).Contents (Elt F) → (⟨S100000x128, .f32⟩ : BufTy).Contents (Elt F) → (⟨S100000x128, .f32⟩ : BufTy).Contents (Elt F)),
    unary main_arg8 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (mulf : (⟨S100000x128, .f32⟩ : BufTy).Contents (Elt F) → (⟨S100000x128, .f32⟩ : BufTy).Contents (Elt F) → (⟨S100000x128, .f32⟩ : BufTy).Contents (Elt F)) ]

/-- Operations 171 … 180 of 200. -/
abbrev w17 : List (HloOp τ sig (Elt F)) :=
  [ unary main_arg9 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v107) main_call3.v0 main_call3.v1 maximumf,
    binary main_v108 main_arg10 main_v109 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_19 (constantI S_ 32 0#32),
    unary main_c_19 main_v110 (broadcastInDim S1600000 ![] bcast_S_S1600000 : (⟨S_, .i32⟩ : BufTy).Contents (Elt F) → (⟨S1600000, .i32⟩ : BufTy).Contents (Elt F)),
    binary main_v1 main_v110 main_v111 (cmpi .slt : (⟨S1600000, .i32⟩ : BufTy).Contents (Elt F) → (⟨S1600000, .i32⟩ : BufTy).Contents (Elt F) → (⟨S1600000, .i1⟩ : BufTy).Contents (Elt F)) ]

/-- Operations 181 … 190 of 200. -/
abbrev w18 : List (HloOp τ sig (Elt F)) :=
  [ nullary main_c_20 (constantI S_ 32 100000#32),
    unary main_c_20 main_v112 (broadcastInDim S1600000 ![] bcast_S_S1600000 : (⟨S_, .i32⟩ : BufTy).Contents (Elt F) → (⟨S1600000, .i32⟩ : BufTy).Contents (Elt F)),
    binary main_v1 main_v112 main_v113 (addi : (⟨S1600000, .i32⟩ : BufTy).Contents (Elt F) → (⟨S1600000, .i32⟩ : BufTy).Contents (Elt F) → (⟨S1600000, .i32⟩ : BufTy).Contents (Elt F)),
    ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v114 main_v115 (broadcastInDim S1600000x1 ![0] bcast_S1600000_S1600000x1_0 : (⟨S1600000, .i32⟩ : BufTy).Contents (Elt F) → (⟨S1600000x1, .i32⟩ : BufTy).Contents (Elt F)),
    binary main_v109 main_v115 main_v116 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v117 (broadcastInDim S1600000x1 ![0] bcast_S1600000_S1600000x1_0 : (⟨S1600000, .f32⟩ : BufTy).Contents (Elt F) → (⟨S1600000x1, .f32⟩ : BufTy).Contents (Elt F)),
    unary main_v117 main_v118 (broadcastInDim S1600000x64 ![0, 1] bcast_S1600000x1_S1600000x64_0_1 : (⟨S1600000x1, .f32⟩ : BufTy).Contents (Elt F) → (⟨S1600000x64, .f32⟩ : BufTy).Contents (Elt F)),
    binary main_v116 main_v118 main_v119 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32) ]

/-- Operations 191 … 200 of 200. -/
abbrev w19 : List (HloOp τ sig (Elt F)) :=
  [ unary main_cst_21 main_v120 (broadcastInDim S100000x64 ![] bcast_S_S100000x64 : (⟨S_, .f32⟩ : BufTy).Contents (Elt F) → (⟨S100000x64, .f32⟩ : BufTy).Contents (Elt F)),
    unary main_v3 main_v121 (broadcastInDim S1600000x1 ![0] bcast_S1600000_S1600000x1_0 : (⟨S1600000, .i32⟩ : BufTy).Contents (Elt F) → (⟨S1600000x1, .i32⟩ : BufTy).Contents (Elt F)),
    ternary main_v120 main_v121 main_v119 main_v122 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x64 ![0, 1] bcast_S100000x1_S100000x64_0_1 : (⟨S100000x1, .f32⟩ : BufTy).Contents (Elt F) → (⟨S100000x64, .f32⟩ : BufTy).Contents (Elt F)),
    binary main_v109 main_v124 main_v125 (mulf : (⟨S100000x64, .f32⟩ : BufTy).Contents (Elt F) → (⟨S100000x64, .f32⟩ : BufTy).Contents (Elt F) → (⟨S100000x64, .f32⟩ : BufTy).Contents (Elt F)),
    binary main_v122 main_v125 main_v126 (addf : (⟨S100000x64, .f32⟩ : BufTy).Contents (Elt F) → (⟨S100000x64, .f32⟩ : BufTy).Contents (Elt F) → (⟨S100000x64, .f32⟩ : BufTy).Contents (Elt F)),
    unary main_arg11 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

/-- The 200 operations, in order. -/
abbrev ops : List (HloOp τ sig (Elt F)) :=
  w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19)))))))))))))))))))

set_option maxRecDepth 65536 in
set_option maxHeartbeats 4000000 in
/-- The program is that straight line: the outlined functions unfolded at their calls, sequencing reassociated. -/
theorem main_eq (c : Dev nD) : main (F := F) c = seq ops := by
  simp only [main, main_part0, main_part1, main_part2, fn_var.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub ..⟩
theorem w0_fresh : (w0 : List (HloOp τ sig (Elt F))).Forall fun op => op.fresh = ∅ :=
  ⟨rfl, rfl, rfl, rfl, rfl, rfl, rfl, rfl, rfl, rfl⟩
theorem w1_sub : (w1 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub ..⟩
theorem w1_fresh : (w1 : List (HloOp τ sig (Elt F))).Forall fun op => op.fresh = ∅ :=
  ⟨rfl, rfl, rfl, rfl, rfl, rfl, rfl, rfl, rfl, rfl⟩
theorem w2_sub : (w2 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub ..⟩
theorem w2_fresh : (w2 : List (HloOp τ sig (Elt F))).Forall fun op => op.fresh = ∅ :=
  ⟨rfl, rfl, rfl, rfl, rfl, rfl, rfl, rfl, rfl, rfl⟩
theorem w3_sub : (w3 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub ..⟩
theorem w3_fresh : (w3 : List (HloOp τ sig (Elt F))).Forall fun op => op.fresh = ∅ :=
  ⟨rfl, rfl, rfl, rfl, rfl, rfl, rfl, rfl, rfl, rfl⟩
theorem w4_sub : (w4 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., unary_bufs_sub ..⟩
theorem w4_fresh : (w4 : List (HloOp τ sig (Elt F))).Forall fun op => op.fresh = ∅ :=
  ⟨rfl, rfl, rfl, rfl, rfl, rfl, rfl, rfl, rfl, rfl⟩
theorem w5_sub : (w5 : List (HloOp τ sig (Elt F))).Forall fun op => op.bufs ⊆ tcRefs τ sig :=
  ⟨ternary_bufs_sub .., unary_bufs_sub .., unary_bufs_sub .., binary_bufs_sub .., binary_bufs_sub .., unary_bufs_sub .., unary_bufs_sub .., binary_bufs_sub .., nullary_bufs_sub .., binary_bufs_sub ..⟩
theorem w5_fresh : (w5 : List (HloOp τ sig (Elt F))).Forall fun op => op.fresh = ∅ :=
  ⟨rfl, rfl, rfl, rfl, rfl, rfl, rfl, rfl, rfl, rfl⟩
theorem w6_sub : (w6 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub ..⟩
theorem w6_fresh : (w6 : List (HloOp τ sig (Elt F))).Forall fun op => op.fresh = ∅ :=
  ⟨rfl, rfl, rfl, rfl, rfl, rfl, rfl, rfl, rfl, rfl⟩
theorem w7_sub : (w7 : List (HloOp τ sig (Elt F))).Forall fun op => op.bufs ⊆ tcRefs τ sig :=
  ⟨unary_bufs_sub .., binary_bufs_sub .., binary_bufs_sub .., unary_bufs_sub .., nullary_bufs_sub .., binary_bufs_sub .., nullary_bufs_sub .., binary_bufs_sub .., unary_bufs_sub .., binary_bufs_sub ..⟩
theorem w7_fresh : (w7 : List (HloOp τ sig (Elt F))).Forall fun op => op.fresh = ∅ :=
  ⟨rfl, rfl, rfl, rfl, rfl, rfl, rfl, rfl, rfl, rfl⟩
theorem w8_sub : (w8 : List (HloOp τ sig (Elt F))).Forall fun op => op.bufs ⊆ tcRefs τ sig :=
  ⟨nullary_bufs_sub .., binary_bufs_sub .., nullary_bufs_sub .., unary_bufs_sub .., unary_bufs_sub .., ternary_bufs_sub .., unary_bufs_sub .., unary_bufs_sub .., binary_bufs_sub .., nullary_bufs_sub ..⟩
theorem w8_fresh : (w8 : List (HloOp τ sig (Elt F))).Forall fun op => op.fresh = ∅ :=
  ⟨rfl, rfl, rfl, rfl, rfl, rfl, rfl, rfl, rfl, rfl⟩
theorem w9_sub : (w9 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub ..⟩
theorem w9_fresh : (w9 : List (HloOp τ sig (Elt F))).Forall fun op => op.fresh = ∅ :=
  ⟨rfl, rfl, rfl, rfl, rfl, rfl, rfl, rfl, rfl, rfl⟩
theorem w10_sub : (w10 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub ..⟩
theorem w10_fresh : (w10 : List (HloOp τ sig (Elt F))).Forall fun op => op.fresh = ∅ :=
  ⟨rfl, rfl, rfl, rfl, rfl, rfl, rfl, rfl, rfl, rfl⟩
theorem w11_sub : (w11 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub ..⟩
theorem w11_fresh : (w11 : List (HloOp τ sig (Elt F))).Forall fun op => op.fresh = ∅ :=
  ⟨rfl, rfl, rfl, rfl, rfl, rfl, rfl, rfl, rfl, rfl⟩
theorem w12_sub : (w12 : List (HloOp τ sig (Elt F))).Forall fun op => op.bufs ⊆ tcRefs τ sig :=
  ⟨unary_bufs_sub .., ternary_bufs_sub .., unary_bufs_sub .., unary_bufs_sub .., binary_bufs_sub .., binary_bufs_sub .., unary_bufs_sub .., unary_bufs_sub .., binary_bufs_sub .., nullary_bufs_sub ..⟩
theorem w12_fresh : (w12 : List (HloOp τ sig (Elt F))).Forall fun op => op.fresh = ∅ :=
  ⟨rfl, rfl, rfl, rfl, rfl, rfl, rfl, rfl, rfl, rfl⟩
theorem w13_sub : (w13 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub ..⟩
theorem w13_fresh : (w13 : List (HloOp τ sig (Elt F))).Forall fun op => op.fresh = ∅ :=
  ⟨rfl, rfl, rfl, rfl, rfl, rfl, rfl, rfl, rfl, rfl⟩
theorem w14_sub : (w14 : List (HloOp τ sig (Elt F))).Forall fun op => op.bufs ⊆ tcRefs τ sig :=
  ⟨binary_bufs_sub .., unary_bufs_sub .., binary_bufs_sub .., binary_bufs_sub .., unary_bufs_sub .., nullary_bufs_sub .., binary_bufs_sub .., nullary_bufs_sub .., binary_bufs_sub .., unary_bufs_sub ..⟩
theorem w14_fresh : (w14 : List (HloOp τ sig (Elt F))).Forall fun op => op.fresh = ∅ :=
  ⟨rfl, rfl, rfl, rfl, rfl, rfl, rfl, rfl, rfl, rfl⟩
theorem w15_sub : (w15 : List (HloOp τ sig (Elt F))).Forall fun op => op.bufs ⊆ tcRefs τ sig :=
  ⟨binary_bufs_sub .., nullary_bufs_sub .., binary_bufs_sub .., nullary_bufs_sub .., unary_bufs_sub .., unary_bufs_sub .., ternary_bufs_sub .., unary_bufs_sub .., unary_bufs_sub .., binary_bufs_sub ..⟩
theorem w15_fresh : (w15 : List (HloOp τ sig (Elt F))).Forall fun op => op.fresh = ∅ :=
  ⟨rfl, rfl, rfl, rfl, rfl, rfl, rfl, rfl, rfl, rfl⟩
theorem w16_sub : (w16 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub ..⟩
theorem w16_fresh : (w16 : List (HloOp τ sig (Elt F))).Forall fun op => op.fresh = ∅ :=
  ⟨rfl, rfl, rfl, rfl, rfl, rfl, rfl, rfl, rfl, rfl⟩
theorem w17_sub : (w17 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., nullary_bufs_sub .., unary_bufs_sub .., binary_bufs_sub ..⟩
theorem w17_fresh : (w17 : List (HloOp τ sig (Elt F))).Forall fun op => op.fresh = ∅ :=
  ⟨rfl, rfl, rfl, rfl, rfl, rfl, rfl, rfl, rfl, rfl⟩
theorem w18_sub : (w18 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub ..⟩
theorem w18_fresh : (w18 : List (HloOp τ sig (Elt F))).Forall fun op => op.fresh = ∅ :=
  ⟨rfl, rfl, rfl, rfl, rfl, rfl, rfl, rfl, rfl, rfl⟩
theorem w19_sub : (w19 : List (HloOp τ sig (Elt F))).Forall fun op => op.bufs ⊆ tcRefs τ sig :=
  ⟨unary_bufs_sub .., unary_bufs_sub .., ternary_bufs_sub .., unary_bufs_sub .., unary_bufs_sub .., binary_bufs_sub .., binary_bufs_sub .., unary_bufs_sub .., unary_bufs_sub .., binary_bufs_sub ..⟩
theorem w19_fresh : (w19 : List (HloOp τ sig (Elt F))).Forall fun op => op.fresh = ∅ :=
  ⟨rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h, List.forall_iff_forall_mem.mp w19_sub op h]

theorem ops_fresh : ∀ op ∈ (ops : List (HloOp τ sig (Elt F))), op.fresh = ∅ := fun op h => by
    simp only [ops, List.mem_append] at h
    rcases h with h | h | h | h | h | h | h | h | h | h | h | h | h | h | h | h | h | h | h | h
    exacts [List.forall_iff_forall_mem.mp w0_fresh op h, List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h, List.forall_iff_forall_mem.mp w7_fresh op h, List.forall_iff_forall_mem.mp w8_fresh op h, List.forall_iff_forall_mem.mp w9_fresh op h, List.forall_iff_forall_mem.mp w10_fresh op h, List.forall_iff_forall_mem.mp w11_fresh op h, List.forall_iff_forall_mem.mp w12_fresh op h, List.forall_iff_forall_mem.mp w13_fresh op h, List.forall_iff_forall_mem.mp w14_fresh op h, List.forall_iff_forall_mem.mp w15_fresh op h, List.forall_iff_forall_mem.mp w16_fresh op h, List.forall_iff_forall_mem.mp w17_fresh op h, List.forall_iff_forall_mem.mp w18_fresh op h, List.forall_iff_forall_mem.mp w19_fresh op h]

/-- The device's buffer contents before the first window. -/
def val0 (V0 : Valuation τ sig (Elt F)) : Valuation τ sig (Elt F) := V0
theorem val0_arg0 (V0 : Valuation τ sig (Elt F)) : val0 V0 (no_index (Proc.devRef .tc main_arg0)) = V0 (Proc.devRef .tc main_arg0) := rfl
theorem val0_arg1 (V0 : Valuation τ sig (Elt F)) : val0 V0 (no_index (Proc.devRef .tc main_arg1)) = V0 (Proc.devRef .tc main_arg1) := rfl
theorem val0_arg2 (V0 : Valuation τ sig (Elt F)) : val0 V0 (no_index (Proc.devRef .tc main_arg2)) = V0 (Proc.devRef .tc main_arg2) := rfl
theorem val0_arg3 (V0 : Valuation τ sig (Elt F)) : val0 V0 (no_index (Proc.devRef .tc main_arg3)) = V0 (Proc.devRef .tc main_arg3) := rfl
theorem val0_arg4 (V0 : Valuation τ sig (Elt F)) : val0 V0 (no_index (Proc.devRef .tc main_arg4)) = V0 (Proc.devRef .tc main_arg4) := rfl
theorem val0_arg5 (V0 : Valuation τ sig (Elt F)) : val0 V0 (no_index (Proc.devRef .tc main_arg5)) = V0 (Proc.devRef .tc main_arg5) := rfl
theorem val0_arg6 (V0 : Valuation τ sig (Elt F)) : val0 V0 (no_index (Proc.devRef .tc main_arg6)) = V0 (Proc.devRef .tc main_arg6) := rfl
theorem val0_arg7 (V0 : Valuation τ sig (Elt F)) : val0 V0 (no_index (Proc.devRef .tc main_arg7)) = V0 (Proc.devRef .tc main_arg7) := rfl
theorem val0_arg8 (V0 : Valuation τ sig (Elt F)) : val0 V0 (no_index (Proc.devRef .tc main_arg8)) = V0 (Proc.devRef .tc main_arg8) := rfl
theorem val0_arg9 (V0 : Valuation τ sig (Elt F)) : val0 V0 (no_index (Proc.devRef .tc main_arg9)) = V0 (Proc.devRef .tc main_arg9) := rfl
theorem val0_arg10 (V0 : Valuation τ sig (Elt F)) : val0 V0 (no_index (Proc.devRef .tc main_arg10)) = V0 (Proc.devRef .tc main_arg10) := rfl
theorem val0_arg11 (V0 : Valuation τ sig (Elt F)) : val0 V0 (no_index (Proc.devRef .tc main_arg11)) = V0 (Proc.devRef .tc main_arg11) := rfl

/-- The device's buffer contents after the first 1 window. -/
def val1 (V0 : Valuation τ sig (Elt F)) : Valuation τ sig (Elt F) := after w0 (val0 V0)
/-- The buffers that window writes. -/
abbrev w0_W : List (Ref sig .tc) := [main_v0, main_v1, main_v2, main_v3, main_cst, main_v4, main_cst_0, main_v5, main_v6, main_v7]
theorem w0_writes : (w0 : List (HloOp τ sig (Elt F))).Forall fun op => op.writes ⊆ (w0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_arg0 (V0 : Valuation τ sig (Elt F)) : val1 V0 (no_index (Proc.devRef .tc main_arg0)) = V0 (Proc.devRef .tc main_arg0) :=
  (val1_keep V0 main_arg0 (by decide)).trans (val0_arg0 V0)
theorem val1_arg1 (V0 : Valuation τ sig (Elt F)) : val1 V0 (no_index (Proc.devRef .tc main_arg1)) = V0 (Proc.devRef .tc main_arg1) :=
  (val1_keep V0 main_arg1 (by decide)).trans (val0_arg1 V0)
theorem val1_arg2 (V0 : Valuation τ sig (Elt F)) : val1 V0 (no_index (Proc.devRef .tc main_arg2)) = V0 (Proc.devRef .tc main_arg2) :=
  (val1_keep V0 main_arg2 (by decide)).trans (val0_arg2 V0)
theorem val1_arg3 (V0 : Valuation τ sig (Elt F)) : val1 V0 (no_index (Proc.devRef .tc main_arg3)) = V0 (Proc.devRef .tc main_arg3) :=
  (val1_keep V0 main_arg3 (by decide)).trans (val0_arg3 V0)
theorem val1_arg4 (V0 : Valuation τ sig (Elt F)) : val1 V0 (no_index (Proc.devRef .tc main_arg4)) = V0 (Proc.devRef .tc main_arg4) :=
  (val1_keep V0 main_arg4 (by decide)).trans (val0_arg4 V0)
theorem val1_arg5 (V0 : Valuation τ sig (Elt F)) : val1 V0 (no_index (Proc.devRef .tc main_arg5)) = V0 (Proc.devRef .tc main_arg5) :=
  (val1_keep V0 main_arg5 (by decide)).trans (val0_arg5 V0)
theorem val1_arg6 (V0 : Valuation τ sig (Elt F)) : val1 V0 (no_index (Proc.devRef .tc main_arg6)) = V0 (Proc.devRef .tc main_arg6) :=
  (val1_keep V0 main_arg6 (by decide)).trans (val0_arg6 V0)
theorem val1_arg7 (V0 : Valuation τ sig (Elt F)) : val1 V0 (no_index (Proc.devRef .tc main_arg7)) = V0 (Proc.devRef .tc main_arg7) :=
  (val1_keep V0 main_arg7 (by decide)).trans (val0_arg7 V0)
theorem val1_arg8 (V0 : Valuation τ sig (Elt F)) : val1 V0 (no_index (Proc.devRef .tc main_arg8)) = V0 (Proc.devRef .tc main_arg8) :=
  (val1_keep V0 main_arg8 (by decide)).trans (val0_arg8 V0)
theorem val1_arg9 (V0 : Valuation τ sig (Elt F)) : val1 V0 (no_index (Proc.devRef .tc main_arg9)) = V0 (Proc.devRef .tc main_arg9) :=
  (val1_keep V0 main_arg9 (by decide)).trans (val0_arg9 V0)
theorem val1_arg10 (V0 : Valuation τ sig (Elt F)) : val1 V0 (no_index (Proc.devRef .tc main_arg10)) = V0 (Proc.devRef .tc main_arg10) :=
  (val1_keep V0 main_arg10 (by decide)).trans (val0_arg10 V0)
theorem val1_arg11 (V0 : Valuation τ sig (Elt F)) : val1 V0 (no_index (Proc.devRef .tc main_arg11)) = V0 (Proc.devRef .tc main_arg11) :=
  (val1_keep V0 main_arg11 (by decide)).trans (val0_arg11 V0)
theorem val1_v1 (V0 : Valuation τ sig (Elt F)) : val1 V0 (no_index (Proc.devRef .tc main_v1)) = atArgs res_v1 V0 := by
  unfold val1
  simp only [w0]
  after_results_simp
  simp only [val0_arg1] <;> rfl
theorem val1_v3 (V0 : Valuation τ sig (Elt F)) : val1 V0 (no_index (Proc.devRef .tc main_v3)) = atArgs res_v3 V0 := by
  unfold val1
  simp only [w0]
  after_results_simp
  simp only [val0_arg1] <;> rfl
theorem val1_v7 (V0 : Valuation τ sig (Elt F)) : val1 V0 (no_index (Proc.devRef .tc main_v7)) = atArgs res_v7 V0 := by
  unfold val1
  simp only [w0]
  after_results_simp
  simp only [val0_arg1] <;> rfl

/-- The device's buffer contents after the first 2 windows. -/
def val2 (V0 : Valuation τ sig (Elt F)) : Valuation τ sig (Elt F) := after w1 (val1 V0)
/-- The buffers that window writes. -/
abbrev w1_W : List (Ref sig .tc) := [main_cst_1, main_v8, main_v9, main_v10, main_c, main_v11, main_v12, main_c_2, main_v13, main_v14]
theorem w1_writes : (w1 : List (HloOp τ sig (Elt F))).Forall fun op => op.writes ⊆ (w1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_arg0 (V0 : Valuation τ sig (Elt F)) : val2 V0 (no_index (Proc.devRef .tc main_arg0)) = V0 (Proc.devRef .tc main_arg0) :=
  (val2_keep V0 main_arg0 (by decide)).trans (val1_arg0 V0)
theorem val2_arg1 (V0 : Valuation τ sig (Elt F)) : val2 V0 (no_index (Proc.devRef .tc main_arg1)) = V0 (Proc.devRef .tc main_arg1) :=
  (val2_keep V0 main_arg1 (by decide)).trans (val1_arg1 V0)
theorem val2_arg2 (V0 : Valuation τ sig (Elt F)) : val2 V0 (no_index (Proc.devRef .tc main_arg2)) = V0 (Proc.devRef .tc main_arg2) :=
  (val2_keep V0 main_arg2 (by decide)).trans (val1_arg2 V0)
theorem val2_arg3 (V0 : Valuation τ sig (Elt F)) : val2 V0 (no_index (Proc.devRef .tc main_arg3)) = V0 (Proc.devRef .tc main_arg3) :=
  (val2_keep V0 main_arg3 (by decide)).trans (val1_arg3 V0)
theorem val2_arg4 (V0 : Valuation τ sig (Elt F)) : val2 V0 (no_index (Proc.devRef .tc main_arg4)) = V0 (Proc.devRef .tc main_arg4) :=
  (val2_keep V0 main_arg4 (by decide)).trans (val1_arg4 V0)
theorem val2_arg5 (V0 : Valuation τ sig (Elt F)) : val2 V0 (no_index (Proc.devRef .tc main_arg5)) = V0 (Proc.devRef .tc main_arg5) :=
  (val2_keep V0 main_arg5 (by decide)).trans (val1_arg5 V0)
theorem val2_arg6 (V0 : Valuation τ sig (Elt F)) : val2 V0 (no_index (Proc.devRef .tc main_arg6)) = V0 (Proc.devRef .tc main_arg6) :=
  (val2_keep V0 main_arg6 (by decide)).trans (val1_arg6 V0)
theorem val2_arg7 (V0 : Valuation τ sig (Elt F)) : val2 V0 (no_index (Proc.devRef .tc main_arg7)) = V0 (Proc.devRef .tc main_arg7) :=
  (val2_keep V0 main_arg7 (by decide)).trans (val1_arg7 V0)
theorem val2_arg8 (V0 : Valuation τ sig (Elt F)) : val2 V0 (no_index (Proc.devRef .tc main_arg8)) = V0 (Proc.devRef .tc main_arg8) :=
  (val2_keep V0 main_arg8 (by decide)).trans (val1_arg8 V0)
theorem val2_arg9 (V0 : Valuation τ sig (Elt F)) : val2 V0 (no_index (Proc.devRef .tc main_arg9)) = V0 (Proc.devRef .tc main_arg9) :=
  (val2_keep V0 main_arg9 (by decide)).trans (val1_arg9 V0)
theorem val2_arg10 (V0 : Valuation τ sig (Elt F)) : val2 V0 (no_index (Proc.devRef .tc main_arg10)) = V0 (Proc.devRef .tc main_arg10) :=
  (val2_keep V0 main_arg10 (by decide)).trans (val1_arg10 V0)
theorem val2_arg11 (V0 : Valuation τ sig (Elt F)) : val2 V0 (no_index (Proc.devRef .tc main_arg11)) = V0 (Proc.devRef .tc main_arg11) :=
  (val2_keep V0 main_arg11 (by decide)).trans (val1_arg11 V0)
theorem val2_v1 (V0 : Valuation τ sig (Elt F)) : val2 V0 (no_index (Proc.devRef .tc main_v1)) = atArgs res_v1 V0 :=
  (val2_keep V0 main_v1 (by decide)).trans (val1_v1 V0)
theorem val2_v3 (V0 : Valuation τ sig (Elt F)) : val2 V0 (no_index (Proc.devRef .tc main_v3)) = atArgs res_v3 V0 :=
  (val2_keep V0 main_v3 (by decide)).trans (val1_v3 V0)
theorem val2_v10 (V0 : Valuation τ sig (Elt F)) : val2 V0 (no_index (Proc.devRef .tc main_v10)) = atArgs res_v10 V0 := by
  unfold val2
  simp only [w1]
  after_results_simp
  simp only [val1_v7] <;> rfl
theorem val2_v12 (V0 : Valuation τ sig (Elt F)) : val2 V0 (no_index (Proc.devRef .tc main_v12)) = atArgs res_v12 V0 := by
  unfold val2
  simp only [w1]
  after_results_simp
  simp only [val1_v1] <;> rfl
theorem val2_v14 (V0 : Valuation τ sig (Elt F)) : val2 V0 (no_index (Proc.devRef .tc main_v14)) = atArgs res_v14 V0 := by
  unfold val2
  simp only [w1]
  after_results_simp
  simp only [val1_v1] <;> rfl

/-- The device's buffer contents after the first 3 windows. -/
def val3 (V0 : Valuation τ sig (Elt F)) : Valuation τ sig (Elt F) := after w2 (val2 V0)
/-- The buffers that window writes. -/
abbrev w2_W : List (Ref sig .tc) := [main_v15, main_v16, main_v17, main_c_3, main_v18, main_v19, main_c_4, main_v20, main_v21, main_v22]
theorem w2_writes : (w2 : List (HloOp τ sig (Elt F))).Forall fun op => op.writes ⊆ (w2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_arg0 (V0 : Valuation τ sig (Elt F)) : val3 V0 (no_index (Proc.devRef .tc main_arg0)) = V0 (Proc.devRef .tc main_arg0) :=
  (val3_keep V0 main_arg0 (by decide)).trans (val2_arg0 V0)
theorem val3_arg1 (V0 : Valuation τ sig (Elt F)) : val3 V0 (no_index (Proc.devRef .tc main_arg1)) = V0 (Proc.devRef .tc main_arg1) :=
  (val3_keep V0 main_arg1 (by decide)).trans (val2_arg1 V0)
theorem val3_arg2 (V0 : Valuation τ sig (Elt F)) : val3 V0 (no_index (Proc.devRef .tc main_arg2)) = V0 (Proc.devRef .tc main_arg2) :=
  (val3_keep V0 main_arg2 (by decide)).trans (val2_arg2 V0)
theorem val3_arg3 (V0 : Valuation τ sig (Elt F)) : val3 V0 (no_index (Proc.devRef .tc main_arg3)) = V0 (Proc.devRef .tc main_arg3) :=
  (val3_keep V0 main_arg3 (by decide)).trans (val2_arg3 V0)
theorem val3_arg4 (V0 : Valuation τ sig (Elt F)) : val3 V0 (no_index (Proc.devRef .tc main_arg4)) = V0 (Proc.devRef .tc main_arg4) :=
  (val3_keep V0 main_arg4 (by decide)).trans (val2_arg4 V0)
theorem val3_arg5 (V0 : Valuation τ sig (Elt F)) : val3 V0 (no_index (Proc.devRef .tc main_arg5)) = V0 (Proc.devRef .tc main_arg5) :=
  (val3_keep V0 main_arg5 (by decide)).trans (val2_arg5 V0)
theorem val3_arg6 (V0 : Valuation τ sig (Elt F)) : val3 V0 (no_index (Proc.devRef .tc main_arg6)) = V0 (Proc.devRef .tc main_arg6) :=
  (val3_keep V0 main_arg6 (by decide)).trans (val2_arg6 V0)
theorem val3_arg7 (V0 : Valuation τ sig (Elt F)) : val3 V0 (no_index (Proc.devRef .tc main_arg7)) = V0 (Proc.devRef .tc main_arg7) :=
  (val3_keep V0 main_arg7 (by decide)).trans (val2_arg7 V0)
theorem val3_arg8 (V0 : Valuation τ sig (Elt F)) : val3 V0 (no_index (Proc.devRef .tc main_arg8)) = V0 (Proc.devRef .tc main_arg8) :=
  (val3_keep V0 main_arg8 (by decide)).trans (val2_arg8 V0)
theorem val3_arg9 (V0 : Valuation τ sig (Elt F)) : val3 V0 (no_index (Proc.devRef .tc main_arg9)) = V0 (Proc.devRef .tc main_arg9) :=
  (val3_keep V0 main_arg9 (by decide)).trans (val2_arg9 V0)
theorem val3_arg10 (V0 : Valuation τ sig (Elt F)) : val3 V0 (no_index (Proc.devRef .tc main_arg10)) = V0 (Proc.devRef .tc main_arg10) :=
  (val3_keep V0 main_arg10 (by decide)).trans (val2_arg10 V0)
theorem val3_arg11 (V0 : Valuation τ sig (Elt F)) : val3 V0 (no_index (Proc.devRef .tc main_arg11)) = V0 (Proc.devRef .tc main_arg11) :=
  (val3_keep V0 main_arg11 (by decide)).trans (val2_arg11 V0)
theorem val3_v1 (V0 : Valuation τ sig (Elt F)) : val3 V0 (no_index (Proc.devRef .tc main_v1)) = atArgs res_v1 V0 :=
  (val3_keep V0 main_v1 (by decide)).trans (val2_v1 V0)
theorem val3_v3 (V0 : Valuation τ sig (Elt F)) : val3 V0 (no_index (Proc.devRef .tc main_v3)) = atArgs res_v3 V0 :=
  (val3_keep V0 main_v3 (by decide)).trans (val2_v3 V0)
theorem val3_v10 (V0 : Valuation τ sig (Elt F)) : val3 V0 (no_index (Proc.devRef .tc main_v10)) = atArgs res_v10 V0 :=
  (val3_keep V0 main_v10 (by decide)).trans (val2_v10 V0)
theorem val3_v17 (V0 : Valuation τ sig (Elt F)) : val3 V0 (no_index (Proc.devRef .tc main_v17)) = atArgs res_v17 V0 := by
  unfold val3
  simp only [w2]
  after_results_simp
  simp only [val2_v1, val2_v14, val2_v12, val2_v10] <;> rfl
theorem val3_v22 (V0 : Valuation τ sig (Elt F)) : val3 V0 (no_index (Proc.devRef .tc main_v22)) = atArgs res_v22 V0 := by
  unfold val3
  simp only [w2]
  after_results_simp
  simp only [val2_v3] <;> rfl

/-- The device's buffer contents after the first 4 windows. -/
def val4 (V0 : Valuation τ sig (Elt F)) : Valuation τ sig (Elt F) := after w3 (val3 V0)
/-- The buffers that window writes. -/
abbrev w3_W : List (Ref sig .tc) := [main_v23, main_v24, main_v25, main_v26, main_v27, main_c_5, main_v28, main_v29, main_c_6, main_v30]
theorem w3_writes : (w3 : List (HloOp τ sig (Elt F))).Forall fun op => op.writes ⊆ (w3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_arg0 (V0 : Valuation τ sig (Elt F)) : val4 V0 (no_index (Proc.devRef .tc main_arg0)) = V0 (Proc.devRef .tc main_arg0) :=
  (val4_keep V0 main_arg0 (by decide)).trans (val3_arg0 V0)
theorem val4_arg1 (V0 : Valuation τ sig (Elt F)) : val4 V0 (no_index (Proc.devRef .tc main_arg1)) = V0 (Proc.devRef .tc main_arg1) :=
  (val4_keep V0 main_arg1 (by decide)).trans (val3_arg1 V0)
theorem val4_arg2 (V0 : Valuation τ sig (Elt F)) : val4 V0 (no_index (Proc.devRef .tc main_arg2)) = V0 (Proc.devRef .tc main_arg2) :=
  (val4_keep V0 main_arg2 (by decide)).trans (val3_arg2 V0)
theorem val4_arg3 (V0 : Valuation τ sig (Elt F)) : val4 V0 (no_index (Proc.devRef .tc main_arg3)) = V0 (Proc.devRef .tc main_arg3) :=
  (val4_keep V0 main_arg3 (by decide)).trans (val3_arg3 V0)
theorem val4_arg4 (V0 : Valuation τ sig (Elt F)) : val4 V0 (no_index (Proc.devRef .tc main_arg4)) = V0 (Proc.devRef .tc main_arg4) :=
  (val4_keep V0 main_arg4 (by decide)).trans (val3_arg4 V0)
theorem val4_arg5 (V0 : Valuation τ sig (Elt F)) : val4 V0 (no_index (Proc.devRef .tc main_arg5)) = V0 (Proc.devRef .tc main_arg5) :=
  (val4_keep V0 main_arg5 (by decide)).trans (val3_arg5 V0)
theorem val4_arg6 (V0 : Valuation τ sig (Elt F)) : val4 V0 (no_index (Proc.devRef .tc main_arg6)) = V0 (Proc.devRef .tc main_arg6) :=
  (val4_keep V0 main_arg6 (by decide)).trans (val3_arg6 V0)
theorem val4_arg7 (V0 : Valuation τ sig (Elt F)) : val4 V0 (no_index (Proc.devRef .tc main_arg7)) = V0 (Proc.devRef .tc main_arg7) :=
  (val4_keep V0 main_arg7 (by decide)).trans (val3_arg7 V0)
theorem val4_arg8 (V0 : Valuation τ sig (Elt F)) : val4 V0 (no_index (Proc.devRef .tc main_arg8)) = V0 (Proc.devRef .tc main_arg8) :=
  (val4_keep V0 main_arg8 (by decide)).trans (val3_arg8 V0)
theorem val4_arg9 (V0 : Valuation τ sig (Elt F)) : val4 V0 (no_index (Proc.devRef .tc main_arg9)) = V0 (Proc.devRef .tc main_arg9) :=
  (val4_keep V0 main_arg9 (by decide)).trans (val3_arg9 V0)
theorem val4_arg10 (V0 : Valuation τ sig (Elt F)) : val4 V0 (no_index (Proc.devRef .tc main_arg10)) = V0 (Proc.devRef .tc main_arg10) :=
  (val4_keep V0 main_arg10 (by decide)).trans (val3_arg10 V0)
theorem val4_arg11 (V0 : Valuation τ sig (Elt F)) : val4 V0 (no_index (Proc.devRef .tc main_arg11)) = V0 (Proc.devRef .tc main_arg11) :=
  (val4_keep V0 main_arg11 (by decide)).trans (val3_arg11 V0)
theorem val4_v1 (V0 : Valuation τ sig (Elt F)) : val4 V0 (no_index (Proc.devRef .tc main_v1)) = atArgs res_v1 V0 :=
  (val4_keep V0 main_v1 (by decide)).trans (val3_v1 V0)
theorem val4_v3 (V0 : Valuation τ sig (Elt F)) : val4 V0 (no_index (Proc.devRef .tc main_v3)) = atArgs res_v3 V0 :=
  (val4_keep V0 main_v3 (by decide)).trans (val3_v3 V0)
theorem val4_v25 (V0 : Valuation τ sig (Elt F)) : val4 V0 (no_index (Proc.devRef .tc main_v25)) = atArgs res_v25 V0 := by
  unfold val4
  simp only [w3]
  after_results_simp
  simp only [val3_v22, val3_v10, val3_v17] <;> rfl
theorem val4_v26 (V0 : Valuation τ sig (Elt F)) : val4 V0 (no_index (Proc.devRef .tc main_v26)) = atArgs res_v26 V0 := by
  unfold val4
  simp only [w3]
  after_results_simp
  simp only [val3_v10] <;> rfl
theorem val4_v27 (V0 : Valuation τ sig (Elt F)) : val4 V0 (no_index (Proc.devRef .tc main_v27)) = atArgs res_v27 V0 := by
  unfold val4
  simp only [w3]
  after_results_simp
  simp only [val3_arg2, val3_arg0] <;> rfl
theorem val4_v29 (V0 : Valuation τ sig (Elt F)) : val4 V0 (no_index (Proc.devRef .tc main_v29)) = atArgs res_v29 V0 := by
  unfold val4
  simp only [w3]
  after_results_simp
  simp only [val3_v1] <;> rfl
theorem val4_v30 (V0 : Valuation τ sig (Elt F)) : val4 V0 (no_index (Proc.devRef .tc main_v30)) = atArgs res_v30 V0 := by
  unfold val4
  simp only [w3]
  after_results_simp
  all_goals rfl

/-- The device's buffer contents after the first 5 windows. -/
def val5 (V0 : Valuation τ sig (Elt F)) : Valuation τ sig (Elt F) := after w4 (val4 V0)
/-- The buffers that window writes. -/
abbrev w4_W : List (Ref sig .tc) := [main_v31, main_v32, main_v33, main_v34, main_v35, main_v36, main_v37, main_cst_7, main_v38, main_v39]
theorem w4_writes : (w4 : List (HloOp τ sig (Elt F))).Forall fun op => op.writes ⊆ (w4_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_arg0 (V0 : Valuation τ sig (Elt F)) : val5 V0 (no_index (Proc.devRef .tc main_arg0)) = V0 (Proc.devRef .tc main_arg0) :=
  (val5_keep V0 main_arg0 (by decide)).trans (val4_arg0 V0)
theorem val5_arg1 (V0 : Valuation τ sig (Elt F)) : val5 V0 (no_index (Proc.devRef .tc main_arg1)) = V0 (Proc.devRef .tc main_arg1) :=
  (val5_keep V0 main_arg1 (by decide)).trans (val4_arg1 V0)
theorem val5_arg2 (V0 : Valuation τ sig (Elt F)) : val5 V0 (no_index (Proc.devRef .tc main_arg2)) = V0 (Proc.devRef .tc main_arg2) :=
  (val5_keep V0 main_arg2 (by decide)).trans (val4_arg2 V0)
theorem val5_arg3 (V0 : Valuation τ sig (Elt F)) : val5 V0 (no_index (Proc.devRef .tc main_arg3)) = V0 (Proc.devRef .tc main_arg3) :=
  (val5_keep V0 main_arg3 (by decide)).trans (val4_arg3 V0)
theorem val5_arg4 (V0 : Valuation τ sig (Elt F)) : val5 V0 (no_index (Proc.devRef .tc main_arg4)) = V0 (Proc.devRef .tc main_arg4) :=
  (val5_keep V0 main_arg4 (by decide)).trans (val4_arg4 V0)
theorem val5_arg5 (V0 : Valuation τ sig (Elt F)) : val5 V0 (no_index (Proc.devRef .tc main_arg5)) = V0 (Proc.devRef .tc main_arg5) :=
  (val5_keep V0 main_arg5 (by decide)).trans (val4_arg5 V0)
theorem val5_arg6 (V0 : Valuation τ sig (Elt F)) : val5 V0 (no_index (Proc.devRef .tc main_arg6)) = V0 (Proc.devRef .tc main_arg6) :=
  (val5_keep V0 main_arg6 (by decide)).trans (val4_arg6 V0)
theorem val5_arg7 (V0 : Valuation τ sig (Elt F)) : val5 V0 (no_index (Proc.devRef .tc main_arg7)) = V0 (Proc.devRef .tc main_arg7) :=
  (val5_keep V0 main_arg7 (by decide)).trans (val4_arg7 V0)
theorem val5_arg8 (V0 : Valuation τ sig (Elt F)) : val5 V0 (no_index (Proc.devRef .tc main_arg8)) = V0 (Proc.devRef .tc main_arg8) :=
  (val5_keep V0 main_arg8 (by decide)).trans (val4_arg8 V0)
theorem val5_arg9 (V0 : Valuation τ sig (Elt F)) : val5 V0 (no_index (Proc.devRef .tc main_arg9)) = V0 (Proc.devRef .tc main_arg9) :=
  (val5_keep V0 main_arg9 (by decide)).trans (val4_arg9 V0)
theorem val5_arg10 (V0 : Valuation τ sig (Elt F)) : val5 V0 (no_index (Proc.devRef .tc main_arg10)) = V0 (Proc.devRef .tc main_arg10) :=
  (val5_keep V0 main_arg10 (by decide)).trans (val4_arg10 V0)
theorem val5_arg11 (V0 : Valuation τ sig (Elt F)) : val5 V0 (no_index (Proc.devRef .tc main_arg11)) = V0 (Proc.devRef .tc main_arg11) :=
  (val5_keep V0 main_arg11 (by decide)).trans (val4_arg11 V0)
theorem val5_v1 (V0 : Valuation τ sig (Elt F)) : val5 V0 (no_index (Proc.devRef .tc main_v1)) = atArgs res_v1 V0 :=
  (val5_keep V0 main_v1 (by decide)).trans (val4_v1 V0)
theorem val5_v3 (V0 : Valuation τ sig (Elt F)) : val5 V0 (no_index (Proc.devRef .tc main_v3)) = atArgs res_v3 V0 :=
  (val5_keep V0 main_v3 (by decide)).trans (val4_v3 V0)
theorem val5_v25 (V0 : Valuation τ sig (Elt F)) : val5 V0 (no_index (Proc.devRef .tc main_v25)) = atArgs res_v25 V0 :=
  (val5_keep V0 main_v25 (by decide)).trans (val4_v25 V0)
theorem val5_v26 (V0 : Valuation τ sig (Elt F)) : val5 V0 (no_index (Proc.devRef .tc main_v26)) = atArgs res_v26 V0 :=
  (val5_keep V0 main_v26 (by decide)).trans (val4_v26 V0)
theorem val5_v27 (V0 : Valuation τ sig (Elt F)) : val5 V0 (no_index (Proc.devRef .tc main_v27)) = atArgs res_v27 V0 :=
  (val5_keep V0 main_v27 (by decide)).trans (val4_v27 V0)
theorem val5_v37 (V0 : Valuation τ sig (Elt F)) : val5 V0 (no_index (Proc.devRef .tc main_v37)) = atArgs res_v37 V0 := by
  unfold val5
  simp only [w4]
  after_results_simp
  simp only [val4_v25, val4_v1, val4_v30, val4_v29, val4_v27] <;> rfl
theorem val5_v38 (V0 : Valuation τ sig (Elt F)) : val5 V0 (no_index (Proc.devRef .tc main_v38)) = atArgs res_v38 V0 := by
  unfold val5
  simp only [w4]
  after_results_simp
  all_goals rfl
theorem val5_v39 (V0 : Valuation τ sig (Elt F)) : val5 V0 (no_index (Proc.devRef .tc main_v39)) = atArgs res_v39 V0 := by
  unfold val5
  simp only [w4]
  after_results_simp
  simp only [val4_v3] <;> rfl

/-- The device's buffer contents after the first 6 windows. -/
def val6 (V0 : Valuation τ sig (Elt F)) : Valuation τ sig (Elt F) := after w5 (val5 V0)
/-- The buffers that window writes. -/
abbrev w5_W : List (Ref sig .tc) := [main_v40, main_v41, main_v42, main_v43, main_v44, main_v45, main_v46, main_v47, main_cst_8, main_v48]
theorem w5_writes : (w5 : List (HloOp τ sig (Elt F))).Forall fun op => op.writes ⊆ (w5_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_arg0 (V0 : Valuation τ sig (Elt F)) : val6 V0 (no_index (Proc.devRef .tc main_arg0)) = V0 (Proc.devRef .tc main_arg0) :=
  (val6_keep V0 main_arg0 (by decide)).trans (val5_arg0 V0)
theorem val6_arg1 (V0 : Valuation τ sig (Elt F)) : val6 V0 (no_index (Proc.devRef .tc main_arg1)) = V0 (Proc.devRef .tc main_arg1) :=
  (val6_keep V0 main_arg1 (by decide)).trans (val5_arg1 V0)
theorem val6_arg2 (V0 : Valuation τ sig (Elt F)) : val6 V0 (no_index (Proc.devRef .tc main_arg2)) = V0 (Proc.devRef .tc main_arg2) :=
  (val6_keep V0 main_arg2 (by decide)).trans (val5_arg2 V0)
theorem val6_arg3 (V0 : Valuation τ sig (Elt F)) : val6 V0 (no_index (Proc.devRef .tc main_arg3)) = V0 (Proc.devRef .tc main_arg3) :=
  (val6_keep V0 main_arg3 (by decide)).trans (val5_arg3 V0)
theorem val6_arg4 (V0 : Valuation τ sig (Elt F)) : val6 V0 (no_index (Proc.devRef .tc main_arg4)) = V0 (Proc.devRef .tc main_arg4) :=
  (val6_keep V0 main_arg4 (by decide)).trans (val5_arg4 V0)
theorem val6_arg5 (V0 : Valuation τ sig (Elt F)) : val6 V0 (no_index (Proc.devRef .tc main_arg5)) = V0 (Proc.devRef .tc main_arg5) :=
  (val6_keep V0 main_arg5 (by decide)).trans (val5_arg5 V0)
theorem val6_arg6 (V0 : Valuation τ sig (Elt F)) : val6 V0 (no_index (Proc.devRef .tc main_arg6)) = V0 (Proc.devRef .tc main_arg6) :=
  (val6_keep V0 main_arg6 (by decide)).trans (val5_arg6 V0)
theorem val6_arg7 (V0 : Valuation τ sig (Elt F)) : val6 V0 (no_index (Proc.devRef .tc main_arg7)) = V0 (Proc.devRef .tc main_arg7) :=
  (val6_keep V0 main_arg7 (by decide)).trans (val5_arg7 V0)
theorem val6_arg8 (V0 : Valuation τ sig (Elt F)) : val6 V0 (no_index (Proc.devRef .tc main_arg8)) = V0 (Proc.devRef .tc main_arg8) :=
  (val6_keep V0 main_arg8 (by decide)).trans (val5_arg8 V0)
theorem val6_arg9 (V0 : Valuation τ sig (Elt F)) : val6 V0 (no_index (Proc.devRef .tc main_arg9)) = V0 (Proc.devRef .tc main_arg9) :=
  (val6_keep V0 main_arg9 (by decide)).trans (val5_arg9 V0)
theorem val6_arg10 (V0 : Valuation τ sig (Elt F)) : val6 V0 (no_index (Proc.devRef .tc main_arg10)) = V0 (Proc.devRef .tc main_arg10) :=
  (val6_keep V0 main_arg10 (by decide)).trans (val5_arg10 V0)
theorem val6_arg11 (V0 : Valuation τ sig (Elt F)) : val6 V0 (no_index (Proc.devRef .tc main_arg11)) = V0 (Proc.devRef .tc main_arg11) :=
  (val6_keep V0 main_arg11 (by decide)).trans (val5_arg11 V0)
theorem val6_v1 (V0 : Valuation τ sig (Elt F)) : val6 V0 (no_index (Proc.devRef .tc main_v1)) = atArgs res_v1 V0 :=
  (val6_keep V0 main_v1 (by decide)).trans (val5_v1 V0)
theorem val6_v3 (V0 : Valuation τ sig (Elt F)) : val6 V0 (no_index (Proc.devRef .tc main_v3)) = atArgs res_v3 V0 :=
  (val6_keep V0 main_v3 (by decide)).trans (val5_v3 V0)
theorem val6_v25 (V0 : Valuation τ sig (Elt F)) : val6 V0 (no_index (Proc.devRef .tc main_v25)) = atArgs res_v25 V0 :=
  (val6_keep V0 main_v25 (by decide)).trans (val5_v25 V0)
theorem val6_v26 (V0 : Valuation τ sig (Elt F)) : val6 V0 (no_index (Proc.devRef .tc main_v26)) = atArgs res_v26 V0 :=
  (val6_keep V0 main_v26 (by decide)).trans (val5_v26 V0)
theorem val6_v47 (V0 : Valuation τ sig (Elt F)) : val6 V0 (no_index (Proc.devRef .tc main_v47)) = atArgs res_v47 V0 := by
  unfold val6
  simp only [w5]
  after_results_simp
  simp only [val5_arg3, val5_v26, val5_v27, val5_v37, val5_v39, val5_v38] <;> rfl
theorem val6_v48 (V0 : Valuation τ sig (Elt F)) : val6 V0 (no_index (Proc.devRef .tc main_v48)) = atArgs res_v48 V0 := by
  unfold val6
  simp only [w5]
  after_results_simp
  simp only [val5_arg3, val5_v26, val5_v27, val5_v37, val5_v39, val5_v38] <;> rfl

/-- The device's buffer contents after the first 7 windows. -/
def val7 (V0 : Valuation τ sig (Elt F)) : Valuation τ sig (Elt F) := after w6 (val6 V0)
/-- The buffers that window writes. -/
abbrev w6_W : List (Ref sig .tc) := [main_cst_9, main_v49, main_v50, main_c_10, main_call0_cst, main_call0_v0, main_call0_v1, main_call0_cst_0, main_call0_v2, main_call0_v3]
theorem w6_writes : (w6 : List (HloOp τ sig (Elt F))).Forall fun op => op.writes ⊆ (w6_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_arg0 (V0 : Valuation τ sig (Elt F)) : val7 V0 (no_index (Proc.devRef .tc main_arg0)) = V0 (Proc.devRef .tc main_arg0) :=
  (val7_keep V0 main_arg0 (by decide)).trans (val6_arg0 V0)
theorem val7_arg1 (V0 : Valuation τ sig (Elt F)) : val7 V0 (no_index (Proc.devRef .tc main_arg1)) = V0 (Proc.devRef .tc main_arg1) :=
  (val7_keep V0 main_arg1 (by decide)).trans (val6_arg1 V0)
theorem val7_arg2 (V0 : Valuation τ sig (Elt F)) : val7 V0 (no_index (Proc.devRef .tc main_arg2)) = V0 (Proc.devRef .tc main_arg2) :=
  (val7_keep V0 main_arg2 (by decide)).trans (val6_arg2 V0)
theorem val7_arg3 (V0 : Valuation τ sig (Elt F)) : val7 V0 (no_index (Proc.devRef .tc main_arg3)) = V0 (Proc.devRef .tc main_arg3) :=
  (val7_keep V0 main_arg3 (by decide)).trans (val6_arg3 V0)
theorem val7_arg4 (V0 : Valuation τ sig (Elt F)) : val7 V0 (no_index (Proc.devRef .tc main_arg4)) = V0 (Proc.devRef .tc main_arg4) :=
  (val7_keep V0 main_arg4 (by decide)).trans (val6_arg4 V0)
theorem val7_arg5 (V0 : Valuation τ sig (Elt F)) : val7 V0 (no_index (Proc.devRef .tc main_arg5)) = V0 (Proc.devRef .tc main_arg5) :=
  (val7_keep V0 main_arg5 (by decide)).trans (val6_arg5 V0)
theorem val7_arg6 (V0 : Valuation τ sig (Elt F)) : val7 V0 (no_index (Proc.devRef .tc main_arg6)) = V0 (Proc.devRef .tc main_arg6) :=
  (val7_keep V0 main_arg6 (by decide)).trans (val6_arg6 V0)
theorem val7_arg7 (V0 : Valuation τ sig (Elt F)) : val7 V0 (no_index (Proc.devRef .tc main_arg7)) = V0 (Proc.devRef .tc main_arg7) :=
  (val7_keep V0 main_arg7 (by decide)).trans (val6_arg7 V0)
theorem val7_arg8 (V0 : Valuation τ sig (Elt F)) : val7 V0 (no_index (Proc.devRef .tc main_arg8)) = V0 (Proc.devRef .tc main_arg8) :=
  (val7_keep V0 main_arg8 (by decide)).trans (val6_arg8 V0)
theorem val7_arg9 (V0 : Valuation τ sig (Elt F)) : val7 V0 (no_index (Proc.devRef .tc main_arg9)) = V0 (Proc.devRef .tc main_arg9) :=
  (val7_keep V0 main_arg9 (by decide)).trans (val6_arg9 V0)
theorem val7_arg10 (V0 : Valuation τ sig (Elt F)) : val7 V0 (no_index (Proc.devRef .tc main_arg10)) = V0 (Proc.devRef .tc main_arg10) :=
  (val7_keep V0 main_arg10 (by decide)).trans (val6_arg10 V0)
theorem val7_arg11 (V0 : Valuation τ sig (Elt F)) : val7 V0 (no_index (Proc.devRef .tc main_arg11)) = V0 (Proc.devRef .tc main_arg11) :=
  (val7_keep V0 main_arg11 (by decide)).trans (val6_arg11 V0)
theorem val7_v1 (V0 : Valuation τ sig (Elt F)) : val7 V0 (no_index (Proc.devRef .tc main_v1)) = atArgs res_v1 V0 :=
  (val7_keep V0 main_v1 (by decide)).trans (val6_v1 V0)
theorem val7_v3 (V0 : Valuation τ sig (Elt F)) : val7 V0 (no_index (Proc.devRef .tc main_v3)) = atArgs res_v3 V0 :=
  (val7_keep V0 main_v3 (by decide)).trans (val6_v3 V0)
theorem val7_v25 (V0 : Valuation τ sig (Elt F)) : val7 V0 (no_index (Proc.devRef .tc main_v25)) = atArgs res_v25 V0 :=
  (val7_keep V0 main_v25 (by decide)).trans (val6_v25 V0)
theorem val7_v26 (V0 : Valuation τ sig (Elt F)) : val7 V0 (no_index (Proc.devRef .tc main_v26)) = atArgs res_v26 V0 :=
  (val7_keep V0 main_v26 (by decide)).trans (val6_v26 V0)
theorem val7_v47 (V0 : Valuation τ sig (Elt F)) : val7 V0 (no_index (Proc.devRef .tc main_v47)) = atArgs res_v47 V0 :=
  (val7_keep V0 main_v47 (by decide)).trans (val6_v47 V0)
theorem val7_v50 (V0 : Valuation τ sig (Elt F)) : val7 V0 (no_index (Proc.devRef .tc main_v50)) = atArgs res_v50 V0 := by
  unfold val7
  simp only [w6]
  after_results_simp
  simp only [val6_v48] <;> rfl
theorem val7_c_10 (V0 : Valuation τ sig (Elt F)) : val7 V0 (no_index (Proc.devRef .tc main_c_10)) = atArgs res_c_10 V0 := by
  unfold val7
  simp only [w6]
  after_results_simp
  all_goals rfl
theorem val7_call0_v3 (V0 : Valuation τ sig (Elt F)) : val7 V0 (no_index (Proc.devRef .tc main_call0_v3)) = atArgs res_call0_v3 V0 := by
  unfold val7
  simp only [w6]
  after_results_simp
  simp only [val6_v47] <;> rfl

/-- The device's buffer contents after the first 8 windows. -/
def val8 (V0 : Valuation τ sig (Elt F)) : Valuation τ sig (Elt F) := after w7 (val7 V0)
/-- The buffers that window writes. -/
abbrev w7_W : List (Ref sig .tc) := [main_call0_v4, main_call0_v5, main_call0_v6, main_call0_v7, main_call0_cst_1, main_call0_v8, main_call0_cst_2, main_call0_v9, main_call0_v10, main_call0_v11]
theorem w7_writes : (w7 : List (HloOp τ sig (Elt F))).Forall fun op => op.writes ⊆ (w7_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_arg0 (V0 : Valuation τ sig (Elt F)) : val8 V0 (no_index (Proc.devRef .tc main_arg0)) = V0 (Proc.devRef .tc main_arg0) :=
  (val8_keep V0 main_arg0 (by decide)).trans (val7_arg0 V0)
theorem val8_arg1 (V0 : Valuation τ sig (Elt F)) : val8 V0 (no_index (Proc.devRef .tc main_arg1)) = V0 (Proc.devRef .tc main_arg1) :=
  (val8_keep V0 main_arg1 (by decide)).trans (val7_arg1 V0)
theorem val8_arg2 (V0 : Valuation τ sig (Elt F)) : val8 V0 (no_index (Proc.devRef .tc main_arg2)) = V0 (Proc.devRef .tc main_arg2) :=
  (val8_keep V0 main_arg2 (by decide)).trans (val7_arg2 V0)
theorem val8_arg3 (V0 : Valuation τ sig (Elt F)) : val8 V0 (no_index (Proc.devRef .tc main_arg3)) = V0 (Proc.devRef .tc main_arg3) :=
  (val8_keep V0 main_arg3 (by decide)).trans (val7_arg3 V0)
theorem val8_arg4 (V0 : Valuation τ sig (Elt F)) : val8 V0 (no_index (Proc.devRef .tc main_arg4)) = V0 (Proc.devRef .tc main_arg4) :=
  (val8_keep V0 main_arg4 (by decide)).trans (val7_arg4 V0)
theorem val8_arg5 (V0 : Valuation τ sig (Elt F)) : val8 V0 (no_index (Proc.devRef .tc main_arg5)) = V0 (Proc.devRef .tc main_arg5) :=
  (val8_keep V0 main_arg5 (by decide)).trans (val7_arg5 V0)
theorem val8_arg6 (V0 : Valuation τ sig (Elt F)) : val8 V0 (no_index (Proc.devRef .tc main_arg6)) = V0 (Proc.devRef .tc main_arg6) :=
  (val8_keep V0 main_arg6 (by decide)).trans (val7_arg6 V0)
theorem val8_arg7 (V0 : Valuation τ sig (Elt F)) : val8 V0 (no_index (Proc.devRef .tc main_arg7)) = V0 (Proc.devRef .tc main_arg7) :=
  (val8_keep V0 main_arg7 (by decide)).trans (val7_arg7 V0)
theorem val8_arg8 (V0 : Valuation τ sig (Elt F)) : val8 V0 (no_index (Proc.devRef .tc main_arg8)) = V0 (Proc.devRef .tc main_arg8) :=
  (val8_keep V0 main_arg8 (by decide)).trans (val7_arg8 V0)
theorem val8_arg9 (V0 : Valuation τ sig (Elt F)) : val8 V0 (no_index (Proc.devRef .tc main_arg9)) = V0 (Proc.devRef .tc main_arg9) :=
  (val8_keep V0 main_arg9 (by decide)).trans (val7_arg9 V0)
theorem val8_arg10 (V0 : Valuation τ sig (Elt F)) : val8 V0 (no_index (Proc.devRef .tc main_arg10)) = V0 (Proc.devRef .tc main_arg10) :=
  (val8_keep V0 main_arg10 (by decide)).trans (val7_arg10 V0)
theorem val8_arg11 (V0 : Valuation τ sig (Elt F)) : val8 V0 (no_index (Proc.devRef .tc main_arg11)) = V0 (Proc.devRef .tc main_arg11) :=
  (val8_keep V0 main_arg11 (by decide)).trans (val7_arg11 V0)
theorem val8_v1 (V0 : Valuation τ sig (Elt F)) : val8 V0 (no_index (Proc.devRef .tc main_v1)) = atArgs res_v1 V0 :=
  (val8_keep V0 main_v1 (by decide)).trans (val7_v1 V0)
theorem val8_v3 (V0 : Valuation τ sig (Elt F)) : val8 V0 (no_index (Proc.devRef .tc main_v3)) = atArgs res_v3 V0 :=
  (val8_keep V0 main_v3 (by decide)).trans (val7_v3 V0)
theorem val8_v25 (V0 : Valuation τ sig (Elt F)) : val8 V0 (no_index (Proc.devRef .tc main_v25)) = atArgs res_v25 V0 :=
  (val8_keep V0 main_v25 (by decide)).trans (val7_v25 V0)
theorem val8_v26 (V0 : Valuation τ sig (Elt F)) : val8 V0 (no_index (Proc.devRef .tc main_v26)) = atArgs res_v26 V0 :=
  (val8_keep V0 main_v26 (by decide)).trans (val7_v26 V0)
theorem val8_v47 (V0 : Valuation τ sig (Elt F)) : val8 V0 (no_index (Proc.devRef .tc main_v47)) = atArgs res_v47 V0 :=
  (val8_keep V0 main_v47 (by decide)).trans (val7_v47 V0)
theorem val8_v50 (V0 : Valuation τ sig (Elt F)) : val8 V0 (no_index (Proc.devRef .tc main_v50)) = atArgs res_v50 V0 :=
  (val8_keep V0 main_v50 (by decide)).trans (val7_v50 V0)
theorem val8_call0_v8 (V0 : Valuation τ sig (Elt F)) : val8 V0 (no_index (Proc.devRef .tc main_call0_v8)) = atArgs res_call0_v8 V0 := by
  unfold val8
  simp only [w7]
  after_results_simp
  simp only [val7_c_10] <;> rfl
theorem val8_call0_v11 (V0 : Valuation τ sig (Elt F)) : val8 V0 (no_index (Proc.devRef .tc main_call0_v11)) = atArgs res_call0_v11 V0 := by
  unfold val8
  simp only [w7]
  after_results_simp
  simp only [val7_c_10, val7_call0_v3, val7_v47] <;> rfl

/-- The device's buffer contents after the first 9 windows. -/
def val9 (V0 : Valuation τ sig (Elt F)) : Valuation τ sig (Elt F) := after w8 (val8 V0)
/-- The buffers that window writes. -/
abbrev w8_W : List (Ref sig .tc) := [main_call0_cst_3, main_call0_v12, main_call0_cst_4, main_call0_call0_v0, main_call0_call0_v1, main_v51, main_v52, main_v53, main_v54, main_cst_11]
theorem w8_writes : (w8 : List (HloOp τ sig (Elt F))).Forall fun op => op.writes ⊆ (w8_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_arg0 (V0 : Valuation τ sig (Elt F)) : val9 V0 (no_index (Proc.devRef .tc main_arg0)) = V0 (Proc.devRef .tc main_arg0) :=
  (val9_keep V0 main_arg0 (by decide)).trans (val8_arg0 V0)
theorem val9_arg1 (V0 : Valuation τ sig (Elt F)) : val9 V0 (no_index (Proc.devRef .tc main_arg1)) = V0 (Proc.devRef .tc main_arg1) :=
  (val9_keep V0 main_arg1 (by decide)).trans (val8_arg1 V0)
theorem val9_arg2 (V0 : Valuation τ sig (Elt F)) : val9 V0 (no_index (Proc.devRef .tc main_arg2)) = V0 (Proc.devRef .tc main_arg2) :=
  (val9_keep V0 main_arg2 (by decide)).trans (val8_arg2 V0)
theorem val9_arg3 (V0 : Valuation τ sig (Elt F)) : val9 V0 (no_index (Proc.devRef .tc main_arg3)) = V0 (Proc.devRef .tc main_arg3) :=
  (val9_keep V0 main_arg3 (by decide)).trans (val8_arg3 V0)
theorem val9_arg4 (V0 : Valuation τ sig (Elt F)) : val9 V0 (no_index (Proc.devRef .tc main_arg4)) = V0 (Proc.devRef .tc main_arg4) :=
  (val9_keep V0 main_arg4 (by decide)).trans (val8_arg4 V0)
theorem val9_arg5 (V0 : Valuation τ sig (Elt F)) : val9 V0 (no_index (Proc.devRef .tc main_arg5)) = V0 (Proc.devRef .tc main_arg5) :=
  (val9_keep V0 main_arg5 (by decide)).trans (val8_arg5 V0)
theorem val9_arg6 (V0 : Valuation τ sig (Elt F)) : val9 V0 (no_index (Proc.devRef .tc main_arg6)) = V0 (Proc.devRef .tc main_arg6) :=
  (val9_keep V0 main_arg6 (by decide)).trans (val8_arg6 V0)
theorem val9_arg7 (V0 : Valuation τ sig (Elt F)) : val9 V0 (no_index (Proc.devRef .tc main_arg7)) = V0 (Proc.devRef .tc main_arg7) :=
  (val9_keep V0 main_arg7 (by decide)).trans (val8_arg7 V0)
theorem val9_arg8 (V0 : Valuation τ sig (Elt F)) : val9 V0 (no_index (Proc.devRef .tc main_arg8)) = V0 (Proc.devRef .tc main_arg8) :=
  (val9_keep V0 main_arg8 (by decide)).trans (val8_arg8 V0)
theorem val9_arg9 (V0 : Valuation τ sig (Elt F)) : val9 V0 (no_index (Proc.devRef .tc main_arg9)) = V0 (Proc.devRef .tc main_arg9) :=
  (val9_keep V0 main_arg9 (by decide)).trans (val8_arg9 V0)
theorem val9_arg10 (V0 : Valuation τ sig (Elt F)) : val9 V0 (no_index (Proc.devRef .tc main_arg10)) = V0 (Proc.devRef .tc main_arg10) :=
  (val9_keep V0 main_arg10 (by decide)).trans (val8_arg10 V0)
theorem val9_arg11 (V0 : Valuation τ sig (Elt F)) : val9 V0 (no_index (Proc.devRef .tc main_arg11)) = V0 (Proc.devRef .tc main_arg11) :=
  (val9_keep V0 main_arg11 (by decide)).trans (val8_arg11 V0)
theorem val9_v1 (V0 : Valuation τ sig (Elt F)) : val9 V0 (no_index (Proc.devRef .tc main_v1)) = atArgs res_v1 V0 :=
  (val9_keep V0 main_v1 (by decide)).trans (val8_v1 V0)
theorem val9_v3 (V0 : Valuation τ sig (Elt F)) : val9 V0 (no_index (Proc.devRef .tc main_v3)) = atArgs res_v3 V0 :=
  (val9_keep V0 main_v3 (by decide)).trans (val8_v3 V0)
theorem val9_v25 (V0 : Valuation τ sig (Elt F)) : val9 V0 (no_index (Proc.devRef .tc main_v25)) = atArgs res_v25 V0 :=
  (val9_keep V0 main_v25 (by decide)).trans (val8_v25 V0)
theorem val9_v26 (V0 : Valuation τ sig (Elt F)) : val9 V0 (no_index (Proc.devRef .tc main_v26)) = atArgs res_v26 V0 :=
  (val9_keep V0 main_v26 (by decide)).trans (val8_v26 V0)
theorem val9_v51 (V0 : Valuation τ sig (Elt F)) : val9 V0 (no_index (Proc.devRef .tc main_v51)) = atArgs res_v51 V0 := by
  unfold val9
  simp only [w8]
  after_results_simp
  simp only [val8_call0_v11, val8_call0_v8] <;> rfl
theorem val9_v54 (V0 : Valuation τ sig (Elt F)) : val9 V0 (no_index (Proc.devRef .tc main_v54)) = atArgs res_v54 V0 := by
  unfold val9
  simp only [w8]
  after_results_simp
  simp only [val8_v50, val8_v47] <;> rfl
theorem val9_cst_11 (V0 : Valuation τ sig (Elt F)) : val9 V0 (no_index (Proc.devRef .tc main_cst_11)) = atArgs res_cst_11 V0 := by
  unfold val9
  simp only [w8]
  after_results_simp
  all_goals rfl

/-- The device's buffer contents after the first 10 windows. -/
def val10 (V0 : Valuation τ sig (Elt F)) : Valuation τ sig (Elt F) := after w9 (val9 V0)
/-- The buffers that window writes. -/
abbrev w9_W : List (Ref sig .tc) := [main_v55, main_v56, main_v57, main_v58, main_v59, main_v60, main_v61, main_v62, main_v63, main_v64]
theorem w9_writes : (w9 : List (HloOp τ sig (Elt F))).Forall fun op => op.writes ⊆ (w9_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_arg0 (V0 : Valuation τ sig (Elt F)) : val10 V0 (no_index (Proc.devRef .tc main_arg0)) = V0 (Proc.devRef .tc main_arg0) :=
  (val10_keep V0 main_arg0 (by decide)).trans (val9_arg0 V0)
theorem val10_arg1 (V0 : Valuation τ sig (Elt F)) : val10 V0 (no_index (Proc.devRef .tc main_arg1)) = V0 (Proc.devRef .tc main_arg1) :=
  (val10_keep V0 main_arg1 (by decide)).trans (val9_arg1 V0)
theorem val10_arg2 (V0 : Valuation τ sig (Elt F)) : val10 V0 (no_index (Proc.devRef .tc main_arg2)) = V0 (Proc.devRef .tc main_arg2) :=
  (val10_keep V0 main_arg2 (by decide)).trans (val9_arg2 V0)
theorem val10_arg3 (V0 : Valuation τ sig (Elt F)) : val10 V0 (no_index (Proc.devRef .tc main_arg3)) = V0 (Proc.devRef .tc main_arg3) :=
  (val10_keep V0 main_arg3 (by decide)).trans (val9_arg3 V0)
theorem val10_arg4 (V0 : Valuation τ sig (Elt F)) : val10 V0 (no_index (Proc.devRef .tc main_arg4)) = V0 (Proc.devRef .tc main_arg4) :=
  (val10_keep V0 main_arg4 (by decide)).trans (val9_arg4 V0)
theorem val10_arg5 (V0 : Valuation τ sig (Elt F)) : val10 V0 (no_index (Proc.devRef .tc main_arg5)) = V0 (Proc.devRef .tc main_arg5) :=
  (val10_keep V0 main_arg5 (by decide)).trans (val9_arg5 V0)
theorem val10_arg6 (V0 : Valuation τ sig (Elt F)) : val10 V0 (no_index (Proc.devRef .tc main_arg6)) = V0 (Proc.devRef .tc main_arg6) :=
  (val10_keep V0 main_arg6 (by decide)).trans (val9_arg6 V0)
theorem val10_arg7 (V0 : Valuation τ sig (Elt F)) : val10 V0 (no_index (Proc.devRef .tc main_arg7)) = V0 (Proc.devRef .tc main_arg7) :=
  (val10_keep V0 main_arg7 (by decide)).trans (val9_arg7 V0)
theorem val10_arg8 (V0 : Valuation τ sig (Elt F)) : val10 V0 (no_index (Proc.devRef .tc main_arg8)) = V0 (Proc.devRef .tc main_arg8) :=
  (val10_keep V0 main_arg8 (by decide)).trans (val9_arg8 V0)
theorem val10_arg9 (V0 : Valuation τ sig (Elt F)) : val10 V0 (no_index (Proc.devRef .tc main_arg9)) = V0 (Proc.devRef .tc main_arg9) :=
  (val10_keep V0 main_arg9 (by decide)).trans (val9_arg9 V0)
theorem val10_arg10 (V0 : Valuation τ sig (Elt F)) : val10 V0 (no_index (Proc.devRef .tc main_arg10)) = V0 (Proc.devRef .tc main_arg10) :=
  (val10_keep V0 main_arg10 (by decide)).trans (val9_arg10 V0)
theorem val10_arg11 (V0 : Valuation τ sig (Elt F)) : val10 V0 (no_index (Proc.devRef .tc main_arg11)) = V0 (Proc.devRef .tc main_arg11) :=
  (val10_keep V0 main_arg11 (by decide)).trans (val9_arg11 V0)
theorem val10_v1 (V0 : Valuation τ sig (Elt F)) : val10 V0 (no_index (Proc.devRef .tc main_v1)) = atArgs res_v1 V0 :=
  (val10_keep V0 main_v1 (by decide)).trans (val9_v1 V0)
theorem val10_v3 (V0 : Valuation τ sig (Elt F)) : val10 V0 (no_index (Proc.devRef .tc main_v3)) = atArgs res_v3 V0 :=
  (val10_keep V0 main_v3 (by decide)).trans (val9_v3 V0)
theorem val10_v25 (V0 : Valuation τ sig (Elt F)) : val10 V0 (no_index (Proc.devRef .tc main_v25)) = atArgs res_v25 V0 :=
  (val10_keep V0 main_v25 (by decide)).trans (val9_v25 V0)
theorem val10_v26 (V0 : Valuation τ sig (Elt F)) : val10 V0 (no_index (Proc.devRef .tc main_v26)) = atArgs res_v26 V0 :=
  (val10_keep V0 main_v26 (by decide)).trans (val9_v26 V0)
theorem val10_v63 (V0 : Valuation τ sig (Elt F)) : val10 V0 (no_index (Proc.devRef .tc main_v63)) = atArgs res_v63 V0 := by
  unfold val10
  simp only [w9]
  after_results_simp
  simp only [val9_arg4, val9_cst_11, val9_v51, val9_v54] <;> rfl
theorem val10_v64 (V0 : Valuation τ sig (Elt F)) : val10 V0 (no_index (Proc.devRef .tc main_v64)) = atArgs res_v64 V0 := by
  unfold val10
  simp only [w9]
  after_results_simp
  simp only [val9_arg5] <;> rfl

/-- The device's buffer contents after the first 11 windows. -/
def val11 (V0 : Valuation τ sig (Elt F)) : Valuation τ sig (Elt F) := after w10 (val10 V0)
/-- The buffers that window writes. -/
abbrev w10_W : List (Ref sig .tc) := [main_v65, main_v66, main_call1_cst, main_call1_v0, main_v67, main_v68, main_c_12, main_v69, main_v70, main_c_13]
theorem w10_writes : (w10 : List (HloOp τ sig (Elt F))).Forall fun op => op.writes ⊆ (w10_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_arg0 (V0 : Valuation τ sig (Elt F)) : val11 V0 (no_index (Proc.devRef .tc main_arg0)) = V0 (Proc.devRef .tc main_arg0) :=
  (val11_keep V0 main_arg0 (by decide)).trans (val10_arg0 V0)
theorem val11_arg1 (V0 : Valuation τ sig (Elt F)) : val11 V0 (no_index (Proc.devRef .tc main_arg1)) = V0 (Proc.devRef .tc main_arg1) :=
  (val11_keep V0 main_arg1 (by decide)).trans (val10_arg1 V0)
theorem val11_arg2 (V0 : Valuation τ sig (Elt F)) : val11 V0 (no_index (Proc.devRef .tc main_arg2)) = V0 (Proc.devRef .tc main_arg2) :=
  (val11_keep V0 main_arg2 (by decide)).trans (val10_arg2 V0)
theorem val11_arg3 (V0 : Valuation τ sig (Elt F)) : val11 V0 (no_index (Proc.devRef .tc main_arg3)) = V0 (Proc.devRef .tc main_arg3) :=
  (val11_keep V0 main_arg3 (by decide)).trans (val10_arg3 V0)
theorem val11_arg4 (V0 : Valuation τ sig (Elt F)) : val11 V0 (no_index (Proc.devRef .tc main_arg4)) = V0 (Proc.devRef .tc main_arg4) :=
  (val11_keep V0 main_arg4 (by decide)).trans (val10_arg4 V0)
theorem val11_arg5 (V0 : Valuation τ sig (Elt F)) : val11 V0 (no_index (Proc.devRef .tc main_arg5)) = V0 (Proc.devRef .tc main_arg5) :=
  (val11_keep V0 main_arg5 (by decide)).trans (val10_arg5 V0)
theorem val11_arg6 (V0 : Valuation τ sig (Elt F)) : val11 V0 (no_index (Proc.devRef .tc main_arg6)) = V0 (Proc.devRef .tc main_arg6) :=
  (val11_keep V0 main_arg6 (by decide)).trans (val10_arg6 V0)
theorem val11_arg7 (V0 : Valuation τ sig (Elt F)) : val11 V0 (no_index (Proc.devRef .tc main_arg7)) = V0 (Proc.devRef .tc main_arg7) :=
  (val11_keep V0 main_arg7 (by decide)).trans (val10_arg7 V0)
theorem val11_arg8 (V0 : Valuation τ sig (Elt F)) : val11 V0 (no_index (Proc.devRef .tc main_arg8)) = V0 (Proc.devRef .tc main_arg8) :=
  (val11_keep V0 main_arg8 (by decide)).trans (val10_arg8 V0)
theorem val11_arg9 (V0 : Valuation τ sig (Elt F)) : val11 V0 (no_index (Proc.devRef .tc main_arg9)) = V0 (Proc.devRef .tc main_arg9) :=
  (val11_keep V0 main_arg9 (by decide)).trans (val10_arg9 V0)
theorem val11_arg10 (V0 : Valuation τ sig (Elt F)) : val11 V0 (no_index (Proc.devRef .tc main_arg10)) = V0 (Proc.devRef .tc main_arg10) :=
  (val11_keep V0 main_arg10 (by decide)).trans (val10_arg10 V0)
theorem val11_arg11 (V0 : Valuation τ sig (Elt F)) : val11 V0 (no_index (Proc.devRef .tc main_arg11)) = V0 (Proc.devRef .tc main_arg11) :=
  (val11_keep V0 main_arg11 (by decide)).trans (val10_arg11 V0)
theorem val11_v1 (V0 : Valuation τ sig (Elt F)) : val11 V0 (no_index (Proc.devRef .tc main_v1)) = atArgs res_v1 V0 :=
  (val11_keep V0 main_v1 (by decide)).trans (val10_v1 V0)
theorem val11_v3 (V0 : Valuation τ sig (Elt F)) : val11 V0 (no_index (Proc.devRef .tc main_v3)) = atArgs res_v3 V0 :=
  (val11_keep V0 main_v3 (by decide)).trans (val10_v3 V0)
theorem val11_v25 (V0 : Valuation τ sig (Elt F)) : val11 V0 (no_index (Proc.devRef .tc main_v25)) = atArgs res_v25 V0 :=
  (val11_keep V0 main_v25 (by decide)).trans (val10_v25 V0)
theorem val11_v26 (V0 : Valuation τ sig (Elt F)) : val11 V0 (no_index (Proc.devRef .tc main_v26)) = atArgs res_v26 V0 :=
  (val11_keep V0 main_v26 (by decide)).trans (val10_v26 V0)
theorem val11_v68 (V0 : Valuation τ sig (Elt F)) : val11 V0 (no_index (Proc.devRef .tc main_v68)) = atArgs res_v68 V0 := by
  unfold val11
  simp only [w10]
  after_results_simp
  simp only [val10_arg6, val10_v64, val10_v63] <;> rfl
theorem val11_v70 (V0 : Valuation τ sig (Elt F)) : val11 V0 (no_index (Proc.devRef .tc main_v70)) = atArgs res_v70 V0 := by
  unfold val11
  simp only [w10]
  after_results_simp
  simp only [val10_v1] <;> rfl
theorem val11_c_13 (V0 : Valuation τ sig (Elt F)) : val11 V0 (no_index (Proc.devRef .tc main_c_13)) = atArgs res_c_13 V0 := by
  unfold val11
  simp only [w10]
  after_results_simp
  all_goals rfl

/-- The device's buffer contents after the first 12 windows. -/
def val12 (V0 : Valuation τ sig (Elt F)) : Valuation τ sig (Elt F) := after w11 (val11 V0)
/-- The buffers that window writes. -/
abbrev w11_W : List (Ref sig .tc) := [main_v71, main_v72, main_v73, main_v74, main_v75, main_v76, main_v77, main_v78, main_cst_14, main_v79]
theorem w11_writes : (w11 : List (HloOp τ sig (Elt F))).Forall fun op => op.writes ⊆ (w11_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_arg0 (V0 : Valuation τ sig (Elt F)) : val12 V0 (no_index (Proc.devRef .tc main_arg0)) = V0 (Proc.devRef .tc main_arg0) :=
  (val12_keep V0 main_arg0 (by decide)).trans (val11_arg0 V0)
theorem val12_arg1 (V0 : Valuation τ sig (Elt F)) : val12 V0 (no_index (Proc.devRef .tc main_arg1)) = V0 (Proc.devRef .tc main_arg1) :=
  (val12_keep V0 main_arg1 (by decide)).trans (val11_arg1 V0)
theorem val12_arg2 (V0 : Valuation τ sig (Elt F)) : val12 V0 (no_index (Proc.devRef .tc main_arg2)) = V0 (Proc.devRef .tc main_arg2) :=
  (val12_keep V0 main_arg2 (by decide)).trans (val11_arg2 V0)
theorem val12_arg3 (V0 : Valuation τ sig (Elt F)) : val12 V0 (no_index (Proc.devRef .tc main_arg3)) = V0 (Proc.devRef .tc main_arg3) :=
  (val12_keep V0 main_arg3 (by decide)).trans (val11_arg3 V0)
theorem val12_arg4 (V0 : Valuation τ sig (Elt F)) : val12 V0 (no_index (Proc.devRef .tc main_arg4)) = V0 (Proc.devRef .tc main_arg4) :=
  (val12_keep V0 main_arg4 (by decide)).trans (val11_arg4 V0)
theorem val12_arg5 (V0 : Valuation τ sig (Elt F)) : val12 V0 (no_index (Proc.devRef .tc main_arg5)) = V0 (Proc.devRef .tc main_arg5) :=
  (val12_keep V0 main_arg5 (by decide)).trans (val11_arg5 V0)
theorem val12_arg6 (V0 : Valuation τ sig (Elt F)) : val12 V0 (no_index (Proc.devRef .tc main_arg6)) = V0 (Proc.devRef .tc main_arg6) :=
  (val12_keep V0 main_arg6 (by decide)).trans (val11_arg6 V0)
theorem val12_arg7 (V0 : Valuation τ sig (Elt F)) : val12 V0 (no_index (Proc.devRef .tc main_arg7)) = V0 (Proc.devRef .tc main_arg7) :=
  (val12_keep V0 main_arg7 (by decide)).trans (val11_arg7 V0)
theorem val12_arg8 (V0 : Valuation τ sig (Elt F)) : val12 V0 (no_index (Proc.devRef .tc main_arg8)) = V0 (Proc.devRef .tc main_arg8) :=
  (val12_keep V0 main_arg8 (by decide)).trans (val11_arg8 V0)
theorem val12_arg9 (V0 : Valuation τ sig (Elt F)) : val12 V0 (no_index (Proc.devRef .tc main_arg9)) = V0 (Proc.devRef .tc main_arg9) :=
  (val12_keep V0 main_arg9 (by decide)).trans (val11_arg9 V0)
theorem val12_arg10 (V0 : Valuation τ sig (Elt F)) : val12 V0 (no_index (Proc.devRef .tc main_arg10)) = V0 (Proc.devRef .tc main_arg10) :=
  (val12_keep V0 main_arg10 (by decide)).trans (val11_arg10 V0)
theorem val12_arg11 (V0 : Valuation τ sig (Elt F)) : val12 V0 (no_index (Proc.devRef .tc main_arg11)) = V0 (Proc.devRef .tc main_arg11) :=
  (val12_keep V0 main_arg11 (by decide)).trans (val11_arg11 V0)
theorem val12_v1 (V0 : Valuation τ sig (Elt F)) : val12 V0 (no_index (Proc.devRef .tc main_v1)) = atArgs res_v1 V0 :=
  (val12_keep V0 main_v1 (by decide)).trans (val11_v1 V0)
theorem val12_v3 (V0 : Valuation τ sig (Elt F)) : val12 V0 (no_index (Proc.devRef .tc main_v3)) = atArgs res_v3 V0 :=
  (val12_keep V0 main_v3 (by decide)).trans (val11_v3 V0)
theorem val12_v25 (V0 : Valuation τ sig (Elt F)) : val12 V0 (no_index (Proc.devRef .tc main_v25)) = atArgs res_v25 V0 :=
  (val12_keep V0 main_v25 (by decide)).trans (val11_v25 V0)
theorem val12_v26 (V0 : Valuation τ sig (Elt F)) : val12 V0 (no_index (Proc.devRef .tc main_v26)) = atArgs res_v26 V0 :=
  (val12_keep V0 main_v26 (by decide)).trans (val11_v26 V0)
theorem val12_v68 (V0 : Valuation τ sig (Elt F)) : val12 V0 (no_index (Proc.devRef .tc main_v68)) = atArgs res_v68 V0 :=
  (val12_keep V0 main_v68 (by decide)).trans (val11_v68 V0)
theorem val12_v78 (V0 : Valuation τ sig (Elt F)) : val12 V0 (no_index (Proc.devRef .tc main_v78)) = atArgs res_v78 V0 := by
  unfold val12
  simp only [w11]
  after_results_simp
  simp only [val11_v25, val11_v1, val11_c_13, val11_v70, val11_v68] <;> rfl
theorem val12_v79 (V0 : Valuation τ sig (Elt F)) : val12 V0 (no_index (Proc.devRef .tc main_v79)) = atArgs res_v79 V0 := by
  unfold val12
  simp only [w11]
  after_results_simp
  all_goals rfl

/-- The device's buffer contents after the first 13 windows. -/
def val13 (V0 : Valuation τ sig (Elt F)) : Valuation τ sig (Elt F) := after w12 (val12 V0)
/-- The buffers that window writes. -/
abbrev w12_W : List (Ref sig .tc) := [main_v80, main_v81, main_v82, main_v83, main_v84, main_v85, main_v86, main_v87, main_v88, main_cst_15]
theorem w12_writes : (w12 : List (HloOp τ sig (Elt F))).Forall fun op => op.writes ⊆ (w12_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_arg0 (V0 : Valuation τ sig (Elt F)) : val13 V0 (no_index (Proc.devRef .tc main_arg0)) = V0 (Proc.devRef .tc main_arg0) :=
  (val13_keep V0 main_arg0 (by decide)).trans (val12_arg0 V0)
theorem val13_arg1 (V0 : Valuation τ sig (Elt F)) : val13 V0 (no_index (Proc.devRef .tc main_arg1)) = V0 (Proc.devRef .tc main_arg1) :=
  (val13_keep V0 main_arg1 (by decide)).trans (val12_arg1 V0)
theorem val13_arg2 (V0 : Valuation τ sig (Elt F)) : val13 V0 (no_index (Proc.devRef .tc main_arg2)) = V0 (Proc.devRef .tc main_arg2) :=
  (val13_keep V0 main_arg2 (by decide)).trans (val12_arg2 V0)
theorem val13_arg3 (V0 : Valuation τ sig (Elt F)) : val13 V0 (no_index (Proc.devRef .tc main_arg3)) = V0 (Proc.devRef .tc main_arg3) :=
  (val13_keep V0 main_arg3 (by decide)).trans (val12_arg3 V0)
theorem val13_arg4 (V0 : Valuation τ sig (Elt F)) : val13 V0 (no_index (Proc.devRef .tc main_arg4)) = V0 (Proc.devRef .tc main_arg4) :=
  (val13_keep V0 main_arg4 (by decide)).trans (val12_arg4 V0)
theorem val13_arg5 (V0 : Valuation τ sig (Elt F)) : val13 V0 (no_index (Proc.devRef .tc main_arg5)) = V0 (Proc.devRef .tc main_arg5) :=
  (val13_keep V0 main_arg5 (by decide)).trans (val12_arg5 V0)
theorem val13_arg6 (V0 : Valuation τ sig (Elt F)) : val13 V0 (no_index (Proc.devRef .tc main_arg6)) = V0 (Proc.devRef .tc main_arg6) :=
  (val13_keep V0 main_arg6 (by decide)).trans (val12_arg6 V0)
theorem val13_arg7 (V0 : Valuation τ sig (Elt F)) : val13 V0 (no_index (Proc.devRef .tc main_arg7)) = V0 (Proc.devRef .tc main_arg7) :=
  (val13_keep V0 main_arg7 (by decide)).trans (val12_arg7 V0)
theorem val13_arg8 (V0 : Valuation τ sig (Elt F)) : val13 V0 (no_index (Proc.devRef .tc main_arg8)) = V0 (Proc.devRef .tc main_arg8) :=
  (val13_keep V0 main_arg8 (by decide)).trans (val12_arg8 V0)
theorem val13_arg9 (V0 : Valuation τ sig (Elt F)) : val13 V0 (no_index (Proc.devRef .tc main_arg9)) = V0 (Proc.devRef .tc main_arg9) :=
  (val13_keep V0 main_arg9 (by decide)).trans (val12_arg9 V0)
theorem val13_arg10 (V0 : Valuation τ sig (Elt F)) : val13 V0 (no_index (Proc.devRef .tc main_arg10)) = V0 (Proc.devRef .tc main_arg10) :=
  (val13_keep V0 main_arg10 (by decide)).trans (val12_arg10 V0)
theorem val13_arg11 (V0 : Valuation τ sig (Elt F)) : val13 V0 (no_index (Proc.devRef .tc main_arg11)) = V0 (Proc.devRef .tc main_arg11) :=
  (val13_keep V0 main_arg11 (by decide)).trans (val12_arg11 V0)
theorem val13_v1 (V0 : Valuation τ sig (Elt F)) : val13 V0 (no_index (Proc.devRef .tc main_v1)) = atArgs res_v1 V0 :=
  (val13_keep V0 main_v1 (by decide)).trans (val12_v1 V0)
theorem val13_v3 (V0 : Valuation τ sig (Elt F)) : val13 V0 (no_index (Proc.devRef .tc main_v3)) = atArgs res_v3 V0 :=
  (val13_keep V0 main_v3 (by decide)).trans (val12_v3 V0)
theorem val13_v25 (V0 : Valuation τ sig (Elt F)) : val13 V0 (no_index (Proc.devRef .tc main_v25)) = atArgs res_v25 V0 :=
  (val13_keep V0 main_v25 (by decide)).trans (val12_v25 V0)
theorem val13_v26 (V0 : Valuation τ sig (Elt F)) : val13 V0 (no_index (Proc.devRef .tc main_v26)) = atArgs res_v26 V0 :=
  (val13_keep V0 main_v26 (by decide)).trans (val12_v26 V0)
theorem val13_v88 (V0 : Valuation τ sig (Elt F)) : val13 V0 (no_index (Proc.devRef .tc main_v88)) = atArgs res_v88 V0 := by
  unfold val13
  simp only [w12]
  after_results_simp
  simp only [val12_arg7, val12_v26, val12_v68, val12_v78, val12_v3, val12_v79] <;> rfl
theorem val13_cst_15 (V0 : Valuation τ sig (Elt F)) : val13 V0 (no_index (Proc.devRef .tc main_cst_15)) = atArgs res_cst_15 V0 := by
  unfold val13
  simp only [w12]
  after_results_simp
  all_goals rfl

/-- The device's buffer contents after the first 14 windows. -/
def val14 (V0 : Valuation τ sig (Elt F)) : Valuation τ sig (Elt F) := after w13 (val13 V0)
/-- The buffers that window writes. -/
abbrev w13_W : List (Ref sig .tc) := [main_v89, main_cst_16, main_v90, main_v91, main_c_17, main_call2_cst, main_call2_v0, main_call2_v1, main_call2_cst_0, main_call2_v2]
theorem w13_writes : (w13 : List (HloOp τ sig (Elt F))).Forall fun op => op.writes ⊆ (w13_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val14_keep (V0 : Valuation τ sig (Elt F)) (r : Ref sig .tc) (h : r ∉ w13_W) :
    val14 V0 (Proc.devRef .tc r) = val13 V0 (Proc.devRef .tc r) :=
  after_of_writes_sub w13 _ w13_writes h
theorem val14_arg0 (V0 : Valuation τ sig (Elt F)) : val14 V0 (no_index (Proc.devRef .tc main_arg0)) = V0 (Proc.devRef .tc main_arg0) :=
  (val14_keep V0 main_arg0 (by decide)).trans (val13_arg0 V0)
theorem val14_arg1 (V0 : Valuation τ sig (Elt F)) : val14 V0 (no_index (Proc.devRef .tc main_arg1)) = V0 (Proc.devRef .tc main_arg1) :=
  (val14_keep V0 main_arg1 (by decide)).trans (val13_arg1 V0)
theorem val14_arg2 (V0 : Valuation τ sig (Elt F)) : val14 V0 (no_index (Proc.devRef .tc main_arg2)) = V0 (Proc.devRef .tc main_arg2) :=
  (val14_keep V0 main_arg2 (by decide)).trans (val13_arg2 V0)
theorem val14_arg3 (V0 : Valuation τ sig (Elt F)) : val14 V0 (no_index (Proc.devRef .tc main_arg3)) = V0 (Proc.devRef .tc main_arg3) :=
  (val14_keep V0 main_arg3 (by decide)).trans (val13_arg3 V0)
theorem val14_arg4 (V0 : Valuation τ sig (Elt F)) : val14 V0 (no_index (Proc.devRef .tc main_arg4)) = V0 (Proc.devRef .tc main_arg4) :=
  (val14_keep V0 main_arg4 (by decide)).trans (val13_arg4 V0)
theorem val14_arg5 (V0 : Valuation τ sig (Elt F)) : val14 V0 (no_index (Proc.devRef .tc main_arg5)) = V0 (Proc.devRef .tc main_arg5) :=
  (val14_keep V0 main_arg5 (by decide)).trans (val13_arg5 V0)
theorem val14_arg6 (V0 : Valuation τ sig (Elt F)) : val14 V0 (no_index (Proc.devRef .tc main_arg6)) = V0 (Proc.devRef .tc main_arg6) :=
  (val14_keep V0 main_arg6 (by decide)).trans (val13_arg6 V0)
theorem val14_arg7 (V0 : Valuation τ sig (Elt F)) : val14 V0 (no_index (Proc.devRef .tc main_arg7)) = V0 (Proc.devRef .tc main_arg7) :=
  (val14_keep V0 main_arg7 (by decide)).trans (val13_arg7 V0)
theorem val14_arg8 (V0 : Valuation τ sig (Elt F)) : val14 V0 (no_index (Proc.devRef .tc main_arg8)) = V0 (Proc.devRef .tc main_arg8) :=
  (val14_keep V0 main_arg8 (by decide)).trans (val13_arg8 V0)
theorem val14_arg9 (V0 : Valuation τ sig (Elt F)) : val14 V0 (no_index (Proc.devRef .tc main_arg9)) = V0 (Proc.devRef .tc main_arg9) :=
  (val14_keep V0 main_arg9 (by decide)).trans (val13_arg9 V0)
theorem val14_arg10 (V0 : Valuation τ sig (Elt F)) : val14 V0 (no_index (Proc.devRef .tc main_arg10)) = V0 (Proc.devRef .tc main_arg10) :=
  (val14_keep V0 main_arg10 (by decide)).trans (val13_arg10 V0)
theorem val14_arg11 (V0 : Valuation τ sig (Elt F)) : val14 V0 (no_index (Proc.devRef .tc main_arg11)) = V0 (Proc.devRef .tc main_arg11) :=
  (val14_keep V0 main_arg11 (by decide)).trans (val13_arg11 V0)
theorem val14_v1 (V0 : Valuation τ sig (Elt F)) : val14 V0 (no_index (Proc.devRef .tc main_v1)) = atArgs res_v1 V0 :=
  (val14_keep V0 main_v1 (by decide)).trans (val13_v1 V0)
theorem val14_v3 (V0 : Valuation τ sig (Elt F)) : val14 V0 (no_index (Proc.devRef .tc main_v3)) = atArgs res_v3 V0 :=
  (val14_keep V0 main_v3 (by decide)).trans (val13_v3 V0)
theorem val14_v25 (V0 : Valuation τ sig (Elt F)) : val14 V0 (no_index (Proc.devRef .tc main_v25)) = atArgs res_v25 V0 :=
  (val14_keep V0 main_v25 (by decide)).trans (val13_v25 V0)
theorem val14_v26 (V0 : Valuation τ sig (Elt F)) : val14 V0 (no_index (Proc.devRef .tc main_v26)) = atArgs res_v26 V0 :=
  (val14_keep V0 main_v26 (by decide)).trans (val13_v26 V0)
theorem val14_v88 (V0 : Valuation τ sig (Elt F)) : val14 V0 (no_index (Proc.devRef .tc main_v88)) = atArgs res_v88 V0 :=
  (val14_keep V0 main_v88 (by decide)).trans (val13_v88 V0)
theorem val14_v91 (V0 : Valuation τ sig (Elt F)) : val14 V0 (no_index (Proc.devRef .tc main_v91)) = atArgs res_v91 V0 := by
  unfold val14
  simp only [w13]
  after_results_simp
  simp only [val13_cst_15, val13_v88] <;> rfl
theorem val14_c_17 (V0 : Valuation τ sig (Elt F)) : val14 V0 (no_index (Proc.devRef .tc main_c_17)) = atArgs res_c_17 V0 := by
  unfold val14
  simp only [w13]
  after_results_simp
  all_goals rfl
theorem val14_call2_v1 (V0 : Valuation τ sig (Elt F)) : val14 V0 (no_index (Proc.devRef .tc main_call2_v1)) = atArgs res_call2_v1 V0 := by
  unfold val14
  simp only [w13]
  after_results_simp
  simp only [val13_v88] <;> rfl
theorem val14_call2_v2 (V0 : Valuation τ sig (Elt F)) : val14 V0 (no_index (Proc.devRef .tc main_call2_v2)) = atArgs res_call2_v2 V0 := by
  unfold val14
  simp only [w13]
  after_results_simp
  all_goals rfl

/-- The device's buffer contents after the first 15 windows. -/
def val15 (V0 : Valuation τ sig (Elt F)) : Valuation τ sig (Elt F) := after w14 (val14 V0)
/-- The buffers that window writes. -/
abbrev w14_W : List (Ref sig .tc) := [main_call2_v3, main_call2_v4, main_call2_v5, main_call2_v6, main_call2_v7, main_call2_cst_1, main_call2_v8, main_call2_cst_2, main_call2_v9, main_call2_v10]
theorem w14_writes : (w14 : List (HloOp τ sig (Elt F))).Forall fun op => op.writes ⊆ (w14_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val15_keep (V0 : Valuation τ sig (Elt F)) (r : Ref sig .tc) (h : r ∉ w14_W) :
    val15 V0 (Proc.devRef .tc r) = val14 V0 (Proc.devRef .tc r) :=
  after_of_writes_sub w14 _ w14_writes h
theorem val15_arg0 (V0 : Valuation τ sig (Elt F)) : val15 V0 (no_index (Proc.devRef .tc main_arg0)) = V0 (Proc.devRef .tc main_arg0) :=
  (val15_keep V0 main_arg0 (by decide)).trans (val14_arg0 V0)
theorem val15_arg1 (V0 : Valuation τ sig (Elt F)) : val15 V0 (no_index (Proc.devRef .tc main_arg1)) = V0 (Proc.devRef .tc main_arg1) :=
  (val15_keep V0 main_arg1 (by decide)).trans (val14_arg1 V0)
theorem val15_arg2 (V0 : Valuation τ sig (Elt F)) : val15 V0 (no_index (Proc.devRef .tc main_arg2)) = V0 (Proc.devRef .tc main_arg2) :=
  (val15_keep V0 main_arg2 (by decide)).trans (val14_arg2 V0)
theorem val15_arg3 (V0 : Valuation τ sig (Elt F)) : val15 V0 (no_index (Proc.devRef .tc main_arg3)) = V0 (Proc.devRef .tc main_arg3) :=
  (val15_keep V0 main_arg3 (by decide)).trans (val14_arg3 V0)
theorem val15_arg4 (V0 : Valuation τ sig (Elt F)) : val15 V0 (no_index (Proc.devRef .tc main_arg4)) = V0 (Proc.devRef .tc main_arg4) :=
  (val15_keep V0 main_arg4 (by decide)).trans (val14_arg4 V0)
theorem val15_arg5 (V0 : Valuation τ sig (Elt F)) : val15 V0 (no_index (Proc.devRef .tc main_arg5)) = V0 (Proc.devRef .tc main_arg5) :=
  (val15_keep V0 main_arg5 (by decide)).trans (val14_arg5 V0)
theorem val15_arg6 (V0 : Valuation τ sig (Elt F)) : val15 V0 (no_index (Proc.devRef .tc main_arg6)) = V0 (Proc.devRef .tc main_arg6) :=
  (val15_keep V0 main_arg6 (by decide)).trans (val14_arg6 V0)
theorem val15_arg7 (V0 : Valuation τ sig (Elt F)) : val15 V0 (no_index (Proc.devRef .tc main_arg7)) = V0 (Proc.devRef .tc main_arg7) :=
  (val15_keep V0 main_arg7 (by decide)).trans (val14_arg7 V0)
theorem val15_arg8 (V0 : Valuation τ sig (Elt F)) : val15 V0 (no_index (Proc.devRef .tc main_arg8)) = V0 (Proc.devRef .tc main_arg8) :=
  (val15_keep V0 main_arg8 (by decide)).trans (val14_arg8 V0)
theorem val15_arg9 (V0 : Valuation τ sig (Elt F)) : val15 V0 (no_index (Proc.devRef .tc main_arg9)) = V0 (Proc.devRef .tc main_arg9) :=
  (val15_keep V0 main_arg9 (by decide)).trans (val14_arg9 V0)
theorem val15_arg10 (V0 : Valuation τ sig (Elt F)) : val15 V0 (no_index (Proc.devRef .tc main_arg10)) = V0 (Proc.devRef .tc main_arg10) :=
  (val15_keep V0 main_arg10 (by decide)).trans (val14_arg10 V0)
theorem val15_arg11 (V0 : Valuation τ sig (Elt F)) : val15 V0 (no_index (Proc.devRef .tc main_arg11)) = V0 (Proc.devRef .tc main_arg11) :=
  (val15_keep V0 main_arg11 (by decide)).trans (val14_arg11 V0)
theorem val15_v1 (V0 : Valuation τ sig (Elt F)) : val15 V0 (no_index (Proc.devRef .tc main_v1)) = atArgs res_v1 V0 :=
  (val15_keep V0 main_v1 (by decide)).trans (val14_v1 V0)
theorem val15_v3 (V0 : Valuation τ sig (Elt F)) : val15 V0 (no_index (Proc.devRef .tc main_v3)) = atArgs res_v3 V0 :=
  (val15_keep V0 main_v3 (by decide)).trans (val14_v3 V0)
theorem val15_v25 (V0 : Valuation τ sig (Elt F)) : val15 V0 (no_index (Proc.devRef .tc main_v25)) = atArgs res_v25 V0 :=
  (val15_keep V0 main_v25 (by decide)).trans (val14_v25 V0)
theorem val15_v26 (V0 : Valuation τ sig (Elt F)) : val15 V0 (no_index (Proc.devRef .tc main_v26)) = atArgs res_v26 V0 :=
  (val15_keep V0 main_v26 (by decide)).trans (val14_v26 V0)
theorem val15_v88 (V0 : Valuation τ sig (Elt F)) : val15 V0 (no_index (Proc.devRef .tc main_v88)) = atArgs res_v88 V0 :=
  (val15_keep V0 main_v88 (by decide)).trans (val14_v88 V0)
theorem val15_v91 (V0 : Valuation τ sig (Elt F)) : val15 V0 (no_index (Proc.devRef .tc main_v91)) = atArgs res_v91 V0 :=
  (val15_keep V0 main_v91 (by decide)).trans (val14_v91 V0)
theorem val15_call2_v8 (V0 : Valuation τ sig (Elt F)) : val15 V0 (no_index (Proc.devRef .tc main_call2_v8)) = atArgs res_call2_v8 V0 := by
  unfold val15
  simp only [w14]
  after_results_simp
  simp only [val14_c_17] <;> rfl
theorem val15_call2_v9 (V0 : Valuation τ sig (Elt F)) : val15 V0 (no_index (Proc.devRef .tc main_call2_v9)) = atArgs res_call2_v9 V0 := by
  unfold val15
  simp only [w14]
  after_results_simp
  simp only [val14_call2_v2, val14_call2_v1, val14_v88] <;> rfl
theorem val15_call2_v10 (V0 : Valuation τ sig (Elt F)) : val15 V0 (no_index (Proc.devRef .tc main_call2_v10)) = atArgs res_call2_v10 V0 := by
  unfold val15
  simp only [w14]
  after_results_simp
  simp only [val14_c_17] <;> rfl

/-- The device's buffer contents after the first 16 windows. -/
def val16 (V0 : Valuation τ sig (Elt F)) : Valuation τ sig (Elt F) := after w15 (val15 V0)
/-- The buffers that window writes. -/
abbrev w15_W : List (Ref sig .tc) := [main_call2_v11, main_call2_cst_3, main_call2_v12, main_call2_cst_4, main_call2_call0_v0, main_call2_call0_v1, main_v92, main_v93, main_v94, main_v95]
theorem w15_writes : (w15 : List (HloOp τ sig (Elt F))).Forall fun op => op.writes ⊆ (w15_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val16_keep (V0 : Valuation τ sig (Elt F)) (r : Ref sig .tc) (h : r ∉ w15_W) :
    val16 V0 (Proc.devRef .tc r) = val15 V0 (Proc.devRef .tc r) :=
  after_of_writes_sub w15 _ w15_writes h
theorem val16_arg0 (V0 : Valuation τ sig (Elt F)) : val16 V0 (no_index (Proc.devRef .tc main_arg0)) = V0 (Proc.devRef .tc main_arg0) :=
  (val16_keep V0 main_arg0 (by decide)).trans (val15_arg0 V0)
theorem val16_arg1 (V0 : Valuation τ sig (Elt F)) : val16 V0 (no_index (Proc.devRef .tc main_arg1)) = V0 (Proc.devRef .tc main_arg1) :=
  (val16_keep V0 main_arg1 (by decide)).trans (val15_arg1 V0)
theorem val16_arg2 (V0 : Valuation τ sig (Elt F)) : val16 V0 (no_index (Proc.devRef .tc main_arg2)) = V0 (Proc.devRef .tc main_arg2) :=
  (val16_keep V0 main_arg2 (by decide)).trans (val15_arg2 V0)
theorem val16_arg3 (V0 : Valuation τ sig (Elt F)) : val16 V0 (no_index (Proc.devRef .tc main_arg3)) = V0 (Proc.devRef .tc main_arg3) :=
  (val16_keep V0 main_arg3 (by decide)).trans (val15_arg3 V0)
theorem val16_arg4 (V0 : Valuation τ sig (Elt F)) : val16 V0 (no_index (Proc.devRef .tc main_arg4)) = V0 (Proc.devRef .tc main_arg4) :=
  (val16_keep V0 main_arg4 (by decide)).trans (val15_arg4 V0)
theorem val16_arg5 (V0 : Valuation τ sig (Elt F)) : val16 V0 (no_index (Proc.devRef .tc main_arg5)) = V0 (Proc.devRef .tc main_arg5) :=
  (val16_keep V0 main_arg5 (by decide)).trans (val15_arg5 V0)
theorem val16_arg6 (V0 : Valuation τ sig (Elt F)) : val16 V0 (no_index (Proc.devRef .tc main_arg6)) = V0 (Proc.devRef .tc main_arg6) :=
  (val16_keep V0 main_arg6 (by decide)).trans (val15_arg6 V0)
theorem val16_arg7 (V0 : Valuation τ sig (Elt F)) : val16 V0 (no_index (Proc.devRef .tc main_arg7)) = V0 (Proc.devRef .tc main_arg7) :=
  (val16_keep V0 main_arg7 (by decide)).trans (val15_arg7 V0)
theorem val16_arg8 (V0 : Valuation τ sig (Elt F)) : val16 V0 (no_index (Proc.devRef .tc main_arg8)) = V0 (Proc.devRef .tc main_arg8) :=
  (val16_keep V0 main_arg8 (by decide)).trans (val15_arg8 V0)
theorem val16_arg9 (V0 : Valuation τ sig (Elt F)) : val16 V0 (no_index (Proc.devRef .tc main_arg9)) = V0 (Proc.devRef .tc main_arg9) :=
  (val16_keep V0 main_arg9 (by decide)).trans (val15_arg9 V0)
theorem val16_arg10 (V0 : Valuation τ sig (Elt F)) : val16 V0 (no_index (Proc.devRef .tc main_arg10)) = V0 (Proc.devRef .tc main_arg10) :=
  (val16_keep V0 main_arg10 (by decide)).trans (val15_arg10 V0)
theorem val16_arg11 (V0 : Valuation τ sig (Elt F)) : val16 V0 (no_index (Proc.devRef .tc main_arg11)) = V0 (Proc.devRef .tc main_arg11) :=
  (val16_keep V0 main_arg11 (by decide)).trans (val15_arg11 V0)
theorem val16_v1 (V0 : Valuation τ sig (Elt F)) : val16 V0 (no_index (Proc.devRef .tc main_v1)) = atArgs res_v1 V0 :=
  (val16_keep V0 main_v1 (by decide)).trans (val15_v1 V0)
theorem val16_v3 (V0 : Valuation τ sig (Elt F)) : val16 V0 (no_index (Proc.devRef .tc main_v3)) = atArgs res_v3 V0 :=
  (val16_keep V0 main_v3 (by decide)).trans (val15_v3 V0)
theorem val16_v25 (V0 : Valuation τ sig (Elt F)) : val16 V0 (no_index (Proc.devRef .tc main_v25)) = atArgs res_v25 V0 :=
  (val16_keep V0 main_v25 (by decide)).trans (val15_v25 V0)
theorem val16_v26 (V0 : Valuation τ sig (Elt F)) : val16 V0 (no_index (Proc.devRef .tc main_v26)) = atArgs res_v26 V0 :=
  (val16_keep V0 main_v26 (by decide)).trans (val15_v26 V0)
theorem val16_v92 (V0 : Valuation τ sig (Elt F)) : val16 V0 (no_index (Proc.devRef .tc main_v92)) = atArgs res_v92 V0 := by
  unfold val16
  simp only [w15]
  after_results_simp
  simp only [val15_call2_v10, val15_call2_v9, val15_call2_v8] <;> rfl
theorem val16_v95 (V0 : Valuation τ sig (Elt F)) : val16 V0 (no_index (Proc.devRef .tc main_v95)) = atArgs res_v95 V0 := by
  unfold val16
  simp only [w15]
  after_results_simp
  simp only [val15_v91, val15_v88] <;> rfl

/-- The device's buffer contents after the first 17 windows. -/
def val17 (V0 : Valuation τ sig (Elt F)) : Valuation τ sig (Elt F) := after w16 (val16 V0)
/-- The buffers that window writes. -/
abbrev w16_W : List (Ref sig .tc) := [main_cst_18, main_v96, main_v97, main_v98, main_v99, main_v100, main_v101, main_v102, main_v103, main_v104]
theorem w16_writes : (w16 : List (HloOp τ sig (Elt F))).Forall fun op => op.writes ⊆ (w16_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val17_keep (V0 : Valuation τ sig (Elt F)) (r : Ref sig .tc) (h : r ∉ w16_W) :
    val17 V0 (Proc.devRef .tc r) = val16 V0 (Proc.devRef .tc r) :=
  after_of_writes_sub w16 _ w16_writes h
theorem val17_arg0 (V0 : Valuation τ sig (Elt F)) : val17 V0 (no_index (Proc.devRef .tc main_arg0)) = V0 (Proc.devRef .tc main_arg0) :=
  (val17_keep V0 main_arg0 (by decide)).trans (val16_arg0 V0)
theorem val17_arg1 (V0 : Valuation τ sig (Elt F)) : val17 V0 (no_index (Proc.devRef .tc main_arg1)) = V0 (Proc.devRef .tc main_arg1) :=
  (val17_keep V0 main_arg1 (by decide)).trans (val16_arg1 V0)
theorem val17_arg2 (V0 : Valuation τ sig (Elt F)) : val17 V0 (no_index (Proc.devRef .tc main_arg2)) = V0 (Proc.devRef .tc main_arg2) :=
  (val17_keep V0 main_arg2 (by decide)).trans (val16_arg2 V0)
theorem val17_arg3 (V0 : Valuation τ sig (Elt F)) : val17 V0 (no_index (Proc.devRef .tc main_arg3)) = V0 (Proc.devRef .tc main_arg3) :=
  (val17_keep V0 main_arg3 (by decide)).trans (val16_arg3 V0)
theorem val17_arg4 (V0 : Valuation τ sig (Elt F)) : val17 V0 (no_index (Proc.devRef .tc main_arg4)) = V0 (Proc.devRef .tc main_arg4) :=
  (val17_keep V0 main_arg4 (by decide)).trans (val16_arg4 V0)
theorem val17_arg5 (V0 : Valuation τ sig (Elt F)) : val17 V0 (no_index (Proc.devRef .tc main_arg5)) = V0 (Proc.devRef .tc main_arg5) :=
  (val17_keep V0 main_arg5 (by decide)).trans (val16_arg5 V0)
theorem val17_arg6 (V0 : Valuation τ sig (Elt F)) : val17 V0 (no_index (Proc.devRef .tc main_arg6)) = V0 (Proc.devRef .tc main_arg6) :=
  (val17_keep V0 main_arg6 (by decide)).trans (val16_arg6 V0)
theorem val17_arg7 (V0 : Valuation τ sig (Elt F)) : val17 V0 (no_index (Proc.devRef .tc main_arg7)) = V0 (Proc.devRef .tc main_arg7) :=
  (val17_keep V0 main_arg7 (by decide)).trans (val16_arg7 V0)
theorem val17_arg8 (V0 : Valuation τ sig (Elt F)) : val17 V0 (no_index (Proc.devRef .tc main_arg8)) = V0 (Proc.devRef .tc main_arg8) :=
  (val17_keep V0 main_arg8 (by decide)).trans (val16_arg8 V0)
theorem val17_arg9 (V0 : Valuation τ sig (Elt F)) : val17 V0 (no_index (Proc.devRef .tc main_arg9)) = V0 (Proc.devRef .tc main_arg9) :=
  (val17_keep V0 main_arg9 (by decide)).trans (val16_arg9 V0)
theorem val17_arg10 (V0 : Valuation τ sig (Elt F)) : val17 V0 (no_index (Proc.devRef .tc main_arg10)) = V0 (Proc.devRef .tc main_arg10) :=
  (val17_keep V0 main_arg10 (by decide)).trans (val16_arg10 V0)
theorem val17_arg11 (V0 : Valuation τ sig (Elt F)) : val17 V0 (no_index (Proc.devRef .tc main_arg11)) = V0 (Proc.devRef .tc main_arg11) :=
  (val17_keep V0 main_arg11 (by decide)).trans (val16_arg11 V0)
theorem val17_v1 (V0 : Valuation τ sig (Elt F)) : val17 V0 (no_index (Proc.devRef .tc main_v1)) = atArgs res_v1 V0 :=
  (val17_keep V0 main_v1 (by decide)).trans (val16_v1 V0)
theorem val17_v3 (V0 : Valuation τ sig (Elt F)) : val17 V0 (no_index (Proc.devRef .tc main_v3)) = atArgs res_v3 V0 :=
  (val17_keep V0 main_v3 (by decide)).trans (val16_v3 V0)
theorem val17_v25 (V0 : Valuation τ sig (Elt F)) : val17 V0 (no_index (Proc.devRef .tc main_v25)) = atArgs res_v25 V0 :=
  (val17_keep V0 main_v25 (by decide)).trans (val16_v25 V0)
theorem val17_v26 (V0 : Valuation τ sig (Elt F)) : val17 V0 (no_index (Proc.devRef .tc main_v26)) = atArgs res_v26 V0 :=
  (val17_keep V0 main_v26 (by decide)).trans (val16_v26 V0)
theorem val17_v104 (V0 : Valuation τ sig (Elt F)) : val17 V0 (no_index (Proc.devRef .tc main_v104)) = atArgs res_v104 V0 := by
  unfold val17
  simp only [w16]
  after_results_simp
  simp only [val16_arg8, val16_v92, val16_v95] <;> rfl

/-- The device's buffer contents after the first 18 windows. -/
def val18 (V0 : Valuation τ sig (Elt F)) : Valuation τ sig (Elt F) := after w17 (val17 V0)
/-- The buffers that window writes. -/
abbrev w17_W : List (Ref sig .tc) := [main_v105, main_v106, main_v107, main_call3_cst, main_call3_v0, main_v108, main_v109, main_c_19, main_v110, main_v111]
theorem w17_writes : (w17 : List (HloOp τ sig (Elt F))).Forall fun op => op.writes ⊆ (w17_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val18_keep (V0 : Valuation τ sig (Elt F)) (r : Ref sig .tc) (h : r ∉ w17_W) :
    val18 V0 (Proc.devRef .tc r) = val17 V0 (Proc.devRef .tc r) :=
  after_of_writes_sub w17 _ w17_writes h
theorem val18_arg0 (V0 : Valuation τ sig (Elt F)) : val18 V0 (no_index (Proc.devRef .tc main_arg0)) = V0 (Proc.devRef .tc main_arg0) :=
  (val18_keep V0 main_arg0 (by decide)).trans (val17_arg0 V0)
theorem val18_arg1 (V0 : Valuation τ sig (Elt F)) : val18 V0 (no_index (Proc.devRef .tc main_arg1)) = V0 (Proc.devRef .tc main_arg1) :=
  (val18_keep V0 main_arg1 (by decide)).trans (val17_arg1 V0)
theorem val18_arg2 (V0 : Valuation τ sig (Elt F)) : val18 V0 (no_index (Proc.devRef .tc main_arg2)) = V0 (Proc.devRef .tc main_arg2) :=
  (val18_keep V0 main_arg2 (by decide)).trans (val17_arg2 V0)
theorem val18_arg3 (V0 : Valuation τ sig (Elt F)) : val18 V0 (no_index (Proc.devRef .tc main_arg3)) = V0 (Proc.devRef .tc main_arg3) :=
  (val18_keep V0 main_arg3 (by decide)).trans (val17_arg3 V0)
theorem val18_arg4 (V0 : Valuation τ sig (Elt F)) : val18 V0 (no_index (Proc.devRef .tc main_arg4)) = V0 (Proc.devRef .tc main_arg4) :=
  (val18_keep V0 main_arg4 (by decide)).trans (val17_arg4 V0)
theorem val18_arg5 (V0 : Valuation τ sig (Elt F)) : val18 V0 (no_index (Proc.devRef .tc main_arg5)) = V0 (Proc.devRef .tc main_arg5) :=
  (val18_keep V0 main_arg5 (by decide)).trans (val17_arg5 V0)
theorem val18_arg6 (V0 : Valuation τ sig (Elt F)) : val18 V0 (no_index (Proc.devRef .tc main_arg6)) = V0 (Proc.devRef .tc main_arg6) :=
  (val18_keep V0 main_arg6 (by decide)).trans (val17_arg6 V0)
theorem val18_arg7 (V0 : Valuation τ sig (Elt F)) : val18 V0 (no_index (Proc.devRef .tc main_arg7)) = V0 (Proc.devRef .tc main_arg7) :=
  (val18_keep V0 main_arg7 (by decide)).trans (val17_arg7 V0)
theorem val18_arg8 (V0 : Valuation τ sig (Elt F)) : val18 V0 (no_index (Proc.devRef .tc main_arg8)) = V0 (Proc.devRef .tc main_arg8) :=
  (val18_keep V0 main_arg8 (by decide)).trans (val17_arg8 V0)
theorem val18_arg9 (V0 : Valuation τ sig (Elt F)) : val18 V0 (no_index (Proc.devRef .tc main_arg9)) = V0 (Proc.devRef .tc main_arg9) :=
  (val18_keep V0 main_arg9 (by decide)).trans (val17_arg9 V0)
theorem val18_arg10 (V0 : Valuation τ sig (Elt F)) : val18 V0 (no_index (Proc.devRef .tc main_arg10)) = V0 (Proc.devRef .tc main_arg10) :=
  (val18_keep V0 main_arg10 (by decide)).trans (val17_arg10 V0)
theorem val18_arg11 (V0 : Valuation τ sig (Elt F)) : val18 V0 (no_index (Proc.devRef .tc main_arg11)) = V0 (Proc.devRef .tc main_arg11) :=
  (val18_keep V0 main_arg11 (by decide)).trans (val17_arg11 V0)
theorem val18_v1 (V0 : Valuation τ sig (Elt F)) : val18 V0 (no_index (Proc.devRef .tc main_v1)) = atArgs res_v1 V0 :=
  (val18_keep V0 main_v1 (by decide)).trans (val17_v1 V0)
theorem val18_v3 (V0 : Valuation τ sig (Elt F)) : val18 V0 (no_index (Proc.devRef .tc main_v3)) = atArgs res_v3 V0 :=
  (val18_keep V0 main_v3 (by decide)).trans (val17_v3 V0)
theorem val18_v25 (V0 : Valuation τ sig (Elt F)) : val18 V0 (no_index (Proc.devRef .tc main_v25)) = atArgs res_v25 V0 :=
  (val18_keep V0 main_v25 (by decide)).trans (val17_v25 V0)
theorem val18_v26 (V0 : Valuation τ sig (Elt F)) : val18 V0 (no_index (Proc.devRef .tc main_v26)) = atArgs res_v26 V0 :=
  (val18_keep V0 main_v26 (by decide)).trans (val17_v26 V0)
theorem val18_v109 (V0 : Valuation τ sig (Elt F)) : val18 V0 (no_index (Proc.devRef .tc main_v109)) = atArgs res_v109 V0 := by
  unfold val18
  simp only [w17]
  after_results_simp
  simp only [val17_arg10, val17_arg9, val17_v104] <;> rfl
theorem val18_v111 (V0 : Valuation τ sig (Elt F)) : val18 V0 (no_index (Proc.devRef .tc main_v111)) = atArgs res_v111 V0 := by
  unfold val18
  simp only [w17]
  after_results_simp
  simp only [val17_v1] <;> rfl

/-- The device's buffer contents after the first 19 windows. -/
def val19 (V0 : Valuation τ sig (Elt F)) : Valuation τ sig (Elt F) := after w18 (val18 V0)
/-- The buffers that window writes. -/
abbrev w18_W : List (Ref sig .tc) := [main_c_20, main_v112, main_v113, main_v114, main_v115, main_v116, main_v117, main_v118, main_v119, main_cst_21]
theorem w18_writes : (w18 : List (HloOp τ sig (Elt F))).Forall fun op => op.writes ⊆ (w18_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val19_keep (V0 : Valuation τ sig (Elt F)) (r : Ref sig .tc) (h : r ∉ w18_W) :
    val19 V0 (Proc.devRef .tc r) = val18 V0 (Proc.devRef .tc r) :=
  after_of_writes_sub w18 _ w18_writes h
theorem val19_arg0 (V0 : Valuation τ sig (Elt F)) : val19 V0 (no_index (Proc.devRef .tc main_arg0)) = V0 (Proc.devRef .tc main_arg0) :=
  (val19_keep V0 main_arg0 (by decide)).trans (val18_arg0 V0)
theorem val19_arg1 (V0 : Valuation τ sig (Elt F)) : val19 V0 (no_index (Proc.devRef .tc main_arg1)) = V0 (Proc.devRef .tc main_arg1) :=
  (val19_keep V0 main_arg1 (by decide)).trans (val18_arg1 V0)
theorem val19_arg2 (V0 : Valuation τ sig (Elt F)) : val19 V0 (no_index (Proc.devRef .tc main_arg2)) = V0 (Proc.devRef .tc main_arg2) :=
  (val19_keep V0 main_arg2 (by decide)).trans (val18_arg2 V0)
theorem val19_arg3 (V0 : Valuation τ sig (Elt F)) : val19 V0 (no_index (Proc.devRef .tc main_arg3)) = V0 (Proc.devRef .tc main_arg3) :=
  (val19_keep V0 main_arg3 (by decide)).trans (val18_arg3 V0)
theorem val19_arg4 (V0 : Valuation τ sig (Elt F)) : val19 V0 (no_index (Proc.devRef .tc main_arg4)) = V0 (Proc.devRef .tc main_arg4) :=
  (val19_keep V0 main_arg4 (by decide)).trans (val18_arg4 V0)
theorem val19_arg5 (V0 : Valuation τ sig (Elt F)) : val19 V0 (no_index (Proc.devRef .tc main_arg5)) = V0 (Proc.devRef .tc main_arg5) :=
  (val19_keep V0 main_arg5 (by decide)).trans (val18_arg5 V0)
theorem val19_arg6 (V0 : Valuation τ sig (Elt F)) : val19 V0 (no_index (Proc.devRef .tc main_arg6)) = V0 (Proc.devRef .tc main_arg6) :=
  (val19_keep V0 main_arg6 (by decide)).trans (val18_arg6 V0)
theorem val19_arg7 (V0 : Valuation τ sig (Elt F)) : val19 V0 (no_index (Proc.devRef .tc main_arg7)) = V0 (Proc.devRef .tc main_arg7) :=
  (val19_keep V0 main_arg7 (by decide)).trans (val18_arg7 V0)
theorem val19_arg8 (V0 : Valuation τ sig (Elt F)) : val19 V0 (no_index (Proc.devRef .tc main_arg8)) = V0 (Proc.devRef .tc main_arg8) :=
  (val19_keep V0 main_arg8 (by decide)).trans (val18_arg8 V0)
theorem val19_arg9 (V0 : Valuation τ sig (Elt F)) : val19 V0 (no_index (Proc.devRef .tc main_arg9)) = V0 (Proc.devRef .tc main_arg9) :=
  (val19_keep V0 main_arg9 (by decide)).trans (val18_arg9 V0)
theorem val19_arg10 (V0 : Valuation τ sig (Elt F)) : val19 V0 (no_index (Proc.devRef .tc main_arg10)) = V0 (Proc.devRef .tc main_arg10) :=
  (val19_keep V0 main_arg10 (by decide)).trans (val18_arg10 V0)
theorem val19_arg11 (V0 : Valuation τ sig (Elt F)) : val19 V0 (no_index (Proc.devRef .tc main_arg11)) = V0 (Proc.devRef .tc main_arg11) :=
  (val19_keep V0 main_arg11 (by decide)).trans (val18_arg11 V0)
theorem val19_v3 (V0 : Valuation τ sig (Elt F)) : val19 V0 (no_index (Proc.devRef .tc main_v3)) = atArgs res_v3 V0 :=
  (val19_keep V0 main_v3 (by decide)).trans (val18_v3 V0)
theorem val19_v26 (V0 : Valuation τ sig (Elt F)) : val19 V0 (no_index (Proc.devRef .tc main_v26)) = atArgs res_v26 V0 :=
  (val19_keep V0 main_v26 (by decide)).trans (val18_v26 V0)
theorem val19_v109 (V0 : Valuation τ sig (Elt F)) : val19 V0 (no_index (Proc.devRef .tc main_v109)) = atArgs res_v109 V0 :=
  (val19_keep V0 main_v109 (by decide)).trans (val18_v109 V0)
theorem val19_v119 (V0 : Valuation τ sig (Elt F)) : val19 V0 (no_index (Proc.devRef .tc main_v119)) = atArgs res_v119 V0 := by
  unfold val19
  simp only [w18]
  after_results_simp
  simp only [val18_v25, val18_v1, val18_v111, val18_v109] <;> rfl
theorem val19_cst_21 (V0 : Valuation τ sig (Elt F)) : val19 V0 (no_index (Proc.devRef .tc main_cst_21)) = atArgs res_cst_21 V0 := by
  unfold val19
  simp only [w18]
  after_results_simp
  all_goals rfl

/-- The device's buffer contents after the first 20 windows. -/
def val20 (V0 : Valuation τ sig (Elt F)) : Valuation τ sig (Elt F) := after w19 (val19 V0)
/-- The buffers that window writes. -/
abbrev w19_W : List (Ref sig .tc) := [main_v120, main_v121, main_v122, main_v123, main_v124, main_v125, main_v126, main_v127, main_v128, main_v129]
theorem w19_writes : (w19 : List (HloOp τ sig (Elt F))).Forall fun op => op.writes ⊆ (w19_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that window does not write keeps its contents through it. -/
theorem val20_keep (V0 : Valuation τ sig (Elt F)) (r : Ref sig .tc) (h : r ∉ w19_W) :
    val20 V0 (Proc.devRef .tc r) = val19 V0 (Proc.devRef .tc r) :=
  after_of_writes_sub w19 _ w19_writes h
theorem val20_arg0 (V0 : Valuation τ sig (Elt F)) : val20 V0 (no_index (Proc.devRef .tc main_arg0)) = V0 (Proc.devRef .tc main_arg0) :=
  (val20_keep V0 main_arg0 (by decide)).trans (val19_arg0 V0)
theorem val20_arg1 (V0 : Valuation τ sig (Elt F)) : val20 V0 (no_index (Proc.devRef .tc main_arg1)) = V0 (Proc.devRef .tc main_arg1) :=
  (val20_keep V0 main_arg1 (by decide)).trans (val19_arg1 V0)
theorem val20_arg2 (V0 : Valuation τ sig (Elt F)) : val20 V0 (no_index (Proc.devRef .tc main_arg2)) = V0 (Proc.devRef .tc main_arg2) :=
  (val20_keep V0 main_arg2 (by decide)).trans (val19_arg2 V0)
theorem val20_arg3 (V0 : Valuation τ sig (Elt F)) : val20 V0 (no_index (Proc.devRef .tc main_arg3)) = V0 (Proc.devRef .tc main_arg3) :=
  (val20_keep V0 main_arg3 (by decide)).trans (val19_arg3 V0)
theorem val20_arg4 (V0 : Valuation τ sig (Elt F)) : val20 V0 (no_index (Proc.devRef .tc main_arg4)) = V0 (Proc.devRef .tc main_arg4) :=
  (val20_keep V0 main_arg4 (by decide)).trans (val19_arg4 V0)
theorem val20_arg5 (V0 : Valuation τ sig (Elt F)) : val20 V0 (no_index (Proc.devRef .tc main_arg5)) = V0 (Proc.devRef .tc main_arg5) :=
  (val20_keep V0 main_arg5 (by decide)).trans (val19_arg5 V0)
theorem val20_arg6 (V0 : Valuation τ sig (Elt F)) : val20 V0 (no_index (Proc.devRef .tc main_arg6)) = V0 (Proc.devRef .tc main_arg6) :=
  (val20_keep V0 main_arg6 (by decide)).trans (val19_arg6 V0)
theorem val20_arg7 (V0 : Valuation τ sig (Elt F)) : val20 V0 (no_index (Proc.devRef .tc main_arg7)) = V0 (Proc.devRef .tc main_arg7) :=
  (val20_keep V0 main_arg7 (by decide)).trans (val19_arg7 V0)
theorem val20_arg8 (V0 : Valuation τ sig (Elt F)) : val20 V0 (no_index (Proc.devRef .tc main_arg8)) = V0 (Proc.devRef .tc main_arg8) :=
  (val20_keep V0 main_arg8 (by decide)).trans (val19_arg8 V0)
theorem val20_arg9 (V0 : Valuation τ sig (Elt F)) : val20 V0 (no_index (Proc.devRef .tc main_arg9)) = V0 (Proc.devRef .tc main_arg9) :=
  (val20_keep V0 main_arg9 (by decide)).trans (val19_arg9 V0)
theorem val20_arg10 (V0 : Valuation τ sig (Elt F)) : val20 V0 (no_index (Proc.devRef .tc main_arg10)) = V0 (Proc.devRef .tc main_arg10) :=
  (val20_keep V0 main_arg10 (by decide)).trans (val19_arg10 V0)
theorem val20_arg11 (V0 : Valuation τ sig (Elt F)) : val20 V0 (no_index (Proc.devRef .tc main_arg11)) = V0 (Proc.devRef .tc main_arg11) :=
  (val20_keep V0 main_arg11 (by decide)).trans (val19_arg11 V0)
theorem val20_v129 (V0 : Valuation τ sig (Elt F)) : val20 V0 (no_index (Proc.devRef .tc main_v129)) = atArgs res_v129 V0 := by
  unfold val20
  simp only [w19]
  after_results_simp
  simp only [val19_arg11, val19_v26, val19_v109, val19_v119, val19_v3, val19_cst_21] <;> rfl

/-- The whole line leaves what the last window leaves. -/
theorem after_ops (V0 : Valuation τ sig (Elt F)) : after ops V0 = val20 V0 := by
  simp only [ops, after_append]
  rfl

/-- On every device, for any float values, from any memory with zero counters: every weakly fair execution of the
    reference terminates with its output at `res_v129` of the twelve argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = res_v129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v129).trans (by simp only [after_ops]; exact val20_v129 (launchContents m c)),
      (h c main_arg0).trans (by simp only [after_ops]; exact val20_arg0 (launchContents m c)),
      (h c main_arg1).trans (by simp only [after_ops]; exact val20_arg1 (launchContents m c)),
      (h c main_arg2).trans (by simp only [after_ops]; exact val20_arg2 (launchContents m c)),
      (h c main_arg3).trans (by simp only [after_ops]; exact val20_arg3 (launchContents m c)),
      (h c main_arg4).trans (by simp only [after_ops]; exact val20_arg4 (launchContents m c)),
      (h c main_arg5).trans (by simp only [after_ops]; exact val20_arg5 (launchContents m c)),
      (h c main_arg6).trans (by simp only [after_ops]; exact val20_arg6 (launchContents m c)),
      (h c main_arg7).trans (by simp only [after_ops]; exact val20_arg7 (launchContents m c)),
      (h c main_arg8).trans (by simp only [after_ops]; exact val20_arg8 (launchContents m c)),
      (h c main_arg9).trans (by simp only [after_ops]; exact val20_arg9 (launchContents m c)),
      (h c main_arg10).trans (by simp only [after_ops]; exact val20_arg10 (launchContents m c)),
      (h c main_arg11).trans (by simp only [after_ops]; exact val20_arg11 (launchContents m c))⟩)
    (run_seq scopedRefs_eq scopedSems_eq defs main (fun _ => ops) main_eq (fun _ => ops_sub) m ρ (fun _ => ops_fresh))

end Cert.ReferenceIdeal.RefRun

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.FiniteArgs.lean ====
/-
  From the precondition to the finiteness of the arguments. The precondition of the claim says, of each of the
  eleven float arguments, that every entry has an absolute value below plus infinity, and takes the conjunction.
  At the ideal float values the absolute value of an extended real x is the maximum of x and its negation, which is
  plus infinity exactly at the two infinities; so an entry that passes the test is a real number. A conjunction
  over all entries of an array that came out true was true at every entry; hence every argument is a real array.
-/
import proofs.«153408_j3753801416995_1_alg».proof.Pre_finite_inputs
import proofs.«153408_j3753801416995_1_alg».proof.Proof.Gen.Pre_finite_inputs
import proofs.«153408_j3753801416995_1_alg».proof.Proof.LibReals
import Idealize.ShloMosaic.Lib.ReduceAll
import Idealize.ShloMosaic.Lib.IdealHost

noncomputable section

namespace Cert.FiniteArgs

open Cert.Pre_finite_inputs Cert.Reals
open Idealize.ShloMosaic Idealize.ShloMosaic.ValueIdx
open Cert.Pre_finite_inputs.Facts

/-- The rank-zero shape has one index. -/
instance : Subsingleton S_.Idx := ⟨fun _ _ => funext fun d => d.elim0⟩

/-- The word of plus infinity denotes the top element. -/
theorem ofBits_inf : Ideal.ofBits .f32 0x7F800000#32 = ⊤ := by simp [Ideal.ofBits, Ideal.ieee]

/-- An extended real whose absolute value (the maximum of it and its negation) is below plus infinity is a real. -/
theorem isRealS_of_abs_lt_top (x : EReal) (h : Ideal.cmp .olt (max x (-x)) (Ideal.ofBits .f32 0x7F800000#32) = 1#1) :
    IsRealS x := by
  rw [ofBits_inf] at h
  induction x using EReal.rec with
  | bot => simp [Ideal.cmp] at h
  | top => simp [Ideal.cmp] at h
  | coe r => exact ⟨r, rfl⟩

/-- An array all of whose entries pass the test "absolute value below plus infinity" is a real array. -/
theorem isReal_of_all {s : Shape} {axes : List (Fin s.rank)} (x : FVec Ideal s .f32) (hb : S_.BroadcastsInDim s ![])
    (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) : IsReal x := by
  intro i
  have hi := Host.reduce_andi_all _ _ hr hu ix0 e i
  have hc : broadcastInDim s ![] hb (constant (F := Ideal) S_ .f32 0x7F800000#32) i = Ideal.ofBits .f32 0x7F800000#32 := by
    rw [broadcastInDim_scalar_apply]; rfl
  change Ideal.cmp .olt (max (x i) (-(x i)))
    (broadcastInDim s ![] hb (constant (F := Ideal) S_ .f32 0x7F800000#32) i) = 1#1 at hi
  rw [hc] at hi
  exact isRealS_of_abs_lt_top _ hi

/-- THE PRECONDITION DECODED: if the printed predicate answers true at the twelve arguments, the eleven float
    arguments are real arrays (the integer array is not constrained). -/
theorem finite_args (x0 : FVec Ideal S100000x128 .f32) (x1 : IVec S2x1600000 32) (x2 : FVec Ideal S128x128 .f32)
    (x3 x4 x5 : FVec Ideal S128 .f32) (x6 : FVec Ideal S128x128 .f32) (x7 x8 x9 : FVec Ideal S128 .f32)
    (x10 : FVec Ideal S128x64 .f32) (x11 : FVec Ideal S64 .f32)
    (h : Cert.Pre_finite_inputs.fn (F := Ideal) x0 x1 x2 x3 x4 x5 x6 x7 x8 x9 x10 x11 = fun _ => 1#1) :
    IsReal x0 ∧ IsReal x2 ∧ IsReal x3 ∧ IsReal x4 ∧ IsReal x5 ∧ IsReal x6 ∧ IsReal x7 ∧ IsReal x8 ∧ IsReal x9
      ∧ IsReal x10 ∧ IsReal x11 := by
  have e := congrFun h ix0
  unfold fn fn_part1 fn_part2 fn_part3 at e
  dsimp only at e
  simp only [andi, IntOp.andi_eq_one] at e
  obtain ⟨⟨⟨⟨⟨⟨⟨⟨⟨⟨e0, e2⟩, e3⟩, e4⟩, e5⟩, e6⟩, e7⟩, e8⟩, e9⟩, e10⟩, e11⟩ := e
  exact ⟨isReal_of_all x0 _ _ _ e0, isReal_of_all x2 _ _ _ e2, isReal_of_all x3 _ _ _ e3, isReal_of_all x4 _ _ _ e4,
    isReal_of_all x5 _ _ _ e5, isReal_of_all x6 _ _ _ e6, isReal_of_all x7 _ _ _ e7, isReal_of_all x8 _ _ _ e8,
    isReal_of_all x9 _ _ _ e9, isReal_of_all x10 _ _ _ e10, isReal_of_all x11 _ _ _ e11⟩

end Cert.FiniteArgs

end
-- ==== Proof.Assemble.lean ====
/-
  The five claims of the certificate, assembled from their parts.

  The two kernel programs run and leave their arguments unchanged: the generated frames. The reference runs and
  leaves its arguments unchanged: its run, read at the argument buffers. The idealized kernel program is the kernel
  program's own text read at the extended reals: nothing was rewritten, so there is nothing to preserve. Last, the
  algebraic claim: from memories that agree on the twelve arguments, both idealized programs run; the kernel
  program's result buffer ends at the third layer's convolution term of the arguments (its run, then the chain of
  its regions and host stretches), the reference's ends at its own term of the same arguments (its run), and for
  finite arguments the two terms are one function; the arguments are finite by the precondition.
-/
import proofs.«153408_j3753801416995_1_alg».proof.Defs
import proofs.«153408_j3753801416995_1_alg».proof.Proof.Gen.Kernel
import proofs.«153408_j3753801416995_1_alg».proof.Proof.Gen.Kernel.Frame
import proofs.«153408_j3753801416995_1_alg».proof.Proof.Gen.KernelIdeal
import proofs.«153408_j3753801416995_1_alg».proof.Proof.Gen.KernelIdeal.Frame
import proofs.«153408_j3753801416995_1_alg».proof.Proof.Gen.ReferenceIdeal
import proofs.«153408_j3753801416995_1_alg».proof.Proof.Gen.Pre_finite_inputs
import proofs.«153408_j3753801416995_1_alg».proof.Proof.KRun
import proofs.«153408_j3753801416995_1_alg».proof.Proof.KTerm
import proofs.«153408_j3753801416995_1_alg».proof.Proof.RefRun
import proofs.«153408_j3753801416995_1_alg».proof.Proof.LibReals
import proofs.«153408_j3753801416995_1_alg».proof.Proof.FiniteArgs

noncomputable section

namespace Cert.Proof.Parts

open Idealize.ShloMosaic Idealize.SL.Sem Cert.Reals

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten between the kernel program and its idealization. -/
theorem preserves : Cert.preserves_Kernel_KernelIdeal := trivial

/-- What the chain of the kernel program's segments gives: on every device the result buffer's final contents
    are the third layer's convolution term of the twelve argument arrays as launched. -/
def Chain : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Gen.W14 m ρ c (Proc.devRef .tc Cert.KernelIdeal.main_v93_0)
      = Cert.KernelIdeal.KTerm.k_v93_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- What the comparison of the two programs' terms gives: for finite arguments the kernel program's result term
    and the reference's are one function of the twelve arrays. -/
def Bridge : Prop :=
  ∀ (a0 : (⟨Cert.KernelIdeal.S100000x128, .f32⟩ : BufTy).Contents (Elt Ideal)) (a1 : (⟨Cert.KernelIdeal.S2x1600000, .i32⟩ : BufTy).Contents (Elt Ideal)) (a2 : (⟨Cert.KernelIdeal.S128x128, .f32⟩ : BufTy).Contents (Elt Ideal)) (a3 a4 a5 : (⟨Cert.KernelIdeal.S128, .f32⟩ : BufTy).Contents (Elt Ideal)) (a6 : (⟨Cert.KernelIdeal.S128x128, .f32⟩ : BufTy).Contents (Elt Ideal)) (a7 a8 a9 : (⟨Cert.KernelIdeal.S128, .f32⟩ : BufTy).Contents (Elt Ideal)) (a10 : (⟨Cert.KernelIdeal.S128x64, .f32⟩ : BufTy).Contents (Elt Ideal)) (a11 : (⟨Cert.KernelIdeal.S64, .f32⟩ : BufTy).Contents (Elt Ideal)),
    IsReal a0 → IsReal a2 → IsReal a3 → IsReal a4 → IsReal a5 → IsReal a6 → IsReal a7 →
    Cert.KernelIdeal.KTerm.k_v93_0 a0 a1 a2 a3 a4 a5 a6 a7 a8 a9 a10 a11 = Cert.ReferenceIdeal.RefRun.res_v129 (F := Ideal) a0 a1 a2 a3 a4 a5 a6 a7 a8 a9 a10 a11

/-- THE ALGEBRAIC CLAIM: from memories agreeing on the arguments, of which the precondition holds, both idealized
    programs run, end with equal results and leave their arguments unchanged. -/
theorem algebraic_of (hchain : Chain) (hbridge : Bridge) : Cert.algebraic_KernelIdeal_ReferenceIdeal := by
  intro m ρ m' ρ' hpre hagree
  refine ⟨fun c => Cert.KernelIdeal.KTerm.k_v93_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (hchain m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.RefRun.run (F := Ideal) m' ρ')
    obtain ⟨g0, g1, g2, g3, g4, g5, g6, g7, g8, g9, g10, g11⟩ := hagree c
    rw [g0, g1, g2, g3, g4, g5, g6, g7, g8, g9, g10, g11]
    obtain ⟨f0, f2, f3, f4, f5, f6, f7, -, -, -, -⟩ :=
      Cert.FiniteArgs.finite_args _ _ _ _ _ _ _ _ _ _ _ _ (hpre c)
    exact (hbridge _ _ _ _ _ _ _ _ _ _ _ _ f0 f2 f3 f4 f5 f6 f7).symm

/-- THE CLAIM, given the chain and the comparison. -/
theorem claim_of (hchain : Chain) (hbridge : Bridge) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hchain hbridge⟩

end Cert.Proof.Parts

end
-- ==== Proof.BridgeK.lean ====
/-
  The two programs' host chains are the same operations.

  Around the kernel regions the kernel program normalises the edge endpoints, gathers the rows of a
  feature product at the sources, scales them by the edge weights and scatter-adds them at the
  destinations — operation for operation what the reference does, with other buffer numbers.  So buffer
  by buffer the two programs' named terms are equal: each is one operation applied to terms already
  shown equal.  For layers 2 and 3 the equality of the feature products going in is a hypothesis.
-/
import proofs.«153408_j3753801416995_1_alg».proof.Proof.KTerm
import proofs.«153408_j3753801416995_1_alg».proof.Proof.RefTerm
import proofs.«153408_j3753801416995_1_alg».proof.Proof.Gen.ReferenceIdeal

noncomputable section

namespace Cert.BridgeK

open Cert.KernelIdeal.KTerm Cert.ReferenceIdeal.RefRun Idealize.ShloMosaic
open Cert.KernelIdeal (KSpec.mm)

variable {a0 : (⟨Cert.KernelIdeal.S100000x128, .f32⟩ : BufTy).Contents (Elt Ideal)} {a1 : (⟨Cert.KernelIdeal.S2x1600000, .i32⟩ : BufTy).Contents (Elt Ideal)} {a2 : (⟨Cert.KernelIdeal.S128x128, .f32⟩ : BufTy).Contents (Elt Ideal)} {a3 : (⟨Cert.KernelIdeal.S128, .f32⟩ : BufTy).Contents (Elt Ideal)} {a4 : (⟨Cert.KernelIdeal.S128, .f32⟩ : BufTy).Contents (Elt Ideal)} {a5 : (⟨Cert.KernelIdeal.S128, .f32⟩ : BufTy).Contents (Elt Ideal)} {a6 : (⟨Cert.KernelIdeal.S128x128, .f32⟩ : BufTy).Contents (Elt Ideal)} {a7 : (⟨Cert.KernelIdeal.S128, .f32⟩ : BufTy).Contents (Elt Ideal)} {a8 : (⟨Cert.KernelIdeal.S128, .f32⟩ : BufTy).Contents (Elt Ideal)} {a9 : (⟨Cert.KernelIdeal.S128, .f32⟩ : BufTy).Contents (Elt Ideal)} {a10 : (⟨Cert.KernelIdeal.S128x64, .f32⟩ : BufTy).Contents (Elt Ideal)} {a11 : (⟨Cert.KernelIdeal.S64, .f32⟩ : BufTy).Contents (Elt Ideal)}

theorem e_v0 : k_v0 a0 a1 a2 a3 a4 a5 a6 a7 a8 a9 a10 a11 = res_v0 (F := Ideal) a0 a1 a2 a3 a4 a5 a6 a7 a8 a9 a10 a11 := by
  unfold k_v0 res_v0
  first | done | rfl

theorem e_v1 : k_v1 a0 a1 a2 a3 a4 a5 a6 a7 a8 a9 a10 a11 = res_v1 (F := Ideal) a0 a1 a2 a3 a4 a5 a6 a7 a8 a9 a10 a11 := by
  unfold k_v1 res_v1
  rw [e_v0]
  first | done | rfl

theorem e_v2 : k_v2 a0 a1 a2 a3 a4 a5 a6 a7 a8 a9 a10 a11 = res_v2 (F := Ideal) a0 a1 a2 a3 a4 a5 a6 a7 a8 a9 a10 a11 := by
  unfold k_v2 res_v2
  first | done | rfl

theorem e_v3 : k_v3 a0 a1 a2 a3 a4 a5 a6 a7 a8 a9 a10 a11 = res_v3 (F := Ideal) a0 a1 a2 a3 a4 a5 a6 a7 a8 a9 a10 a11 := by
  unfold k_v3 res_v3
  rw [e_v2]
  first | done | rfl

theorem e_cst : k_cst a0 a1 a2 a3 a4 a5 a6 a7 a8 a9 a10 a11 = res_cst (F := Ideal) a0 a1 a2 a3 a4 a5 a6 a7 a8 a9 a10 a11 := by
  unfold k_cst res_cst
  first | done | rfl

theorem e_v4 : k_v4 a0 a1 a2 a3 a4 a5 a6 a7 a8 a9 a10 a11 = res_v4 (F := Ideal) a0 a1 a2 a3 a4 a5 a6 a7 a8 a9 a10 a11 := by
  unfold k_v4 res_v4
  rw [e_cst]
  first | done | rfl

theorem e_cst_0 : k_cst_0 a0 a1 a2 a3 a4 a5 a6 a7 a8 a9 a10 a11 = res_cst_0 (F := Ideal) a0 a1 a2 a3 a4 a5 a6 a7 a8 a9 a10 a11 := by
  unfold k_cst_0 res_cst_0
  first | done | rfl

theorem e_v5 : k_v5 a0 a1 a2 a3 a4 a5 a6 a7 a8 a9 a10 a11 = res_v5 (F := Ideal) a0 a1 a2 a3 a4 a5 a6 a7 a8 a9 a10 a11 := by
  unfold k_v5 res_v5
  rw [e_cst_0]
  first | done | rfl

theorem e_v6 : k_v6 a0 a1 a2 a3 a4 a5 a6 a7 a8 a9 a10 a11 = res_v6 (F := Ideal) a0 a1 a2 a3 a4 a5 a6 a7 a8 a9 a10 a11 := by
  unfold k_v6 res_v6
  rw [e_v3]
  first | done | rfl

theorem e_v7 : k_v7 a0 a1 a2 a3 a4 a5 a6 a7 a8 a9 a10 a11 = res_v7 (F := Ideal) a0 a1 a2 a3 a4 a5 a6 a7 a8 a9 a10 a11 := by
  unfold k_v7 res_v7
  rw [e_v5, e_v6, e_v4]
  first | done | rfl

theorem e_cst_1 : k_cst_1 a0 a1 a2 a3 a4 a5 a6 a7 a8 a9 a10 a11 = res_cst_1 (F := Ideal) a0 a1 a2 a3 a4 a5 a6 a7 a8 a9 a10 a11 := by
  unfold k_cst_1 res_cst_1
  first | done | rfl

theorem e_v8 : k_v8 a0 a1 a2 a3 a4 a5 a6 a7 a8 a9 a10 a11 = res_v8 (F := Ideal) a0 a1 a2 a3 a4 a5 a6 a7 a8 a9 a10 a11 := by
  unfold k_v8 res_v8
  rw [e_cst_1]
  first | done | rfl

theorem e_v9 : k_v9 a0 a1 a2 a3 a4 a5 a6 a7 a8 a9 a10 a11 = res_v9 (F := Ideal) a0 a1 a2 a3 a4 a5 a6 a7 a8 a9 a10 a11 := by
  unfold k_v9 res_v9
  rw [e_v7, e_v8]
  first | done | rfl

theorem e_v10 : k_v10 a0 a1 a2 a3 a4 a5 a6 a7 a8 a9 a10 a11 = res_v10 (F := Ideal) a0 a1 a2 a3 a4 a5 a6 a7 a8 a9 a10 a11 := by
  unfold k_v10 res_v10
  rw [e_v9]
  first | done | rfl

theorem e_c : k_c a0 a1 a2 a3 a4 a5 a6 a7 a8 a9 a10 a11 = res_c (F := Ideal) a0 a1 a2 a3 a4 a5 a6 a7 a8 a9 a10 a11 := by
  unfold k_c res_c
  first | done | rfl

theorem e_v11 : k_v11 a0 a1 a2 a3 a4 a5 a6 a7 a8 a9 a10 a11 = res_v11 (F := Ideal) a0 a1 a2 a3 a4 a5 a6 a7 a8 a9 a10 a11 := by
  unfold k_v11 res_v11
  rw [e_c]
  first | done | rfl

theorem e_v12 : k_v12 a0 a1 a2 a3 a4 a5 a6 a7 a8 a9 a10 a11 = res_v12 (F := Ideal) a0 a1 a2 a3 a4 a5 a6 a7 a8 a9 a10 a11 := by
  unfold k_v12 res_v12
  rw [e_v1, e_v11]
  first | done | rfl

theorem e_c_2 : k_c_2 a0 a1 a2 a3 a4 a5 a6 a7 a8 a9 a10 a11 = res_c_2 (F := Ideal) a0 a1 a2 a3 a4 a5 a6 a7 a8 a9 a10 a11 := by
  unfold k_c_2 res_c_2
  first | done | rfl

theorem e_v13 : k_v13 a0 a1 a2 a3 a4 a5 a6 a7 a8 a9 a10 a11 = res_v13 (F := Ideal) a0 a1 a2 a3 a4 a5 a6 a7 a8 a9 a10 a11 := by
  unfold k_v13 res_v13
  rw [e_c_2]
  first | done | rfl

theorem e_v14 : k_v14 a0 a1 a2 a3 a4 a5 a6 a7 a8 a9 a10 a11 = res_v14 (F := Ideal) a0 a1 a2 a3 a4 a5 a6 a7 a8 a9 a10 a11 := by
  unfold k_v14 res_v14
  rw [e_v1, e_v13]
  first | done | rfl

theorem e_v15 : k_v15 a0 a1 a2 a3 a4 a5 a6 a7 a8 a9 a10 a11 = res_v15 (F := Ideal) a0 a1 a2 a3 a4 a5 a6 a7 a8 a9 a10 a11 := by
  unfold k_v15 res_v15
  rw [e_v12, e_v14, e_v1]
  first | done | rfl

theorem e_v16 : k_v16 a0 a1 a2 a3 a4 a5 a6 a7 a8 a9 a10 a11 = res_v16 (F := Ideal) a0 a1 a2 a3 a4 a5 a6 a7 a8 a9 a10 a11 := by
  unfold k_v16 res_v16
  rw [e_v15]
  first | done | rfl

theorem e_v17 : k_v17 a0 a1 a2 a3 a4 a5 a6 a7 a8 a9 a10 a11 = res_v17 (F := Ideal) a0 a1 a2 a3 a4 a5 a6 a7 a8 a9 a10 a11 := by
  unfold k_v17 res_v17
  rw [e_v10, e_v16]
  first | done | rfl

theorem e_c_3 : k_c_3 a0 a1 a2 a3 a4 a5 a6 a7 a8 a9 a10 a11 = res_c_3 (F := Ideal) a0 a1 a2 a3 a4 a5 a6 a7 a8 a9 a10 a11 := by
  unfold k_c_3 res_c_3
  first | done | rfl

theorem e_v18 : k_v18 a0 a1 a2 a3 a4 a5 a6 a7 a8 a9 a10 a11 = res_v18 (F := Ideal) a0 a1 a2 a3 a4 a5 a6 a7 a8 a9 a10 a11 := by
  unfold k_v18 res_v18
  rw [e_c_3]
  first | done | rfl

theorem e_v19 : k_v19 a0 a1 a2 a3 a4 a5 a6 a7 a8 a9 a10 a11 = res_v19 (F := Ideal) a0 a1 a2 a3 a4 a5 a6 a7 a8 a9 a10 a11 := by
  unfold k_v19 res_v19
  rw [e_v3, e_v18]
  first | done | rfl

theorem e_c_4 : k_c_4 a0 a1 a2 a3 a4 a5 a6 a7 a8 a9 a10 a11 = res_c_4 (F := Ideal) a0 a1 a2 a3 a4 a5 a6 a7 a8 a9 a10 a11 := by
  unfold k_c_4 res_c_4
  first | done | rfl

theorem e_v20 : k_v20 a0 a1 a2 a3 a4 a5 a6 a7 a8 a9 a10 a11 = res_v20 (F := Ideal) a0 a1 a2 a3 a4 a5 a6 a7 a8 a9 a10 a11 := by
  unfold k_v20 res_v20
  rw [e_c_4]
  first | done | rfl

theorem e_v21 : k_v21 a0 a1 a2 a3 a4 a5 a6 a7 a8 a9 a10 a11 = res_v21 (F := Ideal) a0 a1 a2 a3 a4 a5 a6 a7 a8 a9 a10 a11 := by
  unfold k_v21 res_v21
  rw [e_v3, e_v20]
  first | done | rfl

theorem e_v22 : k_v22 a0 a1 a2 a3 a4 a5 a6 a7 a8 a9 a10 a11 = res_v22 (F := Ideal) a0 a1 a2 a3 a4 a5 a6 a7 a8 a9 a10 a11 := by
  unfold k_v22 res_v22
  rw [e_v19, e_v21, e_v3]
  first | done | rfl

theorem e_v23 : k_v23 a0 a1 a2 a3 a4 a5 a6 a7 a8 a9 a10 a11 = res_v23 (F := Ideal) a0 a1 a2 a3 a4 a5 a6 a7 a8 a9 a10 a11 := by
  unfold k_v23 res_v23
  rw [e_v22]
  first | done | rfl

theorem e_v24 : k_v24 a0 a1 a2 a3 a4 a5 a6 a7 a8 a9 a10 a11 = res_v24 (F := Ideal) a0 a1 a2 a3 a4 a5 a6 a7 a8 a9 a10 a11 := by
  unfold k_v24 res_v24
  rw [e_v10, e_v23]
  first | done | rfl

theorem e_v25 : k_v25 a0 a1 a2 a3 a4 a5 a6 a7 a8 a9 a10 a11 = res_v25 (F := Ideal) a0 a1 a2 a3 a4 a5 a6 a7 a8 a9 a10 a11 := by
  unfold k_v25 res_v25
  rw [e_v17, e_v24]
  first | done | rfl

theorem e_v26 : k_v26 a0 a1 a2 a3 a4 a5 a6 a7 a8 a9 a10 a11 = res_v26 (F := Ideal) a0 a1 a2 a3 a4 a5 a6 a7 a8 a9 a10 a11 := by
  unfold k_v26 res_v26
  rw [e_v10]
  first | done | rfl

/-- Layer 1's feature product is the reference's. -/
theorem e_v28 : k_v28 a0 a1 a2 a3 a4 a5 a6 a7 a8 a9 a10 a11 = res_v27 (F := Ideal) a0 a1 a2 a3 a4 a5 a6 a7 a8 a9 a10 a11 := by
  unfold k_v28 res_v27 KSpec.mm
  rfl

theorem e_c_5 : k_c_5 a0 a1 a2 a3 a4 a5 a6 a7 a8 a9 a10 a11 = res_c_5 (F := Ideal) a0 a1 a2 a3 a4 a5 a6 a7 a8 a9 a10 a11 := by
  unfold k_c_5 res_c_5
  first | done | rfl

theorem e_v29 : k_v29 a0 a1 a2 a3 a4 a5 a6 a7 a8 a9 a10 a11 = res_v28 (F := Ideal) a0 a1 a2 a3 a4 a5 a6 a7 a8 a9 a10 a11 := by
  unfold k_v29 res_v28
  rw [e_c_5]
  first | done | rfl

theorem e_v30 : k_v30 a0 a1 a2 a3 a4 a5 a6 a7 a8 a9 a10 a11 = res_v29 (F := Ideal) a0 a1 a2 a3 a4 a5 a6 a7 a8 a9 a10 a11 := by
  unfold k_v30 res_v29
  rw [e_v1, e_v29]
  first | done | rfl

theorem e_c_6 : k_c_6 a0 a1 a2 a3 a4 a5 a6 a7 a8 a9 a10 a11 = res_c_6 (F := Ideal) a0 a1 a2 a3 a4 a5 a6 a7 a8 a9 a10 a11 := by
  unfold k_c_6 res_c_6
  first | done | rfl

theorem e_v31 : k_v31 a0 a1 a2 a3 a4 a5 a6 a7 a8 a9 a10 a11 = res_v30 (F := Ideal) a0 a1 a2 a3 a4 a5 a6 a7 a8 a9 a10 a11 := by
  unfold k_v31 res_v30
  rw [e_c_6]
  first | done | rfl

theorem e_v32 : k_v32 a0 a1 a2 a3 a4 a5 a6 a7 a8 a9 a10 a11 = res_v31 (F := Ideal) a0 a1 a2 a3 a4 a5 a6 a7 a8 a9 a10 a11 := by
  unfold k_v32 res_v31
  rw [e_v1, e_v31]
  first | done | rfl

theorem e_v33 : k_v33 a0 a1 a2 a3 a4 a5 a6 a7 a8 a9 a10 a11 = res_v32 (F := Ideal) a0 a1 a2 a3 a4 a5 a6 a7 a8 a9 a10 a11 := by
  unfold k_v33 res_v32
  rw [e_v30, e_v32, e_v1]
  first | done | rfl

theorem e_v34 : k_v34 a0 a1 a2 a3 a4 a5 a6 a7 a8 a9 a10 a11 = res_v33 (F := Ideal) a0 a1 a2 a3 a4 a5 a6 a7 a8 a9 a10 a11 := by
  unfold k_v34 res_v33
  rw [e_v33]
  first | done | rfl

theorem e_v35 : k_v35 a0 a1 a2 a3 a4 a5 a6 a7 a8 a9 a10 a11 = res_v34 (F := Ideal) a0 a1 a2 a3 a4 a5 a6 a7 a8 a9 a10 a11 := by
  unfold k_v35 res_v34
  rw [e_v28, e_v34]
  first | done | rfl

theorem e_v36 : k_v36 a0 a1 a2 a3 a4 a5 a6 a7 a8 a9 a10 a11 = res_v35 (F := Ideal) a0 a1 a2 a3 a4 a5 a6 a7 a8 a9 a10 a11 := by
  unfold k_v36 res_v35
  rw [e_v25]
  first | done | rfl

theorem e_v37 : k_v37 a0 a1 a2 a3 a4 a5 a6 a7 a8 a9 a10 a11 = res_v36 (F := Ideal) a0 a1 a2 a3 a4 a5 a6 a7 a8 a9 a10 a11 := by
  unfold k_v37 res_v36
  rw [e_v36]
  first | done | rfl

theorem e_v38 : k_v38 a0 a1 a2 a3 a4 a5 a6 a7 a8 a9 a10 a11 = res_v37 (F := Ideal) a0 a1 a2 a3 a4 a5 a6 a7 a8 a9 a10 a11 := by
  unfold k_v38 res_v37
  rw [e_v35, e_v37]
  first | done | rfl

theorem e_cst_7 : k_cst_7 a0 a1 a2 a3 a4 a5 a6 a7 a8 a9 a10 a11 = res_cst_7 (F := Ideal) a0 a1 a2 a3 a4 a5 a6 a7 a8 a9 a10 a11 := by
  unfold k_cst_7 res_cst_7
  first | done | rfl

theorem e_v39 : k_v39 a0 a1 a2 a3 a4 a5 a6 a7 a8 a9 a10 a11 = res_v38 (F := Ideal) a0 a1 a2 a3 a4 a5 a6 a7 a8 a9 a10 a11 := by
  unfold k_v39 res_v38
  rw [e_cst_7]
  first | done | rfl

theorem e_v40 : k_v40 a0 a1 a2 a3 a4 a5 a6 a7 a8 a9 a10 a11 = res_v39 (F := Ideal) a0 a1 a2 a3 a4 a5 a6 a7 a8 a9 a10 a11 := by
  unfold k_v40 res_v39
  rw [e_v3]
  first | done | rfl

theorem e_v41 : k_v41 a0 a1 a2 a3 a4 a5 a6 a7 a8 a9 a10 a11 = res_v40 (F := Ideal) a0 a1 a2 a3 a4 a5 a6 a7 a8 a9 a10 a11 := by
  unfold k_v41 res_v40
  rw [e_v39, e_v40, e_v38]
  first | done | rfl

theorem e_c_10 (h53 : k_v53 a0 a1 a2 a3 a4 a5 a6 a7 a8 a9 a10 a11 = res_v68 (F := Ideal) a0 a1 a2 a3 a4 a5 a6 a7 a8 a9 a10 a11) : k_c_10 a0 a1 a2 a3 a4 a5 a6 a7 a8 a9 a10 a11 = res_c_12 (F := Ideal) a0 a1 a2 a3 a4 a5 a6 a7 a8 a9 a10 a11 := by
  unfold k_c_10 res_c_12
  first | done | rfl

theorem e_v54 (h53 : k_v53 a0 a1 a2 a3 a4 a5 a6 a7 a8 a9 a10 a11 = res_v68 (F := Ideal) a0 a1 a2 a3 a4 a5 a6 a7 a8 a9 a10 a11) : k_v54 a0 a1 a2 a3 a4 a5 a6 a7 a8 a9 a10 a11 = res_v69 (F := Ideal) a0 a1 a2 a3 a4 a5 a6 a7 a8 a9 a10 a11 := by
  unfold k_v54 res_v69
  rw [e_c_10 h53]
  first | done | rfl

theorem e_v55 (h53 : k_v53 a0 a1 a2 a3 a4 a5 a6 a7 a8 a9 a10 a11 = res_v68 (F := Ideal) a0 a1 a2 a3 a4 a5 a6 a7 a8 a9 a10 a11) : k_v55 a0 a1 a2 a3 a4 a5 a6 a7 a8 a9 a10 a11 = res_v70 (F := Ideal) a0 a1 a2 a3 a4 a5 a6 a7 a8 a9 a10 a11 := by
  unfold k_v55 res_v70
  rw [e_v1, e_v54 h53]
  first | done | rfl

theorem e_c_11 (h53 : k_v53 a0 a1 a2 a3 a4 a5 a6 a7 a8 a9 a10 a11 = res_v68 (F := Ideal) a0 a1 a2 a3 a4 a5 a6 a7 a8 a9 a10 a11) : k_c_11 a0 a1 a2 a3 a4 a5 a6 a7 a8 a9 a10 a11 = res_c_13 (F := Ideal) a0 a1 a2 a3 a4 a5 a6 a7 a8 a9 a10 a11 := by
  unfold k_c_11 res_c_13
  first | done | rfl

theorem e_v56 (h53 : k_v53 a0 a1 a2 a3 a4 a5 a6 a7 a8 a9 a10 a11 = res_v68 (F := Ideal) a0 a1 a2 a3 a4 a5 a6 a7 a8 a9 a10 a11) : k_v56 a0 a1 a2 a3 a4 a5 a6 a7 a8 a9 a10 a11 = res_v71 (F := Ideal) a0 a1 a2 a3 a4 a5 a6 a7 a8 a9 a10 a11 := by
  unfold k_v56 res_v71
  rw [e_c_11 h53]
  first | done | rfl

theorem e_v57 (h53 : k_v53 a0 a1 a2 a3 a4 a5 a6 a7 a8 a9 a10 a11 = res_v68 (F := Ideal) a0 a1 a2 a3 a4 a5 a6 a7 a8 a9 a10 a11) : k_v57 a0 a1 a2 a3 a4 a5 a6 a7 a8 a9 a10 a11 = res_v72 (F := Ideal) a0 a1 a2 a3 a4 a5 a6 a7 a8 a9 a10 a11 := by
  unfold k_v57 res_v72
  rw [e_v1, e_v56 h53]
  first | done | rfl

theorem e_v58 (h53 : k_v53 a0 a1 a2 a3 a4 a5 a6 a7 a8 a9 a10 a11 = res_v68 (F := Ideal) a0 a1 a2 a3 a4 a5 a6 a7 a8 a9 a10 a11) : k_v58 a0 a1 a2 a3 a4 a5 a6 a7 a8 a9 a10 a11 = res_v73 (F := Ideal) a0 a1 a2 a3 a4 a5 a6 a7 a8 a9 a10 a11 := by
  unfold k_v58 res_v73
  rw [e_v55 h53, e_v57 h53, e_v1]
  first | done | rfl

theorem e_v59 (h53 : k_v53 a0 a1 a2 a3 a4 a5 a6 a7 a8 a9 a10 a11 = res_v68 (F := Ideal) a0 a1 a2 a3 a4 a5 a6 a7 a8 a9 a10 a11) : k_v59 a0 a1 a2 a3 a4 a5 a6 a7 a8 a9 a10 a11 = res_v74 (F := Ideal) a0 a1 a2 a3 a4 a5 a6 a7 a8 a9 a10 a11 := by
  unfold k_v59 res_v74
  rw [e_v58 h53]
  first | done | rfl

theorem e_v60 (h53 : k_v53 a0 a1 a2 a3 a4 a5 a6 a7 a8 a9 a10 a11 = res_v68 (F := Ideal) a0 a1 a2 a3 a4 a5 a6 a7 a8 a9 a10 a11) : k_v60 a0 a1 a2 a3 a4 a5 a6 a7 a8 a9 a10 a11 = res_v75 (F := Ideal) a0 a1 a2 a3 a4 a5 a6 a7 a8 a9 a10 a11 := by
  unfold k_v60 res_v75
  rw [h53, e_v59 h53]
  first | done | rfl

theorem e_v61 (h53 : k_v53 a0 a1 a2 a3 a4 a5 a6 a7 a8 a9 a10 a11 = res_v68 (F := Ideal) a0 a1 a2 a3 a4 a5 a6 a7 a8 a9 a10 a11) : k_v61 a0 a1 a2 a3 a4 a5 a6 a7 a8 a9 a10 a11 = res_v76 (F := Ideal) a0 a1 a2 a3 a4 a5 a6 a7 a8 a9 a10 a11 := by
  unfold k_v61 res_v76
  rw [e_v25]
  first | done | rfl

theorem e_v62 (h53 : k_v53 a0 a1 a2 a3 a4 a5 a6 a7 a8 a9 a10 a11 = res_v68 (F := Ideal) a0 a1 a2 a3 a4 a5 a6 a7 a8 a9 a10 a11) : k_v62 a0 a1 a2 a3 a4 a5 a6 a7 a8 a9 a10 a11 = res_v77 (F := Ideal) a0 a1 a2 a3 a4 a5 a6 a7 a8 a9 a10 a11 := by
  unfold k_v62 res_v77
  rw [e_v61 h53]
  first | done | rfl

theorem e_v63 (h53 : k_v53 a0 a1 a2 a3 a4 a5 a6 a7 a8 a9 a10 a11 = res_v68 (F := Ideal) a0 a1 a2 a3 a4 a5 a6 a7 a8 a9 a10 a11) : k_v63 a0 a1 a2 a3 a4 a5 a6 a7 a8 a9 a10 a11 = res_v78 (F := Ideal) a0 a1 a2 a3 a4 a5 a6 a7 a8 a9 a10 a11 := by
  unfold k_v63 res_v78
  rw [e_v60 h53, e_v62 h53]
  first | done | rfl

theorem e_cst_12 (h53 : k_v53 a0 a1 a2 a3 a4 a5 a6 a7 a8 a9 a10 a11 = res_v68 (F := Ideal) a0 a1 a2 a3 a4 a5 a6 a7 a8 a9 a10 a11) : k_cst_12 a0 a1 a2 a3 a4 a5 a6 a7 a8 a9 a10 a11 = res_cst_14 (F := Ideal) a0 a1 a2 a3 a4 a5 a6 a7 a8 a9 a10 a11 := by
  unfold k_cst_12 res_cst_14
  first | done | rfl

theorem e_v64 (h53 : k_v53 a0 a1 a2 a3 a4 a5 a6 a7 a8 a9 a10 a11 = res_v68 (F := Ideal) a0 a1 a2 a3 a4 a5 a6 a7 a8 a9 a10 a11) : k_v64 a0 a1 a2 a3 a4 a5 a6 a7 a8 a9 a10 a11 = res_v79 (F := Ideal) a0 a1 a2 a3 a4 a5 a6 a7 a8 a9 a10 a11 := by
  unfold k_v64 res_v79
  rw [e_cst_12 h53]
  first | done | rfl

theorem e_v65 (h53 : k_v53 a0 a1 a2 a3 a4 a5 a6 a7 a8 a9 a10 a11 = res_v68 (F := Ideal) a0 a1 a2 a3 a4 a5 a6 a7 a8 a9 a10 a11) : k_v65 a0 a1 a2 a3 a4 a5 a6 a7 a8 a9 a10 a11 = res_v80 (F := Ideal) a0 a1 a2 a3 a4 a5 a6 a7 a8 a9 a10 a11 := by
  unfold k_v65 res_v80
  rw [e_v3]
  first | done | rfl

theorem e_v66 (h53 : k_v53 a0 a1 a2 a3 a4 a5 a6 a7 a8 a9 a10 a11 = res_v68 (F := Ideal) a0 a1 a2 a3 a4 a5 a6 a7 a8 a9 a10 a11) : k_v66 a0 a1 a2 a3 a4 a5 a6 a7 a8 a9 a10 a11 = res_v81 (F := Ideal) a0 a1 a2 a3 a4 a5 a6 a7 a8 a9 a10 a11 := by
  unfold k_v66 res_v81
  rw [e_v64 h53, e_v65 h53, e_v63 h53]
  first | done | rfl

theorem e_c_15 (h78 : k_v78 a0 a1 a2 a3 a4 a5 a6 a7 a8 a9 a10 a11 = res_v109 (F := Ideal) a0 a1 a2 a3 a4 a5 a6 a7 a8 a9 a10 a11) : k_c_15 a0 a1 a2 a3 a4 a5 a6 a7 a8 a9 a10 a11 = res_c_19 (F := Ideal) a0 a1 a2 a3 a4 a5 a6 a7 a8 a9 a10 a11 := by
  unfold k_c_15 res_c_19
  first | done | rfl

theorem e_v79 (h78 : k_v78 a0 a1 a2 a3 a4 a5 a6 a7 a8 a9 a10 a11 = res_v109 (F := Ideal) a0 a1 a2 a3 a4 a5 a6 a7 a8 a9 a10 a11) : k_v79 a0 a1 a2 a3 a4 a5 a6 a7 a8 a9 a10 a11 = res_v110 (F := Ideal) a0 a1 a2 a3 a4 a5 a6 a7 a8 a9 a10 a11 := by
  unfold k_v79 res_v110
  rw [e_c_15 h78]
  first | done | rfl

theorem e_v80 (h78 : k_v78 a0 a1 a2 a3 a4 a5 a6 a7 a8 a9 a10 a11 = res_v109 (F := Ideal) a0 a1 a2 a3 a4 a5 a6 a7 a8 a9 a10 a11) : k_v80 a0 a1 a2 a3 a4 a5 a6 a7 a8 a9 a10 a11 = res_v111 (F := Ideal) a0 a1 a2 a3 a4 a5 a6 a7 a8 a9 a10 a11 := by
  unfold k_v80 res_v111
  rw [e_v1, e_v79 h78]
  first | done | rfl

theorem e_c_16 (h78 : k_v78 a0 a1 a2 a3 a4 a5 a6 a7 a8 a9 a10 a11 = res_v109 (F := Ideal) a0 a1 a2 a3 a4 a5 a6 a7 a8 a9 a10 a11) : k_c_16 a0 a1 a2 a3 a4 a5 a6 a7 a8 a9 a10 a11 = res_c_20 (F := Ideal) a0 a1 a2 a3 a4 a5 a6 a7 a8 a9 a10 a11 := by
  unfold k_c_16 res_c_20
  first | done | rfl

theorem e_v81 (h78 : k_v78 a0 a1 a2 a3 a4 a5 a6 a7 a8 a9 a10 a11 = res_v109 (F := Ideal) a0 a1 a2 a3 a4 a5 a6 a7 a8 a9 a10 a11) : k_v81 a0 a1 a2 a3 a4 a5 a6 a7 a8 a9 a10 a11 = res_v112 (F := Ideal) a0 a1 a2 a3 a4 a5 a6 a7 a8 a9 a10 a11 := by
  unfold k_v81 res_v112
  rw [e_c_16 h78]
  first | done | rfl

theorem e_v82 (h78 : k_v78 a0 a1 a2 a3 a4 a5 a6 a7 a8 a9 a10 a11 = res_v109 (F := Ideal) a0 a1 a2 a3 a4 a5 a6 a7 a8 a9 a10 a11) : k_v82 a0 a1 a2 a3 a4 a5 a6 a7 a8 a9 a10 a11 = res_v113 (F := Ideal) a0 a1 a2 a3 a4 a5 a6 a7 a8 a9 a10 a11 := by
  unfold k_v82 res_v113
  rw [e_v1, e_v81 h78]
  first | done | rfl

theorem e_v83 (h78 : k_v78 a0 a1 a2 a3 a4 a5 a6 a7 a8 a9 a10 a11 = res_v109 (F := Ideal) a0 a1 a2 a3 a4 a5 a6 a7 a8 a9 a10 a11) : k_v83 a0 a1 a2 a3 a4 a5 a6 a7 a8 a9 a10 a11 = res_v114 (F := Ideal) a0 a1 a2 a3 a4 a5 a6 a7 a8 a9 a10 a11 := by
  unfold k_v83 res_v114
  rw [e_v80 h78, e_v82 h78, e_v1]
  first | done | rfl

theorem e_v84 (h78 : k_v78 a0 a1 a2 a3 a4 a5 a6 a7 a8 a9 a10 a11 = res_v109 (F := Ideal) a0 a1 a2 a3 a4 a5 a6 a7 a8 a9 a10 a11) : k_v84 a0 a1 a2 a3 a4 a5 a6 a7 a8 a9 a10 a11 = res_v115 (F := Ideal) a0 a1 a2 a3 a4 a5 a6 a7 a8 a9 a10 a11 := by
  unfold k_v84 res_v115
  rw [e_v83 h78]
  first | done | rfl

theorem e_v85 (h78 : k_v78 a0 a1 a2 a3 a4 a5 a6 a7 a8 a9 a10 a11 = res_v109 (F := Ideal) a0 a1 a2 a3 a4 a5 a6 a7 a8 a9 a10 a11) : k_v85 a0 a1 a2 a3 a4 a5 a6 a7 a8 a9 a10 a11 = res_v116 (F := Ideal) a0 a1 a2 a3 a4 a5 a6 a7 a8 a9 a10 a11 := by
  unfold k_v85 res_v116
  rw [h78, e_v84 h78]
  first | done | rfl

theorem e_v86 (h78 : k_v78 a0 a1 a2 a3 a4 a5 a6 a7 a8 a9 a10 a11 = res_v109 (F := Ideal) a0 a1 a2 a3 a4 a5 a6 a7 a8 a9 a10 a11) : k_v86 a0 a1 a2 a3 a4 a5 a6 a7 a8 a9 a10 a11 = res_v117 (F := Ideal) a0 a1 a2 a3 a4 a5 a6 a7 a8 a9 a10 a11 := by
  unfold k_v86 res_v117
  rw [e_v25]
  first | done | rfl

theorem e_v87 (h78 : k_v78 a0 a1 a2 a3 a4 a5 a6 a7 a8 a9 a10 a11 = res_v109 (F := Ideal) a0 a1 a2 a3 a4 a5 a6 a7 a8 a9 a10 a11) : k_v87 a0 a1 a2 a3 a4 a5 a6 a7 a8 a9 a10 a11 = res_v118 (F := Ideal) a0 a1 a2 a3 a4 a5 a6 a7 a8 a9 a10 a11 := by
  unfold k_v87 res_v118
  rw [e_v86 h78]
  first | done | rfl

theorem e_v88 (h78 : k_v78 a0 a1 a2 a3 a4 a5 a6 a7 a8 a9 a10 a11 = res_v109 (F := Ideal) a0 a1 a2 a3 a4 a5 a6 a7 a8 a9 a10 a11) : k_v88 a0 a1 a2 a3 a4 a5 a6 a7 a8 a9 a10 a11 = res_v119 (F := Ideal) a0 a1 a2 a3 a4 a5 a6 a7 a8 a9 a10 a11 := by
  unfold k_v88 res_v119
  rw [e_v85 h78, e_v87 h78]
  first | done | rfl

theorem e_cst_17 (h78 : k_v78 a0 a1 a2 a3 a4 a5 a6 a7 a8 a9 a10 a11 = res_v109 (F := Ideal) a0 a1 a2 a3 a4 a5 a6 a7 a8 a9 a10 a11) : k_cst_17 a0 a1 a2 a3 a4 a5 a6 a7 a8 a9 a10 a11 = res_cst_21 (F := Ideal) a0 a1 a2 a3 a4 a5 a6 a7 a8 a9 a10 a11 := by
  unfold k_cst_17 res_cst_21
  first | done | rfl

theorem e_v89 (h78 : k_v78 a0 a1 a2 a3 a4 a5 a6 a7 a8 a9 a10 a11 = res_v109 (F := Ideal) a0 a1 a2 a3 a4 a5 a6 a7 a8 a9 a10 a11) : k_v89 a0 a1 a2 a3 a4 a5 a6 a7 a8 a9 a10 a11 = res_v120 (F := Ideal) a0 a1 a2 a3 a4 a5 a6 a7 a8 a9 a10 a11 := by
  unfold k_v89 res_v120
  rw [e_cst_17 h78]
  first | done | rfl

theorem e_v90 (h78 : k_v78 a0 a1 a2 a3 a4 a5 a6 a7 a8 a9 a10 a11 = res_v109 (F := Ideal) a0 a1 a2 a3 a4 a5 a6 a7 a8 a9 a10 a11) : k_v90 a0 a1 a2 a3 a4 a5 a6 a7 a8 a9 a10 a11 = res_v121 (F := Ideal) a0 a1 a2 a3 a4 a5 a6 a7 a8 a9 a10 a11 := by
  unfold k_v90 res_v121
  rw [e_v3]
  first | done | rfl

theorem e_v91 (h78 : k_v78 a0 a1 a2 a3 a4 a5 a6 a7 a8 a9 a10 a11 = res_v109 (F := Ideal) a0 a1 a2 a3 a4 a5 a6 a7 a8 a9 a10 a11) : k_v91 a0 a1 a2 a3 a4 a5 a6 a7 a8 a9 a10 a11 = res_v122 (F := Ideal) a0 a1 a2 a3 a4 a5 a6 a7 a8 a9 a10 a11 := by
  unfold k_v91 res_v122
  rw [e_v89 h78, e_v90 h78, e_v88 h78]
  first | done | rfl

end Cert.BridgeK

end
-- ==== Proof.Consts.lean ====
/-
  The float constants of the two programs as the extended reals their 32-bit words denote at the ideal
  values: 100000 (the number of rows, the divisor of the mean and of the variance), the small positive
  number added to a variance before the reciprocal square root (the word of the single-precision value
  nearest 1e-5, exactly 10995116 / 2^40), zero and one. Then the three scalar facts behind the divisor
  that the variance function computes as 100000 minus a correction read from an integer scalar that is
  zero: the integer zero converts to the real 0; the difference is 100000; it compares greater than zero,
  so a selection on that comparison, broadcast to any shape, returns its first branch.
-/
import Idealize.ShloMosaic.Lib.IdealHost

noncomputable section

namespace Cert.Reals

open Idealize.ShloMosaic
open Idealize.ShloMosaic.ValueIdx

/-- The shape of a scalar: rank zero. -/
abbrev S0 : Shape := ⟨0, ![]⟩

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes the real 10995116 · 2^(-40), the single-precision value nearest 1e-5. -/
theorem ofBits_eps : Ideal.ofBits .f32 0x3727C5AC#32 = ((10995116 * (2 : ℝ) ^ (-40 : ℤ) : ℝ) : EReal) := by
  simp [Ideal.ofBits, Ideal.ieee, -EReal.coe_mul]

/-- That word denotes a positive real. -/
theorem ofBits_eps_pos : ∃ e : ℝ, 0 < e ∧ Ideal.ofBits .f32 0x3727C5AC#32 = (e : EReal) :=
  ⟨10995116 * (2 : ℝ) ^ (-40 : ℤ), by positivity, ofBits_eps⟩

/-- As an extended real it is positive. -/
theorem ofBits_eps_pos' : (0 : EReal) < Ideal.ofBits .f32 0x3727C5AC#32 := by
  obtain ⟨e, he, h⟩ := ofBits_eps_pos
  rw [h]; exact EReal.coe_pos.mpr he

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Ideal.ofBits_one_f32

/-- 100000 as an extended real is not zero. -/
theorem coe_100000_ne_zero : ((100000 : ℝ) : EReal) ≠ 0 := by
  exact_mod_cast (by norm_num : (100000 : ℝ) ≠ 0)

/-- The word 0x47C35000 does not denote zero. -/
theorem ofBits_100000_ne_zero : Ideal.ofBits .f32 0x47C35000#32 ≠ 0 := by
  rw [ofBits_100000]; exact coe_100000_ne_zero

/-! ## The divisor of the variance function: 100000 minus a converted integer zero -/

/-- An integer scalar that is zero converts to the real 0. -/
theorem sitofp_zero_apply (k : IVec S0 32) (hk : ∀ i, k i = 0#32) (i : S0.Idx) :
    (sitofp .f32 k : FVec Ideal S0 .f32) i = 0 := by
  show (((k i).toInt : ℝ) : EReal) = 0
  rw [hk i]; simp

/-- The integer constant zero converts to the real 0. -/
theorem sitofp_constantI_zero_apply (i : S0.Idx) :
    (sitofp .f32 (constantI S0 32 0#32) : FVec Ideal S0 .f32) i = 0 :=
  sitofp_zero_apply _ (fun _ => rfl) i

/-- 100000 minus the converted zero is 100000. -/
theorem count_apply (k : IVec S0 32) (hk : ∀ i, k i = 0#32) (i : S0.Idx) :
    subf (constant (F := Ideal) S0 .f32 0x47C35000#32) (sitofp .f32 k) i = ((100000 : ℝ) : EReal) := by
  show Ideal.ofBits .f32 0x47C35000#32 - (sitofp .f32 k : FVec Ideal S0 .f32) i = _
  rw [sitofp_zero_apply k hk i, ofBits_100000, sub_zero]

/-- The same at the integer constant zero. -/
theorem count_constantI_apply (i : S0.Idx) :
    subf (constant (F := Ideal) S0 .f32 0x47C35000#32) (sitofp .f32 (constantI S0 32 0#32)) i
      = ((100000 : ℝ) : EReal) :=
  count_apply _ (fun _ => rfl) i

/-- That difference compares greater than zero: the one-bit word 1. -/
theorem cmpf_ogt_count_apply (k : IVec S0 32) (hk : ∀ i, k i = 0#32) (i : S0.Idx) :
    cmpf .ogt (subf (constant (F := Ideal) S0 .f32 0x47C35000#32) (sitofp .f32 k))
      (constant (F := Ideal) S0 .f32 0x00000000#32) i = 1#1 := by
  show Ideal.cmp .ogt (subf (constant (F := Ideal) S0 .f32 0x47C35000#32) (sitofp .f32 k) i)
      (Ideal.ofBits .f32 0x00000000#32) = 1#1
  rw [count_apply k hk i, Ideal.ofBits_zero_f32]
  have h : (0 : EReal) < ((100000 : ℝ) : EReal) := by exact_mod_cast (by norm_num : (0 : ℝ) < 100000)
  simp [Ideal.cmp, h]

/-- The same at the integer constant zero. -/
theorem cmpf_ogt_count_constantI_apply (i : S0.Idx) :
    cmpf .ogt (subf (constant (F := Ideal) S0 .f32 0x47C35000#32) (sitofp .f32 (constantI S0 32 0#32)))
      (constant (F := Ideal) S0 .f32 0x00000000#32) i = 1#1 :=
  cmpf_ogt_count_apply _ (fun _ => rfl) i

/-- A selection on a scalar condition that is the bit 1, broadcast to any shape, is its first branch. -/
theorem select_broadcast_one {T : Shape} {α : Type} (h : S0.BroadcastsInDim T ![]) (p : IVec S0 1)
    (hp : ∀ i, p i = 1#1) (a b : T.Idx → α) : select (broadcastInDim T ![] h p) a b = a := by
  funext j
  show Scalar.select (broadcastInDim T ![] h p j) (a j) (b j) = a j
  rw [broadcastInDim_scalar_apply, hp]
  exact select_one _ _

/-- So the selection on "100000 minus the converted zero is greater than zero" is its first branch. -/
theorem select_count_pos {T : Shape} {α : Type} (h : S0.BroadcastsInDim T ![]) (k : IVec S0 32)
    (hk : ∀ i, k i = 0#32) (a b : T.Idx → α) :
    select (broadcastInDim T ![] h
        (cmpf .ogt (subf (constant (F := Ideal) S0 .f32 0x47C35000#32) (sitofp .f32 k))
          (constant (F := Ideal) S0 .f32 0x00000000#32))) a b = a :=
  select_broadcast_one h _ (cmpf_ogt_count_apply k hk) a b

/-- The same at the integer constant zero. -/
theorem select_count_constantI_pos {T : Shape} {α : Type} (h : S0.BroadcastsInDim T ![]) (a b : T.Idx → α) :
    select (broadcastInDim T ![] h
        (cmpf .ogt (subf (constant (F := Ideal) S0 .f32 0x47C35000#32) (sitofp .f32 (constantI S0 32 0#32)))
          (constant (F := Ideal) S0 .f32 0x00000000#32))) a b = a :=
  select_count_pos h _ (fun _ => rfl) a b

/-- The broadcast of that divisor reads 100000 everywhere. -/
theorem broadcast_count_apply {T : Shape} (h : S0.BroadcastsInDim T ![]) (k : IVec S0 32) (hk : ∀ i, k i = 0#32)
    (j : T.Idx) :
    broadcastInDim T ![] h (subf (constant (F := Ideal) S0 .f32 0x47C35000#32) (sitofp .f32 k)) j
      = ((100000 : ℝ) : EReal) := by
  rw [broadcastInDim_scalar_apply]; exact count_apply k hk _

/-- The broadcast of a float constant reads the extended real its word denotes. -/
theorem broadcast_constant_apply {T : Shape} {φ : FTy} (h : S0.BroadcastsInDim T ![]) (w : BitVec φ.bits) (j : T.Idx) :
    broadcastInDim T ![] h (constant (F := Ideal) S0 φ w) j = Ideal.ofBits φ w := by
  rw [broadcastInDim_scalar_apply]; rfl

end Cert.Reals

end
-- ==== Proof.OpsReal.lean ====
/-
  Finiteness through the operations, at the ideal float values. A vector or array of floats is there a
  family of extended reals indexed by its shape; it is REAL when every entry is a real number. This module
  shows that each operation the two programs use sends real operands to a real result: the elementwise sum,
  product, difference and maximum; every re-indexing (broadcasts, reshapes, slices, a gather), whose result
  entries are operand entries; a selection between two real families; the accumulating scatter (an operand
  entry plus a finite sum of update entries); the contraction of a matrix product (a finite sum of
  products), on the host and on the matrix unit into a zero accumulator; the host's and the vector unit's
  sums along axes; the changes of float format (identities here); the quotient by a real divisor that is not
  zero; the constants. Two facts carry an inequality as well: a count of incoming edges plus one is a real
  that is at least one, so its reciprocal square root is a real; and a real that is not negative plus the
  small positive constant is positive, so its reciprocal square root is a real.
-/
import Idealize.ShloMosaic.Lib.IdealHost
import proofs.«153408_j3753801416995_1_alg».proof.Proof.LibReals
import proofs.«153408_j3753801416995_1_alg».proof.Proof.Consts

noncomputable section

namespace Cert.Reals

open Idealize.ShloMosaic
open Idealize.ShloMosaic.ValueIdx
open scoped BigOperators

variable {s t : Shape} {φ : FTy}

/-! ## Elementwise arithmetic -/

/-- The elementwise sum of two real vectors is real. -/
theorem isReal_addf {a b : FVec Ideal s φ} (ha : IsReal a) (hb : IsReal b) : IsReal (addf a b) :=
  fun i => IsRealS.add (ha i) (hb i)

/-- The elementwise product of two real vectors is real. -/
theorem isReal_mulf {a b : FVec Ideal s φ} (ha : IsReal a) (hb : IsReal b) : IsReal (mulf a b) :=
  fun i => IsRealS.mul (ha i) (hb i)

/-- The elementwise difference of two real vectors is real. -/
theorem isReal_subf {a b : FVec Ideal s φ} (ha : IsReal a) (hb : IsReal b) : IsReal (subf a b) :=
  fun i => IsRealS.sub (ha i) (hb i)

/-- The elementwise maximum of two real vectors is real. -/
theorem isReal_maximumf {a b : FVec Ideal s φ} (ha : IsReal a) (hb : IsReal b) : IsReal (maximumf a b) :=
  fun i => IsRealS.max (ha i) (hb i)

/-- The elementwise negation of a real vector is real. -/
theorem isReal_negf {a : FVec Ideal s φ} (ha : IsReal a) : IsReal (negf a) :=
  fun i => IsRealS.neg (ha i)

/-- The elementwise maximum against a vector that is not negative is not negative. -/
theorem maximumf_nonneg_right {a b : FVec Ideal s φ} (hb : ∀ i, 0 ≤ b i) (i : s.Idx) : 0 ≤ maximumf a b i :=
  le_trans (hb i) (le_max_right (a i) (b i))

/-- The vector unit's quotient of a real vector by a real vector with no zero entry is real. -/
theorem isReal_divf {a b : FVec Ideal s φ} (ha : IsReal a) (hb : IsReal b) (hb0 : ∀ i, b i ≠ 0) : IsReal (divf a b) :=
  fun i => IsRealS.div (ha i) (hb i) (hb0 i)

/-- The host's quotient of a real array by a real array with no zero entry is real. -/
theorem isReal_hostDivf {a b : FVec Ideal s φ} (ha : IsReal a) (hb : IsReal b) (hb0 : ∀ i, b i ≠ 0) :
    IsReal (Host.divf a b) :=
  fun i => IsRealS.div (ha i) (hb i) (hb0 i)

/-- A widening change of format keeps a real vector real (it is the identity). -/
theorem isReal_extf {ψ : FTy} {a : FVec Ideal s φ} (ha : IsReal a) (h : φ.bits < ψ.bits) : IsReal (extf ψ a h) :=
  fun i => ha i

/-- A narrowing change of format keeps a real vector real (it is the identity). -/
theorem isReal_truncf {ψ : FTy} {a : FVec Ideal s φ} (ha : IsReal a) (h : ψ.bits < φ.bits) : IsReal (truncf ψ a h) :=
  fun i => ha i

/-- A selection between two real vectors is real. -/
theorem isReal_select (c : IVec s 1) {a b : FVec Ideal s φ} (ha : IsReal a) (hb : IsReal b) : IsReal (select c a b) := by
  intro i
  show IsRealS (if c i = 1 then a i else b i)
  split
  · exact ha i
  · exact hb i

/-! ## Re-indexings: every result entry is an operand entry -/

/-- The splat of a real scalar is real. -/
theorem isReal_broadcast {x : Ideal φ} (hx : IsRealS x) : IsReal (broadcast t x) := fun _ => hx

/-- A broadcast along trailing axes of a real vector is real. -/
theorem isReal_broadcastTo {x : FVec Ideal s φ} (hx : IsReal x) (h : s.Broadcasts t) : IsReal (broadcastTo t x h) :=
  fun _ => hx _

/-- A broadcast in dimensions of a real array is real. -/
theorem isReal_broadcastInDim (dims : Fin s.rank → Fin t.rank) (h : s.BroadcastsInDim t dims) {x : FVec Ideal s φ}
    (hx : IsReal x) : IsReal (broadcastInDim t dims h x) :=
  fun _ => hx _

/-- A reshape (the same entries in row-major order under another shape) of a real array is real. -/
theorem isReal_shapeCast {x : FVec Ideal s φ} (hx : IsReal x) (h : s.ShapeCasts t) : IsReal (shapeCast t x h) :=
  fun _ => hx _

/-- A slice of a real vector is real. -/
theorem isReal_extractStridedSlice (off : Fin s.rank → Nat) {x : FVec Ideal s φ} (hx : IsReal x) (h : s.Slices off t) :
    IsReal (extractStridedSlice t off x h) :=
  fun _ => hx _

/-- A gather from a real array, at any integer indices, is real: each result entry is the operand's entry at
    the (clamped) operand index. -/
theorem isReal_gather {si : Shape} {w : Nat} (d : GatherDims s si t) {x : FVec Ideal s φ} (hx : IsReal x)
    (idx : IVec si w) : IsReal (Host.gather d x idx) :=
  fun _ => hx _

/-! ## Sums: scatter, contraction, reductions -/

/-- The accumulating scatter at an index: the operand's entry plus the sum of the update entries that land there. -/
theorem scatterAdd_apply {si u : Shape} {w : Nat} (d : ScatterDims s si u) (x : FVec Ideal s φ) (idx : IVec si w)
    (upd : FVec Ideal u φ) (i : s.Idx) :
    Host.scatterAdd d x idx upd i
      = x i + ∑ j ∈ Finset.univ.filter (fun j => d.resultIdx? j idx = some i), upd j := rfl

/-- The accumulating scatter of real updates into a real operand is real. -/
theorem isReal_scatterAdd {si u : Shape} {w : Nat} (d : ScatterDims s si u) {x : FVec Ideal s φ} (hx : IsReal x)
    (idx : IVec si w) {upd : FVec Ideal u φ} (hupd : IsReal upd) : IsReal (Host.scatterAdd d x idx upd) := by
  intro i
  rw [scatterAdd_apply]
  exact IsRealS.add (hx i) (hupd.sum _)

/-- The accumulating scatter of updates that are not negative into an operand that is not negative is not negative. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  rw [scatterAdd_apply]
  exact add_nonneg (hx i) (Finset.sum_nonneg fun j _ => hupd j)

/-- The host's matrix product of two real arrays is real: each entry is a finite sum of products. -/
theorem isReal_dotGeneral {sl sr so : Shape} {φ₁ φ₂ : FTy} (d : DotDims sl sr so) (prec : Option ContractPrecision)
    {l : FVec Ideal sl φ₁} (hl : IsReal l) {r : FVec Ideal sr φ₂} (hr : IsReal r) : IsReal (Host.dotGeneral d prec l r) := by
  intro j
  show IsRealS (FloatOps.dotGeneral d prec .single l r j)
  rw [Ideal.dotGeneral_apply]
  exact isRealS_sum _ _ fun k _ => IsRealS.mul (hl _) (hr _)

/-- The matrix unit's product of two real vectors into a real accumulator is real. -/
theorem isReal_matmul {sl sr so : Shape} {φ₁ φ₂ : FTy} (d : DotDims sl sr so) (prec : Option ContractPrecision)
    {l : FVec Ideal sl φ₁} (hl : IsReal l) {r : FVec Ideal sr φ₂} (hr : IsReal r) {acc : FVec Ideal so .f32}
    (hacc : IsReal acc) : IsReal (matmul d prec l r acc) := by
  intro j
  show IsRealS (FloatOps.matmul d prec l r acc j)
  rw [Ideal.matmul_apply]
  exact IsRealS.add (hacc j) (isRealS_sum _ _ fun k _ => IsRealS.mul (hl _) (hr _))

/-- The matrix unit's product of two real vectors into the zero accumulator is real. -/
theorem isReal_matmul_zero {sl sr so : Shape} {φ₁ φ₂ : FTy} (d : DotDims sl sr so) (prec : Option ContractPrecision)
    {l : FVec Ideal sl φ₁} (hl : IsReal l) {r : FVec Ideal sr φ₂} (hr : IsReal r) :
    IsReal (matmul d prec l r (constant (F := Ideal) so .f32 0x00000000#32)) := by
  intro j
  show IsRealS (FloatOps.matmul d prec l r (constant so .f32 0x00000000#32) j)
  rw [Ideal.matmul_constant_zero_apply]
  exact isRealS_sum _ _ fun k _ => IsRealS.mul (hl _) (hr _)

/-- The host's sum along axes of a real array, from a real initial value, is real. -/
theorem isReal_reduceAdd {axes : List (Fin s.rank)} {u : Shape} {x : FVec Ideal s φ} (hx : IsReal x)
    {init : u.Idx → Ideal φ} (hinit : IsReal init) (h : s.ReducesTo axes t) (hu : 0 < u.numel) :
    IsReal (Host.reduceAdd x init h hu) := by
  intro j
  rw [hostReduceAdd_apply]
  unfold Ideal.hostReduceAdd
  exact IsRealS.add (hinit _) (hx.sum _)

/-- The host's sum along axes of an array that is not negative, from an initial value that is not negative, is not
    negative. -/
theorem reduceAdd_nonneg {axes : List (Fin s.rank)} {u : Shape} {x : FVec Ideal s φ} (hx : ∀ i, 0 ≤ x i)
    {init : u.Idx → Ideal φ} (hinit : ∀ i, 0 ≤ init i) (h : s.ReducesTo axes t) (hu : 0 < u.numel) (j : t.Idx) :
    0 ≤ Host.reduceAdd x init h hu j := by
  rw [hostReduceAdd_apply]
  unfold Ideal.hostReduceAdd
  exact add_nonneg (hinit _) (Finset.sum_nonneg fun i _ => hx i)

/-- The vector unit's sum along axes of a real vector is real. -/
theorem isReal_multiReduction_add {axes : List (Fin s.rank)} {src : FVec Ideal s φ} (hsrc : IsReal src)
    (acc : BitVec φ.bits) (h : s.Reduces axes t) (hφ : FKind.Formats φ) (hacc : acc = FKind.add.neutral φ hφ) :
    IsReal (multiReduction .add axes t src acc h hφ hacc) := by
  intro j
  show IsRealS (Ideal.reduceAdd h src j)
  unfold Ideal.reduceAdd
  exact hsrc.sum _

/-- The vector unit's sum along axes of a vector that is not negative is not negative. -/
theorem multiReduction_add_nonneg {axes : List (Fin s.rank)} {src : FVec Ideal s φ} (hsrc : ∀ i, 0 ≤ src i)
    (acc : BitVec φ.bits) (h : s.Reduces axes t) (hφ : FKind.Formats φ) (hacc : acc = FKind.add.neutral φ hφ) (j : t.Idx) :
    0 ≤ multiReduction .add axes t src acc h hφ hacc j := by
  show 0 ≤ Ideal.reduceAdd h src j
  unfold Ideal.reduceAdd
  exact Finset.sum_nonneg fun i _ => hsrc i

/-! ## Constants -/

/-- A float constant whose word denotes a real is a real vector. -/
theorem isReal_constant_of {w : BitVec φ.bits} {n : ℝ} (hw : Ideal.ofBits φ w = (n : EReal)) :
    IsReal (constant (F := Ideal) s φ w) :=
  fun _ => ⟨n, hw⟩

/-- The zero constant is real. -/
theorem isReal_constant_zero : IsReal (constant (F := Ideal) s .f32 0x00000000#32) :=
  fun _ => ⟨0, ofBits_zero⟩

/-- The constant one is real. -/
theorem isReal_constant_one : IsReal (constant (F := Ideal) s .f32 0x3F800000#32) :=
  fun _ => ⟨1, ofBits_one⟩

/-- The constant 100000 is real. -/
theorem isReal_constant_100000 : IsReal (constant (F := Ideal) s .f32 0x47C35000#32) :=
  isReal_constant_of ofBits_100000

/-- The small positive constant is real. -/
theorem isReal_constant_eps : IsReal (constant (F := Ideal) s .f32 0x3727C5AC#32) :=
  isReal_constant_of ofBits_eps

/-- A scalar float constant whose word denotes a real is a real. -/
theorem isRealS_scalar_ofBits {w : BitVec φ.bits} {n : ℝ} (hw : Ideal.ofBits φ w = (n : EReal)) :
    IsRealS (Scalar.ofBits (F := Ideal) φ w) := ⟨n, hw⟩

/-! ## Quotients by a constant -/

/-- The host's quotient of a real array by the broadcast of a constant whose word denotes a nonzero real is real. -/
theorem isReal_hostDivf_constant (h : S0.BroadcastsInDim t ![]) {w : BitVec φ.bits} {n : ℝ}
    (hw : Ideal.ofBits φ w = (n : EReal)) (hn : n ≠ 0) {x : FVec Ideal t φ} (hx : IsReal x) :
    IsReal (Host.divf x (broadcastInDim t ![] h (constant (F := Ideal) S0 φ w))) := by
  intro i
  rw [hostDivf_apply, broadcast_constant_apply, hw]
  exact IsRealS.div_coe (hx i) hn

/-- The host's quotient of a real array by the broadcast of the constant 100000 is real. -/
theorem isReal_hostDivf_100000 (h : S0.BroadcastsInDim t ![]) {x : FVec Ideal t .f32} (hx : IsReal x) :
    IsReal (Host.divf x (broadcastInDim t ![] h (constant (F := Ideal) S0 .f32 0x47C35000#32))) :=
  isReal_hostDivf_constant h ofBits_100000 (by norm_num) hx

/-- The host's quotient of a real array by the broadcast of "100000 minus a converted integer zero" is real. -/
theorem isReal_hostDivf_count (h : S0.BroadcastsInDim t ![]) (k : IVec S0 32) (hk : ∀ i, k i = 0#32)
    {x : FVec Ideal t .f32} (hx : IsReal x) :
    IsReal (Host.divf x (broadcastInDim t ![] h
      (subf (constant (F := Ideal) S0 .f32 0x47C35000#32) (sitofp .f32 k)))) := by
  intro i
  rw [hostDivf_apply, broadcast_count_apply h k hk]
  exact IsRealS.div_coe (hx i) (by norm_num)

/-! ## Reciprocal square roots -/

/-- The vector unit's reciprocal square root of a positive real vector is real. -/
theorem isReal_rsqrt {x : FVec Ideal s φ} (hx : IsReal x) (hpos : ∀ i, 0 < x i) : IsReal (rsqrt x) :=
  fun i => IsRealS.rsqrt (hx i) (hpos i)

/-- The host's reciprocal square root of a positive real array is real. -/
theorem isReal_hostRsqrt {x : FVec Ideal s φ} (hx : IsReal x) (hpos : ∀ i, 0 < x i) : IsReal (Host.rsqrt x) :=
  fun i => IsRealS.rsqrt (hx i) (hpos i)

/-- The vector unit's reciprocal square root of a positive real vector is positive. -/
theorem rsqrt_pos_apply {x : FVec Ideal s φ} (hx : IsReal x) (hpos : ∀ i, 0 < x i) (i : s.Idx) : 0 < rsqrt x i :=
  rsqrt_pos (hx i) (hpos i)

/-- The host's reciprocal square root of a positive real array is positive. -/
theorem hostRsqrt_pos_apply {x : FVec Ideal s φ} (hx : IsReal x) (hpos : ∀ i, 0 < x i) (i : s.Idx) :
    0 < Host.rsqrt x i :=
  rsqrt_pos (hx i) (hpos i)

/-- A count plus one: the accumulating scatter of updates that are not negative into an operand that is not negative,
    plus a real array that is at least one, is real and at least one at every index. -/
theorem scatterAdd_add_real_ge_one {si u : Shape} {w : Nat} (d : ScatterDims s si u) {z o' : FVec Ideal s φ}
    {o : FVec Ideal u φ} (idx : IVec si w) (hz : IsReal z) (hz0 : ∀ i, 0 ≤ z i) (ho : IsReal o) (ho0 : ∀ j, 0 ≤ o j)
    (ho' : IsReal o') (ho'1 : ∀ i, 1 ≤ o' i) :
    IsReal (addf (Host.scatterAdd d z idx o) o') ∧ ∀ i, 1 ≤ addf (Host.scatterAdd d z idx o) o' i := by
  refine ⟨isReal_addf (isReal_scatterAdd d hz idx ho) ho', fun i => ?_⟩
  show 1 ≤ Host.scatterAdd d z idx o i + o' i
  calc (1 : EReal) ≤ o' i := ho'1 i
    _ = 0 + o' i := (zero_add _).symm
    _ ≤ Host.scatterAdd d z idx o i + o' i := add_le_add (scatterAdd_nonneg d hz0 idx ho0 i) le_rfl

/-- The broadcast of the zero constant is real and not negative. -/
theorem broadcast_zero_real_nonneg (h : S0.BroadcastsInDim t ![]) :
    IsReal (broadcastInDim t ![] h (constant (F := Ideal) S0 .f32 0x00000000#32))
      ∧ ∀ i, 0 ≤ broadcastInDim t ![] h (constant (F := Ideal) S0 .f32 0x00000000#32) i :=
  ⟨fun i => ⟨0, by rw [broadcast_constant_apply, ofBits_zero]; rfl⟩,
   fun i => by rw [broadcast_constant_apply, ofBits_zero]⟩

/-- The broadcast of the constant one is real, at least one and not negative. -/
theorem broadcast_one_real_ge_one (h : S0.BroadcastsInDim t ![]) :
    IsReal (broadcastInDim t ![] h (constant (F := Ideal) S0 .f32 0x3F800000#32))
      ∧ (∀ i, 1 ≤ broadcastInDim t ![] h (constant (F := Ideal) S0 .f32 0x3F800000#32) i)
      ∧ ∀ i, 0 ≤ broadcastInDim t ![] h (constant (F := Ideal) S0 .f32 0x3F800000#32) i :=
  ⟨fun i => ⟨1, by rw [broadcast_constant_apply, ofBits_one]; rfl⟩,
   fun i => by rw [broadcast_constant_apply, ofBits_one],
   fun i => by rw [broadcast_constant_apply, ofBits_one]; exact zero_le_one⟩

/-- THE DEGREE: ones scattered (accumulating) into zeros at any indices, plus ones, is a real array that is at least
    one at every index. -/
theorem degree_real_ge_one {si u : Shape} {w : Nat} (d : ScatterDims t si u) (ht : S0.BroadcastsInDim t ![])
    (hu : S0.BroadcastsInDim u ![]) (idx : IVec si w) :
    IsReal (addf (Host.scatterAdd d (broadcastInDim t ![] ht (constant (F := Ideal) S0 .f32 0x00000000#32)) idx
        (broadcastInDim u ![] hu (constant (F := Ideal) S0 .f32 0x3F800000#32)))
        (broadcastInDim t ![] ht (constant (F := Ideal) S0 .f32 0x3F800000#32)))
      ∧ ∀ i, 1 ≤ addf (Host.scatterAdd d (broadcastInDim t ![] ht (constant (F := Ideal) S0 .f32 0x00000000#32)) idx
        (broadcastInDim u ![] hu (constant (F := Ideal) S0 .f32 0x3F800000#32)))
        (broadcastInDim t ![] ht (constant (F := Ideal) S0 .f32 0x3F800000#32)) i :=
  scatterAdd_add_real_ge_one d idx (broadcast_zero_real_nonneg ht).1 (broadcast_zero_real_nonneg ht).2
    (broadcast_one_real_ge_one hu).1 (broadcast_one_real_ge_one hu).2.2
    (broadcast_one_real_ge_one ht).1 (broadcast_one_real_ge_one ht).2.1

/-- Its host reciprocal square root is a real array. -/
theorem isReal_hostRsqrt_degree {si u : Shape} {w : Nat} (d : ScatterDims t si u) (ht : S0.BroadcastsInDim t ![])
    (hu : S0.BroadcastsInDim u ![]) (idx : IVec si w) :
    IsReal (Host.rsqrt (addf (Host.scatterAdd d (broadcastInDim t ![] ht (constant (F := Ideal) S0 .f32 0x00000000#32)) idx
        (broadcastInDim u ![] hu (constant (F := Ideal) S0 .f32 0x3F800000#32)))
        (broadcastInDim t ![] ht (constant (F := Ideal) S0 .f32 0x3F800000#32)))) :=
  isReal_hostRsqrt (degree_real_ge_one d ht hu idx).1 fun i => pos_of_one_le ((degree_real_ge_one d ht hu idx).2 i)

/-- A real array that is at least one everywhere has a real host reciprocal square root. -/
theorem isReal_hostRsqrt_of_ge_one {x : FVec Ideal s φ} (hx : IsReal x) (h1 : ∀ i, 1 ≤ x i) : IsReal (Host.rsqrt x) :=
  isReal_hostRsqrt hx fun i => pos_of_one_le (h1 i)

/-- A real array that is not negative, plus the broadcast of the small positive constant, is real and positive. -/
theorem add_eps_real_pos (h : S0.BroadcastsInDim t ![]) {v : FVec Ideal t .f32} (hv : IsReal v) (hv0 : ∀ i, 0 ≤ v i) :
    IsReal (addf v (broadcastInDim t ![] h (constant (F := Ideal) S0 .f32 0x3727C5AC#32)))
      ∧ ∀ i, 0 < addf v (broadcastInDim t ![] h (constant (F := Ideal) S0 .f32 0x3727C5AC#32)) i := by
  refine ⟨isReal_addf hv fun i => ⟨_, by rw [broadcast_constant_apply]; exact ofBits_eps⟩, fun i => ?_⟩
  show 0 < v i + broadcastInDim t ![] h (constant (F := Ideal) S0 .f32 0x3727C5AC#32) i
  rw [broadcast_constant_apply]
  exact add_pos_of_nonneg_of_pos (hv0 i) ofBits_eps_pos'

/-- So the host's reciprocal square root of a real array that is not negative plus the small positive constant is real. -/
theorem isReal_hostRsqrt_add_eps (h : S0.BroadcastsInDim t ![]) {v : FVec Ideal t .f32} (hv : IsReal v)
    (hv0 : ∀ i, 0 ≤ v i) :
    IsReal (Host.rsqrt (addf v (broadcastInDim t ![] h (constant (F := Ideal) S0 .f32 0x3727C5AC#32)))) :=
  isReal_hostRsqrt (add_eps_real_pos h hv hv0).1 (add_eps_real_pos h hv hv0).2

/-- The vector unit's spelling: a real vector that is not negative plus the splat of the small positive scalar constant
    is real and positive. -/
theorem add_eps_splat_real_pos {v : FVec Ideal t .f32} (hv : IsReal v) (hv0 : ∀ i, 0 ≤ v i) :
    IsReal (addf v (broadcast t (Scalar.ofBits (F := Ideal) .f32 0x3727C5AC#32)))
      ∧ ∀ i, 0 < addf v (broadcast t (Scalar.ofBits (F := Ideal) .f32 0x3727C5AC#32)) i :=
  ⟨isReal_addf hv (isReal_broadcast (isRealS_scalar_ofBits ofBits_eps)),
   fun i => add_pos_of_nonneg_of_pos (hv0 i) ofBits_eps_pos'⟩

/-- So the vector unit's reciprocal square root of it is real. -/
theorem isReal_rsqrt_add_eps_splat {v : FVec Ideal t .f32} (hv : IsReal v) (hv0 : ∀ i, 0 ≤ v i) :
    IsReal (rsqrt (addf v (broadcast t (Scalar.ofBits (F := Ideal) .f32 0x3727C5AC#32)))) :=
  isReal_rsqrt (add_eps_splat_real_pos hv hv0).1 (add_eps_splat_real_pos hv hv0).2

end Cert.Reals

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowForms.lean ====
/-
  A vector laid out as a row in two ways.

  A vector [C] becomes the row [1, C] either by a reshape or by a broadcast onto axis 1: both read, at (0, c),
  the vector at c, so they are the same row.
-/
import proofs.«153408_j3753801416995_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.RefLayers.lean ====
/-
  The reference network's layers read as whole-array functions, at the ideal float values.

  Each of the three layers multiplies the node features by a weight matrix, adds to the aggregate over incoming
  edges the product scaled by the node's self weight, and adds the bias of each column; the first two layers then
  normalise every column by its mean and variance over the 100000 rows, scale and shift it, and take the maximum
  with zero. This module shows that the reference's terms for these values are the functions of the specification:
  the matrix products; the convolution output (the self weights, one per row, and the bias, one per column, are
  broadcast in two steps to the full array); and the normalisation, where the reference computes the variance as
  the mean of the squared deviations from the mean, guarded by a comparison that always holds, while the
  specification takes the mean of the squares minus the squared mean: the two agree when every entry is a real
  number. Last, every value along the reference's chain is a real number when the arguments are.
-/
import proofs.«153408_j3753801416995_1_alg».proof.Proof.RefTerm
import proofs.«153408_j3753801416995_1_alg».proof.Proof.Gen.ReferenceIdeal
import proofs.«153408_j3753801416995_1_alg».proof.Proof.KSpec
import proofs.«153408_j3753801416995_1_alg».proof.Proof.LibReals
import proofs.«153408_j3753801416995_1_alg».proof.Proof.Consts
import proofs.«153408_j3753801416995_1_alg».proof.Proof.OpsReal
import proofs.«153408_j3753801416995_1_alg».proof.Proof.LibRows
import proofs.«153408_j3753801416995_1_alg».proof.Proof.LibRowForms
import Idealize.ShloMosaic.Lib.Pipeline.Value
import Idealize.ShloMosaic.Lib.IdealHost

noncomputable section

namespace Cert.RefLayers

open Cert.ReferenceIdeal Cert.ReferenceIdeal.RefRun Cert.KernelIdeal Cert.Reals
open Idealize.ShloMosaic Idealize.ShloMosaic.ValueIdx
open Cert.ReferenceIdeal.Facts₀ Cert.ReferenceIdeal.Facts
open scoped BigOperators

/-! ## Column and row broadcasts read at an index -/

section Layout
variable {α : Type}

/-- A vector [R] broadcast onto axis 0 of [R, 1], read at (r, 0), is the vector at r. -/
theorem bcast_col_apply {R : Nat} (x : (⟨1, ![R]⟩ : Shape).Idx → α)
    (h : (⟨1, ![R]⟩ : Shape).BroadcastsInDim ⟨2, ![R, 1]⟩ (![0] : Fin 1 → Fin 2)) (r : Fin R) (z : Fin 1) :
    broadcastInDim ⟨2, ![R, 1]⟩ (![0] : Fin 1 → Fin 2) h x (ix2 r z) = x (ix1 r) :=
  broadcastInDim_apply (![0] : Fin 1 → Fin 2) h x (ix2 r z) (ix1 r) (fun a => by
    match a with
    | ⟨0, _⟩ =>
      show r.val = if R = 1 then 0 else r.val
      by_cases hR : R = 1
      · rw [if_pos hR]; have := r.isLt; omega
      · rw [if_neg hR])

/-- A column [R, 1] broadcast to [R, C], read at (r, c), is the column at (r, 0). -/
theorem bcast_colmat_apply {R C : Nat} (y : (⟨2, ![R, 1]⟩ : Shape).Idx → α)
    (h : (⟨2, ![R, 1]⟩ : Shape).BroadcastsInDim ⟨2, ![R, C]⟩ (![0, 1] : Fin 2 → Fin 2)) (r : Fin R) (c : Fin C) :
    broadcastInDim ⟨2, ![R, C]⟩ (![0, 1] : Fin 2 → Fin 2) h y (ix2 r c) = y (ix2 r 0) :=
  broadcastInDim_apply (![0, 1] : Fin 2 → Fin 2) h y (ix2 r c) (ix2 r 0) (fun a => by
    match a with
    | ⟨0, _⟩ =>
      show r.val = if R = 1 then 0 else r.val
      by_cases hR : R = 1
      · rw [if_pos hR]; have := r.isLt; omega
      · rw [if_neg hR]
    | ⟨1, _⟩ => show (0 : Nat) = if (1 : Nat) = 1 then 0 else c.val; rw [if_pos rfl])

/-- A row [1, C] broadcast to [R, C], read at (r, c), is the row at (0, c). -/
theorem bcast_rowmat_apply {R C : Nat} (y : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h y (ix2 r c) = y (ix2 0 c) :=
  broadcastInDim_apply (![0, 1] : Fin 2 → Fin 2) h y (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] broadcast onto axis 1 of [1, C], read at (0, c), is the vector at c. -/
theorem bcast_row_apply {C : Nat} (b : (⟨1, ![C]⟩ : Shape).Idx → α)
    (h : (⟨1, ![C]⟩ : Shape).BroadcastsInDim ⟨2, ![1, C]⟩ (![1] : Fin 1 → Fin 2)) (z : Fin 1) (c : Fin C) :
    broadcastInDim ⟨2, ![1, C]⟩ (![1] : Fin 1 → Fin 2) h b (ix2 z c) = b (ix1 c) :=
  broadcastInDim_apply (![1] : Fin 1 → Fin 2) h b (ix2 z c) (ix1 c) (fun a => by
    match a with
    | ⟨0, _⟩ =>
      show c.val = if C = 1 then 0 else c.val
      by_cases hC : C = 1
      · rw [if_pos hC]; have := c.isLt; omega
      · rw [if_neg hC])

/-- A vector [R] reshaped to the column [R, 1], read at (r, 0), is the vector at r. -/
theorem shapeCast_vec_col_apply {R : Nat} (x : (⟨1, ![R]⟩ : Shape).Idx → α)
    (h : (⟨1, ![R]⟩ : Shape).ShapeCasts ⟨2, ![R, 1]⟩) (r : Fin R) (z : Fin 1) :
    shapeCast ⟨2, ![R, 1]⟩ x h (ix2 r z) = x (ix1 r) :=
  shapeCast_apply x h (ix2 r z) (ix1 r) (by
    rw [Shape.rowMajor_val_one, Shape.rowMajor_val_two]
    show r.val = r.val * 1 + z.val
    have := z.isLt; omega)

end Layout

/-! ## The matrix products -/

/-- The printed dimension numbers of the two 128-column products are the plain ones: rows by contraction times
    contraction by columns. -/
theorem dot128_eq : dot_S100000x128_S128x128_S100000x128_1_0_0_1_n_n = DotDims.plain 100000 128 128 := rfl

/-- The same for the 64-column product. -/
theorem dot64_eq : dot_S100000x128_S128x64_S100000x64_1_0_0_1_n_n = DotDims.plain 100000 128 64 := rfl

section Terms
variable (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 a4 a5 : (⟨S128, .f32⟩ : BufTy).Contents (Elt Ideal)) (a6 : (⟨S128x128, .f32⟩ : BufTy).Contents (Elt Ideal)) (a7 a8 a9 : (⟨S128, .f32⟩ : BufTy).Contents (Elt Ideal)) (a10 : (⟨S128x64, .f32⟩ : BufTy).Contents (Elt Ideal)) (a11 : (⟨S64, .f32⟩ : BufTy).Contents (Elt Ideal))

/-- Layer 1's product is the node features times the first weight matrix. -/
theorem res_v27_eq : res_v27 (F := Ideal) a0 a1 a2 a3 a4 a5 a6 a7 a8 a9 a10 a11 = KSpec.mm 128 a0 a2 := by
  unfold res_v27 KSpec.mm
  rw [dot128_eq]

/-- Layer 2's product is layer 1's output times the second weight matrix. -/
theorem res_v68_eq : res_v68 (F := Ideal) a0 a1 a2 a3 a4 a5 a6 a7 a8 a9 a10 a11 = KSpec.mm 128 (res_v67 (F := Ideal) a0 a1 a2 a3 a4 a5 a6 a7 a8 a9 a10 a11) a6 := by
  unfold res_v68 KSpec.mm
  rw [dot128_eq]

/-- Layer 3's product is layer 2's output times the third weight matrix. -/
theorem res_v109_eq : res_v109 (F := Ideal) a0 a1 a2 a3 a4 a5 a6 a7 a8 a9 a10 a11 = KSpec.mm 64 (res_v108 (F := Ideal) a0 a1 a2 a3 a4 a5 a6 a7 a8 a9 a10 a11) a10 := by
  unfold res_v109 KSpec.mm
  rw [dot64_eq]

end Terms

/-! ## The convolution output -/

/-- The aggregate plus the product times the twice-broadcast self weights plus the twice-broadcast bias is the
    specification's convolution output over the self weights as a column and the bias as a row. -/
theorem conv_generic {p : Nat} (agg hw : FVec Ideal ⟨2, ![100000, p]⟩ .f32) (sv : FVec Ideal ⟨1, ![100000]⟩ .f32)
    (bv : FVec Ideal ⟨1, ![p]⟩ .f32)
    (h1 : (⟨1, ![100000]⟩ : Shape).BroadcastsInDim ⟨2, ![100000, 1]⟩ (![0] : Fin 1 → Fin 2))
    (h2 : (⟨2, ![100000, 1]⟩ : Shape).BroadcastsInDim ⟨2, ![100000, p]⟩ (![0, 1] : Fin 2 → Fin 2))
    (h3 : (⟨1, ![p]⟩ : Shape).BroadcastsInDim ⟨2, ![1, p]⟩ (![1] : Fin 1 → Fin 2))
    (h4 : (⟨2, ![1, p]⟩ : Shape).BroadcastsInDim ⟨2, ![100000, p]⟩ (![0, 1] : Fin 2 → Fin 2))
    (hs : (⟨1, ![100000]⟩ : Shape).ShapeCasts ⟨2, ![100000, 1]⟩) (hb : (⟨1, ![p]⟩ : Shape).ShapeCasts ⟨2, ![1, p]⟩) :
    addf (addf agg (mulf hw (broadcastInDim ⟨2, ![100000, p]⟩ (![0, 1] : Fin 2 → Fin 2) h2
        (broadcastInDim ⟨2, ![100000, 1]⟩ (![0] : Fin 1 → Fin 2) h1 sv))))
      (broadcastInDim ⟨2, ![100000, p]⟩ (![0, 1] : Fin 2 → Fin 2) h4
        (broadcastInDim ⟨2, ![1, p]⟩ (![1] : Fin 1 → Fin 2) h3 bv))
      = KSpec.conv p agg hw (shapeCast ⟨2, ![100000, 1]⟩ sv hs) (shapeCast ⟨2, ![1, p]⟩ bv hb) := by
  funext i
  obtain ⟨r, c, rfl⟩ : ∃ (r : Fin 100000) (c : Fin p), i = ix2 r c := ⟨i 0, i 1, eq_ix2 i⟩
  show FloatOps.addf (FloatOps.addf (agg (ix2 r c)) (FloatOps.mulf (hw (ix2 r c))
        (broadcastInDim ⟨2, ![100000, p]⟩ (![0, 1] : Fin 2 → Fin 2) h2
          (broadcastInDim ⟨2, ![100000, 1]⟩ (![0] : Fin 1 → Fin 2) h1 sv) (ix2 r c))))
      (broadcastInDim ⟨2, ![100000, p]⟩ (![0, 1] : Fin 2 → Fin 2) h4
        (broadcastInDim ⟨2, ![1, p]⟩ (![1] : Fin 1 → Fin 2) h3 bv) (ix2 r c))
    = FloatOps.addf (FloatOps.addf (agg (ix2 r c)) (FloatOps.mulf (hw (ix2 r c))
        (shapeCast ⟨2, ![100000, 1]⟩ sv hs (ix2 r 0))))
      (shapeCast ⟨2, ![1, p]⟩ bv hb (ix2 0 c))
  rw [bcast_colmat_apply, bcast_col_apply, bcast_rowmat_apply, bcast_row_apply, shapeCast_vec_col_apply,
    Cert.Lib.Rows.shapeCast_vec_row_apply]

section Terms
variable (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 a4 a5 : (⟨S128, .f32⟩ : BufTy).Contents (Elt Ideal)) (a6 : (⟨S128x128, .f32⟩ : BufTy).Contents (Elt Ideal)) (a7 a8 a9 : (⟨S128, .f32⟩ : BufTy).Contents (Elt Ideal)) (a10 : (⟨S128x64, .f32⟩ : BufTy).Contents (Elt Ideal)) (a11 : (⟨S64, .f32⟩ : BufTy).Contents (Elt Ideal))

/-- Layer 1's convolution output. -/
theorem res_v47_eq (hs : (⟨1, ![100000]⟩ : Shape).ShapeCasts ⟨2, ![100000, 1]⟩)
    (hb : (⟨1, ![128]⟩ : Shape).ShapeCasts ⟨2, ![1, 128]⟩) :
    res_v47 (F := Ideal) a0 a1 a2 a3 a4 a5 a6 a7 a8 a9 a10 a11
      = KSpec.conv 128 (res_v40 (F := Ideal) a0 a1 a2 a3 a4 a5 a6 a7 a8 a9 a10 a11) (res_v27 (F := Ideal) a0 a1 a2 a3 a4 a5 a6 a7 a8 a9 a10 a11)
          (shapeCast ⟨2, ![100000, 1]⟩ (res_v26 (F := Ideal) a0 a1 a2 a3 a4 a5 a6 a7 a8 a9 a10 a11) hs) (shapeCast ⟨2, ![1, 128]⟩ a3 hb) := by
  rw [← conv_generic _ _ _ _ bcast_S100000_S100000x1_0 bcast_S100000x1_S100000x128_0_1 bcast_S128_S1x128_1
    bcast_S1x128_S100000x128_0_1 hs hb]
  unfold res_v47 res_v44 res_v43 res_v42 res_v41 res_v46 res_v45
  rfl

/-- Layer 2's convolution output. -/
theorem res_v88_eq (hs : (⟨1, ![100000]⟩ : Shape).ShapeCasts ⟨2, ![100000, 1]⟩)
    (hb : (⟨1, ![128]⟩ : Shape).ShapeCasts ⟨2, ![1, 128]⟩) :
    res_v88 (F := Ideal) a0 a1 a2 a3 a4 a5 a6 a7 a8 a9 a10 a11
      = KSpec.conv 128 (res_v81 (F := Ideal) a0 a1 a2 a3 a4 a5 a6 a7 a8 a9 a10 a11) (res_v68 (F := Ideal) a0 a1 a2 a3 a4 a5 a6 a7 a8 a9 a10 a11)
          (shapeCast ⟨2, ![100000, 1]⟩ (res_v26 (F := Ideal) a0 a1 a2 a3 a4 a5 a6 a7 a8 a9 a10 a11) hs) (shapeCast ⟨2, ![1, 128]⟩ a7 hb) := by
  rw [← conv_generic _ _ _ _ bcast_S100000_S100000x1_0 bcast_S100000x1_S100000x128_0_1 bcast_S128_S1x128_1
    bcast_S1x128_S100000x128_0_1 hs hb]
  unfold res_v88 res_v85 res_v84 res_v83 res_v82 res_v87 res_v86
  rfl

/-- Layer 3's convolution output. -/
theorem res_v129_eq (hs : (⟨1, ![100000]⟩ : Shape).ShapeCasts ⟨2, ![100000, 1]⟩)
    (hb : (⟨1, ![64]⟩ : Shape).ShapeCasts ⟨2, ![1, 64]⟩) :
    res_v129 (F := Ideal) a0 a1 a2 a3 a4 a5 a6 a7 a8 a9 a10 a11
      = KSpec.conv 64 (res_v122 (F := Ideal) a0 a1 a2 a3 a4 a5 a6 a7 a8 a9 a10 a11) (res_v109 (F := Ideal) a0 a1 a2 a3 a4 a5 a6 a7 a8 a9 a10 a11)
          (shapeCast ⟨2, ![100000, 1]⟩ (res_v26 (F := Ideal) a0 a1 a2 a3 a4 a5 a6 a7 a8 a9 a10 a11) hs) (shapeCast ⟨2, ![1, 64]⟩ a11 hb) := by
  rw [← conv_generic _ _ _ _ bcast_S100000_S100000x1_0 bcast_S100000x1_S100000x64_0_1 bcast_S64_S1x64_1
    bcast_S1x64_S100000x64_0_1 hs hb]
  unfold res_v129 res_v126 res_v125 res_v124 res_v123 res_v128 res_v127
  rfl

end Terms

/-! ## Batch normalisation and the maximum with zero -/

/-- The host's sum over the rows, read at column c: the initial value plus the sum over all rows. -/
theorem reduceAdd_rows_apply {p : Nat} (x : FVec Ideal ⟨2, ![100000, p]⟩ .f32) (init : S0.Idx → Ideal .f32)
    (h : (⟨2, ![100000, p]⟩ : Shape).ReducesTo [0] ⟨1, ![p]⟩) (hu : 0 < S0.numel) (c : Fin p) :
    Host.reduceAdd x init h hu (ix1 c) = init ix0 + ∑ r : Fin 100000, x (ix2 r c) := by
  have hR : (⟨2, ![100000, p]⟩ : Shape).Reduces [0] ⟨1, ![p]⟩ := ⟨h.1, Nat.one_pos, h.2⟩
  rw [hostReduceAdd_apply, Ideal.hostReduceAdd_single h hR]
  have hfirst : Shape.Idx.first hu = ix0 := funext fun a => a.elim0
  rw [hfirst]
  show init ix0 + ∑ k : Fin 100000, x (hR.lift (ix1 c) k) = _
  refine congrArg (init ix0 + ·) (Finset.sum_congr rfl fun r _ => congrArg x ?_)
  funext a
  match a with
  | ⟨0, _⟩ => exact Fin.ext rfl
  | ⟨1, _⟩ => exact Fin.ext rfl

/-- The host's reciprocal square root read at an index. -/
theorem hostRsqrt_apply {s : Shape} {φ : FTy} (x : FVec Ideal s φ) (i : s.Idx) : Host.rsqrt x i = Ideal.rsqrt (x i) := rfl

/-- The reference's column sums: the host's sum over the rows from the zero constant. -/
def refSum (conv : FVec Ideal (⟨2, ![100000, 128]⟩ : Shape) .f32) (hR : (⟨2, ![100000, 128]⟩ : Shape).ReducesTo [0] (⟨1, ![128]⟩ : Shape)) (hu : 0 < S0.numel) :
    FVec Ideal (⟨1, ![128]⟩ : Shape) .f32 :=
  Host.reduceAdd conv (constant (F := Ideal) S0 .f32 0x00000000#32) hR hu

/-- The reference's column means: the column sums over 100000. -/
def refMean (conv : FVec Ideal (⟨2, ![100000, 128]⟩ : Shape) .f32) (hR : (⟨2, ![100000, 128]⟩ : Shape).ReducesTo [0] (⟨1, ![128]⟩ : Shape)) (hu : 0 < S0.numel)
    (hb0 : S0.BroadcastsInDim (⟨1, ![128]⟩ : Shape) ![]) : FVec Ideal (⟨1, ![128]⟩ : Shape) .f32 :=
  Host.divf (refSum conv hR hu) (broadcastInDim (⟨1, ![128]⟩ : Shape) ![] hb0 (constant (F := Ideal) S0 .f32 0x47C35000#32))

/-- The reference's deviations from the column means, the means recomputed as a row. -/
def refDev (conv : FVec Ideal (⟨2, ![100000, 128]⟩ : Shape) .f32) (hR : (⟨2, ![100000, 128]⟩ : Shape).ReducesTo [0] (⟨1, ![128]⟩ : Shape)) (hu : 0 < S0.numel)
    (hb1 : (⟨1, ![128]⟩ : Shape).BroadcastsInDim (⟨2, ![1, 128]⟩ : Shape) (![1] : Fin 1 → Fin 2)) (hb2 : S0.BroadcastsInDim (⟨2, ![1, 128]⟩ : Shape) ![])
    (hb3 : (⟨2, ![1, 128]⟩ : Shape).BroadcastsInDim (⟨2, ![100000, 128]⟩ : Shape) (![0, 1] : Fin 2 → Fin 2)) : FVec Ideal (⟨2, ![100000, 128]⟩ : Shape) .f32 :=
  subf conv (broadcastInDim (⟨2, ![100000, 128]⟩ : Shape) (![0, 1] : Fin 2 → Fin 2) hb3
    (Host.divf (broadcastInDim (⟨2, ![1, 128]⟩ : Shape) (![1] : Fin 1 → Fin 2) hb1 (refSum conv hR hu)) (broadcastInDim (⟨2, ![1, 128]⟩ : Shape) ![] hb2 (constant (F := Ideal) S0 .f32 0x47C35000#32))))

/-- The reference's column variances before the guard: the sums of the squared deviations over the count,
    100000 minus a converted integer zero. -/
def refVarRaw (conv : FVec Ideal (⟨2, ![100000, 128]⟩ : Shape) .f32) (hR : (⟨2, ![100000, 128]⟩ : Shape).ReducesTo [0] (⟨1, ![128]⟩ : Shape)) (hu : 0 < S0.numel)
    (hb0 : S0.BroadcastsInDim (⟨1, ![128]⟩ : Shape) ![]) (hb1 : (⟨1, ![128]⟩ : Shape).BroadcastsInDim (⟨2, ![1, 128]⟩ : Shape) (![1] : Fin 1 → Fin 2))
    (hb2 : S0.BroadcastsInDim (⟨2, ![1, 128]⟩ : Shape) ![]) (hb3 : (⟨2, ![1, 128]⟩ : Shape).BroadcastsInDim (⟨2, ![100000, 128]⟩ : Shape) (![0, 1] : Fin 2 → Fin 2)) : FVec Ideal (⟨1, ![128]⟩ : Shape) .f32 :=
  Host.divf (Host.reduceAdd (mulf (refDev conv hR hu hb1 hb2 hb3) (refDev conv hR hu hb1 hb2 hb3)) (constant (F := Ideal) S0 .f32 0x00000000#32) hR hu)
    (broadcastInDim (⟨1, ![128]⟩ : Shape) ![] hb0 (subf (constant (F := Ideal) S0 .f32 0x47C35000#32) (sitofp .f32 (constantI S0 32 0#32))))

/-- The reference's column variances: the guarded selection between the quotient and a fill value. -/
def refVar (conv : FVec Ideal (⟨2, ![100000, 128]⟩ : Shape) .f32) (hR : (⟨2, ![100000, 128]⟩ : Shape).ReducesTo [0] (⟨1, ![128]⟩ : Shape)) (hu : 0 < S0.numel)
    (hb0 : S0.BroadcastsInDim (⟨1, ![128]⟩ : Shape) ![]) (hb1 : (⟨1, ![128]⟩ : Shape).BroadcastsInDim (⟨2, ![1, 128]⟩ : Shape) (![1] : Fin 1 → Fin 2))
    (hb2 : S0.BroadcastsInDim (⟨2, ![1, 128]⟩ : Shape) ![]) (hb3 : (⟨2, ![1, 128]⟩ : Shape).BroadcastsInDim (⟨2, ![100000, 128]⟩ : Shape) (![0, 1] : Fin 2 → Fin 2)) : FVec Ideal (⟨1, ![128]⟩ : Shape) .f32 :=
  select (broadcastInDim (⟨1, ![128]⟩ : Shape) ![] hb0 (cmpf .ogt (subf (constant (F := Ideal) S0 .f32 0x47C35000#32) (sitofp .f32 (constantI S0 32 0#32))) (constant (F := Ideal) S0 .f32 0x00000000#32)))
    (refVarRaw conv hR hu hb0 hb1 hb2 hb3)
    (broadcastInDim (⟨1, ![128]⟩ : Shape) ![] hb0 (id (constant (F := Ideal) S0 .f32 0x7FC00000#32)))

/-- The reference's normalised, scaled, shifted and clamped array. -/
def refBN (conv : FVec Ideal (⟨2, ![100000, 128]⟩ : Shape) .f32) (g be : FVec Ideal (⟨1, ![128]⟩ : Shape) .f32) (hR : (⟨2, ![100000, 128]⟩ : Shape).ReducesTo [0] (⟨1, ![128]⟩ : Shape)) (hu : 0 < S0.numel) (hb0 : S0.BroadcastsInDim (⟨1, ![128]⟩ : Shape) ![])
    (hb1 : (⟨1, ![128]⟩ : Shape).BroadcastsInDim (⟨2, ![1, 128]⟩ : Shape) (![1] : Fin 1 → Fin 2)) (hb2 : S0.BroadcastsInDim (⟨2, ![1, 128]⟩ : Shape) ![])
    (hb3 : (⟨2, ![1, 128]⟩ : Shape).BroadcastsInDim (⟨2, ![100000, 128]⟩ : Shape) (![0, 1] : Fin 2 → Fin 2)) (hb4 : S0.BroadcastsInDim (⟨2, ![100000, 128]⟩ : Shape) ![]) : FVec Ideal (⟨2, ![100000, 128]⟩ : Shape) .f32 :=
  maximumf
    (addf
      (mulf
        (mulf (subf conv (broadcastInDim (⟨2, ![100000, 128]⟩ : Shape) (![0, 1] : Fin 2 → Fin 2) hb3 (broadcastInDim (⟨2, ![1, 128]⟩ : Shape) (![1] : Fin 1 → Fin 2) hb1 (refMean conv hR hu hb0))))
          (broadcastInDim (⟨2, ![100000, 128]⟩ : Shape) (![0, 1] : Fin 2 → Fin 2) hb3 (broadcastInDim (⟨2, ![1, 128]⟩ : Shape) (![1] : Fin 1 → Fin 2) hb1 (Host.rsqrt (addf (refVar conv hR hu hb0 hb1 hb2 hb3) (broadcastInDim (⟨1, ![128]⟩ : Shape) ![] hb0 (constant (F := Ideal) S0 .f32 0x3727C5AC#32)))))))
        (broadcastInDim (⟨2, ![100000, 128]⟩ : Shape) (![0, 1] : Fin 2 → Fin 2) hb3 (broadcastInDim (⟨2, ![1, 128]⟩ : Shape) (![1] : Fin 1 → Fin 2) hb1 g)))
      (broadcastInDim (⟨2, ![100000, 128]⟩ : Shape) (![0, 1] : Fin 2 → Fin 2) hb3 (broadcastInDim (⟨2, ![1, 128]⟩ : Shape) (![1] : Fin 1 → Fin 2) hb1 be)))
    (broadcastInDim (⟨2, ![100000, 128]⟩ : Shape) ![] hb4 (constant (F := Ideal) S0 .f32 0x00000000#32))

section BN
variable (conv : FVec Ideal (⟨2, ![100000, 128]⟩ : Shape) .f32) (hR : (⟨2, ![100000, 128]⟩ : Shape).ReducesTo [0] (⟨1, ![128]⟩ : Shape)) (hu : 0 < S0.numel) (hb0 : S0.BroadcastsInDim (⟨1, ![128]⟩ : Shape) ![])
    (hb1 : (⟨1, ![128]⟩ : Shape).BroadcastsInDim (⟨2, ![1, 128]⟩ : Shape) (![1] : Fin 1 → Fin 2)) (hb2 : S0.BroadcastsInDim (⟨2, ![1, 128]⟩ : Shape) ![])
    (hb3 : (⟨2, ![1, 128]⟩ : Shape).BroadcastsInDim (⟨2, ![100000, 128]⟩ : Shape) (![0, 1] : Fin 2 → Fin 2)) (hb4 : S0.BroadcastsInDim (⟨2, ![100000, 128]⟩ : Shape) ![])

/-- The column sum at column c. -/
theorem refSum_apply (c : Fin 128) : refSum conv hR hu (ix1 c) = 0 + ∑ r : Fin 100000, conv (ix2 r c) := by
  unfold refSum
  rw [reduceAdd_rows_apply]
  show Ideal.ofBits .f32 0x00000000#32 + _ = _
  rw [ofBits_zero]

/-- The column mean at column c. -/
theorem refMean_apply (c : Fin 128) :
    refMean conv hR hu hb0 (ix1 c) = Ideal.div (0 + ∑ r : Fin 100000, conv (ix2 r c)) ((100000 : ℝ) : EReal) := by
  unfold refMean
  rw [hostDivf_apply, refSum_apply, broadcast_constant_apply, ofBits_100000]

/-- The deviation at (r, c). -/
theorem refDev_apply (r : Fin 100000) (c : Fin 128) :
    refDev conv hR hu hb1 hb2 hb3 (ix2 r c)
      = conv (ix2 r c) - Ideal.div (0 + ∑ j : Fin 100000, conv (ix2 j c)) ((100000 : ℝ) : EReal) := by
  unfold refDev
  rw [subf_apply, bcast_rowmat_apply, hostDivf_apply, bcast_row_apply, refSum_apply, broadcast_constant_apply,
    ofBits_100000]

/-- The unguarded variance at column c: the mean of the squared deviations. -/
theorem refVarRaw_apply (c : Fin 128) :
    refVarRaw conv hR hu hb0 hb1 hb2 hb3 (ix1 c)
      = Ideal.div (0 + ∑ r : Fin 100000,
          (conv (ix2 r c) - Ideal.div (0 + ∑ j : Fin 100000, conv (ix2 j c)) ((100000 : ℝ) : EReal))
            * (conv (ix2 r c) - Ideal.div (0 + ∑ j : Fin 100000, conv (ix2 j c)) ((100000 : ℝ) : EReal)))
          ((100000 : ℝ) : EReal) := by
  unfold refVarRaw
  rw [hostDivf_apply, reduceAdd_rows_apply, broadcast_count_apply hb0 (constantI S0 32 0#32) (fun _ => rfl)]
  show Ideal.div (Ideal.ofBits .f32 0x00000000#32 + _) _ = _
  rw [ofBits_zero]
  simp only [mulf_apply, refDev_apply]

/-- The guard always holds: the variance is the quotient. -/
theorem refVar_eq : refVar conv hR hu hb0 hb1 hb2 hb3 = refVarRaw conv hR hu hb0 hb1 hb2 hb3 := by
  unfold refVar
  exact select_count_constantI_pos hb0 _ _

/-- The number of rows as a real is the cardinality of the row index type. -/
theorem card_rows : (100000 : ℝ) = (Fintype.card (Fin 100000) : ℝ) := by
  rw [Fintype.card_fin]; norm_num

/-- The variance of a real array is, at every column, a real that is not negative. -/
theorem refVar_real_nonneg (hconv : IsReal conv) :
    IsReal (refVar conv hR hu hb0 hb1 hb2 hb3) ∧ ∀ i, 0 ≤ refVar conv hR hu hb0 hb1 hb2 hb3 i := by
  have key : ∀ i, IsRealS (refVar conv hR hu hb0 hb1 hb2 hb3 i) ∧ 0 ≤ refVar conv hR hu hb0 hb1 hb2 hb3 i := by
    intro i
    obtain ⟨c, rfl⟩ : ∃ c : Fin 128, i = ix1 c := ⟨i 0, eq_ix1 i⟩
    rw [refVar_eq, refVarRaw_apply]
    simp only [zero_add]
    exact isRealS_and_nonneg_of_exists
      (variance_dev_real_nonneg (fun r : Fin 100000 => conv (ix2 r c)) (fun r => hconv _) (by norm_num))
  exact ⟨fun i => (key i).1, fun i => (key i).2⟩

/-- The column means of a real array are real. -/
theorem refMean_real (hconv : IsReal conv) : IsReal (refMean conv hR hu hb0) := by
  unfold refMean refSum
  exact isReal_hostDivf_100000 hb0 (isReal_reduceAdd hconv isReal_constant_zero hR hu)

variable (g be : FVec Ideal (⟨1, ![128]⟩ : Shape) .f32)

/-- The normalised array of real operands is real. -/
theorem refBN_real (hconv : IsReal conv) (hg : IsReal g) (hbe : IsReal be) :
    IsReal (refBN conv g be hR hu hb0 hb1 hb2 hb3 hb4) := by
  have hv := refVar_real_nonneg conv hR hu hb0 hb1 hb2 hb3 hconv
  unfold refBN
  exact isReal_maximumf
    (isReal_addf
      (isReal_mulf
        (isReal_mulf
          (isReal_subf hconv (isReal_broadcastInDim _ _ (isReal_broadcastInDim _ _ (refMean_real conv hR hu hb0 hconv))))
          (isReal_broadcastInDim _ _ (isReal_broadcastInDim _ _ (isReal_hostRsqrt_add_eps hb0 hv.1 hv.2))))
        (isReal_broadcastInDim _ _ (isReal_broadcastInDim _ _ hg)))
      (isReal_broadcastInDim _ _ (isReal_broadcastInDim _ _ hbe)))
    (isReal_broadcastInDim _ _ isReal_constant_zero)

/-- THE NORMALISATION: for a real array, the reference's composed term is the specification's batch normalisation
    over the column means and the moment-form column variances, the scale and shift reshaped to rows. -/
theorem refBN_eq (hconv : IsReal conv) (hT hT' : S0.BroadcastsInDim (⟨2, ![1, 128]⟩ : Shape) ![]) (hg hbe : (⟨1, ![128]⟩ : Shape).ShapeCasts (⟨2, ![1, 128]⟩ : Shape)) :
    refBN conv g be hR hu hb0 hb1 hb2 hb3 hb4
      = KSpec.bnrelu 128 conv (Host.divf (KSpec.colsum 128 conv) (broadcastInDim (⟨2, ![1, 128]⟩ : Shape) ![] hT (constant (F := Ideal) S0 .f32 0x47C35000#32)))
          (subf (Host.divf (KSpec.colsumsq 128 conv) (broadcastInDim (⟨2, ![1, 128]⟩ : Shape) ![] hT' (constant (F := Ideal) S0 .f32 0x47C35000#32))) (mulf (Host.divf (KSpec.colsum 128 conv) (broadcastInDim (⟨2, ![1, 128]⟩ : Shape) ![] hT (constant (F := Ideal) S0 .f32 0x47C35000#32))) (Host.divf (KSpec.colsum 128 conv) (broadcastInDim (⟨2, ![1, 128]⟩ : Shape) ![] hT (constant (F := Ideal) S0 .f32 0x47C35000#32)))))
          (shapeCast (⟨2, ![1, 128]⟩ : Shape) g hg) (shapeCast (⟨2, ![1, 128]⟩ : Shape) be hbe) := by
  funext i
  obtain ⟨r, c, rfl⟩ : ∃ (r : Fin 100000) (c : Fin 128), i = ix2 r c := ⟨i 0, i 1, eq_ix2 i⟩
  have hm : refMean conv hR hu hb0 (ix1 c) = (Host.divf (KSpec.colsum 128 conv) (broadcastInDim (⟨2, ![1, 128]⟩ : Shape) ![] hT (constant (F := Ideal) S0 .f32 0x47C35000#32))) (ix2 0 c) := by
    rw [refMean_apply, hostDivf_apply, broadcast_constant_apply, ofBits_100000, zero_add]
    rfl
  have hv : refVar conv hR hu hb0 hb1 hb2 hb3 (ix1 c) = (subf (Host.divf (KSpec.colsumsq 128 conv) (broadcastInDim (⟨2, ![1, 128]⟩ : Shape) ![] hT' (constant (F := Ideal) S0 .f32 0x47C35000#32))) (mulf (Host.divf (KSpec.colsum 128 conv) (broadcastInDim (⟨2, ![1, 128]⟩ : Shape) ![] hT (constant (F := Ideal) S0 .f32 0x47C35000#32))) (Host.divf (KSpec.colsum 128 conv) (broadcastInDim (⟨2, ![1, 128]⟩ : Shape) ![] hT (constant (F := Ideal) S0 .f32 0x47C35000#32))))) (ix2 0 c) := by
    rw [refVar_eq, refVarRaw_apply, subf_apply, mulf_apply, hostDivf_apply, hostDivf_apply, broadcast_constant_apply,
      ofBits_100000]
    exact variance_ereal_zero_add_left (fun r : Fin 100000 => conv (ix2 r c)) (fun r => hconv _) card_rows
      (by norm_num)
  unfold refBN
  rw [maximumf_apply, addf_apply, mulf_apply, mulf_apply, subf_apply]
  simp only [bcast_rowmat_apply, bcast_row_apply]
  rw [hostRsqrt_apply, addf_apply, broadcast_constant_apply, broadcast_constant_apply, hm, hv]
  unfold KSpec.bnrelu
  rw [Cert.Lib.Rows.shapeCast_vec_row_apply, Cert.Lib.Rows.shapeCast_vec_row_apply]
  rfl

end BN

/-! ## The reference's normalisation terms, and finiteness along its chain -/

section Terms
variable (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 a4 a5 : (⟨S128, .f32⟩ : BufTy).Contents (Elt Ideal)) (a6 : (⟨S128x128, .f32⟩ : BufTy).Contents (Elt Ideal)) (a7 a8 a9 : (⟨S128, .f32⟩ : BufTy).Contents (Elt Ideal)) (a10 : (⟨S128x64, .f32⟩ : BufTy).Contents (Elt Ideal)) (a11 : (⟨S64, .f32⟩ : BufTy).Contents (Elt Ideal))

/-- Layer 1's normalised output is the composed normalisation term over layer 1's convolution output. -/
theorem res_v67_eq_refBN :
    res_v67 (F := Ideal) a0 a1 a2 a3 a4 a5 a6 a7 a8 a9 a10 a11 = refBN (res_v47 (F := Ideal) a0 a1 a2 a3 a4 a5 a6 a7 a8 a9 a10 a11) a4 a5 reducesTo_S100000x128_S128_d0 h_S_ bcast_S_S128 bcast_S128_S1x128_1 bcast_S_S1x128 bcast_S1x128_S100000x128_0_1 bcast_S_S100000x128 := by
  unfold res_v67 res_call1_v0 res_call1_cst res_v66 res_v65 res_v64 res_v63 res_v62 res_v61 res_v60 res_v59 res_v58 res_v57 res_v56 res_v55 res_cst_11 res_v54 res_v53 res_v52 res_v51 res_call0_call0_v1 res_call0_call0_v0 res_call0_cst_4 res_call0_v12 res_call0_cst_3 res_call0_v11 res_call0_v10 res_call0_v9 res_call0_cst_2 res_call0_v8 res_call0_cst_1 res_call0_v7 res_call0_v6 res_call0_v5 res_call0_v4 res_call0_v3 res_call0_v2 res_call0_cst_0 res_call0_v1 res_call0_v0 res_call0_cst res_c_10 res_v50 res_v49 res_cst_9 res_v48 res_cst_8 refBN refVar refVarRaw refDev refMean refSum
  rfl

/-- Layer 2's normalised output is the composed normalisation term over layer 2's convolution output. -/
theorem res_v108_eq_refBN :
    res_v108 (F := Ideal) a0 a1 a2 a3 a4 a5 a6 a7 a8 a9 a10 a11 = refBN (res_v88 (F := Ideal) a0 a1 a2 a3 a4 a5 a6 a7 a8 a9 a10 a11) a8 a9 reducesTo_S100000x128_S128_d0 h_S_ bcast_S_S128 bcast_S128_S1x128_1 bcast_S_S1x128 bcast_S1x128_S100000x128_0_1 bcast_S_S100000x128 := by
  unfold res_v108 res_call3_v0 res_call3_cst res_v107 res_v106 res_v105 res_v104 res_v103 res_v102 res_v101 res_v100 res_v99 res_v98 res_v97 res_v96 res_cst_18 res_v95 res_v94 res_v93 res_v92 res_call2_call0_v1 res_call2_call0_v0 res_call2_cst_4 res_call2_v12 res_call2_cst_3 res_call2_v11 res_call2_v10 res_call2_v9 res_call2_cst_2 res_call2_v8 res_call2_cst_1 res_call2_v7 res_call2_v6 res_call2_v5 res_call2_v4 res_call2_v3 res_call2_v2 res_call2_cst_0 res_call2_v1 res_call2_v0 res_call2_cst res_c_17 res_v91 res_v90 res_cst_16 res_v89 res_cst_15 refBN refVar refVarRaw refDev refMean refSum
  rfl

/-- LAYER 1: the reference's normalised output is the specification's batch normalisation of the convolution output. -/
theorem bn1 (h : IsReal (res_v47 (F := Ideal) a0 a1 a2 a3 a4 a5 a6 a7 a8 a9 a10 a11)) (hT hT' : S0.BroadcastsInDim (⟨2, ![1, 128]⟩ : Shape) ![]) (hg hbe : (⟨1, ![128]⟩ : Shape).ShapeCasts (⟨2, ![1, 128]⟩ : Shape)) :
    res_v67 (F := Ideal) a0 a1 a2 a3 a4 a5 a6 a7 a8 a9 a10 a11
      = KSpec.bnrelu 128 (res_v47 (F := Ideal) a0 a1 a2 a3 a4 a5 a6 a7 a8 a9 a10 a11) (Host.divf (KSpec.colsum 128 (res_v47 (F := Ideal) a0 a1 a2 a3 a4 a5 a6 a7 a8 a9 a10 a11)) (broadcastInDim (⟨2, ![1, 128]⟩ : Shape) ![] hT (constant (F := Ideal) S0 .f32 0x47C35000#32)))
          (subf (Host.divf (KSpec.colsumsq 128 (res_v47 (F := Ideal) a0 a1 a2 a3 a4 a5 a6 a7 a8 a9 a10 a11)) (broadcastInDim (⟨2, ![1, 128]⟩ : Shape) ![] hT' (constant (F := Ideal) S0 .f32 0x47C35000#32))) (mulf (Host.divf (KSpec.colsum 128 (res_v47 (F := Ideal) a0 a1 a2 a3 a4 a5 a6 a7 a8 a9 a10 a11)) (broadcastInDim (⟨2, ![1, 128]⟩ : Shape) ![] hT (constant (F := Ideal) S0 .f32 0x47C35000#32))) (Host.divf (KSpec.colsum 128 (res_v47 (F := Ideal) a0 a1 a2 a3 a4 a5 a6 a7 a8 a9 a10 a11)) (broadcastInDim (⟨2, ![1, 128]⟩ : Shape) ![] hT (constant (F := Ideal) S0 .f32 0x47C35000#32)))))
          (shapeCast (⟨2, ![1, 128]⟩ : Shape) a4 hg) (shapeCast (⟨2, ![1, 128]⟩ : Shape) a5 hbe) := by
  rw [res_v67_eq_refBN]
  exact refBN_eq _ _ _ _ _ _ _ _ _ _ h hT hT' hg hbe

/-- LAYER 2 likewise. -/
theorem bn2 (h : IsReal (res_v88 (F := Ideal) a0 a1 a2 a3 a4 a5 a6 a7 a8 a9 a10 a11)) (hT hT' : S0.BroadcastsInDim (⟨2, ![1, 128]⟩ : Shape) ![]) (hg hbe : (⟨1, ![128]⟩ : Shape).ShapeCasts (⟨2, ![1, 128]⟩ : Shape)) :
    res_v108 (F := Ideal) a0 a1 a2 a3 a4 a5 a6 a7 a8 a9 a10 a11
      = KSpec.bnrelu 128 (res_v88 (F := Ideal) a0 a1 a2 a3 a4 a5 a6 a7 a8 a9 a10 a11) (Host.divf (KSpec.colsum 128 (res_v88 (F := Ideal) a0 a1 a2 a3 a4 a5 a6 a7 a8 a9 a10 a11)) (broadcastInDim (⟨2, ![1, 128]⟩ : Shape) ![] hT (constant (F := Ideal) S0 .f32 0x47C35000#32)))
          (subf (Host.divf (KSpec.colsumsq 128 (res_v88 (F := Ideal) a0 a1 a2 a3 a4 a5 a6 a7 a8 a9 a10 a11)) (broadcastInDim (⟨2, ![1, 128]⟩ : Shape) ![] hT' (constant (F := Ideal) S0 .f32 0x47C35000#32))) (mulf (Host.divf (KSpec.colsum 128 (res_v88 (F := Ideal) a0 a1 a2 a3 a4 a5 a6 a7 a8 a9 a10 a11)) (broadcastInDim (⟨2, ![1, 128]⟩ : Shape) ![] hT (constant (F := Ideal) S0 .f32 0x47C35000#32))) (Host.divf (KSpec.colsum 128 (res_v88 (F := Ideal) a0 a1 a2 a3 a4 a5 a6 a7 a8 a9 a10 a11)) (broadcastInDim (⟨2, ![1, 128]⟩ : Shape) ![] hT (constant (F := Ideal) S0 .f32 0x47C35000#32)))))
          (shapeCast (⟨2, ![1, 128]⟩ : Shape) a8 hg) (shapeCast (⟨2, ![1, 128]⟩ : Shape) a9 hbe) := by
  rw [res_v108_eq_refBN]
  exact refBN_eq _ _ _ _ _ _ _ _ _ _ h hT hT' hg hbe

/-- The reciprocal square roots of the degrees (incoming edges plus one) are real. -/
theorem isReal_res_v10 : IsReal (res_v10 (F := Ideal) a0 a1 a2 a3 a4 a5 a6 a7 a8 a9 a10 a11) := by
  unfold res_v10 res_v9 res_v8 res_cst_1 res_v7 res_v5 res_cst_0 res_v4 res_cst
  exact isReal_hostRsqrt_degree _ _ _ _

/-- The edge weights are real. -/
theorem isReal_res_v25 : IsReal (res_v25 (F := Ideal) a0 a1 a2 a3 a4 a5 a6 a7 a8 a9 a10 a11) := by
  unfold res_v25 res_v24 res_v17
  exact isReal_mulf (φ := .f32) (isReal_gather (φ := .f32) _ (isReal_res_v10 a0 a1 a2 a3 a4 a5 a6 a7 a8 a9 a10 a11) _) (isReal_gather (φ := .f32) _ (isReal_res_v10 a0 a1 a2 a3 a4 a5 a6 a7 a8 a9 a10 a11) _)

/-- The self weights are real. -/
theorem isReal_res_v26 : IsReal (res_v26 (F := Ideal) a0 a1 a2 a3 a4 a5 a6 a7 a8 a9 a10 a11) := by
  unfold res_v26
  exact isReal_mulf (φ := .f32) (isReal_res_v10 a0 a1 a2 a3 a4 a5 a6 a7 a8 a9 a10 a11) (isReal_res_v10 a0 a1 a2 a3 a4 a5 a6 a7 a8 a9 a10 a11)

/-- Layer 1's convolution output is real when the features, the weights and the bias are. -/
theorem isReal_res_v47 (h0 : IsReal a0) (h2 : IsReal a2) (h3 : IsReal a3) : IsReal (res_v47 (F := Ideal) a0 a1 a2 a3 a4 a5 a6 a7 a8 a9 a10 a11) := by
  have h27 : IsReal (res_v27 (F := Ideal) a0 a1 a2 a3 a4 a5 a6 a7 a8 a9 a10 a11) := by
    unfold res_v27; exact isReal_dotGeneral (φ₁ := .f32) (φ₂ := .f32) _ _ h0 h2
  unfold res_v47 res_v46 res_v45 res_v44 res_v43 res_v42 res_v41 res_v40 res_v38 res_cst_7 res_v37 res_v36 res_v35 res_v34
  exact isReal_addf (φ := .f32)
    (isReal_addf (φ := .f32)
      (isReal_scatterAdd (φ := .f32) _ (isReal_broadcastInDim (φ := .f32) _ _ isReal_constant_zero) _
        (isReal_mulf (φ := .f32) (isReal_gather (φ := .f32) _ h27 _)
          (isReal_broadcastInDim (φ := .f32) _ _ (isReal_broadcastInDim (φ := .f32) _ _ (isReal_res_v25 a0 a1 a2 a3 a4 a5 a6 a7 a8 a9 a10 a11)))))
      (isReal_mulf (φ := .f32) h27 (isReal_broadcastInDim (φ := .f32) _ _ (isReal_broadcastInDim (φ := .f32) _ _ (isReal_res_v26 a0 a1 a2 a3 a4 a5 a6 a7 a8 a9 a10 a11)))))
    (isReal_broadcastInDim (φ := .f32) _ _ (isReal_broadcastInDim (φ := .f32) _ _ h3))

/-- Layer 1's normalised output is real when, moreover, its scale and shift are. -/
theorem isReal_res_v67 (h0 : IsReal a0) (h2 : IsReal a2) (h3 : IsReal a3) (h4 : IsReal a4) (h5 : IsReal a5) :
    IsReal (res_v67 (F := Ideal) a0 a1 a2 a3 a4 a5 a6 a7 a8 a9 a10 a11) := by
  rw [res_v67_eq_refBN]
  exact refBN_real _ _ _ _ _ _ _ _ _ _ (isReal_res_v47 a0 a1 a2 a3 a4 a5 a6 a7 a8 a9 a10 a11 h0 h2 h3) h4 h5

/-- Layer 2's convolution output is real when, moreover, layer 2's weights and bias are. -/
theorem isReal_res_v88 (h0 : IsReal a0) (h2 : IsReal a2) (h3 : IsReal a3) (h4 : IsReal a4) (h5 : IsReal a5)
    (h6 : IsReal a6) (h7 : IsReal a7) : IsReal (res_v88 (F := Ideal) a0 a1 a2 a3 a4 a5 a6 a7 a8 a9 a10 a11) := by
  have h68 : IsReal (res_v68 (F := Ideal) a0 a1 a2 a3 a4 a5 a6 a7 a8 a9 a10 a11) := by
    unfold res_v68; exact isReal_dotGeneral (φ₁ := .f32) (φ₂ := .f32) _ _ (isReal_res_v67 a0 a1 a2 a3 a4 a5 a6 a7 a8 a9 a10 a11 h0 h2 h3 h4 h5) h6
  unfold res_v88 res_v87 res_v86 res_v85 res_v84 res_v83 res_v82 res_v81 res_v79 res_cst_14 res_v78 res_v77 res_v76 res_v75
  exact isReal_addf (φ := .f32)
    (isReal_addf (φ := .f32)
      (isReal_scatterAdd (φ := .f32) _ (isReal_broadcastInDim (φ := .f32) _ _ isReal_constant_zero) _
        (isReal_mulf (φ := .f32) (isReal_gather (φ := .f32) _ h68 _)
          (isReal_broadcastInDim (φ := .f32) _ _ (isReal_broadcastInDim (φ := .f32) _ _ (isReal_res_v25 a0 a1 a2 a3 a4 a5 a6 a7 a8 a9 a10 a11)))))
      (isReal_mulf (φ := .f32) h68 (isReal_broadcastInDim (φ := .f32) _ _ (isReal_broadcastInDim (φ := .f32) _ _ (isReal_res_v26 a0 a1 a2 a3 a4 a5 a6 a7 a8 a9 a10 a11)))))
    (isReal_broadcastInDim (φ := .f32) _ _ (isReal_broadcastInDim (φ := .f32) _ _ h7))

/-- Layer 2's normalised output is real when, moreover, its scale and shift are. -/
theorem isReal_res_v108 (h0 : IsReal a0) (h2 : IsReal a2) (h3 : IsReal a3) (h4 : IsReal a4) (h5 : IsReal a5)
    (h6 : IsReal a6) (h7 : IsReal a7) (h8 : IsReal a8) (h9 : IsReal a9) : IsReal (res_v108 (F := Ideal) a0 a1 a2 a3 a4 a5 a6 a7 a8 a9 a10 a11) := by
  rw [res_v108_eq_refBN]
  exact refBN_real _ _ _ _ _ _ _ _ _ _ (isReal_res_v88 a0 a1 a2 a3 a4 a5 a6 a7 a8 a9 a10 a11 h0 h2 h3 h4 h5 h6 h7) h8 h9

end Terms

end Cert.RefLayers

end
-- ==== Proof.Bridge.lean ====
/-
  The idealized kernel program and the idealized reference compute the same result.

  Layer by layer, for finite arguments.  The feature product is one and the same whole product.  The
  aggregate is the same gather, scaling and scatter-add of it.  The convolution output adds the same
  self term and bias, the row and column vectors laid out by a reshape on one side and a broadcast on
  the other.  The mean is the same column sum divided by the number of rows.  The variances differ in
  form — the mean of the squared deviations against the mean of the squares minus the squared mean —
  and agree because every entry of the convolution output is a real number; that is where the
  arguments' finiteness is used, and it is carried to the next layer through the normalisation, whose
  variance is not negative so that its inverse square root after adding the positive ε is real.  The
  third layer ends at the convolution output.
-/
import proofs.«153408_j3753801416995_1_alg».proof.Proof.BridgeK
import proofs.«153408_j3753801416995_1_alg».proof.Proof.RefLayers

noncomputable section

namespace Cert.Bridge

open Cert.KernelIdeal.KTerm Cert.ReferenceIdeal.RefRun Cert.RefLayers Cert.BridgeK Cert.Reals Idealize.ShloMosaic
open Cert.KernelIdeal.Facts₀ Cert.KernelIdeal.Facts

variable {a0 : (⟨Cert.KernelIdeal.S100000x128, .f32⟩ : BufTy).Contents (Elt Ideal)} {a1 : (⟨Cert.KernelIdeal.S2x1600000, .i32⟩ : BufTy).Contents (Elt Ideal)} {a2 : (⟨Cert.KernelIdeal.S128x128, .f32⟩ : BufTy).Contents (Elt Ideal)} {a3 : (⟨Cert.KernelIdeal.S128, .f32⟩ : BufTy).Contents (Elt Ideal)} {a4 : (⟨Cert.KernelIdeal.S128, .f32⟩ : BufTy).Contents (Elt Ideal)} {a5 : (⟨Cert.KernelIdeal.S128, .f32⟩ : BufTy).Contents (Elt Ideal)} {a6 : (⟨Cert.KernelIdeal.S128x128, .f32⟩ : BufTy).Contents (Elt Ideal)} {a7 : (⟨Cert.KernelIdeal.S128, .f32⟩ : BufTy).Contents (Elt Ideal)} {a8 : (⟨Cert.KernelIdeal.S128, .f32⟩ : BufTy).Contents (Elt Ideal)} {a9 : (⟨Cert.KernelIdeal.S128, .f32⟩ : BufTy).Contents (Elt Ideal)} {a10 : (⟨Cert.KernelIdeal.S128x64, .f32⟩ : BufTy).Contents (Elt Ideal)} {a11 : (⟨Cert.KernelIdeal.S64, .f32⟩ : BufTy).Contents (Elt Ideal)}

/-- Layer 1's convolution output. -/
theorem conv1 : k_v43_0 a0 a1 a2 a3 a4 a5 a6 a7 a8 a9 a10 a11 = res_v47 (F := Ideal) a0 a1 a2 a3 a4 a5 a6 a7 a8 a9 a10 a11 := by
  unfold k_v43_0
  rw [res_v47_eq a0 a1 a2 a3 a4 a5 a6 a7 a8 a9 a10 a11 shapeCasts_S100000_S100000x1 shapeCasts_S128_S1x128, e_v41, e_v28]
  unfold k_v27 k_v42
  rw [e_v26]

/-- Layer 1 after normalisation and the clamp at zero. -/
theorem act1 (h0 : IsReal a0) (h2 : IsReal a2) (h3 : IsReal a3) : k_v52 a0 a1 a2 a3 a4 a5 a6 a7 a8 a9 a10 a11 = res_v67 (F := Ideal) a0 a1 a2 a3 a4 a5 a6 a7 a8 a9 a10 a11 := by
  rw [bn1 a0 a1 a2 a3 a4 a5 a6 a7 a8 a9 a10 a11 (isReal_res_v47 a0 a1 a2 a3 a4 a5 a6 a7 a8 a9 a10 a11 h0 h2 h3) bcast_S_S1x128 bcast_S_S1x128 shapeCasts_S128_S1x128 shapeCasts_S128_S1x128]
  unfold k_v52 k_v49 k_v48 k_v47 k_v45 k_v46 k_v44 k_cst_8 k_cst_9 k_v50 k_v51 k_v43_1 k_v43_2
  rw [conv1]

/-- Layer 2's feature product. -/
theorem prod2 (h0 : IsReal a0) (h2 : IsReal a2) (h3 : IsReal a3) : k_v53 a0 a1 a2 a3 a4 a5 a6 a7 a8 a9 a10 a11 = res_v68 (F := Ideal) a0 a1 a2 a3 a4 a5 a6 a7 a8 a9 a10 a11 := by
  unfold k_v53
  rw [res_v68_eq a0 a1 a2 a3 a4 a5 a6 a7 a8 a9 a10 a11, act1 h0 h2 h3]

/-- Layer 2's convolution output. -/
theorem conv2 (h0 : IsReal a0) (h2 : IsReal a2) (h3 : IsReal a3) : k_v68_0 a0 a1 a2 a3 a4 a5 a6 a7 a8 a9 a10 a11 = res_v88 (F := Ideal) a0 a1 a2 a3 a4 a5 a6 a7 a8 a9 a10 a11 := by
  unfold k_v68_0
  rw [res_v88_eq a0 a1 a2 a3 a4 a5 a6 a7 a8 a9 a10 a11 shapeCasts_S100000_S100000x1 shapeCasts_S128_S1x128, e_v66 (prod2 h0 h2 h3), prod2 h0 h2 h3]
  unfold k_v27 k_v67
  rw [e_v26]

/-- Layer 2 after normalisation and the clamp at zero. -/
theorem act2 (h0 : IsReal a0) (h2 : IsReal a2) (h3 : IsReal a3) (h4 : IsReal a4) (h5 : IsReal a5) (h6 : IsReal a6) (h7 : IsReal a7) :
    k_v77 a0 a1 a2 a3 a4 a5 a6 a7 a8 a9 a10 a11 = res_v108 (F := Ideal) a0 a1 a2 a3 a4 a5 a6 a7 a8 a9 a10 a11 := by
  rw [bn2 a0 a1 a2 a3 a4 a5 a6 a7 a8 a9 a10 a11 (isReal_res_v88 a0 a1 a2 a3 a4 a5 a6 a7 a8 a9 a10 a11 h0 h2 h3 h4 h5 h6 h7) bcast_S_S1x128 bcast_S_S1x128 shapeCasts_S128_S1x128 shapeCasts_S128_S1x128]
  unfold k_v77 k_v74 k_v73 k_v72 k_v70 k_v71 k_v69 k_cst_13 k_cst_14 k_v75 k_v76 k_v68_1 k_v68_2
  rw [conv2 h0 h2 h3]

/-- Layer 3's feature product. -/
theorem prod3 (h0 : IsReal a0) (h2 : IsReal a2) (h3 : IsReal a3) (h4 : IsReal a4) (h5 : IsReal a5) (h6 : IsReal a6) (h7 : IsReal a7) :
    k_v78 a0 a1 a2 a3 a4 a5 a6 a7 a8 a9 a10 a11 = res_v109 (F := Ideal) a0 a1 a2 a3 a4 a5 a6 a7 a8 a9 a10 a11 := by
  unfold k_v78
  rw [res_v109_eq a0 a1 a2 a3 a4 a5 a6 a7 a8 a9 a10 a11, act2 h0 h2 h3 h4 h5 h6 h7]

/-- THE RESULT: for finite arguments the kernel program's result term is the reference's. -/
theorem result_eq (h0 : IsReal a0) (h2 : IsReal a2) (h3 : IsReal a3) (h4 : IsReal a4) (h5 : IsReal a5) (h6 : IsReal a6) (h7 : IsReal a7) :
    k_v93_0 a0 a1 a2 a3 a4 a5 a6 a7 a8 a9 a10 a11 = res_v129 (F := Ideal) a0 a1 a2 a3 a4 a5 a6 a7 a8 a9 a10 a11 := by
  unfold k_v93_0
  rw [res_v129_eq a0 a1 a2 a3 a4 a5 a6 a7 a8 a9 a10 a11 shapeCasts_S100000_S100000x1 shapeCasts_S64_S1x64, e_v91 (prod3 h0 h2 h3 h4 h5 h6 h7), prod3 h0 h2 h3 h4 h5 h6 h7]
  unfold k_v27 k_v92
  rw [e_v26]

end Cert.Bridge

end
-- ==== Proof.KChain.lean ====
/-
  The kernel program's values read back through its run.  The program is eight kernel regions among six stretches
  of host operations; the buffer contents at the fifteen boundaries between them are a fold from the launch memory.
  Going forward along that fold, every buffer that a later segment still reads is shown to hold its named term of
  the twelve argument arrays: across a stretch, a buffer the stretch does not write keeps its contents and a buffer
  it writes holds its operation's pure function of the operands, themselves such terms; across a region, a buffer
  that is not one of the region's arrays keeps its contents, an input array is left as entered, and an output array
  holds the region's whole-array function of the input arrays at entry — the one fact assumed here of each region,
  stated for any entry contents.  At the last boundary the output buffer holds the third layer's convolution term.
-/
import proofs.«153408_j3753801416995_1_alg».proof.Proof.Gen.KernelIdeal.Frame
import proofs.«153408_j3753801416995_1_alg».proof.Proof.KTerm
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

/-! ## What is assumed of the regions

Each output array, after the region has run from any entry contents `V`, is the region's whole-array function of
its input arrays in `V`. -/

/-- Region 0's output array 0. -/
abbrev HR0 : Prop :=
  ∀ (V : (c : Dev nD) → (b : Ref sig .tc) → Buf (Elt Ideal) ((c : Thread nD τ).loc b)) (c : Dev nD),
    (dat0 V c).arrAt 2 cfg0.N = KSpec.mm 128 (V c (Pipeline.arrRef spec0 0)) (V c (Pipeline.arrRef spec0 1))
/-- Region 1's output array 0. -/
abbrev HR1a : Prop :=
  ∀ (V : (c : Dev nD) → (b : Ref sig .tc) → Buf (Elt Ideal) ((c : Thread nD τ).loc b)) (c : Dev nD),
    (dat1 V c).arrAt 4 cfg1.N = KSpec.conv 128 (V c (Pipeline.arrRef spec1 0)) (V c (Pipeline.arrRef spec1 1)) (V c (Pipeline.arrRef spec1 2)) (V c (Pipeline.arrRef spec1 3))
/-- Region 1's output array 1. -/
abbrev HR1b : Prop :=
  ∀ (V : (c : Dev nD) → (b : Ref sig .tc) → Buf (Elt Ideal) ((c : Thread nD τ).loc b)) (c : Dev nD),
    (dat1 V c).arrAt 5 cfg1.N = KSpec.colsum 128 (KSpec.conv 128 (V c (Pipeline.arrRef spec1 0)) (V c (Pipeline.arrRef spec1 1)) (V c (Pipeline.arrRef spec1 2)) (V c (Pipeline.arrRef spec1 3)))
/-- Region 1's output array 2. -/
abbrev HR1c : Prop :=
  ∀ (V : (c : Dev nD) → (b : Ref sig .tc) → Buf (Elt Ideal) ((c : Thread nD τ).loc b)) (c : Dev nD),
    (dat1 V c).arrAt 6 cfg1.N = KSpec.colsumsq 128 (KSpec.conv 128 (V c (Pipeline.arrRef spec1 0)) (V c (Pipeline.arrRef spec1 1)) (V c (Pipeline.arrRef spec1 2)) (V c (Pipeline.arrRef spec1 3)))
/-- Region 2's output array 0. -/
abbrev HR2 : Prop :=
  ∀ (V : (c : Dev nD) → (b : Ref sig .tc) → Buf (Elt Ideal) ((c : Thread nD τ).loc b)) (c : Dev nD),
    (dat2 V c).arrAt 5 cfg2.N = KSpec.bnrelu 128 (V c (Pipeline.arrRef spec2 0)) (V c (Pipeline.arrRef spec2 1)) (V c (Pipeline.arrRef spec2 2)) (V c (Pipeline.arrRef spec2 3)) (V c (Pipeline.arrRef spec2 4))
/-- Region 3's output array 0. -/
abbrev HR3 : Prop :=
  ∀ (V : (c : Dev nD) → (b : Ref sig .tc) → Buf (Elt Ideal) ((c : Thread nD τ).loc b)) (c : Dev nD),
    (dat3 V c).arrAt 2 cfg3.N = KSpec.mm 128 (V c (Pipeline.arrRef spec3 0)) (V c (Pipeline.arrRef spec3 1))
/-- Region 4's output array 0. -/
abbrev HR4a : Prop :=
  ∀ (V : (c : Dev nD) → (b : Ref sig .tc) → Buf (Elt Ideal) ((c : Thread nD τ).loc b)) (c : Dev nD),
    (dat4 V c).arrAt 4 cfg4.N = KSpec.conv 128 (V c (Pipeline.arrRef spec4 0)) (V c (Pipeline.arrRef spec4 1)) (V c (Pipeline.arrRef spec4 2)) (V c (Pipeline.arrRef spec4 3))
/-- Region 4's output array 1. -/
abbrev HR4b : Prop :=
  ∀ (V : (c : Dev nD) → (b : Ref sig .tc) → Buf (Elt Ideal) ((c : Thread nD τ).loc b)) (c : Dev nD),
    (dat4 V c).arrAt 5 cfg4.N = KSpec.colsum 128 (KSpec.conv 128 (V c (Pipeline.arrRef spec4 0)) (V c (Pipeline.arrRef spec4 1)) (V c (Pipeline.arrRef spec4 2)) (V c (Pipeline.arrRef spec4 3)))
/-- Region 4's output array 2. -/
abbrev HR4c : Prop :=
  ∀ (V : (c : Dev nD) → (b : Ref sig .tc) → Buf (Elt Ideal) ((c : Thread nD τ).loc b)) (c : Dev nD),
    (dat4 V c).arrAt 6 cfg4.N = KSpec.colsumsq 128 (KSpec.conv 128 (V c (Pipeline.arrRef spec4 0)) (V c (Pipeline.arrRef spec4 1)) (V c (Pipeline.arrRef spec4 2)) (V c (Pipeline.arrRef spec4 3)))
/-- Region 5's output array 0. -/
abbrev HR5 : Prop :=
  ∀ (V : (c : Dev nD) → (b : Ref sig .tc) → Buf (Elt Ideal) ((c : Thread nD τ).loc b)) (c : Dev nD),
    (dat5 V c).arrAt 5 cfg5.N = KSpec.bnrelu 128 (V c (Pipeline.arrRef spec5 0)) (V c (Pipeline.arrRef spec5 1)) (V c (Pipeline.arrRef spec5 2)) (V c (Pipeline.arrRef spec5 3)) (V c (Pipeline.arrRef spec5 4))
/-- Region 6's output array 0. -/
abbrev HR6 : Prop :=
  ∀ (V : (c : Dev nD) → (b : Ref sig .tc) → Buf (Elt Ideal) ((c : Thread nD τ).loc b)) (c : Dev nD),
    (dat6 V c).arrAt 2 cfg6.N = KSpec.mm 64 (V c (Pipeline.arrRef spec6 0)) (V c (Pipeline.arrRef spec6 1))
/-- Region 7's output array 0. -/
abbrev HR7a : Prop :=
  ∀ (V : (c : Dev nD) → (b : Ref sig .tc) → Buf (Elt Ideal) ((c : Thread nD τ).loc b)) (c : Dev nD),
    (dat7 V c).arrAt 4 cfg7.N = KSpec.conv 64 (V c (Pipeline.arrRef spec7 0)) (V c (Pipeline.arrRef spec7 1)) (V c (Pipeline.arrRef spec7 2)) (V c (Pipeline.arrRef spec7 3))

/-- The eight regions' facts together. -/
structure RegionFacts : Prop where
  R0 : HR0
  R1a : HR1a
  R1b : HR1b
  R1c : HR1c
  R2 : HR2
  R3 : HR3
  R4a : HR4a
  R4b : HR4b
  R4c : HR4c
  R5 : HR5
  R6 : HR6
  R7a : HR7a

/-! ## What each stretch writes -/

/-- The buffers stretch 0 writes. -/
abbrev s0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27]
theorem s0_writes : (hostOps0 : List (HloOp τ sig (Elt Ideal))).Forall fun op => op.writes ⊆ (s0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers stretch 1 writes. -/
abbrev s1_W : List (Ref sig .tc) := [main_c_5, main_v29, main_v30, main_c_6, main_v31, main_v32, main_v33, main_v34, main_v35, main_v36, main_v37, main_v38, main_cst_7, main_v39, main_v40, main_v41, main_v42]
theorem s1_writes : (hostOps1 : List (HloOp τ sig (Elt Ideal))).Forall fun op => op.writes ⊆ (s1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers stretch 2 writes. -/
abbrev s2_W : List (Ref sig .tc) := [main_cst_8, main_v44, main_v45, main_cst_9, main_v46, main_v47, main_v48, main_v49, main_v50, main_v51]
theorem s2_writes : (hostOps2 : List (HloOp τ sig (Elt Ideal))).Forall fun op => op.writes ⊆ (s2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers stretch 4 writes. -/
abbrev s4_W : List (Ref sig .tc) := [main_c_10, main_v54, main_v55, main_c_11, main_v56, main_v57, main_v58, main_v59, main_v60, main_v61, main_v62, main_v63, main_cst_12, main_v64, main_v65, main_v66, main_v67]
theorem s4_writes : (hostOps4 : List (HloOp τ sig (Elt Ideal))).Forall fun op => op.writes ⊆ (s4_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers stretch 5 writes. -/
abbrev s5_W : List (Ref sig .tc) := [main_cst_13, main_v69, main_v70, main_cst_14, main_v71, main_v72, main_v73, main_v74, main_v75, main_v76]
theorem s5_writes : (hostOps5 : List (HloOp τ sig (Elt Ideal))).Forall fun op => op.writes ⊆ (s5_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers stretch 7 writes. -/
abbrev s7_W : List (Ref sig .tc) := [main_c_15, main_v79, main_v80, main_c_16, main_v81, main_v82, main_v83, main_v84, main_v85, main_v86, main_v87, main_v88, main_cst_17, main_v89, main_v90, main_v91, main_v92]
theorem s7_writes : (hostOps7 : List (HloOp τ sig (Elt Ideal))).Forall fun op => op.writes ⊆ (s7_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-! ## The chain -/

variable (m : (ℓ : Loc nD τ sig) → Buf (Elt Ideal) ℓ) (ρ : Dev nD → PrngReg)

/-- A function of the twelve argument arrays, at the arrays the launch memory holds on device `c`. -/
abbrev atM {α : Type}
    (f : (⟨S100000x128, .f32⟩ : BufTy).Contents (Elt Ideal) → (⟨S2x1600000, .i32⟩ : BufTy).Contents (Elt Ideal) → (⟨S128x128, .f32⟩ : BufTy).Contents (Elt Ideal) → (⟨S128, .f32⟩ : BufTy).Contents (Elt Ideal) → (⟨S128, .f32⟩ : BufTy).Contents (Elt Ideal) → (⟨S128, .f32⟩ : BufTy).Contents (Elt Ideal) → (⟨S128x128, .f32⟩ : BufTy).Contents (Elt Ideal) → (⟨S128, .f32⟩ : BufTy).Contents (Elt Ideal) → (⟨S128, .f32⟩ : BufTy).Contents (Elt Ideal) → (⟨S128, .f32⟩ : BufTy).Contents (Elt Ideal) → (⟨S128x64, .f32⟩ : BufTy).Contents (Elt Ideal) → (⟨S64, .f32⟩ : BufTy).Contents (Elt Ideal) → α)
    (c : Dev nD) : α :=
  f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

section Chain

theorem W0_arg0 (c : Dev nD) : W0 m ρ c (no_index (Proc.devRef .tc main_arg0)) = m ((c.tc : Thread nD τ).loc main_arg0) := rfl
theorem W0_arg1 (c : Dev nD) : W0 m ρ c (no_index (Proc.devRef .tc main_arg1)) = m ((c.tc : Thread nD τ).loc main_arg1) := rfl
theorem W0_arg2 (c : Dev nD) : W0 m ρ c (no_index (Proc.devRef .tc main_arg2)) = m ((c.tc : Thread nD τ).loc main_arg2) := rfl
theorem W0_arg3 (c : Dev nD) : W0 m ρ c (no_index (Proc.devRef .tc main_arg3)) = m ((c.tc : Thread nD τ).loc main_arg3) := rfl
theorem W0_arg4 (c : Dev nD) : W0 m ρ c (no_index (Proc.devRef .tc main_arg4)) = m ((c.tc : Thread nD τ).loc main_arg4) := rfl
theorem W0_arg5 (c : Dev nD) : W0 m ρ c (no_index (Proc.devRef .tc main_arg5)) = m ((c.tc : Thread nD τ).loc main_arg5) := rfl
theorem W0_arg6 (c : Dev nD) : W0 m ρ c (no_index (Proc.devRef .tc main_arg6)) = m ((c.tc : Thread nD τ).loc main_arg6) := rfl
theorem W0_arg7 (c : Dev nD) : W0 m ρ c (no_index (Proc.devRef .tc main_arg7)) = m ((c.tc : Thread nD τ).loc main_arg7) := rfl
theorem W0_arg8 (c : Dev nD) : W0 m ρ c (no_index (Proc.devRef .tc main_arg8)) = m ((c.tc : Thread nD τ).loc main_arg8) := rfl
theorem W0_arg9 (c : Dev nD) : W0 m ρ c (no_index (Proc.devRef .tc main_arg9)) = m ((c.tc : Thread nD τ).loc main_arg9) := rfl
theorem W0_arg10 (c : Dev nD) : W0 m ρ c (no_index (Proc.devRef .tc main_arg10)) = m ((c.tc : Thread nD τ).loc main_arg10) := rfl
theorem W0_arg11 (c : Dev nD) : W0 m ρ c (no_index (Proc.devRef .tc main_arg11)) = m ((c.tc : Thread nD τ).loc main_arg11) := rfl

/-! ### Boundary 1: after the host stretch `hostOps0` -/

/-- A buffer the stretch does not write keeps its contents through it. -/
theorem W1_keep (c : Dev nD) (r : Ref sig .tc) (h : r ∉ s0_W) :
    W1 m ρ c (Proc.devRef .tc r) = W0 m ρ c (Proc.devRef .tc r) :=
  StableHlo.after_of_writes_sub hostOps0 _ s0_writes h
theorem W1_arg0 (c : Dev nD) : W1 m ρ c (no_index (Proc.devRef .tc main_arg0)) = m ((c.tc : Thread nD τ).loc main_arg0) :=
  (W1_keep m ρ c main_arg0 (by decide)).trans (W0_arg0 m ρ c)
theorem W1_arg2 (c : Dev nD) : W1 m ρ c (no_index (Proc.devRef .tc main_arg2)) = m ((c.tc : Thread nD τ).loc main_arg2) :=
  (W1_keep m ρ c main_arg2 (by decide)).trans (W0_arg2 m ρ c)
theorem W1_arg3 (c : Dev nD) : W1 m ρ c (no_index (Proc.devRef .tc main_arg3)) = m ((c.tc : Thread nD τ).loc main_arg3) :=
  (W1_keep m ρ c main_arg3 (by decide)).trans (W0_arg3 m ρ c)
theorem W1_arg4 (c : Dev nD) : W1 m ρ c (no_index (Proc.devRef .tc main_arg4)) = m ((c.tc : Thread nD τ).loc main_arg4) :=
  (W1_keep m ρ c main_arg4 (by decide)).trans (W0_arg4 m ρ c)
theorem W1_arg5 (c : Dev nD) : W1 m ρ c (no_index (Proc.devRef .tc main_arg5)) = m ((c.tc : Thread nD τ).loc main_arg5) :=
  (W1_keep m ρ c main_arg5 (by decide)).trans (W0_arg5 m ρ c)
theorem W1_arg6 (c : Dev nD) : W1 m ρ c (no_index (Proc.devRef .tc main_arg6)) = m ((c.tc : Thread nD τ).loc main_arg6) :=
  (W1_keep m ρ c main_arg6 (by decide)).trans (W0_arg6 m ρ c)
theorem W1_arg7 (c : Dev nD) : W1 m ρ c (no_index (Proc.devRef .tc main_arg7)) = m ((c.tc : Thread nD τ).loc main_arg7) :=
  (W1_keep m ρ c main_arg7 (by decide)).trans (W0_arg7 m ρ c)
theorem W1_arg8 (c : Dev nD) : W1 m ρ c (no_index (Proc.devRef .tc main_arg8)) = m ((c.tc : Thread nD τ).loc main_arg8) :=
  (W1_keep m ρ c main_arg8 (by decide)).trans (W0_arg8 m ρ c)
theorem W1_arg9 (c : Dev nD) : W1 m ρ c (no_index (Proc.devRef .tc main_arg9)) = m ((c.tc : Thread nD τ).loc main_arg9) :=
  (W1_keep m ρ c main_arg9 (by decide)).trans (W0_arg9 m ρ c)
theorem W1_arg10 (c : Dev nD) : W1 m ρ c (no_index (Proc.devRef .tc main_arg10)) = m ((c.tc : Thread nD τ).loc main_arg10) :=
  (W1_keep m ρ c main_arg10 (by decide)).trans (W0_arg10 m ρ c)
theorem W1_arg11 (c : Dev nD) : W1 m ρ c (no_index (Proc.devRef .tc main_arg11)) = m ((c.tc : Thread nD τ).loc main_arg11) :=
  (W1_keep m ρ c main_arg11 (by decide)).trans (W0_arg11 m ρ c)
theorem W1_v1 (c : Dev nD) : W1 m ρ c (no_index (Proc.devRef .tc main_v1)) = atM m KTerm.k_v1 c := by
  show StableHlo.after hostOps0 (W0 m ρ c) (Proc.devRef .tc main_v1) = _
  simp only [hostOps0]
  after_results_simp
  simp only [W0_arg1 m ρ] <;> rfl
theorem W1_v3 (c : Dev nD) : W1 m ρ c (no_index (Proc.devRef .tc main_v3)) = atM m KTerm.k_v3 c := by
  show StableHlo.after hostOps0 (W0 m ρ c) (Proc.devRef .tc main_v3) = _
  simp only [hostOps0]
  after_results_simp
  simp only [W0_arg1 m ρ] <;> rfl
theorem W1_v25 (c : Dev nD) : W1 m ρ c (no_index (Proc.devRef .tc main_v25)) = atM m KTerm.k_v25 c := by
  show StableHlo.after hostOps0 (W0 m ρ c) (Proc.devRef .tc main_v25) = _
  simp only [hostOps0]
  after_results_simp
  simp only [W0_arg1 m ρ] <;> rfl
theorem W1_v27 (c : Dev nD) : W1 m ρ c (no_index (Proc.devRef .tc main_v27)) = atM m KTerm.k_v27 c := by
  show StableHlo.after hostOps0 (W0 m ρ c) (Proc.devRef .tc main_v27) = _
  simp only [hostOps0]
  after_results_simp
  simp only [W0_arg1 m ρ] <;> rfl

variable (H : RegionFacts)
include H

/-! ### Boundary 2: after region 0 -/

theorem W2_arg3 (c : Dev nD) : W2 m ρ c (no_index (Proc.devRef .tc main_arg3)) = m ((c.tc : Thread nD τ).loc main_arg3) :=
  (W2_of_ne m ρ c main_arg3 (by decide)).trans (W1_arg3 m ρ c)
theorem W2_arg4 (c : Dev nD) : W2 m ρ c (no_index (Proc.devRef .tc main_arg4)) = m ((c.tc : Thread nD τ).loc main_arg4) :=
  (W2_of_ne m ρ c main_arg4 (by decide)).trans (W1_arg4 m ρ c)
theorem W2_arg5 (c : Dev nD) : W2 m ρ c (no_index (Proc.devRef .tc main_arg5)) = m ((c.tc : Thread nD τ).loc main_arg5) :=
  (W2_of_ne m ρ c main_arg5 (by decide)).trans (W1_arg5 m ρ c)
theorem W2_arg6 (c : Dev nD) : W2 m ρ c (no_index (Proc.devRef .tc main_arg6)) = m ((c.tc : Thread nD τ).loc main_arg6) :=
  (W2_of_ne m ρ c main_arg6 (by decide)).trans (W1_arg6 m ρ c)
theorem W2_arg7 (c : Dev nD) : W2 m ρ c (no_index (Proc.devRef .tc main_arg7)) = m ((c.tc : Thread nD τ).loc main_arg7) :=
  (W2_of_ne m ρ c main_arg7 (by decide)).trans (W1_arg7 m ρ c)
theorem W2_arg8 (c : Dev nD) : W2 m ρ c (no_index (Proc.devRef .tc main_arg8)) = m ((c.tc : Thread nD τ).loc main_arg8) :=
  (W2_of_ne m ρ c main_arg8 (by decide)).trans (W1_arg8 m ρ c)
theorem W2_arg9 (c : Dev nD) : W2 m ρ c (no_index (Proc.devRef .tc main_arg9)) = m ((c.tc : Thread nD τ).loc main_arg9) :=
  (W2_of_ne m ρ c main_arg9 (by decide)).trans (W1_arg9 m ρ c)
theorem W2_arg10 (c : Dev nD) : W2 m ρ c (no_index (Proc.devRef .tc main_arg10)) = m ((c.tc : Thread nD τ).loc main_arg10) :=
  (W2_of_ne m ρ c main_arg10 (by decide)).trans (W1_arg10 m ρ c)
theorem W2_arg11 (c : Dev nD) : W2 m ρ c (no_index (Proc.devRef .tc main_arg11)) = m ((c.tc : Thread nD τ).loc main_arg11) :=
  (W2_of_ne m ρ c main_arg11 (by decide)).trans (W1_arg11 m ρ c)
theorem W2_v1 (c : Dev nD) : W2 m ρ c (no_index (Proc.devRef .tc main_v1)) = atM m KTerm.k_v1 c :=
  (W2_of_ne m ρ c main_v1 (by decide)).trans (W1_v1 m ρ c)
theorem W2_v3 (c : Dev nD) : W2 m ρ c (no_index (Proc.devRef .tc main_v3)) = atM m KTerm.k_v3 c :=
  (W2_of_ne m ρ c main_v3 (by decide)).trans (W1_v3 m ρ c)
theorem W2_v25 (c : Dev nD) : W2 m ρ c (no_index (Proc.devRef .tc main_v25)) = atM m KTerm.k_v25 c :=
  (W2_of_ne m ρ c main_v25 (by decide)).trans (W1_v25 m ρ c)
theorem W2_v27 (c : Dev nD) : W2 m ρ c (no_index (Proc.devRef .tc main_v27)) = atM m KTerm.k_v27 c :=
  (W2_of_ne m ρ c main_v27 (by decide)).trans (W1_v27 m ρ c)
theorem W2_v28 (c : Dev nD) : W2 m ρ c (no_index (Proc.devRef .tc main_v28)) = atM m KTerm.k_v28 c :=
  ((W2_arr m ρ c 2).trans (H.R0 (V1 m ρ) c)).trans (by
    show KSpec.mm 128 (W1 m ρ c (Proc.devRef .tc main_arg0)) (W1 m ρ c (Proc.devRef .tc main_arg2)) = _
    simp only [W1_arg0 m ρ, W1_arg2 m ρ] <;> rfl)

/-! ### Boundary 3: after the host stretch `hostOps1` -/

/-- A buffer the stretch does not write keeps its contents through it. -/
theorem W3_keep (c : Dev nD) (r : Ref sig .tc) (h : r ∉ s1_W) :
    W3 m ρ c (Proc.devRef .tc r) = W2 m ρ c (Proc.devRef .tc r) :=
  StableHlo.after_of_writes_sub hostOps1 _ s1_writes h
theorem W3_arg4 (c : Dev nD) : W3 m ρ c (no_index (Proc.devRef .tc main_arg4)) = m ((c.tc : Thread nD τ).loc main_arg4) :=
  (W3_keep m ρ H c main_arg4 (by decide)).trans (W2_arg4 m ρ H c)
theorem W3_arg5 (c : Dev nD) : W3 m ρ c (no_index (Proc.devRef .tc main_arg5)) = m ((c.tc : Thread nD τ).loc main_arg5) :=
  (W3_keep m ρ H c main_arg5 (by decide)).trans (W2_arg5 m ρ H c)
theorem W3_arg6 (c : Dev nD) : W3 m ρ c (no_index (Proc.devRef .tc main_arg6)) = m ((c.tc : Thread nD τ).loc main_arg6) :=
  (W3_keep m ρ H c main_arg6 (by decide)).trans (W2_arg6 m ρ H c)
theorem W3_arg7 (c : Dev nD) : W3 m ρ c (no_index (Proc.devRef .tc main_arg7)) = m ((c.tc : Thread nD τ).loc main_arg7) :=
  (W3_keep m ρ H c main_arg7 (by decide)).trans (W2_arg7 m ρ H c)
theorem W3_arg8 (c : Dev nD) : W3 m ρ c (no_index (Proc.devRef .tc main_arg8)) = m ((c.tc : Thread nD τ).loc main_arg8) :=
  (W3_keep m ρ H c main_arg8 (by decide)).trans (W2_arg8 m ρ H c)
theorem W3_arg9 (c : Dev nD) : W3 m ρ c (no_index (Proc.devRef .tc main_arg9)) = m ((c.tc : Thread nD τ).loc main_arg9) :=
  (W3_keep m ρ H c main_arg9 (by decide)).trans (W2_arg9 m ρ H c)
theorem W3_arg10 (c : Dev nD) : W3 m ρ c (no_index (Proc.devRef .tc main_arg10)) = m ((c.tc : Thread nD τ).loc main_arg10) :=
  (W3_keep m ρ H c main_arg10 (by decide)).trans (W2_arg10 m ρ H c)
theorem W3_arg11 (c : Dev nD) : W3 m ρ c (no_index (Proc.devRef .tc main_arg11)) = m ((c.tc : Thread nD τ).loc main_arg11) :=
  (W3_keep m ρ H c main_arg11 (by decide)).trans (W2_arg11 m ρ H c)
theorem W3_v1 (c : Dev nD) : W3 m ρ c (no_index (Proc.devRef .tc main_v1)) = atM m KTerm.k_v1 c :=
  (W3_keep m ρ H c main_v1 (by decide)).trans (W2_v1 m ρ H c)
theorem W3_v3 (c : Dev nD) : W3 m ρ c (no_index (Proc.devRef .tc main_v3)) = atM m KTerm.k_v3 c :=
  (W3_keep m ρ H c main_v3 (by decide)).trans (W2_v3 m ρ H c)
theorem W3_v25 (c : Dev nD) : W3 m ρ c (no_index (Proc.devRef .tc main_v25)) = atM m KTerm.k_v25 c :=
  (W3_keep m ρ H c main_v25 (by decide)).trans (W2_v25 m ρ H c)
theorem W3_v27 (c : Dev nD) : W3 m ρ c (no_index (Proc.devRef .tc main_v27)) = atM m KTerm.k_v27 c :=
  (W3_keep m ρ H c main_v27 (by decide)).trans (W2_v27 m ρ H c)
theorem W3_v28 (c : Dev nD) : W3 m ρ c (no_index (Proc.devRef .tc main_v28)) = atM m KTerm.k_v28 c :=
  (W3_keep m ρ H c main_v28 (by decide)).trans (W2_v28 m ρ H c)
theorem W3_v41 (c : Dev nD) : W3 m ρ c (no_index (Proc.devRef .tc main_v41)) = atM m KTerm.k_v41 c := by
  show StableHlo.after hostOps1 (W2 m ρ c) (Proc.devRef .tc main_v41) = _
  simp only [hostOps1]
  after_results_simp
  simp only [W2_v25 m ρ H, W2_v1 m ρ H, W2_v28 m ρ H, W2_v3 m ρ H] <;> rfl
theorem W3_v42 (c : Dev nD) : W3 m ρ c (no_index (Proc.devRef .tc main_v42)) = atM m KTerm.k_v42 c := by
  show StableHlo.after hostOps1 (W2 m ρ c) (Proc.devRef .tc main_v42) = _
  simp only [hostOps1]
  after_results_simp
  simp only [W2_arg3 m ρ H] <;> rfl

/-! ### Boundary 4: after region 1 -/

theorem W4_arg4 (c : Dev nD) : W4 m ρ c (no_index (Proc.devRef .tc main_arg4)) = m ((c.tc : Thread nD τ).loc main_arg4) :=
  (W4_of_ne m ρ c main_arg4 (by decide)).trans (W3_arg4 m ρ H c)
theorem W4_arg5 (c : Dev nD) : W4 m ρ c (no_index (Proc.devRef .tc main_arg5)) = m ((c.tc : Thread nD τ).loc main_arg5) :=
  (W4_of_ne m ρ c main_arg5 (by decide)).trans (W3_arg5 m ρ H c)
theorem W4_arg6 (c : Dev nD) : W4 m ρ c (no_index (Proc.devRef .tc main_arg6)) = m ((c.tc : Thread nD τ).loc main_arg6) :=
  (W4_of_ne m ρ c main_arg6 (by decide)).trans (W3_arg6 m ρ H c)
theorem W4_arg7 (c : Dev nD) : W4 m ρ c (no_index (Proc.devRef .tc main_arg7)) = m ((c.tc : Thread nD τ).loc main_arg7) :=
  (W4_of_ne m ρ c main_arg7 (by decide)).trans (W3_arg7 m ρ H c)
theorem W4_arg8 (c : Dev nD) : W4 m ρ c (no_index (Proc.devRef .tc main_arg8)) = m ((c.tc : Thread nD τ).loc main_arg8) :=
  (W4_of_ne m ρ c main_arg8 (by decide)).trans (W3_arg8 m ρ H c)
theorem W4_arg9 (c : Dev nD) : W4 m ρ c (no_index (Proc.devRef .tc main_arg9)) = m ((c.tc : Thread nD τ).loc main_arg9) :=
  (W4_of_ne m ρ c main_arg9 (by decide)).trans (W3_arg9 m ρ H c)
theorem W4_arg10 (c : Dev nD) : W4 m ρ c (no_index (Proc.devRef .tc main_arg10)) = m ((c.tc : Thread nD τ).loc main_arg10) :=
  (W4_of_ne m ρ c main_arg10 (by decide)).trans (W3_arg10 m ρ H c)
theorem W4_arg11 (c : Dev nD) : W4 m ρ c (no_index (Proc.devRef .tc main_arg11)) = m ((c.tc : Thread nD τ).loc main_arg11) :=
  (W4_of_ne m ρ c main_arg11 (by decide)).trans (W3_arg11 m ρ H c)
theorem W4_v1 (c : Dev nD) : W4 m ρ c (no_index (Proc.devRef .tc main_v1)) = atM m KTerm.k_v1 c :=
  (W4_of_ne m ρ c main_v1 (by decide)).trans (W3_v1 m ρ H c)
theorem W4_v3 (c : Dev nD) : W4 m ρ c (no_index (Proc.devRef .tc main_v3)) = atM m KTerm.k_v3 c :=
  (W4_of_ne m ρ c main_v3 (by decide)).trans (W3_v3 m ρ H c)
theorem W4_v25 (c : Dev nD) : W4 m ρ c (no_index (Proc.devRef .tc main_v25)) = atM m KTerm.k_v25 c :=
  (W4_of_ne m ρ c main_v25 (by decide)).trans (W3_v25 m ρ H c)
theorem W4_v27 (c : Dev nD) : W4 m ρ c (no_index (Proc.devRef .tc main_v27)) = atM m KTerm.k_v27 c :=
  ((W4_arr m ρ c 2).trans (((dat1 (V3 m ρ) c).arrAt_in 2 rfl _).trans (A_eq1 (V3 m ρ) c 2))).trans (W3_v27 m ρ H c)
theorem W4_v43_0 (c : Dev nD) : W4 m ρ c (no_index (Proc.devRef .tc main_v43_0)) = atM m KTerm.k_v43_0 c :=
  ((W4_arr m ρ c 4).trans (H.R1a (V3 m ρ) c)).trans (by
    show KSpec.conv 128 (W3 m ρ c (Proc.devRef .tc main_v41)) (W3 m ρ c (Proc.devRef .tc main_v28)) (W3 m ρ c (Proc.devRef .tc main_v27)) (W3 m ρ c (Proc.devRef .tc main_v42)) = _
    simp only [W3_v41 m ρ H, W3_v28 m ρ H, W3_v27 m ρ H, W3_v42 m ρ H] <;> rfl)
theorem W4_v43_1 (c : Dev nD) : W4 m ρ c (no_index (Proc.devRef .tc main_v43_1)) = atM m KTerm.k_v43_1 c :=
  ((W4_arr m ρ c 5).trans (H.R1b (V3 m ρ) c)).trans (by
    show KSpec.colsum 128 (KSpec.conv 128 (W3 m ρ c (Proc.devRef .tc main_v41)) (W3 m ρ c (Proc.devRef .tc main_v28)) (W3 m ρ c (Proc.devRef .tc main_v27)) (W3 m ρ c (Proc.devRef .tc main_v42))) = _
    simp only [W3_v41 m ρ H, W3_v28 m ρ H, W3_v27 m ρ H, W3_v42 m ρ H] <;> rfl)
theorem W4_v43_2 (c : Dev nD) : W4 m ρ c (no_index (Proc.devRef .tc main_v43_2)) = atM m KTerm.k_v43_2 c :=
  ((W4_arr m ρ c 6).trans (H.R1c (V3 m ρ) c)).trans (by
    show KSpec.colsumsq 128 (KSpec.conv 128 (W3 m ρ c (Proc.devRef .tc main_v41)) (W3 m ρ c (Proc.devRef .tc main_v28)) (W3 m ρ c (Proc.devRef .tc main_v27)) (W3 m ρ c (Proc.devRef .tc main_v42))) = _
    simp only [W3_v41 m ρ H, W3_v28 m ρ H, W3_v27 m ρ H, W3_v42 m ρ H] <;> rfl)

/-! ### Boundary 5: after the host stretch `hostOps2` -/

/-- A buffer the stretch does not write keeps its contents through it. -/
theorem W5_keep (c : Dev nD) (r : Ref sig .tc) (h : r ∉ s2_W) :
    W5 m ρ c (Proc.devRef .tc r) = W4 m ρ c (Proc.devRef .tc r) :=
  StableHlo.after_of_writes_sub hostOps2 _ s2_writes h
theorem W5_arg6 (c : Dev nD) : W5 m ρ c (no_index (Proc.devRef .tc main_arg6)) = m ((c.tc : Thread nD τ).loc main_arg6) :=
  (W5_keep m ρ H c main_arg6 (by decide)).trans (W4_arg6 m ρ H c)
theorem W5_arg7 (c : Dev nD) : W5 m ρ c (no_index (Proc.devRef .tc main_arg7)) = m ((c.tc : Thread nD τ).loc main_arg7) :=
  (W5_keep m ρ H c main_arg7 (by decide)).trans (W4_arg7 m ρ H c)
theorem W5_arg8 (c : Dev nD) : W5 m ρ c (no_index (Proc.devRef .tc main_arg8)) = m ((c.tc : Thread nD τ).loc main_arg8) :=
  (W5_keep m ρ H c main_arg8 (by decide)).trans (W4_arg8 m ρ H c)
theorem W5_arg9 (c : Dev nD) : W5 m ρ c (no_index (Proc.devRef .tc main_arg9)) = m ((c.tc : Thread nD τ).loc main_arg9) :=
  (W5_keep m ρ H c main_arg9 (by decide)).trans (W4_arg9 m ρ H c)
theorem W5_arg10 (c : Dev nD) : W5 m ρ c (no_index (Proc.devRef .tc main_arg10)) = m ((c.tc : Thread nD τ).loc main_arg10) :=
  (W5_keep m ρ H c main_arg10 (by decide)).trans (W4_arg10 m ρ H c)
theorem W5_arg11 (c : Dev nD) : W5 m ρ c (no_index (Proc.devRef .tc main_arg11)) = m ((c.tc : Thread nD τ).loc main_arg11) :=
  (W5_keep m ρ H c main_arg11 (by decide)).trans (W4_arg11 m ρ H c)
theorem W5_v1 (c : Dev nD) : W5 m ρ c (no_index (Proc.devRef .tc main_v1)) = atM m KTerm.k_v1 c :=
  (W5_keep m ρ H c main_v1 (by decide)).trans (W4_v1 m ρ H c)
theorem W5_v3 (c : Dev nD) : W5 m ρ c (no_index (Proc.devRef .tc main_v3)) = atM m KTerm.k_v3 c :=
  (W5_keep m ρ H c main_v3 (by decide)).trans (W4_v3 m ρ H c)
theorem W5_v25 (c : Dev nD) : W5 m ρ c (no_index (Proc.devRef .tc main_v25)) = atM m KTerm.k_v25 c :=
  (W5_keep m ρ H c main_v25 (by decide)).trans (W4_v25 m ρ H c)
theorem W5_v27 (c : Dev nD) : W5 m ρ c (no_index (Proc.devRef .tc main_v27)) = atM m KTerm.k_v27 c :=
  (W5_keep m ρ H c main_v27 (by decide)).trans (W4_v27 m ρ H c)
theorem W5_v43_0 (c : Dev nD) : W5 m ρ c (no_index (Proc.devRef .tc main_v43_0)) = atM m KTerm.k_v43_0 c :=
  (W5_keep m ρ H c main_v43_0 (by decide)).trans (W4_v43_0 m ρ H c)
theorem W5_v45 (c : Dev nD) : W5 m ρ c (no_index (Proc.devRef .tc main_v45)) = atM m KTerm.k_v45 c := by
  show StableHlo.after hostOps2 (W4 m ρ c) (Proc.devRef .tc main_v45) = _
  simp only [hostOps2]
  after_results_simp
  simp only [W4_v43_1 m ρ H] <;> rfl
theorem W5_v49 (c : Dev nD) : W5 m ρ c (no_index (Proc.devRef .tc main_v49)) = atM m KTerm.k_v49 c := by
  show StableHlo.after hostOps2 (W4 m ρ c) (Proc.devRef .tc main_v49) = _
  simp only [hostOps2]
  after_results_simp
  simp only [W4_v43_1 m ρ H, W4_v43_2 m ρ H] <;> rfl
theorem W5_v50 (c : Dev nD) : W5 m ρ c (no_index (Proc.devRef .tc main_v50)) = atM m KTerm.k_v50 c := by
  show StableHlo.after hostOps2 (W4 m ρ c) (Proc.devRef .tc main_v50) = _
  simp only [hostOps2]
  after_results_simp
  simp only [W4_arg4 m ρ H] <;> rfl
theorem W5_v51 (c : Dev nD) : W5 m ρ c (no_index (Proc.devRef .tc main_v51)) = atM m KTerm.k_v51 c := by
  show StableHlo.after hostOps2 (W4 m ρ c) (Proc.devRef .tc main_v51) = _
  simp only [hostOps2]
  after_results_simp
  simp only [W4_arg5 m ρ H] <;> rfl

/-! ### Boundary 6: after region 2 -/

theorem W6_arg6 (c : Dev nD) : W6 m ρ c (no_index (Proc.devRef .tc main_arg6)) = m ((c.tc : Thread nD τ).loc main_arg6) :=
  (W6_of_ne m ρ c main_arg6 (by decide)).trans (W5_arg6 m ρ H c)
theorem W6_arg7 (c : Dev nD) : W6 m ρ c (no_index (Proc.devRef .tc main_arg7)) = m ((c.tc : Thread nD τ).loc main_arg7) :=
  (W6_of_ne m ρ c main_arg7 (by decide)).trans (W5_arg7 m ρ H c)
theorem W6_arg8 (c : Dev nD) : W6 m ρ c (no_index (Proc.devRef .tc main_arg8)) = m ((c.tc : Thread nD τ).loc main_arg8) :=
  (W6_of_ne m ρ c main_arg8 (by decide)).trans (W5_arg8 m ρ H c)
theorem W6_arg9 (c : Dev nD) : W6 m ρ c (no_index (Proc.devRef .tc main_arg9)) = m ((c.tc : Thread nD τ).loc main_arg9) :=
  (W6_of_ne m ρ c main_arg9 (by decide)).trans (W5_arg9 m ρ H c)
theorem W6_arg10 (c : Dev nD) : W6 m ρ c (no_index (Proc.devRef .tc main_arg10)) = m ((c.tc : Thread nD τ).loc main_arg10) :=
  (W6_of_ne m ρ c main_arg10 (by decide)).trans (W5_arg10 m ρ H c)
theorem W6_arg11 (c : Dev nD) : W6 m ρ c (no_index (Proc.devRef .tc main_arg11)) = m ((c.tc : Thread nD τ).loc main_arg11) :=
  (W6_of_ne m ρ c main_arg11 (by decide)).trans (W5_arg11 m ρ H c)
theorem W6_v1 (c : Dev nD) : W6 m ρ c (no_index (Proc.devRef .tc main_v1)) = atM m KTerm.k_v1 c :=
  (W6_of_ne m ρ c main_v1 (by decide)).trans (W5_v1 m ρ H c)
theorem W6_v3 (c : Dev nD) : W6 m ρ c (no_index (Proc.devRef .tc main_v3)) = atM m KTerm.k_v3 c :=
  (W6_of_ne m ρ c main_v3 (by decide)).trans (W5_v3 m ρ H c)
theorem W6_v25 (c : Dev nD) : W6 m ρ c (no_index (Proc.devRef .tc main_v25)) = atM m KTerm.k_v25 c :=
  (W6_of_ne m ρ c main_v25 (by decide)).trans (W5_v25 m ρ H c)
theorem W6_v27 (c : Dev nD) : W6 m ρ c (no_index (Proc.devRef .tc main_v27)) = atM m KTerm.k_v27 c :=
  (W6_of_ne m ρ c main_v27 (by decide)).trans (W5_v27 m ρ H c)
theorem W6_v52 (c : Dev nD) : W6 m ρ c (no_index (Proc.devRef .tc main_v52)) = atM m KTerm.k_v52 c :=
  ((W6_arr m ρ c 5).trans (H.R2 (V5 m ρ) c)).trans (by
    show KSpec.bnrelu 128 (W5 m ρ c (Proc.devRef .tc main_v43_0)) (W5 m ρ c (Proc.devRef .tc main_v45)) (W5 m ρ c (Proc.devRef .tc main_v49)) (W5 m ρ c (Proc.devRef .tc main_v50)) (W5 m ρ c (Proc.devRef .tc main_v51)) = _
    simp only [W5_v43_0 m ρ H, W5_v45 m ρ H, W5_v49 m ρ H, W5_v50 m ρ H, W5_v51 m ρ H] <;> rfl)

/-! ### Boundary 7: after region 3 -/

theorem W7_arg7 (c : Dev nD) : W7 m ρ c (no_index (Proc.devRef .tc main_arg7)) = m ((c.tc : Thread nD τ).loc main_arg7) :=
  (W7_of_ne m ρ c main_arg7 (by decide)).trans (W6_arg7 m ρ H c)
theorem W7_arg8 (c : Dev nD) : W7 m ρ c (no_index (Proc.devRef .tc main_arg8)) = m ((c.tc : Thread nD τ).loc main_arg8) :=
  (W7_of_ne m ρ c main_arg8 (by decide)).trans (W6_arg8 m ρ H c)
theorem W7_arg9 (c : Dev nD) : W7 m ρ c (no_index (Proc.devRef .tc main_arg9)) = m ((c.tc : Thread nD τ).loc main_arg9) :=
  (W7_of_ne m ρ c main_arg9 (by decide)).trans (W6_arg9 m ρ H c)
theorem W7_arg10 (c : Dev nD) : W7 m ρ c (no_index (Proc.devRef .tc main_arg10)) = m ((c.tc : Thread nD τ).loc main_arg10) :=
  (W7_of_ne m ρ c main_arg10 (by decide)).trans (W6_arg10 m ρ H c)
theorem W7_arg11 (c : Dev nD) : W7 m ρ c (no_index (Proc.devRef .tc main_arg11)) = m ((c.tc : Thread nD τ).loc main_arg11) :=
  (W7_of_ne m ρ c main_arg11 (by decide)).trans (W6_arg11 m ρ H c)
theorem W7_v1 (c : Dev nD) : W7 m ρ c (no_index (Proc.devRef .tc main_v1)) = atM m KTerm.k_v1 c :=
  (W7_of_ne m ρ c main_v1 (by decide)).trans (W6_v1 m ρ H c)
theorem W7_v3 (c : Dev nD) : W7 m ρ c (no_index (Proc.devRef .tc main_v3)) = atM m KTerm.k_v3 c :=
  (W7_of_ne m ρ c main_v3 (by decide)).trans (W6_v3 m ρ H c)
theorem W7_v25 (c : Dev nD) : W7 m ρ c (no_index (Proc.devRef .tc main_v25)) = atM m KTerm.k_v25 c :=
  (W7_of_ne m ρ c main_v25 (by decide)).trans (W6_v25 m ρ H c)
theorem W7_v27 (c : Dev nD) : W7 m ρ c (no_index (Proc.devRef .tc main_v27)) = atM m KTerm.k_v27 c :=
  (W7_of_ne m ρ c main_v27 (by decide)).trans (W6_v27 m ρ H c)
theorem W7_v53 (c : Dev nD) : W7 m ρ c (no_index (Proc.devRef .tc main_v53)) = atM m KTerm.k_v53 c :=
  ((W7_arr m ρ c 2).trans (H.R3 (V6 m ρ) c)).trans (by
    show KSpec.mm 128 (W6 m ρ c (Proc.devRef .tc main_v52)) (W6 m ρ c (Proc.devRef .tc main_arg6)) = _
    simp only [W6_v52 m ρ H, W6_arg6 m ρ H] <;> rfl)

/-! ### Boundary 8: after the host stretch `hostOps4` -/

/-- A buffer the stretch does not write keeps its contents through it. -/
theorem W8_keep (c : Dev nD) (r : Ref sig .tc) (h : r ∉ s4_W) :
    W8 m ρ c (Proc.devRef .tc r) = W7 m ρ c (Proc.devRef .tc r) :=
  StableHlo.after_of_writes_sub hostOps4 _ s4_writes h
theorem W8_arg8 (c : Dev nD) : W8 m ρ c (no_index (Proc.devRef .tc main_arg8)) = m ((c.tc : Thread nD τ).loc main_arg8) :=
  (W8_keep m ρ H c main_arg8 (by decide)).trans (W7_arg8 m ρ H c)
theorem W8_arg9 (c : Dev nD) : W8 m ρ c (no_index (Proc.devRef .tc main_arg9)) = m ((c.tc : Thread nD τ).loc main_arg9) :=
  (W8_keep m ρ H c main_arg9 (by decide)).trans (W7_arg9 m ρ H c)
theorem W8_arg10 (c : Dev nD) : W8 m ρ c (no_index (Proc.devRef .tc main_arg10)) = m ((c.tc : Thread nD τ).loc main_arg10) :=
  (W8_keep m ρ H c main_arg10 (by decide)).trans (W7_arg10 m ρ H c)
theorem W8_arg11 (c : Dev nD) : W8 m ρ c (no_index (Proc.devRef .tc main_arg11)) = m ((c.tc : Thread nD τ).loc main_arg11) :=
  (W8_keep m ρ H c main_arg11 (by decide)).trans (W7_arg11 m ρ H c)
theorem W8_v1 (c : Dev nD) : W8 m ρ c (no_index (Proc.devRef .tc main_v1)) = atM m KTerm.k_v1 c :=
  (W8_keep m ρ H c main_v1 (by decide)).trans (W7_v1 m ρ H c)
theorem W8_v3 (c : Dev nD) : W8 m ρ c (no_index (Proc.devRef .tc main_v3)) = atM m KTerm.k_v3 c :=
  (W8_keep m ρ H c main_v3 (by decide)).trans (W7_v3 m ρ H c)
theorem W8_v25 (c : Dev nD) : W8 m ρ c (no_index (Proc.devRef .tc main_v25)) = atM m KTerm.k_v25 c :=
  (W8_keep m ρ H c main_v25 (by decide)).trans (W7_v25 m ρ H c)
theorem W8_v27 (c : Dev nD) : W8 m ρ c (no_index (Proc.devRef .tc main_v27)) = atM m KTerm.k_v27 c :=
  (W8_keep m ρ H c main_v27 (by decide)).trans (W7_v27 m ρ H c)
theorem W8_v53 (c : Dev nD) : W8 m ρ c (no_index (Proc.devRef .tc main_v53)) = atM m KTerm.k_v53 c :=
  (W8_keep m ρ H c main_v53 (by decide)).trans (W7_v53 m ρ H c)
theorem W8_v66 (c : Dev nD) : W8 m ρ c (no_index (Proc.devRef .tc main_v66)) = atM m KTerm.k_v66 c := by
  show StableHlo.after hostOps4 (W7 m ρ c) (Proc.devRef .tc main_v66) = _
  simp only [hostOps4]
  after_results_simp
  simp only [W7_v25 m ρ H, W7_v1 m ρ H, W7_v53 m ρ H, W7_v3 m ρ H] <;> rfl
theorem W8_v67 (c : Dev nD) : W8 m ρ c (no_index (Proc.devRef .tc main_v67)) = atM m KTerm.k_v67 c := by
  show StableHlo.after hostOps4 (W7 m ρ c) (Proc.devRef .tc main_v67) = _
  simp only [hostOps4]
  after_results_simp
  simp only [W7_arg7 m ρ H] <;> rfl

/-! ### Boundary 9: after region 4 -/

theorem W9_arg8 (c : Dev nD) : W9 m ρ c (no_index (Proc.devRef .tc main_arg8)) = m ((c.tc : Thread nD τ).loc main_arg8) :=
  (W9_of_ne m ρ c main_arg8 (by decide)).trans (W8_arg8 m ρ H c)
theorem W9_arg9 (c : Dev nD) : W9 m ρ c (no_index (Proc.devRef .tc main_arg9)) = m ((c.tc : Thread nD τ).loc main_arg9) :=
  (W9_of_ne m ρ c main_arg9 (by decide)).trans (W8_arg9 m ρ H c)
theorem W9_arg10 (c : Dev nD) : W9 m ρ c (no_index (Proc.devRef .tc main_arg10)) = m ((c.tc : Thread nD τ).loc main_arg10) :=
  (W9_of_ne m ρ c main_arg10 (by decide)).trans (W8_arg10 m ρ H c)
theorem W9_arg11 (c : Dev nD) : W9 m ρ c (no_index (Proc.devRef .tc main_arg11)) = m ((c.tc : Thread nD τ).loc main_arg11) :=
  (W9_of_ne m ρ c main_arg11 (by decide)).trans (W8_arg11 m ρ H c)
theorem W9_v1 (c : Dev nD) : W9 m ρ c (no_index (Proc.devRef .tc main_v1)) = atM m KTerm.k_v1 c :=
  (W9_of_ne m ρ c main_v1 (by decide)).trans (W8_v1 m ρ H c)
theorem W9_v3 (c : Dev nD) : W9 m ρ c (no_index (Proc.devRef .tc main_v3)) = atM m KTerm.k_v3 c :=
  (W9_of_ne m ρ c main_v3 (by decide)).trans (W8_v3 m ρ H c)
theorem W9_v25 (c : Dev nD) : W9 m ρ c (no_index (Proc.devRef .tc main_v25)) = atM m KTerm.k_v25 c :=
  (W9_of_ne m ρ c main_v25 (by decide)).trans (W8_v25 m ρ H c)
theorem W9_v27 (c : Dev nD) : W9 m ρ c (no_index (Proc.devRef .tc main_v27)) = atM m KTerm.k_v27 c :=
  ((W9_arr m ρ c 2).trans (((dat4 (V8 m ρ) c).arrAt_in 2 rfl _).trans (A_eq4 (V8 m ρ) c 2))).trans (W8_v27 m ρ H c)
theorem W9_v68_0 (c : Dev nD) : W9 m ρ c (no_index (Proc.devRef .tc main_v68_0)) = atM m KTerm.k_v68_0 c :=
  ((W9_arr m ρ c 4).trans (H.R4a (V8 m ρ) c)).trans (by
    show KSpec.conv 128 (W8 m ρ c (Proc.devRef .tc main_v66)) (W8 m ρ c (Proc.devRef .tc main_v53)) (W8 m ρ c (Proc.devRef .tc main_v27)) (W8 m ρ c (Proc.devRef .tc main_v67)) = _
    simp only [W8_v66 m ρ H, W8_v53 m ρ H, W8_v27 m ρ H, W8_v67 m ρ H] <;> rfl)
theorem W9_v68_1 (c : Dev nD) : W9 m ρ c (no_index (Proc.devRef .tc main_v68_1)) = atM m KTerm.k_v68_1 c :=
  ((W9_arr m ρ c 5).trans (H.R4b (V8 m ρ) c)).trans (by
    show KSpec.colsum 128 (KSpec.conv 128 (W8 m ρ c (Proc.devRef .tc main_v66)) (W8 m ρ c (Proc.devRef .tc main_v53)) (W8 m ρ c (Proc.devRef .tc main_v27)) (W8 m ρ c (Proc.devRef .tc main_v67))) = _
    simp only [W8_v66 m ρ H, W8_v53 m ρ H, W8_v27 m ρ H, W8_v67 m ρ H] <;> rfl)
theorem W9_v68_2 (c : Dev nD) : W9 m ρ c (no_index (Proc.devRef .tc main_v68_2)) = atM m KTerm.k_v68_2 c :=
  ((W9_arr m ρ c 6).trans (H.R4c (V8 m ρ) c)).trans (by
    show KSpec.colsumsq 128 (KSpec.conv 128 (W8 m ρ c (Proc.devRef .tc main_v66)) (W8 m ρ c (Proc.devRef .tc main_v53)) (W8 m ρ c (Proc.devRef .tc main_v27)) (W8 m ρ c (Proc.devRef .tc main_v67))) = _
    simp only [W8_v66 m ρ H, W8_v53 m ρ H, W8_v27 m ρ H, W8_v67 m ρ H] <;> rfl)

/-! ### Boundary 10: after the host stretch `hostOps5` -/

/-- A buffer the stretch does not write keeps its contents through it. -/
theorem W10_keep (c : Dev nD) (r : Ref sig .tc) (h : r ∉ s5_W) :
    W10 m ρ c (Proc.devRef .tc r) = W9 m ρ c (Proc.devRef .tc r) :=
  StableHlo.after_of_writes_sub hostOps5 _ s5_writes h
theorem W10_arg10 (c : Dev nD) : W10 m ρ c (no_index (Proc.devRef .tc main_arg10)) = m ((c.tc : Thread nD τ).loc main_arg10) :=
  (W10_keep m ρ H c main_arg10 (by decide)).trans (W9_arg10 m ρ H c)
theorem W10_arg11 (c : Dev nD) : W10 m ρ c (no_index (Proc.devRef .tc main_arg11)) = m ((c.tc : Thread nD τ).loc main_arg11) :=
  (W10_keep m ρ H c main_arg11 (by decide)).trans (W9_arg11 m ρ H c)
theorem W10_v1 (c : Dev nD) : W10 m ρ c (no_index (Proc.devRef .tc main_v1)) = atM m KTerm.k_v1 c :=
  (W10_keep m ρ H c main_v1 (by decide)).trans (W9_v1 m ρ H c)
theorem W10_v3 (c : Dev nD) : W10 m ρ c (no_index (Proc.devRef .tc main_v3)) = atM m KTerm.k_v3 c :=
  (W10_keep m ρ H c main_v3 (by decide)).trans (W9_v3 m ρ H c)
theorem W10_v25 (c : Dev nD) : W10 m ρ c (no_index (Proc.devRef .tc main_v25)) = atM m KTerm.k_v25 c :=
  (W10_keep m ρ H c main_v25 (by decide)).trans (W9_v25 m ρ H c)
theorem W10_v27 (c : Dev nD) : W10 m ρ c (no_index (Proc.devRef .tc main_v27)) = atM m KTerm.k_v27 c :=
  (W10_keep m ρ H c main_v27 (by decide)).trans (W9_v27 m ρ H c)
theorem W10_v68_0 (c : Dev nD) : W10 m ρ c (no_index (Proc.devRef .tc main_v68_0)) = atM m KTerm.k_v68_0 c :=
  (W10_keep m ρ H c main_v68_0 (by decide)).trans (W9_v68_0 m ρ H c)
theorem W10_v70 (c : Dev nD) : W10 m ρ c (no_index (Proc.devRef .tc main_v70)) = atM m KTerm.k_v70 c := by
  show StableHlo.after hostOps5 (W9 m ρ c) (Proc.devRef .tc main_v70) = _
  simp only [hostOps5]
  after_results_simp
  simp only [W9_v68_1 m ρ H] <;> rfl
theorem W10_v74 (c : Dev nD) : W10 m ρ c (no_index (Proc.devRef .tc main_v74)) = atM m KTerm.k_v74 c := by
  show StableHlo.after hostOps5 (W9 m ρ c) (Proc.devRef .tc main_v74) = _
  simp only [hostOps5]
  after_results_simp
  simp only [W9_v68_1 m ρ H, W9_v68_2 m ρ H] <;> rfl
theorem W10_v75 (c : Dev nD) : W10 m ρ c (no_index (Proc.devRef .tc main_v75)) = atM m KTerm.k_v75 c := by
  show StableHlo.after hostOps5 (W9 m ρ c) (Proc.devRef .tc main_v75) = _
  simp only [hostOps5]
  after_results_simp
  simp only [W9_arg8 m ρ H] <;> rfl
theorem W10_v76 (c : Dev nD) : W10 m ρ c (no_index (Proc.devRef .tc main_v76)) = atM m KTerm.k_v76 c := by
  show StableHlo.after hostOps5 (W9 m ρ c) (Proc.devRef .tc main_v76) = _
  simp only [hostOps5]
  after_results_simp
  simp only [W9_arg9 m ρ H] <;> rfl

/-! ### Boundary 11: after region 5 -/

theorem W11_arg10 (c : Dev nD) : W11 m ρ c (no_index (Proc.devRef .tc main_arg10)) = m ((c.tc : Thread nD τ).loc main_arg10) :=
  (W11_of_ne m ρ c main_arg10 (by decide)).trans (W10_arg10 m ρ H c)
theorem W11_arg11 (c : Dev nD) : W11 m ρ c (no_index (Proc.devRef .tc main_arg11)) = m ((c.tc : Thread nD τ).loc main_arg11) :=
  (W11_of_ne m ρ c main_arg11 (by decide)).trans (W10_arg11 m ρ H c)
theorem W11_v1 (c : Dev nD) : W11 m ρ c (no_index (Proc.devRef .tc main_v1)) = atM m KTerm.k_v1 c :=
  (W11_of_ne m ρ c main_v1 (by decide)).trans (W10_v1 m ρ H c)
theorem W11_v3 (c : Dev nD) : W11 m ρ c (no_index (Proc.devRef .tc main_v3)) = atM m KTerm.k_v3 c :=
  (W11_of_ne m ρ c main_v3 (by decide)).trans (W10_v3 m ρ H c)
theorem W11_v25 (c : Dev nD) : W11 m ρ c (no_index (Proc.devRef .tc main_v25)) = atM m KTerm.k_v25 c :=
  (W11_of_ne m ρ c main_v25 (by decide)).trans (W10_v25 m ρ H c)
theorem W11_v27 (c : Dev nD) : W11 m ρ c (no_index (Proc.devRef .tc main_v27)) = atM m KTerm.k_v27 c :=
  (W11_of_ne m ρ c main_v27 (by decide)).trans (W10_v27 m ρ H c)
theorem W11_v77 (c : Dev nD) : W11 m ρ c (no_index (Proc.devRef .tc main_v77)) = atM m KTerm.k_v77 c :=
  ((W11_arr m ρ c 5).trans (H.R5 (V10 m ρ) c)).trans (by
    show KSpec.bnrelu 128 (W10 m ρ c (Proc.devRef .tc main_v68_0)) (W10 m ρ c (Proc.devRef .tc main_v70)) (W10 m ρ c (Proc.devRef .tc main_v74)) (W10 m ρ c (Proc.devRef .tc main_v75)) (W10 m ρ c (Proc.devRef .tc main_v76)) = _
    simp only [W10_v68_0 m ρ H, W10_v70 m ρ H, W10_v74 m ρ H, W10_v75 m ρ H, W10_v76 m ρ H] <;> rfl)

/-! ### Boundary 12: after region 6 -/

theorem W12_arg11 (c : Dev nD) : W12 m ρ c (no_index (Proc.devRef .tc main_arg11)) = m ((c.tc : Thread nD τ).loc main_arg11) :=
  (W12_of_ne m ρ c main_arg11 (by decide)).trans (W11_arg11 m ρ H c)
theorem W12_v1 (c : Dev nD) : W12 m ρ c (no_index (Proc.devRef .tc main_v1)) = atM m KTerm.k_v1 c :=
  (W12_of_ne m ρ c main_v1 (by decide)).trans (W11_v1 m ρ H c)
theorem W12_v3 (c : Dev nD) : W12 m ρ c (no_index (Proc.devRef .tc main_v3)) = atM m KTerm.k_v3 c :=
  (W12_of_ne m ρ c main_v3 (by decide)).trans (W11_v3 m ρ H c)
theorem W12_v25 (c : Dev nD) : W12 m ρ c (no_index (Proc.devRef .tc main_v25)) = atM m KTerm.k_v25 c :=
  (W12_of_ne m ρ c main_v25 (by decide)).trans (W11_v25 m ρ H c)
theorem W12_v27 (c : Dev nD) : W12 m ρ c (no_index (Proc.devRef .tc main_v27)) = atM m KTerm.k_v27 c :=
  (W12_of_ne m ρ c main_v27 (by decide)).trans (W11_v27 m ρ H c)
theorem W12_v78 (c : Dev nD) : W12 m ρ c (no_index (Proc.devRef .tc main_v78)) = atM m KTerm.k_v78 c :=
  ((W12_arr m ρ c 2).trans (H.R6 (V11 m ρ) c)).trans (by
    show KSpec.mm 64 (W11 m ρ c (Proc.devRef .tc main_v77)) (W11 m ρ c (Proc.devRef .tc main_arg10)) = _
    simp only [W11_v77 m ρ H, W11_arg10 m ρ H] <;> rfl)

/-! ### Boundary 13: after the host stretch `hostOps7` -/

/-- A buffer the stretch does not write keeps its contents through it. -/
theorem W13_keep (c : Dev nD) (r : Ref sig .tc) (h : r ∉ s7_W) :
    W13 m ρ c (Proc.devRef .tc r) = W12 m ρ c (Proc.devRef .tc r) :=
  StableHlo.after_of_writes_sub hostOps7 _ s7_writes h
theorem W13_v27 (c : Dev nD) : W13 m ρ c (no_index (Proc.devRef .tc main_v27)) = atM m KTerm.k_v27 c :=
  (W13_keep m ρ H c main_v27 (by decide)).trans (W12_v27 m ρ H c)
theorem W13_v78 (c : Dev nD) : W13 m ρ c (no_index (Proc.devRef .tc main_v78)) = atM m KTerm.k_v78 c :=
  (W13_keep m ρ H c main_v78 (by decide)).trans (W12_v78 m ρ H c)
theorem W13_v91 (c : Dev nD) : W13 m ρ c (no_index (Proc.devRef .tc main_v91)) = atM m KTerm.k_v91 c := by
  show StableHlo.after hostOps7 (W12 m ρ c) (Proc.devRef .tc main_v91) = _
  simp only [hostOps7]
  after_results_simp
  simp only [W12_v25 m ρ H, W12_v1 m ρ H, W12_v78 m ρ H, W12_v3 m ρ H] <;> rfl
theorem W13_v92 (c : Dev nD) : W13 m ρ c (no_index (Proc.devRef .tc main_v92)) = atM m KTerm.k_v92 c := by
  show StableHlo.after hostOps7 (W12 m ρ c) (Proc.devRef .tc main_v92) = _
  simp only [hostOps7]
  after_results_simp
  simp only [W12_arg11 m ρ H] <;> rfl

/-! ### Boundary 14: after region 7 -/

theorem W14_v93_0 (c : Dev nD) : W14 m ρ c (no_index (Proc.devRef .tc main_v93_0)) = atM m KTerm.k_v93_0 c :=
  ((W14_arr m ρ c 4).trans (H.R7a (V13 m ρ) c)).trans (by
    show KSpec.conv 64 (W13 m ρ c (Proc.devRef .tc main_v91)) (W13 m ρ c (Proc.devRef .tc main_v78)) (W13 m ρ c (Proc.devRef .tc main_v27)) (W13 m ρ c (Proc.devRef .tc main_v92)) = _
    simp only [W13_v91 m ρ H, W13_v78 m ρ H, W13_v27 m ρ H, W13_v92 m ρ H] <;> rfl)

end Chain

/-- The output buffer at the end of the run is the third layer's convolution term of the twelve argument arrays,
    given each region's whole-array function. -/
theorem out_eq
    (R0 : HR0) (R1a : HR1a) (R1b : HR1b) (R1c : HR1c) (R2 : HR2) (R3 : HR3) (R4a : HR4a) (R4b : HR4b) (R4c : HR4c) (R5 : HR5) (R6 : HR6) (R7a : HR7a)
    (c : Dev nD) :
    W14 m ρ c (Proc.devRef .tc main_v93_0) = KTerm.k_v93_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  W14_v93_0 m ρ ⟨R0, R1a, R1b, R1c, R2, R3, R4a, R4b, R4c, R5, R6, R7a⟩ c

end Cert.KernelIdeal.KChain

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«153408_j3753801416995_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.KReg0.lean ====
/-
  Region 0 of the idealized kernel program: a feature product computed by blocks of 4000 rows.

  Grid point t multiplies rows 4000 t … 4000 t + 3999 of the left array by the whole weight matrix on the
  matrix unit, into a zero accumulator, and writes the block of products back to the same rows of the
  output.  At the ideal values the entry (p, c) of that block is the sum over k of left (4000 t + p, k) ·
  weight (k, c): the entry (4000 t + p, c) of the whole product.  The 25 blocks cover the output, so the
  output array after the region is the whole product of the two arrays the region found.
-/
import proofs.«153408_j3753801416995_1_alg».proof.Proof.Gen.KernelIdeal.Frame
import proofs.«153408_j3753801416995_1_alg».proof.Proof.KSpec
import proofs.«153408_j3753801416995_1_alg».proof.Proof.LibRowBlocks
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output move one block of rows per point,
    the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 4000 t … 4000 t + 3999 of its array. -/
theorem iblk_lhs_apply (c : Dev nD) (t : Fin cfg0.N) (x : S4000x128.Idx) (k : S100000x128.Idx)
    (hk0 : (k 0).val = 4000 * t.val + (x 0).val) (hk1 : (k 1).val = (x 1).val) :
    (iblk0 V c 0 t : Vec Ideal S4000x128 .f32) x = (V c (Pipeline.arrRef spec0 0) : S100000x128.Idx → Elt Ideal .f32) k := by
  obtain ⟨h0, h1, -⟩ := idx_facts t
  have he : ((cfg0.win 0).blk t).view.emb x = k := by
    funext a
    apply Fin.ext
    match a with
    | ⟨0, _⟩ => show win0_0.index t 0 * 4000 + 1 * (x 0).val = (k 0).val; rw [h0, hk0]; omega
    | ⟨1, _⟩ => show win0_0.index t 1 * 128 + 1 * (x 1).val = (k 1).val; rw [h1, hk1]; omega
  unfold iblk0
  rw [View.read_apply, he]
  rfl

/-- The weight window's block at every point is the whole weight matrix. -/
theorem iblk_rhs_apply (c : Dev nD) (t : Fin cfg0.N) (x : S128x128.Idx) :
    (iblk0 V c 1 t : Vec Ideal S128x128 .f32) x = (V c (Pipeline.arrRef spec0 1) : S128x128.Idx → Elt Ideal .f32) x := by
  obtain ⟨-, -, h2, h3, -⟩ := idx_facts t
  have he : ((cfg0.win 1).blk t).view.emb x = x := by
    funext a
    apply Fin.ext
    match a with
    | ⟨0, _⟩ => show win0_1.index t 0 * 128 + 1 * (x 0).val = (x 0).val; rw [h2]; omega
    | ⟨1, _⟩ => show win0_1.index t 1 * 128 + 1 * (x 1).val = (x 1).val; rw [h3]; omega
  unfold iblk0
  rw [View.read_apply, he]
  rfl

/-- The body's product of a block of rows, read at (p, q): the whole product's entry at the row of the
    whole array that the block's row p is. -/
theorem pay_apply (x0 : Vec Ideal S4000x128 .f32) (x1 : Vec Ideal S128x128 .f32)
    (X : FVec Ideal ⟨2, ![100000, 128]⟩ .f32) (W : FVec Ideal ⟨2, ![128, 128]⟩ .f32) (p : Fin 4000) (q : Fin 128) (r : Fin 100000)
    (hx : ∀ k : Fin 128, x0 (ix2 p k) = X (ix2 r k)) (hw : ∀ k : Fin 128, x1 (ix2 k q) = W (ix2 k q)) :
    k0_pay1 x0 x1 (ix2 p q) = KSpec.mm 128 X W (ix2 r q) :=
  Cert.Lib.RowBlocks.matmul_rows_eq_dotGeneral (M := 100000) (K := 128) (N := 128) (B := 4000) none none X W _ _ p r q hx hw

/-- WHAT POINT t WRITES BACK is block t of the whole product of the two arrays the region found. -/
theorem flushed_eq (c : Dev nD) (t : Fin cfg0.N) :
    (dat0 V c).flushed 2 t = ((cfg0.win 2).blk t).view.read (Elt Ideal)
      (KSpec.mm 128 (V c (Pipeline.arrRef spec0 0)) (V c (Pipeline.arrRef spec0 1))) := by
  obtain ⟨-, -, -, -, h4, h5⟩ := idx_facts t
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  have hr : 4000 * t.val + p.val < 100000 := by have := t.isLt; have : cfg0.N = 25 := rfl; have := p.isLt; omega
  have he : ((cfg0.win 2).blk t).view.emb (ix2 p q) = ix2 (⟨4000 * t.val + p.val, hr⟩ : Fin 100000) q := by
    funext a
    apply Fin.ext
    match a with
    | ⟨0, _⟩ => show win0_2.index t 0 * 4000 + 1 * p.val = 4000 * t.val + p.val; rw [h4]; omega
    | ⟨1, _⟩ => show win0_2.index t 1 * 128 + 1 * q.val = q.val; rw [h5]; omega
  rw [View.read_apply, he]
  exact (pay_apply _ _ (V c (Pipeline.arrRef spec0 0)) (V c (Pipeline.arrRef spec0 1)) p q ⟨4000 * t.val + p.val, hr⟩
    (fun k => iblk_lhs_apply V c t (ix2 p k) (ix2 ⟨4000 * t.val + p.val, hr⟩ k) rfl rfl)
    (fun k => iblk_rhs_apply V c t (ix2 k q)))

/-- An index of the output array is in point t's block iff its row is among that block's rows. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole (Pipeline.arrRef spec0 2)).slice (win0_2.rect t)).set ↔ _
  rw [View.set_slice_whole, Rect.mem_set_unit]
  exact Iff.rfl

/-- THE OUTPUT ARRAY after the region: the whole product of the arrays the region found. -/
theorem final (c : Dev nD) : (dat0 V c).arrAt 2 cfg0.N
    = KSpec.mm 128 (V c (Pipeline.arrRef spec0 0)) (V c (Pipeline.arrRef spec0 1)) :=
  (dat0 V c).arrAt_eq_of_cover 2 _ (fun t _ => flushed_eq V c t) fun i => by
    have hi0 : (i 0).val < 100000 := (i 0).isLt
    have hi1 : (i 1).val < 128 := (i 1).isLt
    have hN : cfg0.N = 25 := rfl
    refine ⟨⟨(i 0).val / 4000, by rw [hN]; omega⟩, flush0_2 _, ?_⟩
    rw [mem_blk]
    obtain ⟨-, -, -, -, h4, h5⟩ := idx_facts ⟨(i 0).val / 4000, by rw [hN]; omega⟩
    intro a
    match a with
    | ⟨0, _⟩ => show win0_2.index _ 0 * 4000 ≤ (i 0).val ∧ (i 0).val < win0_2.index _ 0 * 4000 + 4000; rw [h4]; show (i 0).val / 4000 * 4000 ≤ _ ∧ _ < (i 0).val / 4000 * 4000 + 4000; omega
    | ⟨1, _⟩ => show win0_2.index _ 1 * 128 ≤ (i 1).val ∧ (i 1).val < win0_2.index _ 1 * 128 + 128; rw [h5]; omega

end Cert.KernelIdeal.KReg0

end
-- ==== Proof.KPieces.lean ====
/-
  The combine kernel's two control cases, read as values — for its three instances (widths 128, 128 and 64).

  One run of the kernel body takes four input blocks: x0 (the aggregated rows), x1 (the rows of h·W), x2 (the
  self-normalisation column) and x3 (the bias row). It writes three outputs:
    output 4 : the combined block  y = (x0 + x1 * x2) + x3   (x2 broadcast along the columns, x3 along the rows);
    output 5 : a running row  acc ↦ acc + Σ_rows y           (the column sums of y, for the batch mean);
    output 6 : a running row  acc ↦ acc + Σ_rows y * y       (the column sums of squares, for the batch variance).
  At the first grid point of each sweep (case A) both running rows are first set to the zero row, and that zero row
  is what the accumulation then reads back; at every other point (case B) the accumulation reads the running
  contents left by the point before.

  Each lemma below says that what a case leaves in an output's buffer — the last covering store of that buffer,
  read back — is the corresponding pure term of the block values: every load in the body reads a whole buffer
  through the zero-offset full-shape rectangle, so it returns the buffer's contents; every store is through the
  same rectangle, so the last one determines the buffer.
-/
import proofs.«153408_j3753801416995_1_alg».proof.Proof.Gen.KernelIdeal.Frame
import Idealize.ShloMosaic.Lib.Pipeline.Value

set_option maxRecDepth 16384

noncomputable section

namespace Cert.KernelIdeal.KPieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-! ## Region 1: the combine kernel at S4000x128 -/

/-- Case A (the conditional taken), output 4: the one covering store leaves the combined block
    `x0 + x1 * x2 + x3` (rows scaled by the self-norm column, the bias row broadcast). -/
theorem out1_A_4_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 x1 : Vec F S4000x128 .f32) (x2 : Vec F S4000x1 .f32) (x3 : Vec F S1x128 .f32) :
    out1_A_4 c i arg1 harg1 arg2 harg2 arg3 harg3 arg4 harg4 arg5 harg5 arg6 harg6 arg7 harg7 hc0 x0 x1 x2 x3 = k1_pay3 x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  rw [View.canon_unit_zero (S := S4000x128) hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case A, output 5 (the running column sums): the accumulator is first set to the zero row, read back, and
    the column sums of the combined block are added to it. -/
theorem out1_A_5_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 x1 : Vec F S4000x128 .f32) (x2 : Vec F S4000x1 .f32) (x3 : Vec F S1x128 .f32) :
    out1_A_5 c i arg1 harg1 arg2 harg2 arg3 harg3 arg4 harg4 arg5 harg5 arg6 harg6 arg7 harg7 hc0 x0 x1 x2 x3 = k1_pay4 x0 x1 x2 x3 (k1_pay1 (F := F)) := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case A, output 6 (the running column sums of squares): zeroed, read back, and the column sums of the
    squared combined block added. -/
theorem out1_A_6_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 x1 : Vec F S4000x128 .f32) (x2 : Vec F S4000x1 .f32) (x3 : Vec F S1x128 .f32) :
    out1_A_6 c i arg1 harg1 arg2 harg2 arg3 harg3 arg4 harg4 arg5 harg5 arg6 harg6 arg7 harg7 hc0 x0 x1 x2 x3 = k1_pay5 x0 x1 x2 x3 (k1_pay2 (F := F)) := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case B (the conditional not taken), output 4: the same combined block. -/
theorem out1_B_4_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 x1 : Vec F S4000x128 .f32) (x2 : Vec F S4000x1 .f32) (x3 : Vec F S1x128 .f32) (xo5 xo6 : Vec F S1x128 .f32) :
    out1_B_4 c i arg1 harg1 arg2 harg2 arg3 harg3 arg4 harg4 arg5 harg5 arg6 harg6 arg7 harg7 hc0 x0 x1 x2 x3 xo5 xo6 = k1_pay3 x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  rw [View.canon_unit_zero (S := S4000x128) hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case B, output 5: the column sums of the combined block added to the running contents `xo5`. -/
theorem out1_B_5_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 x1 : Vec F S4000x128 .f32) (x2 : Vec F S4000x1 .f32) (x3 : Vec F S1x128 .f32) (xo5 xo6 : Vec F S1x128 .f32) :
    out1_B_5 c i arg1 harg1 arg2 harg2 arg3 harg3 arg4 harg4 arg5 harg5 arg6 harg6 arg7 harg7 hc0 x0 x1 x2 x3 xo5 xo6 = k1_pay4 x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  rw [View.canon_unit_zero (S := S1x128) hz]
  simp only [View.readAt_eq_ld, harg1.read_unread, harg2.read_unread, harg3.read_unread, harg4.read_unread, harg6.read_unread,
    View.ld_unit_zero (S := S4000x128) hz, View.ld_unit_zero (S := S4000x1) hz, View.ld_unit_zero (S := S1x128) hz]

/-- Case B, output 6: the column sums of the squared combined block added to the running contents `xo6`. -/
theorem out1_B_6_eq (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 x1 : Vec F S4000x128 .f32) (x2 : Vec F S4000x1 .f32) (x3 : Vec F S1x128 .f32) (xo5 xo6 : Vec F S1x128 .f32) :
    out1_B_6 c i arg1 harg1 arg2 harg2 arg3 harg3 arg4 harg4 arg5 harg5 arg6 harg6 arg7 harg7 hc0 x0 x1 x2 x3 xo5 xo6 = k1_pay5 x0 x1 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  rw [View.canon_unit_zero (S := S1x128) hz]
  simp only [View.readAt_eq_ld, harg1.read_unread, harg2.read_unread, harg3.read_unread, harg4.read_unread, harg7.read_unread,
    View.ld_unit_zero (S := S4000x128) hz, View.ld_unit_zero (S := S4000x1) hz, View.ld_unit_zero (S := S1x128) hz]

/-! ## Region 4: the combine kernel at S4000x128 -/

/-- Case A (the conditional taken), output 4: the one covering store leaves the combined block
    `x0 + x1 * x2 + x3` (rows scaled by the self-norm column, the bias row broadcast). -/
theorem out4_A_4_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 x1 : Vec F S4000x128 .f32) (x2 : Vec F S4000x1 .f32) (x3 : Vec F S1x128 .f32) :
    out4_A_4 c i arg1 harg1 arg2 harg2 arg3 harg3 arg4 harg4 arg5 harg5 arg6 harg6 arg7 harg7 hc0 x0 x1 x2 x3 = k4_pay3 x0 x1 x2 x3 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  rw [View.canon_unit_zero (S := S4000x128) hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case A, output 5 (the running column sums): the accumulator is first set to the zero row, read back, and
    the column sums of the combined block are added to it. -/
theorem out4_A_5_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 x1 : Vec F S4000x128 .f32) (x2 : Vec F S4000x1 .f32) (x3 : Vec F S1x128 .f32) :
    out4_A_5 c i arg1 harg1 arg2 harg2 arg3 harg3 arg4 harg4 arg5 harg5 arg6 harg6 arg7 harg7 hc0 x0 x1 x2 x3 = k4_pay4 x0 x1 x2 x3 (k4_pay1 (F := F)) := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case A, output 6 (the running column sums of squares): zeroed, read back, and the column sums of the
    squared combined block added. -/
theorem out4_A_6_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 x1 : Vec F S4000x128 .f32) (x2 : Vec F S4000x1 .f32) (x3 : Vec F S1x128 .f32) :
    out4_A_6 c i arg1 harg1 arg2 harg2 arg3 harg3 arg4 harg4 arg5 harg5 arg6 harg6 arg7 harg7 hc0 x0 x1 x2 x3 = k4_pay5 x0 x1 x2 x3 (k4_pay2 (F := F)) := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case B (the conditional not taken), output 4: the same combined block. -/
theorem out4_B_4_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 x1 : Vec F S4000x128 .f32) (x2 : Vec F S4000x1 .f32) (x3 : Vec F S1x128 .f32) (xo5 xo6 : Vec F S1x128 .f32) :
    out4_B_4 c i arg1 harg1 arg2 harg2 arg3 harg3 arg4 harg4 arg5 harg5 arg6 harg6 arg7 harg7 hc0 x0 x1 x2 x3 xo5 xo6 = k4_pay3 x0 x1 x2 x3 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  rw [View.canon_unit_zero (S := S4000x128) hz]
  simp only [View.readAt_eq_ld, harg1.read_unread, harg2.read_unread, harg3.read_unread, harg4.read_unread,
    View.ld_unit_zero (S := S4000x128) hz, View.ld_unit_zero (S := S4000x1) hz, View.ld_unit_zero (S := S1x128) hz]

/-- Case B, output 5: the column sums of the combined block added to the running contents `xo5`. -/
theorem out4_B_5_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 x1 : Vec F S4000x128 .f32) (x2 : Vec F S4000x1 .f32) (x3 : Vec F S1x128 .f32) (xo5 xo6 : Vec F S1x128 .f32) :
    out4_B_5 c i arg1 harg1 arg2 harg2 arg3 harg3 arg4 harg4 arg5 harg5 arg6 harg6 arg7 harg7 hc0 x0 x1 x2 x3 xo5 xo6 = k4_pay4 x0 x1 x2 x3 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  rw [View.canon_unit_zero (S := S1x128) hz]
  simp only [View.readAt_eq_ld, harg1.read_unread, harg2.read_unread, harg3.read_unread, harg4.read_unread, harg6.read_unread,
    View.ld_unit_zero (S := S4000x128) hz, View.ld_unit_zero (S := S4000x1) hz, View.ld_unit_zero (S := S1x128) hz]

/-- Case B, output 6: the column sums of the squared combined block added to the running contents `xo6`. -/
theorem out4_B_6_eq (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 x1 : Vec F S4000x128 .f32) (x2 : Vec F S4000x1 .f32) (x3 : Vec F S1x128 .f32) (xo5 xo6 : Vec F S1x128 .f32) :
    out4_B_6 c i arg1 harg1 arg2 harg2 arg3 harg3 arg4 harg4 arg5 harg5 arg6 harg6 arg7 harg7 hc0 x0 x1 x2 x3 xo5 xo6 = k4_pay5 x0 x1 x2 x3 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  rw [View.canon_unit_zero (S := S1x128) hz]
  simp only [View.readAt_eq_ld, harg1.read_unread, harg2.read_unread, harg3.read_unread, harg4.read_unread, harg7.read_unread,
    View.ld_unit_zero (S := S4000x128) hz, View.ld_unit_zero (S := S4000x1) hz, View.ld_unit_zero (S := S1x128) hz]

/-! ## Region 7: the combine kernel at S4000x64 -/

/-- Case A (the conditional taken), output 4: the one covering store leaves the combined block
    `x0 + x1 * x2 + x3` (rows scaled by the self-norm column, the bias row broadcast). -/
theorem out7_A_4_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 x1 : Vec F S4000x64 .f32) (x2 : Vec F S4000x1 .f32) (x3 : Vec F S1x64 .f32) :
    out7_A_4 c i arg1 harg1 arg2 harg2 arg3 harg3 arg4 harg4 arg5 harg5 arg6 harg6 arg7 harg7 hc0 x0 x1 x2 x3 = k7_pay3 x0 x1 x2 x3 := by
  unfold out7_A_4
  rw [View.read_writes_eq_canon _ _ _ (cover7_A_4 c i arg1 harg1 arg2 harg2 arg3 harg3 arg4 harg4 arg5 harg5 arg6 harg6 arg7 harg7 hc0 x0 x1 x2 x3)]
  unfold kernelRun7_A
  dsimp only
  rw [View.canon_unit_zero (S := S4000x64) hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- Case A, output 5 (the running column sums): the accumulator is first set to the zero row, read back, and
    the column sums of the combined block are added to it. -/
theorem out7_A_5_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 x1 : Vec F S4000x64 .f32) (x2 : Vec F S4000x1 .f32) (x3 : Vec F S1x64 .f32) :
    out7_A_5 c i arg1 harg1 arg2 harg2 arg3 harg3 arg4 harg4 arg5 harg5 arg6 harg6 arg7 harg7 hc0 x0 x1 x2 x3 = k7_pay4 x0 x1 x2 x3 (k7_pay1 (F := F)) := by
  unfold out7_A_5
  rw [View.read_writes_eq_canon _ _ _ (cover7_A_5 c i arg1 harg1 arg2 harg2 arg3 harg3 arg4 harg4 arg5 harg5 arg6 harg6 arg7 harg7 hc0 x0 x1 x2 x3)]
  unfold kernelRun7_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- Case A, output 6 (the running column sums of squares): zeroed, read back, and the column sums of the
    squared combined block added. -/
theorem out7_A_6_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 x1 : Vec F S4000x64 .f32) (x2 : Vec F S4000x1 .f32) (x3 : Vec F S1x64 .f32) :
    out7_A_6 c i arg1 harg1 arg2 harg2 arg3 harg3 arg4 harg4 arg5 harg5 arg6 harg6 arg7 harg7 hc0 x0 x1 x2 x3 = k7_pay5 x0 x1 x2 x3 (k7_pay2 (F := F)) := by
  unfold out7_A_6
  rw [View.read_writes_eq_canon _ _ _ (cover7_A_6 c i arg1 harg1 arg2 harg2 arg3 harg3 arg4 harg4 arg5 harg5 arg6 harg6 arg7 harg7 hc0 x0 x1 x2 x3)]
  unfold kernelRun7_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- Case B (the conditional not taken), output 4: the same combined block. -/
theorem out7_B_4_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 x1 : Vec F S4000x64 .f32) (x2 : Vec F S4000x1 .f32) (x3 : Vec F S1x64 .f32) (xo5 xo6 : Vec F S1x64 .f32) :
    out7_B_4 c i arg1 harg1 arg2 harg2 arg3 harg3 arg4 harg4 arg5 harg5 arg6 harg6 arg7 harg7 hc0 x0 x1 x2 x3 xo5 xo6 = k7_pay3 x0 x1 x2 x3 := by
  unfold out7_B_4
  rw [View.read_writes_eq_canon _ _ _ (cover7_B_4 c i arg1 harg1 arg2 harg2 arg3 harg3 arg4 harg4 arg5 harg5 arg6 harg6 arg7 harg7 hc0 x0 x1 x2 x3 xo5 xo6)]
  unfold kernelRun7_B
  dsimp only
  rw [View.canon_unit_zero (S := S4000x64) hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- Case B, output 5: the column sums of the combined block added to the running contents `xo5`. -/
theorem out7_B_5_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 x1 : Vec F S4000x64 .f32) (x2 : Vec F S4000x1 .f32) (x3 : Vec F S1x64 .f32) (xo5 xo6 : Vec F S1x64 .f32) :
    out7_B_5 c i arg1 harg1 arg2 harg2 arg3 harg3 arg4 harg4 arg5 harg5 arg6 harg6 arg7 harg7 hc0 x0 x1 x2 x3 xo5 xo6 = k7_pay4 x0 x1 x2 x3 xo5 := by
  unfold out7_B_5
  rw [View.read_writes_eq_canon _ _ _ (cover7_B_5 c i arg1 harg1 arg2 harg2 arg3 harg3 arg4 harg4 arg5 harg5 arg6 harg6 arg7 harg7 hc0 x0 x1 x2 x3 xo5 xo6)]
  unfold kernelRun7_B
  dsimp only
  rw [View.canon_unit_zero (S := S1x64) hz]
  simp only [View.readAt_eq_ld, harg1.read_unread, harg2.read_unread, harg3.read_unread, harg4.read_unread, harg6.read_unread,
    View.ld_unit_zero (S := S4000x64) hz, View.ld_unit_zero (S := S4000x1) hz, View.ld_unit_zero (S := S1x64) hz]

/-- Case B, output 6: the column sums of the squared combined block added to the running contents `xo6`. -/
theorem out7_B_6_eq (c : Dev nD) (i : grid7.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 x1 : Vec F S4000x64 .f32) (x2 : Vec F S4000x1 .f32) (x3 : Vec F S1x64 .f32) (xo5 xo6 : Vec F S1x64 .f32) :
    out7_B_6 c i arg1 harg1 arg2 harg2 arg3 harg3 arg4 harg4 arg5 harg5 arg6 harg6 arg7 harg7 hc0 x0 x1 x2 x3 xo5 xo6 = k7_pay5 x0 x1 x2 x3 xo6 := by
  unfold out7_B_6
  rw [View.read_writes_eq_canon _ _ _ (cover7_B_6 c i arg1 harg1 arg2 harg2 arg3 harg3 arg4 harg4 arg5 harg5 arg6 harg6 arg7 harg7 hc0 x0 x1 x2 x3 xo5 xo6)]
  unfold kernelRun7_B
  dsimp only
  rw [View.canon_unit_zero (S := S1x64) hz]
  simp only [View.readAt_eq_ld, harg1.read_unread, harg2.read_unread, harg3.read_unread, harg4.read_unread, harg7.read_unread,
    View.ld_unit_zero (S := S4000x64) hz, View.ld_unit_zero (S := S4000x1) hz, View.ld_unit_zero (S := S1x64) hz]

end Cert.KernelIdeal.KPieces
-- ==== Proof.LibSumBlocks.lean ====
/-
  A sum over 100000 rows, taken block by block.

  The rows 0 … 99999 are the 25 consecutive blocks of 4000 rows: row r is row p of block t for exactly one pair
  (t, p) with r = 4000 t + p.  In a commutative monoid the sum over all rows is therefore the sum over the blocks
  of each block's sum.  The blocks' sums are indexed here by a natural number (zero from 25 on), so that a running
  total after block n is a sum over the range 0 … n.
-/
import Mathlib.Algebra.BigOperators.Fin
import Mathlib.Logic.Equiv.Fin.Basic

noncomputable section

namespace Cert.Lib.SumBlocks

open scoped BigOperators

variable {M : Type} [AddCommMonoid M]

/-- The sum of `g` over the 4000 rows of block `t` (zero when there is no such block). -/
def blockSum (g : Fin 100000 → M) (t : ℕ) : M :=
  if h : t < 25 then ∑ p : Fin 4000, g ⟨4000 * t + p.val, by have := p.isLt; omega⟩ else 0

theorem blockSum_of_lt (g : Fin 100000 → M) (t : ℕ) (h : t < 25) :
    blockSum g t = ∑ p : Fin 4000, g ⟨4000 * t + p.val, by have := p.isLt; omega⟩ := dif_pos h

/-- The sum over all rows is the sum of the 25 blocks' sums. -/
theorem sum_range_blockSum (g : Fin 100000 → M) : ∑ t ∈ Finset.range 25, blockSum g t = ∑ r : Fin 100000, g r := by
  rw [Finset.sum_range]
  have e : ∑ x : Fin 25 × Fin 4000, g (finProdFinEquiv x) = ∑ r : Fin (25 * 4000), g r :=
    Fintype.sum_equiv finProdFinEquiv _ _ (fun _ => rfl)
  refine Eq.trans ?_ e
  rw [Fintype.sum_prod_type]
  refine Finset.sum_congr rfl fun t _ => ?_
  rw [blockSum_of_lt g t.val t.isLt]
  refine Finset.sum_congr rfl fun p _ => congrArg g (Fin.ext ?_)
  show 4000 * t.val + p.val = p.val + 4000 * t.val
  omega

end Cert.Lib.SumBlocks

end
-- ==== Proof.KReg1.lean ====
/-
  Region 1 of the idealized kernel program: the combine kernel at width 128, read through to the arrays it leaves.

  The region visits the 25 blocks of 4000 rows in order.  At block t it reads rows 4000 t … 4000 t + 3999 of the
  aggregate and of the feature product, the same rows of the self-weight column, and the bias row, and writes back
  the same rows of the convolution output  y (r, c) = (agg (r, c) + hw (r, c) · sn (r)) + b (c).  The 25 blocks cover
  the output, so output 4's array ends as the whole convolution output of the four arrays the region found.

  Outputs 5 and 6 are one row each, kept in place over the whole sweep and written back once, after block 24.  Block 0
  resets them to zero; block t then adds, at column c, the sum over the block's 4000 rows of y (resp. of y · y).  After
  block n the row therefore holds the sum of the first n + 1 blocks' sums (by induction on n: the extended reals under
  addition are a commutative monoid, with no finiteness needed), and after block 24 the sum over all 100000 rows,
  because every row lies in exactly one block.  So output 5's array ends as the column sums of the convolution output and
  output 6's as its column sums of squares.
-/
import proofs.«153408_j3753801416995_1_alg».proof.Proof.Gen.KernelIdeal.Frame
import proofs.«153408_j3753801416995_1_alg».proof.Proof.KPieces
import proofs.«153408_j3753801416995_1_alg».proof.Proof.KSpec
import proofs.«153408_j3753801416995_1_alg».proof.Proof.LibRows
import Idealize.ShloMosaic.Lib.Pipeline.Value
import Idealize.ShloMosaic.Lib.ValueIdx
import Idealize.ShloMosaic.PureOps.Ideal.Laws
import proofs.«153408_j3753801416995_1_alg».proof.Proof.LibSumBlocks

set_option maxRecDepth 16384

noncomputable section

namespace Cert.KernelIdeal.KReg1

open Cert.KernelIdeal Cert.KernelIdeal.Gen Cert.KernelIdeal.KPieces
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Cert.Lib.SumBlocks

variable (V : (c : Dev nD) → (b : Ref sig .tc) → Buf (Elt Ideal) ((c : Thread nD τ).loc b))

/-- A column [R, 1] broadcast along the columns of [R, C], read at (r, c), is the column at (r, 0). -/
theorem broadcastTo_col_apply {α : Type} {R C : Nat} (x : (⟨2, ![R, 1]⟩ : Shape).Idx → α)
    (h : (⟨2, ![R, 1]⟩ : Shape).Broadcasts ⟨2, ![R, C]⟩) (r : Fin R) (c : Fin C) :
    broadcastTo ⟨2, ![R, C]⟩ x h (ix2 r c) = x (ix2 r 0) :=
  broadcastTo_apply x h (ix2 r c) (ix2 r 0) (fun a => by
    match a with
    | ⟨0, _⟩ =>
      show r.val = if R = 1 then 0 else r.val
      by_cases hR : R = 1
      · rw [if_pos hR]; have := r.isLt; omega
      · rw [if_neg hR]
    | ⟨1, _⟩ => show (0 : Nat) = if (1 : Nat) = 1 then 0 else c.val; rw [if_pos rfl])

/-- The combined block at (p, q): the aggregate entry plus the product entry times the row's self weight, plus
    the bias of column q. -/
theorem pay3_apply (x0 x1 : FVec Ideal S4000x128 .f32) (x2 : FVec Ideal S4000x1 .f32) (x3 : FVec Ideal S1x128 .f32)
    (p : Fin 4000) (q : Fin 128) :
    k1_pay3 (F := Ideal) x0 x1 x2 x3 (ix2 p q)
      = FloatOps.addf (FloatOps.addf (x0 (ix2 p q)) (FloatOps.mulf (x1 (ix2 p q)) (x2 (ix2 p 0)))) (x3 (ix2 0 q)) := by
  unfold k1_pay3
  show FloatOps.addf (FloatOps.addf (shapeCast S4000x128 x0 _ (ix2 p q))
      (FloatOps.mulf (shapeCast S4000x128 x1 _ (ix2 p q)) (broadcastTo S4000x128 (shapeCast S4000x1 x2 _) _ (ix2 p q))))
      (broadcastTo S4000x128 (shapeCast S1x128 (shapeCast S1x128 x3 _) _) _ (ix2 p q)) = _
  refine congrArg₂ FloatOps.addf (congrArg₂ FloatOps.addf (congrFun (shapeCast_self x0 _) _)
    (congrArg₂ FloatOps.mulf (congrFun (shapeCast_self x1 _) _) ?_)) ?_
  · refine (broadcastTo_col_apply _ _ p q).trans ?_
    exact congrFun (shapeCast_self x2 _) _
  · refine (Cert.Lib.Rows.broadcastTo_row_apply _ _ p q).trans ?_
    refine (congrFun (shapeCast_self _ _) _).trans ?_
    exact congrFun (shapeCast_self x3 _) _

/-- A lane sum down the 4000 rows of a block, read at column q. -/
theorem colred_apply (src : FVec Ideal S4000x128 .f32) (h : S4000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ p : Fin 4000, src (ix2 p q) := by
  refine (Ideal.multiReduction_add_single src 0x00000000#32 h hφ hacc (ix1 q)).trans ?_
  refine Finset.sum_congr rfl fun p _ => congrArg src ?_
  funext a
  apply Fin.ext
  match a with
  | ⟨0, _⟩ => rfl
  | ⟨1, _⟩ => rfl

/-- The running column sums after one body: the accumulator's entry plus the column's sum over the block's rows. -/
theorem pay4_apply (x0 x1 : FVec Ideal S4000x128 .f32) (x2 : FVec Ideal S4000x1 .f32) (x3 acc : FVec Ideal S1x128 .f32)
    (q : Fin 128) :
    k1_pay4 (F := Ideal) x0 x1 x2 x3 acc (ix2 0 q)
      = FloatOps.addf (acc (ix2 0 q)) (∑ p : Fin 4000, k1_pay3 (F := Ideal) x0 x1 x2 x3 (ix2 p q)) := by
  unfold k1_pay4
  show FloatOps.addf (shapeCast S1x128 acc _ (ix2 0 q))
      (shapeCast S1x128 (multiReduction (F := Ideal) .add [0] S128 (k1_pay3 (F := Ideal) x0 x1 x2 x3) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The running column sums of squares after one body. -/
theorem pay5_apply (x0 x1 : FVec Ideal S4000x128 .f32) (x2 : FVec Ideal S4000x1 .f32) (x3 acc : FVec Ideal S1x128 .f32)
    (q : Fin 128) :
    k1_pay5 (F := Ideal) x0 x1 x2 x3 acc (ix2 0 q)
      = FloatOps.addf (acc (ix2 0 q)) (∑ p : Fin 4000, FloatOps.mulf (k1_pay3 (F := Ideal) x0 x1 x2 x3 (ix2 p q))
          (k1_pay3 (F := Ideal) x0 x1 x2 x3 (ix2 p q))) := by
  unfold k1_pay5
  show FloatOps.addf (shapeCast S1x128 acc _ (ix2 0 q))
      (shapeCast S1x128 (multiReduction (F := Ideal) .add [0] S128
        (mulf (k1_pay3 (F := Ideal) x0 x1 x2 x3) (k1_pay3 (F := Ideal) x0 x1 x2 x3)) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The zero rows the reset stores. -/
theorem pay1_apply (j : S1x128.Idx) : k1_pay1 (F := Ideal) j = 0 := Ideal.ofBits_zero_f32
theorem pay2_apply (j : S1x128.Idx) : k1_pay2 (F := Ideal) j = 0 := Ideal.ofBits_zero_f32

/-! ## The windows' blocks, read at an index -/

/-- The index maps over the grid: the three row-blocked inputs and output 4 move one block of 4000 rows per point;
    the bias row and the two running rows stay. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The aggregate's block at point t is rows 4000 t … 4000 t + 3999 of its array. -/
theorem iblk_0_apply (c : Dev nD) (t : Fin cfg1.N) (x : S4000x128.Idx) (k : S100000x128.Idx)
    (hk0 : (k 0).val = 4000 * t.val + (x 0).val) (hk1 : (k 1).val = (x 1).val) :
    (iblk1 V c 0 t : Vec Ideal S4000x128 .f32) x = (V c (Pipeline.arrRef spec1 0) : S100000x128.Idx → Elt Ideal .f32) k := by
  obtain ⟨⟨h0, h1⟩, -⟩ := idx_facts t
  unfold iblk1
  rw [View.read_apply]
  refine congrArg (V c (Pipeline.arrRef spec1 0)) ?_
  funext a
  apply Fin.ext
  match a with
  | ⟨0, _⟩ => show win1_0.index t 0 * 4000 + 1 * (x 0).val = (k 0).val; rw [h0, hk0]; omega
  | ⟨1, _⟩ => show win1_0.index t 1 * 128 + 1 * (x 1).val = (k 1).val; rw [h1, hk1]; omega

/-- The product's block at point t is the same rows of its array. -/
theorem iblk_1_apply (c : Dev nD) (t : Fin cfg1.N) (x : S4000x128.Idx) (k : S100000x128.Idx)
    (hk0 : (k 0).val = 4000 * t.val + (x 0).val) (hk1 : (k 1).val = (x 1).val) :
    (iblk1 V c 1 t : Vec Ideal S4000x128 .f32) x = (V c (Pipeline.arrRef spec1 1) : S100000x128.Idx → Elt Ideal .f32) k := by
  obtain ⟨-, ⟨h0, h1⟩, -⟩ := idx_facts t
  unfold iblk1
  rw [View.read_apply]
  refine congrArg (V c (Pipeline.arrRef spec1 1)) ?_
  funext a
  apply Fin.ext
  match a with
  | ⟨0, _⟩ => show win1_1.index t 0 * 4000 + 1 * (x 0).val = (k 0).val; rw [h0, hk0]; omega
  | ⟨1, _⟩ => show win1_1.index t 1 * 128 + 1 * (x 1).val = (k 1).val; rw [h1, hk1]; omega

/-- The self weights' block at point t is the same rows of the weight column. -/
theorem iblk_2_apply (c : Dev nD) (t : Fin cfg1.N) (x : S4000x1.Idx) (k : S100000x1.Idx)
    (hk0 : (k 0).val = 4000 * t.val + (x 0).val) (hk1 : (k 1).val = (x 1).val) :
    (iblk1 V c 2 t : Vec Ideal S4000x1 .f32) x = (V c (Pipeline.arrRef spec1 2) : S100000x1.Idx → Elt Ideal .f32) k := by
  obtain ⟨-, -, ⟨h0, h1⟩, -⟩ := idx_facts t
  unfold iblk1
  rw [View.read_apply]
  refine congrArg (V c (Pipeline.arrRef spec1 2)) ?_
  funext a
  apply Fin.ext
  match a with
  | ⟨0, _⟩ => show win1_2.index t 0 * 4000 + 1 * (x 0).val = (k 0).val; rw [h0, hk0]; omega
  | ⟨1, _⟩ => show win1_2.index t 1 * 1 + 1 * (x 1).val = (k 1).val; rw [h1, hk1]; omega

/-- The bias row's block at every point is the whole row. -/
theorem iblk_3_apply (c : Dev nD) (t : Fin cfg1.N) (x : S1x128.Idx) (k : S1x128.Idx)
    (hk0 : (k 0).val = (x 0).val) (hk1 : (k 1).val = (x 1).val) :
    (iblk1 V c 3 t : Vec Ideal S1x128 .f32) x = (V c (Pipeline.arrRef spec1 3) : S1x128.Idx → Elt Ideal .f32) k := by
  obtain ⟨-, -, -, ⟨h0, h1⟩, -⟩ := idx_facts t
  unfold iblk1
  rw [View.read_apply]
  refine congrArg (V c (Pipeline.arrRef spec1 3)) ?_
  funext a
  apply Fin.ext
  match a with
  | ⟨0, _⟩ => show win1_3.index t 0 * 1 + 1 * (x 0).val = (k 0).val; rw [h0, hk0]; omega
  | ⟨1, _⟩ => show win1_3.index t 1 * 128 + 1 * (x 1).val = (k 1).val; rw [h1, hk1]; omega

/-- The convolution output of the four arrays the region found. -/
abbrev convOf (c : Dev nD) : FVec Ideal ⟨2, ![100000, 128]⟩ .f32 :=
  KSpec.conv 128 (V c (Pipeline.arrRef spec1 0)) (V c (Pipeline.arrRef spec1 1)) (V c (Pipeline.arrRef spec1 2))
    (V c (Pipeline.arrRef spec1 3))

/-- The combined block of point t at (p, q) is the convolution output at row 4000 t + p, column q. -/
theorem blk_conv (c : Dev nD) (t : Fin cfg1.N) (p : Fin 4000) (q : Fin 128) (hr : 4000 * t.val + p.val < 100000) :
    k1_pay3 (F := Ideal) (iblk1 V c 0 t) (iblk1 V c 1 t) (iblk1 V c 2 t) (iblk1 V c 3 t) (ix2 p q) = convOf V c (ix2 ⟨4000 * t.val + p.val, hr⟩ q) := by
  refine (pay3_apply _ _ _ _ p q).trans ?_
  exact congrArg₂ FloatOps.addf (congrArg₂ FloatOps.addf (iblk_0_apply V c t (ix2 p q) (ix2 ⟨4000 * t.val + p.val, hr⟩ q) rfl rfl)
    (congrArg₂ FloatOps.mulf (iblk_1_apply V c t (ix2 p q) (ix2 ⟨4000 * t.val + p.val, hr⟩ q) rfl rfl) (iblk_2_apply V c t (ix2 p 0) (ix2 ⟨4000 * t.val + p.val, hr⟩ 0) rfl rfl))) (iblk_3_apply V c t (ix2 0 q) (ix2 0 q) rfl rfl)

/-! ## What the outputs hold after each point -/

/-- Output 4 after point `t`, in either case: the point's combined block. -/
theorem outsAt1_fst (c : Dev nD) (t : Fin cfg1.N) :
    (outsAt1 V c t.val t.isLt).1 = k1_pay3 (iblk1 V c 0 t) (iblk1 V c 1 t) (iblk1 V c 2 t) (iblk1 V c 3 t) := by
  by_cases h0 : t.val % 25 = 0
  · rw [outsAt1_A V c t h0]
    dsimp only
    exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- Output 5 after a resetting point: the point's column sums added to the zero row. -/
theorem outsAt1_snd_A (c : Dev nD) (t : Fin cfg1.N) (h0 : t.val % 25 = 0) :
    (outsAt1 V c t.val t.isLt).2.1 = k1_pay4 (iblk1 V c 0 t) (iblk1 V c 1 t) (iblk1 V c 2 t) (iblk1 V c 3 t) (k1_pay1 (F := Ideal)) := by
  rw [outsAt1_A V c t h0]
  dsimp only
  exact out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

/-- Output 5 after an accumulating point: the point's column sums added to what the point before left. -/
theorem outsAt1_snd_B (c : Dev nD) (t : Fin cfg1.N) (h0 : ¬t.val % 25 = 0) :
    (outsAt1 V c t.val t.isLt).2.1 = k1_pay4 (iblk1 V c 0 t) (iblk1 V c 1 t) (iblk1 V c 2 t) (iblk1 V c 3 t) (outsAt1 V c (t.val - 1) (Nat.lt_of_le_of_lt (Nat.sub_le _ _) t.isLt)).2.1 := by
  rw [outsAt1_B V c t h0]
  dsimp only
  exact out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- Output 6 after a resetting point: the point's column sums of squares added to the zero row. -/
theorem outsAt1_trd_A (c : Dev nD) (t : Fin cfg1.N) (h0 : t.val % 25 = 0) :
    (outsAt1 V c t.val t.isLt).2.2 = k1_pay5 (iblk1 V c 0 t) (iblk1 V c 1 t) (iblk1 V c 2 t) (iblk1 V c 3 t) (k1_pay2 (F := Ideal)) := by
  rw [outsAt1_A V c t h0]
  dsimp only
  exact out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

/-- Output 6 after an accumulating point: the point's column sums of squares added to what the point before left. -/
theorem outsAt1_trd_B (c : Dev nD) (t : Fin cfg1.N) (h0 : ¬t.val % 25 = 0) :
    (outsAt1 V c t.val t.isLt).2.2 = k1_pay5 (iblk1 V c 0 t) (iblk1 V c 1 t) (iblk1 V c 2 t) (iblk1 V c 3 t) (outsAt1 V c (t.val - 1) (Nat.lt_of_le_of_lt (Nat.sub_le _ _) t.isLt)).2.2 := by
  rw [outsAt1_B V c t h0]
  dsimp only
  exact out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-! ## Output 4: every point writes back its block of the convolution output -/

theorem flushed_eq4 (c : Dev nD) (t : Fin cfg1.N) :
    (dat1 V c).flushed 4 t = ((cfg1.win 4).blk t).view.read (Elt Ideal) (convOf V c) := by
  obtain ⟨-, -, -, -, ⟨h4, h5⟩, -⟩ := idx_facts t
  show (cfg1.win 4).cut (grid1.coords t) ((dat1 V c).after 4 t) = _
  rw [after1_4, outsAt1_fst]
  funext j
  obtain ⟨p, q, rfl⟩ : ∃ (p : Fin 4000) (q : Fin 128), j = ix2 p q := ⟨j 0, j 1, eq_ix2 j⟩
  have hr : 4000 * t.val + p.val < 100000 := by have := t.isLt; have : cfg1.N = 25 := rfl; have := p.isLt; omega
  rw [View.read_apply]
  refine (blk_conv V c t p q hr).trans ?_
  congr 1
  funext a
  apply Fin.ext
  match a with
  | ⟨0, _⟩ => show 4000 * t.val + p.val = win1_4.index t 0 * 4000 + 1 * p.val; rw [h4]; omega
  | ⟨1, _⟩ => show q.val = win1_4.index t 1 * 128 + 1 * q.val; rw [h5]; omega

/-- An index of output 4's array is in point t's block iff its row is among that block's rows. -/
theorem mem_blk4 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole (Pipeline.arrRef spec1 4)).slice (win1_4.rect t)).set ↔ _
  rw [View.set_slice_whole, Rect.mem_set_unit]
  exact Iff.rfl

/-- OUTPUT 4's ARRAY after the region: the convolution output of the arrays the region found. -/
theorem final4 (c : Dev nD) : (dat1 V c).arrAt 4 cfg1.N
    = KSpec.conv 128 (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq4 V c t) fun i => by
    have hi0 : (i 0).val < 100000 := (i 0).isLt
    have hi1 : (i 1).val < 128 := (i 1).isLt
    have hN : cfg1.N = 25 := rfl
    refine ⟨⟨(i 0).val / 4000, by rw [hN]; omega⟩, flush1_4 _, ?_⟩
    rw [mem_blk4]
    obtain ⟨-, -, -, -, ⟨h4, h5⟩, -⟩ := idx_facts ⟨(i 0).val / 4000, by rw [hN]; omega⟩
    intro a
    match a with
    | ⟨0, _⟩ => show win1_4.index _ 0 * 4000 ≤ (i 0).val ∧ (i 0).val < win1_4.index _ 0 * 4000 + 4000; rw [h4]; show (i 0).val / 4000 * 4000 ≤ _ ∧ _ < (i 0).val / 4000 * 4000 + 4000; omega
    | ⟨1, _⟩ => show win1_4.index _ 1 * 128 ≤ (i 1).val ∧ (i 1).val < win1_4.index _ 1 * 128 + 128; rw [h5]; omega

/-! ## Outputs 5 and 6: the running rows, and their one write-back -/

/-- Column q of the convolution output, by row; and its squares. -/
abbrev colOf (c : Dev nD) (q : Fin 128) : Fin 100000 → EReal := fun r => convOf V c (ix2 r q)
abbrev colSqOf (c : Dev nD) (q : Fin 128) : Fin 100000 → EReal :=
  fun r => FloatOps.mulf (convOf V c (ix2 r q)) (convOf V c (ix2 r q))

/-- The column sum of point t's combined block is block t's part of the column's sum over all rows. -/
theorem blk_sum (c : Dev nD) (q : Fin 128) (t : Fin cfg1.N) :
    ∑ p : Fin 4000, k1_pay3 (F := Ideal) (iblk1 V c 0 t) (iblk1 V c 1 t) (iblk1 V c 2 t) (iblk1 V c 3 t) (ix2 p q) = blockSum (colOf V c q) t.val := by
  refine Eq.trans ?_ (blockSum_of_lt (colOf V c q) t.val t.isLt).symm
  exact Finset.sum_congr rfl fun p _ => blk_conv V c t p q _

theorem blk_sumsq (c : Dev nD) (q : Fin 128) (t : Fin cfg1.N) :
    ∑ p : Fin 4000, FloatOps.mulf (k1_pay3 (F := Ideal) (iblk1 V c 0 t) (iblk1 V c 1 t) (iblk1 V c 2 t) (iblk1 V c 3 t) (ix2 p q)) (k1_pay3 (F := Ideal) (iblk1 V c 0 t) (iblk1 V c 1 t) (iblk1 V c 2 t) (iblk1 V c 3 t) (ix2 p q))
      = blockSum (colSqOf V c q) t.val := by
  refine Eq.trans ?_ (blockSum_of_lt (colSqOf V c q) t.val t.isLt).symm
  exact Finset.sum_congr rfl fun p _ => congrArg₂ FloatOps.mulf (blk_conv V c t p q _) (blk_conv V c t p q _)

/-- The running column sums after point n, at column q: the sum of the blocks' sums up to block n — by induction on
    the point; the reset contributes the zero it stores, and addition of extended reals is taken as it comes (each
    point adds its block's sum on the right). -/
theorem acc5 (c : Dev nD) (q : Fin 128) : ∀ (n : ℕ) (h : n < cfg1.N),
    (outsAt1 V c n h).2.1 (ix2 0 q) = ∑ t ∈ Finset.range (n + 1), blockSum (colOf V c q) t
  | 0, h => by
    refine (congrFun (outsAt1_snd_A V c ⟨0, h⟩ (Nat.zero_mod _)) (ix2 0 q)).trans ?_
    refine (pay4_apply _ _ _ _ _ q).trans ?_
    refine Eq.trans ?_ (Finset.sum_range_one _).symm
    exact Eq.trans (congrArg₂ (fun a b : EReal => a + b) (pay1_apply _) (blk_sum V c q ⟨0, h⟩)) (zero_add _)
  | n + 1, h => by
    have hN : cfg1.N = 25 := rfl
    have hB : ¬(⟨n + 1, h⟩ : Fin cfg1.N).val % 25 = 0 := by dsimp only; omega
    refine (congrFun (outsAt1_snd_B V c ⟨n + 1, h⟩ hB) (ix2 0 q)).trans ?_
    refine (pay4_apply _ _ _ _ _ q).trans ?_
    refine Eq.trans ?_ (Finset.sum_range_succ _ _).symm
    exact congrArg₂ (fun a b : EReal => a + b) (acc5 c q n (Nat.lt_of_succ_lt h)) (blk_sum V c q ⟨n + 1, h⟩)

/-- The running column sums of squares after point n, at column q: the sum of the blocks' sums up to block n — by induction on
    the point; the reset contributes the zero it stores, and addition of extended reals is taken as it comes (each
    point adds its block's sum on the right). -/
theorem acc6 (c : Dev nD) (q : Fin 128) : ∀ (n : ℕ) (h : n < cfg1.N),
    (outsAt1 V c n h).2.2 (ix2 0 q) = ∑ t ∈ Finset.range (n + 1), blockSum (colSqOf V c q) t
  | 0, h => by
    refine (congrFun (outsAt1_trd_A V c ⟨0, h⟩ (Nat.zero_mod _)) (ix2 0 q)).trans ?_
    refine (pay5_apply _ _ _ _ _ q).trans ?_
    refine Eq.trans ?_ (Finset.sum_range_one _).symm
    exact Eq.trans (congrArg₂ (fun a b : EReal => a + b) (pay2_apply _) (blk_sumsq V c q ⟨0, h⟩)) (zero_add _)
  | n + 1, h => by
    have hN : cfg1.N = 25 := rfl
    have hB : ¬(⟨n + 1, h⟩ : Fin cfg1.N).val % 25 = 0 := by dsimp only; omega
    refine (congrFun (outsAt1_trd_B V c ⟨n + 1, h⟩ hB) (ix2 0 q)).trans ?_
    refine (pay5_apply _ _ _ _ _ q).trans ?_
    refine Eq.trans ?_ (Finset.sum_range_succ _ _).symm
    exact congrArg₂ (fun a b : EReal => a + b) (acc6 c q n (Nat.lt_of_succ_lt h)) (blk_sumsq V c q ⟨n + 1, h⟩)

/-- Output 5's one write-back, at the last point, writes the column sums of the convolution output. -/
theorem flushed_eq5 (c : Dev nD) (t : Fin cfg1.N) (hf : (cfg1.win 5).flush t = true) :
    (dat1 V c).flushed 5 t = ((cfg1.win 5).blk t).view.read (Elt Ideal) (KSpec.colsum 128 (convOf V c)) := by
  have hN : cfg1.N = 25 := rfl
  have h24 : t.val = 24 := by have := (flush1_5 t).mp hf; have := t.isLt; omega
  obtain ⟨-, -, -, -, -, ⟨h0, h1⟩, -⟩ := idx_facts t
  show (cfg1.win 5).cut (grid1.coords t) ((dat1 V c).after 5 t) = _
  rw [after1_5]
  funext j
  obtain ⟨p, q, rfl⟩ : ∃ (p : Fin 1) (q : Fin 128), j = ix2 p q := ⟨j 0, j 1, eq_ix2 j⟩
  obtain rfl : p = 0 := Subsingleton.elim _ _
  rw [View.read_apply]
  refine (acc5 V c q t.val t.isLt).trans ?_
  have e : ∑ s ∈ Finset.range (t.val + 1), blockSum (colOf V c q) s = ∑ r : Fin 100000, colOf V c q r := by
    rw [h24]; exact sum_range_blockSum _
  refine e.trans ?_
  show KSpec.colsum 128 (convOf V c) (ix2 0 q) = _
  congr 1
  funext a
  apply Fin.ext
  match a with
  | ⟨0, _⟩ => show 0 = win1_5.index t 0 * 1 + 1 * 0; rw [h0]
  | ⟨1, _⟩ => show q.val = win1_5.index t 1 * 128 + 1 * q.val; rw [h1]; omega

/-- Every index of output 5's one-row array is in the block of the last point. -/
theorem mem_blk5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole (Pipeline.arrRef spec1 5)).slice (win1_5.rect t)).set ↔ _
  rw [View.set_slice_whole, Rect.mem_set_unit]
  exact Iff.rfl

/-- OUTPUT 5's ARRAY after the region: the column sums of the convolution output. -/
theorem final5 (c : Dev nD) : (dat1 V c).arrAt 5 cfg1.N
    = KSpec.colsum 128 (KSpec.conv 128 (V c (Pipeline.arrRef spec1 0)) (V c (Pipeline.arrRef spec1 1)) (V c (Pipeline.arrRef spec1 2)) (V c (Pipeline.arrRef spec1 3))) :=
  (dat1 V c).arrAt_eq_of_cover 5 _ (flushed_eq5 V c) fun i => by
    have hi0 : (i 0).val < 1 := (i 0).isLt
    have hi1 : (i 1).val < 128 := (i 1).isLt
    have hN : cfg1.N = 25 := rfl
    refine ⟨⟨24, by rw [hN]; omega⟩, (flush1_5 _).mpr rfl, ?_⟩
    rw [mem_blk5]
    obtain ⟨-, -, -, -, -, ⟨h0, h1⟩, -⟩ := idx_facts ⟨24, by rw [hN]; omega⟩
    intro a
    match a with
    | ⟨0, _⟩ => show win1_5.index _ 0 * 1 ≤ (i 0).val ∧ (i 0).val < win1_5.index _ 0 * 1 + 1; rw [h0]; omega
    | ⟨1, _⟩ => show win1_5.index _ 1 * 128 ≤ (i 1).val ∧ (i 1).val < win1_5.index _ 1 * 128 + 128; rw [h1]; omega

/-- Output 6's one write-back, at the last point, writes the column sums of squares of the convolution output. -/
theorem flushed_eq6 (c : Dev nD) (t : Fin cfg1.N) (hf : (cfg1.win 6).flush t = true) :
    (dat1 V c).flushed 6 t = ((cfg1.win 6).blk t).view.read (Elt Ideal) (KSpec.colsumsq 128 (convOf V c)) := by
  have hN : cfg1.N = 25 := rfl
  have h24 : t.val = 24 := by have := (flush1_6 t).mp hf; have := t.isLt; omega
  obtain ⟨-, -, -, -, -, -, ⟨h0, h1⟩⟩ := idx_facts t
  show (cfg1.win 6).cut (grid1.coords t) ((dat1 V c).after 6 t) = _
  rw [after1_6]
  funext j
  obtain ⟨p, q, rfl⟩ : ∃ (p : Fin 1) (q : Fin 128), j = ix2 p q := ⟨j 0, j 1, eq_ix2 j⟩
  obtain rfl : p = 0 := Subsingleton.elim _ _
  rw [View.read_apply]
  refine (acc6 V c q t.val t.isLt).trans ?_
  have e : ∑ s ∈ Finset.range (t.val + 1), blockSum (colSqOf V c q) s = ∑ r : Fin 100000, colSqOf V c q r := by
    rw [h24]; exact sum_range_blockSum _
  refine e.trans ?_
  show KSpec.colsumsq 128 (convOf V c) (ix2 0 q) = _
  congr 1
  funext a
  apply Fin.ext
  match a with
  | ⟨0, _⟩ => show 0 = win1_6.index t 0 * 1 + 1 * 0; rw [h0]
  | ⟨1, _⟩ => show q.val = win1_6.index t 1 * 128 + 1 * q.val; rw [h1]; omega

/-- Every index of output 6's one-row array is in the block of the last point. -/
theorem mem_blk6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole (Pipeline.arrRef spec1 6)).slice (win1_6.rect t)).set ↔ _
  rw [View.set_slice_whole, Rect.mem_set_unit]
  exact Iff.rfl

/-- OUTPUT 6's ARRAY after the region: the column sums of squares of the convolution output. -/
theorem final6 (c : Dev nD) : (dat1 V c).arrAt 6 cfg1.N
    = KSpec.colsumsq 128 (KSpec.conv 128 (V c (Pipeline.arrRef spec1 0)) (V c (Pipeline.arrRef spec1 1)) (V c (Pipeline.arrRef spec1 2)) (V c (Pipeline.arrRef spec1 3))) :=
  (dat1 V c).arrAt_eq_of_cover 6 _ (flushed_eq6 V c) fun i => by
    have hi0 : (i 0).val < 1 := (i 0).isLt
    have hi1 : (i 1).val < 128 := (i 1).isLt
    have hN : cfg1.N = 25 := rfl
    refine ⟨⟨24, by rw [hN]; omega⟩, (flush1_6 _).mpr rfl, ?_⟩
    rw [mem_blk6]
    obtain ⟨-, -, -, -, -, -, ⟨h0, h1⟩⟩ := idx_facts ⟨24, by rw [hN]; omega⟩
    intro a
    match a with
    | ⟨0, _⟩ => show win1_6.index _ 0 * 1 ≤ (i 0).val ∧ (i 0).val < win1_6.index _ 0 * 1 + 1; rw [h0]; omega
    | ⟨1, _⟩ => show win1_6.index _ 1 * 128 ≤ (i 1).val ∧ (i 1).val < win1_6.index _ 1 * 128 + 128; rw [h1]; omega

end Cert.KernelIdeal.KReg1
-- ==== Proof.KReg2.lean ====
/-
  Region 2 of the idealized kernel program: batch normalisation and the clamp at zero, by blocks of 4000 rows.

  Grid point t takes rows 4000 t … 4000 t + 3999 of the convolution output and the four rows [1, 128] — mean,
  variance, scale, shift — and stores, at (p, c),  max ((x − mean_c) · (var_c + ε)^(−1/2) · g_c + be_c, 0).  Every
  operation is pointwise and the four rows are the same at every point, so the block is the restriction
  of one whole-array function, and the 25 blocks cover the output.
-/
import proofs.«153408_j3753801416995_1_alg».proof.Proof.Gen.KernelIdeal.Frame
import proofs.«153408_j3753801416995_1_alg».proof.Proof.KSpec
import proofs.«153408_j3753801416995_1_alg».proof.Proof.LibRows
import Idealize.ShloMosaic.Lib.Pipeline.Value

set_option maxRecDepth 16384

noncomputable section

namespace Cert.KernelIdeal.KReg2

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the data window and the output move one block of rows per point,
    the four row windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The data window's block at point t is rows 4000 t … 4000 t + 3999 of its array. -/
theorem iblk_x_apply (c : Dev nD) (t : Fin cfg2.N) (x : S4000x128.Idx) (k : S100000x128.Idx)
    (hk0 : (k 0).val = 4000 * t.val + (x 0).val) (hk1 : (k 1).val = (x 1).val) :
    (iblk2 V c 0 t : Vec Ideal S4000x128 .f32) x = (V c (Pipeline.arrRef spec2 0) : S100000x128.Idx → Elt Ideal .f32) k := by
  obtain ⟨h0, h1, -⟩ := idx_facts t
  have he : ((cfg2.win 0).blk t).view.emb x = k := by
    funext a
    apply Fin.ext
    match a with
    | ⟨0, _⟩ => show win2_0.index t 0 * 4000 + 1 * (x 0).val = (k 0).val; rw [h0, hk0]; omega
    | ⟨1, _⟩ => show win2_0.index t 1 * 128 + 1 * (x 1).val = (k 1).val; rw [h1, hk1]; omega
  unfold iblk2
  rw [View.read_apply, he]
  rfl

/-- Row window 1's block at every point is its whole row. -/
theorem iblk_row1_apply (c : Dev nD) (t : Fin cfg2.N) (x : S1x128.Idx) :
    (iblk2 V c 1 t : Vec Ideal S1x128 .f32) x = (V c (Pipeline.arrRef spec2 1) : S1x128.Idx → Elt Ideal .f32) x := by
  have ha := (idx_facts t).2.2.1
  have hb := (idx_facts t).2.2.2.1
  have he : ((cfg2.win 1).blk t).view.emb x = x := by
    funext a
    apply Fin.ext
    match a with
    | ⟨0, _⟩ => show win2_1.index t 0 * 1 + 1 * (x 0).val = (x 0).val; rw [ha]; omega
    | ⟨1, _⟩ => show win2_1.index t 1 * 128 + 1 * (x 1).val = (x 1).val; rw [hb]; omega
  unfold iblk2
  rw [View.read_apply, he]
  rfl

/-- Row window 2's block at every point is its whole row. -/
theorem iblk_row2_apply (c : Dev nD) (t : Fin cfg2.N) (x : S1x128.Idx) :
    (iblk2 V c 2 t : Vec Ideal S1x128 .f32) x = (V c (Pipeline.arrRef spec2 2) : S1x128.Idx → Elt Ideal .f32) x := by
  have ha := (idx_facts t).2.2.2.2.1
  have hb := (idx_facts t).2.2.2.2.2.1
  have he : ((cfg2.win 2).blk t).view.emb x = x := by
    funext a
    apply Fin.ext
    match a with
    | ⟨0, _⟩ => show win2_2.index t 0 * 1 + 1 * (x 0).val = (x 0).val; rw [ha]; omega
    | ⟨1, _⟩ => show win2_2.index t 1 * 128 + 1 * (x 1).val = (x 1).val; rw [hb]; omega
  unfold iblk2
  rw [View.read_apply, he]
  rfl

/-- Row window 3's block at every point is its whole row. -/
theorem iblk_row3_apply (c : Dev nD) (t : Fin cfg2.N) (x : S1x128.Idx) :
    (iblk2 V c 3 t : Vec Ideal S1x128 .f32) x = (V c (Pipeline.arrRef spec2 3) : S1x128.Idx → Elt Ideal .f32) x := by
  have ha := (idx_facts t).2.2.2.2.2.2.1
  have hb := (idx_facts t).2.2.2.2.2.2.2.1
  have he : ((cfg2.win 3).blk t).view.emb x = x := by
    funext a
    apply Fin.ext
    match a with
    | ⟨0, _⟩ => show win2_3.index t 0 * 1 + 1 * (x 0).val = (x 0).val; rw [ha]; omega
    | ⟨1, _⟩ => show win2_3.index t 1 * 128 + 1 * (x 1).val = (x 1).val; rw [hb]; omega
  unfold iblk2
  rw [View.read_apply, he]
  rfl

/-- Row window 4's block at every point is its whole row. -/
theorem iblk_row4_apply (c : Dev nD) (t : Fin cfg2.N) (x : S1x128.Idx) :
    (iblk2 V c 4 t : Vec Ideal S1x128 .f32) x = (V c (Pipeline.arrRef spec2 4) : S1x128.Idx → Elt Ideal .f32) x := by
  have ha := (idx_facts t).2.2.2.2.2.2.2.2.1
  have hb := (idx_facts t).2.2.2.2.2.2.2.2.2.1
  have he : ((cfg2.win 4).blk t).view.emb x = x := by
    funext a
    apply Fin.ext
    match a with
    | ⟨0, _⟩ => show win2_4.index t 0 * 1 + 1 * (x 0).val = (x 0).val; rw [ha]; omega
    | ⟨1, _⟩ => show win2_4.index t 1 * 128 + 1 * (x 1).val = (x 1).val; rw [hb]; omega
  unfold iblk2
  rw [View.read_apply, he]
  rfl

/-- The body's payload read at (p, q): the pointwise formula over the block's entry and the four rows' entries of column q. -/
theorem pay_apply (x0 : Vec Ideal S4000x128 .f32) (x1 x2 x3 x4 : Vec Ideal S1x128 .f32) (p : Fin 4000) (q : Fin 128) :
    k2_pay1 x0 x1 x2 x3 x4 (ix2 p q)
      = FloatOps.maximumf
          (FloatOps.addf
            (FloatOps.mulf
              (FloatOps.mulf (FloatOps.subf (x0 (ix2 p q)) (x1 (ix2 0 q)))
                (FloatOps.rsqrt (FloatOps.addf (x2 (ix2 0 q)) (Scalar.ofBits (F := Ideal) .f32 0x3727C5AC#32))))
              (x3 (ix2 0 q)))
            (x4 (ix2 0 q)))
          (Scalar.ofBits (F := Ideal) .f32 0x00000000#32) := by
  unfold k2_pay1
  simp only [shapeCast_self]
  show FloatOps.maximumf (FloatOps.addf (FloatOps.mulf (FloatOps.mulf (FloatOps.subf (x0 (ix2 p q)) (broadcastTo S4000x128 x1 broadcasts_S1x128_S4000x128 (ix2 p q)))
      (broadcastTo S4000x128 (rsqrt (addf x2 (broadcast S1x128 (Scalar.ofBits (F := Ideal) .f32 0x3727C5AC#32)))) broadcasts_S1x128_S4000x128 (ix2 p q)))
      (broadcastTo S4000x128 x3 broadcasts_S1x128_S4000x128 (ix2 p q))) (broadcastTo S4000x128 x4 broadcasts_S1x128_S4000x128 (ix2 p q))) _ = _
  rw [Cert.Lib.Rows.broadcastTo_row_apply, Cert.Lib.Rows.broadcastTo_row_apply, Cert.Lib.Rows.broadcastTo_row_apply, Cert.Lib.Rows.broadcastTo_row_apply]
  rfl

/-- The payload at (p, q) is the whole-array function at (r, q), when the block's row p is row r of the data
    array and the four row blocks are the four rows. -/
theorem pay_spec (x0 : Vec Ideal S4000x128 .f32) (x1 x2 x3 x4 : Vec Ideal S1x128 .f32)
    (X : FVec Ideal ⟨2, ![100000, 128]⟩ .f32) (M Vr G B : FVec Ideal ⟨2, ![1, 128]⟩ .f32) (p : Fin 4000) (q : Fin 128) (r : Fin 100000)
    (hx : x0 (ix2 p q) = X (ix2 r q)) (h1 : x1 (ix2 0 q) = M (ix2 0 q)) (h2 : x2 (ix2 0 q) = Vr (ix2 0 q))
    (h3 : x3 (ix2 0 q) = G (ix2 0 q)) (h4 : x4 (ix2 0 q) = B (ix2 0 q)) :
    k2_pay1 x0 x1 x2 x3 x4 (ix2 p q) = KSpec.bnrelu 128 X M Vr G B (ix2 r q) := by
  rw [pay_apply, hx, h1, h2, h3, h4]
  rfl

set_option maxHeartbeats 1000000 in
/-- WHAT POINT t WRITES BACK is block t of the whole-array function of the five arrays the region found. -/
theorem flushed_eq (c : Dev nD) (t : Fin cfg2.N) :
    (dat2 V c).flushed 5 t = ((cfg2.win 5).blk t).view.read (Elt Ideal)
      (KSpec.bnrelu 128 (V c (Pipeline.arrRef spec2 0)) (V c (Pipeline.arrRef spec2 1)) (V c (Pipeline.arrRef spec2 2))
        (V c (Pipeline.arrRef spec2 3)) (V c (Pipeline.arrRef spec2 4))) := by
  have h10 := (idx_facts t).2.2.2.2.2.2.2.2.2.2.1
  have h11 := (idx_facts t).2.2.2.2.2.2.2.2.2.2.2
  show (cfg2.win 5).cut (grid2.coords t) ((dat2 V c).after 5 t) = _
  rw [after2_5]
  unfold out2_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  have hr : 4000 * t.val + p.val < 100000 := by have := t.isLt; have : cfg2.N = 25 := rfl; have := p.isLt; omega
  have he : ((cfg2.win 5).blk t).view.emb (ix2 p q) = ix2 (⟨4000 * t.val + p.val, hr⟩ : Fin 100000) q := by
    funext a
    apply Fin.ext
    match a with
    | ⟨0, _⟩ => show win2_5.index t 0 * 4000 + 1 * p.val = 4000 * t.val + p.val; rw [h10]; omega
    | ⟨1, _⟩ => show win2_5.index t 1 * 128 + 1 * q.val = q.val; rw [h11]; omega
  rw [View.read_apply, he]
  show k2_pay1 (iblk2 V c 0 t) (iblk2 V c 1 t) (iblk2 V c 2 t) (iblk2 V c 3 t) (iblk2 V c 4 t) (ix2 p q)
    = KSpec.bnrelu 128 (V c (Pipeline.arrRef spec2 0)) (V c (Pipeline.arrRef spec2 1)) (V c (Pipeline.arrRef spec2 2))
        (V c (Pipeline.arrRef spec2 3)) (V c (Pipeline.arrRef spec2 4)) (ix2 (⟨4000 * t.val + p.val, hr⟩ : Fin 100000) q)
  exact pay_spec (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) p q ⟨4000 * t.val + p.val, hr⟩
    (iblk_x_apply V c t (ix2 p q) (ix2 ⟨4000 * t.val + p.val, hr⟩ q) rfl rfl)
    (iblk_row1_apply V c t (ix2 0 q)) (iblk_row2_apply V c t (ix2 0 q)) (iblk_row3_apply V c t (ix2 0 q)) (iblk_row4_apply V c t (ix2 0 q))

/-- An index of the output array is in point t's block iff its row is among that block's rows. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole (Pipeline.arrRef spec2 5)).slice (win2_5.rect t)).set ↔ _
  rw [View.set_slice_whole, Rect.mem_set_unit]
  exact Iff.rfl

/-- THE OUTPUT ARRAY after the region. -/
theorem final (c : Dev nD) : (dat2 V c).arrAt 5 cfg2.N
    = KSpec.bnrelu 128 (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_eq V c t) fun i => by
    have hi0 : (i 0).val < 100000 := (i 0).isLt
    have hi1 : (i 1).val < 128 := (i 1).isLt
    have hN : cfg2.N = 25 := rfl
    refine ⟨⟨(i 0).val / 4000, by rw [hN]; omega⟩, flush2_5 _, ?_⟩
    rw [mem_blk]
    have h10 := (idx_facts ⟨(i 0).val / 4000, by rw [hN]; omega⟩).2.2.2.2.2.2.2.2.2.2.1
    have h11 := (idx_facts ⟨(i 0).val / 4000, by rw [hN]; omega⟩).2.2.2.2.2.2.2.2.2.2.2
    intro a
    match a with
    | ⟨0, _⟩ => show win2_5.index _ 0 * 4000 ≤ (i 0).val ∧ (i 0).val < win2_5.index _ 0 * 4000 + 4000; rw [h10]; show (i 0).val / 4000 * 4000 ≤ _ ∧ _ < (i 0).val / 4000 * 4000 + 4000; omega
    | ⟨1, _⟩ => show win2_5.index _ 1 * 128 ≤ (i 1).val ∧ (i 1).val < win2_5.index _ 1 * 128 + 128; rw [h11]; omega

end Cert.KernelIdeal.KReg2

end
-- ==== Proof.KReg3.lean ====
/-
  Region 3 of the idealized kernel program: a feature product computed by blocks of 4000 rows.

  Grid point t multiplies rows 4000 t … 4000 t + 3999 of the left array by the whole weight matrix on the
  matrix unit, into a zero accumulator, and writes the block of products back to the same rows of the
  output.  At the ideal values the entry (p, c) of that block is the sum over k of left (4000 t + p, k) ·
  weight (k, c): the entry (4000 t + p, c) of the whole product.  The 25 blocks cover the output, so the
  output array after the region is the whole product of the two arrays the region found.
-/
import proofs.«153408_j3753801416995_1_alg».proof.Proof.Gen.KernelIdeal.Frame
import proofs.«153408_j3753801416995_1_alg».proof.Proof.KSpec
import proofs.«153408_j3753801416995_1_alg».proof.Proof.LibRowBlocks
import Idealize.ShloMosaic.Lib.Pipeline.Value

set_option maxRecDepth 16384

noncomputable section

namespace Cert.KernelIdeal.KReg3

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output move one block of rows per point,
    the weight window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point t is rows 4000 t … 4000 t + 3999 of its array. -/
theorem iblk_lhs_apply (c : Dev nD) (t : Fin cfg3.N) (x : S4000x128.Idx) (k : S100000x128.Idx)
    (hk0 : (k 0).val = 4000 * t.val + (x 0).val) (hk1 : (k 1).val = (x 1).val) :
    (iblk3 V c 0 t : Vec Ideal S4000x128 .f32) x = (V c (Pipeline.arrRef spec3 0) : S100000x128.Idx → Elt Ideal .f32) k := by
  obtain ⟨h0, h1, -⟩ := idx_facts t
  have he : ((cfg3.win 0).blk t).view.emb x = k := by
    funext a
    apply Fin.ext
    match a with
    | ⟨0, _⟩ => show win3_0.index t 0 * 4000 + 1 * (x 0).val = (k 0).val; rw [h0, hk0]; omega
    | ⟨1, _⟩ => show win3_0.index t 1 * 128 + 1 * (x 1).val = (k 1).val; rw [h1, hk1]; omega
  unfold iblk3
  rw [View.read_apply, he]
  rfl

/-- The weight window's block at every point is the whole weight matrix. -/
theorem iblk_rhs_apply (c : Dev nD) (t : Fin cfg3.N) (x : S128x128.Idx) :
    (iblk3 V c 1 t : Vec Ideal S128x128 .f32) x = (V c (Pipeline.arrRef spec3 1) : S128x128.Idx → Elt Ideal .f32) x := by
  obtain ⟨-, -, h2, h3, -⟩ := idx_facts t
  have he : ((cfg3.win 1).blk t).view.emb x = x := by
    funext a
    apply Fin.ext
    match a with
    | ⟨0, _⟩ => show win3_1.index t 0 * 128 + 1 * (x 0).val = (x 0).val; rw [h2]; omega
    | ⟨1, _⟩ => show win3_1.index t 1 * 128 + 1 * (x 1).val = (x 1).val; rw [h3]; omega
  unfold iblk3
  rw [View.read_apply, he]
  rfl

/-- The body's product of a block of rows, read at (p, q): the whole product's entry at the row of the
    whole array that the block's row p is. -/
theorem pay_apply (x0 : Vec Ideal S4000x128 .f32) (x1 : Vec Ideal S128x128 .f32)
    (X : FVec Ideal ⟨2, ![100000, 128]⟩ .f32) (W : FVec Ideal ⟨2, ![128, 128]⟩ .f32) (p : Fin 4000) (q : Fin 128) (r : Fin 100000)
    (hx : ∀ k : Fin 128, x0 (ix2 p k) = X (ix2 r k)) (hw : ∀ k : Fin 128, x1 (ix2 k q) = W (ix2 k q)) :
    k3_pay1 x0 x1 (ix2 p q) = KSpec.mm 128 X W (ix2 r q) := by
  unfold k3_pay1
  simp only [shapeCast_self]
  exact Cert.Lib.RowBlocks.matmul_rows_eq_dotGeneral (M := 100000) (K := 128) (N := 128) (B := 4000) none none X W _ _ p r q hx hw

/-- WHAT POINT t WRITES BACK is block t of the whole product of the two arrays the region found. -/
theorem flushed_eq (c : Dev nD) (t : Fin cfg3.N) :
    (dat3 V c).flushed 2 t = ((cfg3.win 2).blk t).view.read (Elt Ideal)
      (KSpec.mm 128 (V c (Pipeline.arrRef spec3 0)) (V c (Pipeline.arrRef spec3 1))) := by
  obtain ⟨-, -, -, -, h4, h5⟩ := idx_facts t
  show (cfg3.win 2).cut (grid3.coords t) ((dat3 V c).after 2 t) = _
  rw [after3_2]
  unfold out3_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  have hr : 4000 * t.val + p.val < 100000 := by have := t.isLt; have : cfg3.N = 25 := rfl; have := p.isLt; omega
  have he : ((cfg3.win 2).blk t).view.emb (ix2 p q) = ix2 (⟨4000 * t.val + p.val, hr⟩ : Fin 100000) q := by
    funext a
    apply Fin.ext
    match a with
    | ⟨0, _⟩ => show win3_2.index t 0 * 4000 + 1 * p.val = 4000 * t.val + p.val; rw [h4]; omega
    | ⟨1, _⟩ => show win3_2.index t 1 * 128 + 1 * q.val = q.val; rw [h5]; omega
  rw [View.read_apply, he]
  exact (pay_apply _ _ (V c (Pipeline.arrRef spec3 0)) (V c (Pipeline.arrRef spec3 1)) p q ⟨4000 * t.val + p.val, hr⟩
    (fun k => iblk_lhs_apply V c t (ix2 p k) (ix2 ⟨4000 * t.val + p.val, hr⟩ k) rfl rfl)
    (fun k => iblk_rhs_apply V c t (ix2 k q)))

/-- An index of the output array is in point t's block iff its row is among that block's rows. -/
theorem mem_blk (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole (Pipeline.arrRef spec3 2)).slice (win3_2.rect t)).set ↔ _
  rw [View.set_slice_whole, Rect.mem_set_unit]
  exact Iff.rfl

/-- THE OUTPUT ARRAY after the region: the whole product of the arrays the region found. -/
theorem final (c : Dev nD) : (dat3 V c).arrAt 2 cfg3.N
    = KSpec.mm 128 (V c (Pipeline.arrRef spec3 0)) (V c (Pipeline.arrRef spec3 1)) :=
  (dat3 V c).arrAt_eq_of_cover 2 _ (fun t _ => flushed_eq V c t) fun i => by
    have hi0 : (i 0).val < 100000 := (i 0).isLt
    have hi1 : (i 1).val < 128 := (i 1).isLt
    have hN : cfg3.N = 25 := rfl
    refine ⟨⟨(i 0).val / 4000, by rw [hN]; omega⟩, flush3_2 _, ?_⟩
    rw [mem_blk]
    obtain ⟨-, -, -, -, h4, h5⟩ := idx_facts ⟨(i 0).val / 4000, by rw [hN]; omega⟩
    intro a
    match a with
    | ⟨0, _⟩ => show win3_2.index _ 0 * 4000 ≤ (i 0).val ∧ (i 0).val < win3_2.index _ 0 * 4000 + 4000; rw [h4]; show (i 0).val / 4000 * 4000 ≤ _ ∧ _ < (i 0).val / 4000 * 4000 + 4000; omega
    | ⟨1, _⟩ => show win3_2.index _ 1 * 128 ≤ (i 1).val ∧ (i 1).val < win3_2.index _ 1 * 128 + 128; rw [h5]; omega

end Cert.KernelIdeal.KReg3

end
-- ==== Proof.KReg4.lean ====
/-
  Region 4 of the idealized kernel program: the combine kernel at width 128, read through to the arrays it leaves.

  The region visits the 25 blocks of 4000 rows in order.  At block t it reads rows 4000 t … 4000 t + 3999 of the
  aggregate and of the feature product, the same rows of the self-weight column, and the bias row, and writes back
  the same rows of the convolution output  y (r, c) = (agg (r, c) + hw (r, c) · sn (r)) + b (c).  The 25 blocks cover
  the output, so output 4's array ends as the whole convolution output of the four arrays the region found.

  Outputs 5 and 6 are one row each, kept in place over the whole sweep and written back once, after block 24.  Block 0
  resets them to zero; block t then adds, at column c, the sum over the block's 4000 rows of y (resp. of y · y).  After
  block n the row therefore holds the sum of the first n + 1 blocks' sums (by induction on n: the extended reals under
  addition are a commutative monoid, with no finiteness needed), and after block 24 the sum over all 100000 rows,
  because every row lies in exactly one block.  So output 5's array ends as the column sums of the convolution output and
  output 6's as its column sums of squares.
-/
import proofs.«153408_j3753801416995_1_alg».proof.Proof.Gen.KernelIdeal.Frame
import proofs.«153408_j3753801416995_1_alg».proof.Proof.KPieces
import proofs.«153408_j3753801416995_1_alg».proof.Proof.KSpec
import proofs.«153408_j3753801416995_1_alg».proof.Proof.LibRows
import Idealize.ShloMosaic.Lib.Pipeline.Value
import Idealize.ShloMosaic.Lib.ValueIdx
import Idealize.ShloMosaic.PureOps.Ideal.Laws
import proofs.«153408_j3753801416995_1_alg».proof.Proof.LibSumBlocks

set_option maxRecDepth 16384

noncomputable section

namespace Cert.KernelIdeal.KReg4

open Cert.KernelIdeal Cert.KernelIdeal.Gen Cert.KernelIdeal.KPieces
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Cert.Lib.SumBlocks

variable (V : (c : Dev nD) → (b : Ref sig .tc) → Buf (Elt Ideal) ((c : Thread nD τ).loc b))

/-- A column [R, 1] broadcast along the columns of [R, C], read at (r, c), is the column at (r, 0). -/
theorem broadcastTo_col_apply {α : Type} {R C : Nat} (x : (⟨2, ![R, 1]⟩ : Shape).Idx → α)
    (h : (⟨2, ![R, 1]⟩ : Shape).Broadcasts ⟨2, ![R, C]⟩) (r : Fin R) (c : Fin C) :
    broadcastTo ⟨2, ![R, C]⟩ x h (ix2 r c) = x (ix2 r 0) :=
  broadcastTo_apply x h (ix2 r c) (ix2 r 0) (fun a => by
    match a with
    | ⟨0, _⟩ =>
      show r.val = if R = 1 then 0 else r.val
      by_cases hR : R = 1
      · rw [if_pos hR]; have := r.isLt; omega
      · rw [if_neg hR]
    | ⟨1, _⟩ => show (0 : Nat) = if (1 : Nat) = 1 then 0 else c.val; rw [if_pos rfl])

/-- The combined block at (p, q): the aggregate entry plus the product entry times the row's self weight, plus
    the bias of column q. -/
theorem pay3_apply (x0 x1 : FVec Ideal S4000x128 .f32) (x2 : FVec Ideal S4000x1 .f32) (x3 : FVec Ideal S1x128 .f32)
    (p : Fin 4000) (q : Fin 128) :
    k4_pay3 (F := Ideal) x0 x1 x2 x3 (ix2 p q)
      = FloatOps.addf (FloatOps.addf (x0 (ix2 p q)) (FloatOps.mulf (x1 (ix2 p q)) (x2 (ix2 p 0)))) (x3 (ix2 0 q)) := by
  unfold k4_pay3
  show FloatOps.addf (FloatOps.addf (shapeCast S4000x128 x0 _ (ix2 p q))
      (FloatOps.mulf (shapeCast S4000x128 x1 _ (ix2 p q)) (broadcastTo S4000x128 (shapeCast S4000x1 x2 _) _ (ix2 p q))))
      (broadcastTo S4000x128 (shapeCast S1x128 (shapeCast S1x128 x3 _) _) _ (ix2 p q)) = _
  refine congrArg₂ FloatOps.addf (congrArg₂ FloatOps.addf (congrFun (shapeCast_self x0 _) _)
    (congrArg₂ FloatOps.mulf (congrFun (shapeCast_self x1 _) _) ?_)) ?_
  · refine (broadcastTo_col_apply _ _ p q).trans ?_
    exact congrFun (shapeCast_self x2 _) _
  · refine (Cert.Lib.Rows.broadcastTo_row_apply _ _ p q).trans ?_
    refine (congrFun (shapeCast_self _ _) _).trans ?_
    exact congrFun (shapeCast_self x3 _) _

/-- A lane sum down the 4000 rows of a block, read at column q. -/
theorem colred_apply (src : FVec Ideal S4000x128 .f32) (h : S4000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ p : Fin 4000, src (ix2 p q) := by
  refine (Ideal.multiReduction_add_single src 0x00000000#32 h hφ hacc (ix1 q)).trans ?_
  refine Finset.sum_congr rfl fun p _ => congrArg src ?_
  funext a
  apply Fin.ext
  match a with
  | ⟨0, _⟩ => rfl
  | ⟨1, _⟩ => rfl

/-- The running column sums after one body: the accumulator's entry plus the column's sum over the block's rows. -/
theorem pay4_apply (x0 x1 : FVec Ideal S4000x128 .f32) (x2 : FVec Ideal S4000x1 .f32) (x3 acc : FVec Ideal S1x128 .f32)
    (q : Fin 128) :
    k4_pay4 (F := Ideal) x0 x1 x2 x3 acc (ix2 0 q)
      = FloatOps.addf (acc (ix2 0 q)) (∑ p : Fin 4000, k4_pay3 (F := Ideal) x0 x1 x2 x3 (ix2 p q)) := by
  unfold k4_pay4
  show FloatOps.addf (shapeCast S1x128 acc _ (ix2 0 q))
      (shapeCast S1x128 (multiReduction (F := Ideal) .add [0] S128 (k4_pay3 (F := Ideal) x0 x1 x2 x3) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The running column sums of squares after one body. -/
theorem pay5_apply (x0 x1 : FVec Ideal S4000x128 .f32) (x2 : FVec Ideal S4000x1 .f32) (x3 acc : FVec Ideal S1x128 .f32)
    (q : Fin 128) :
    k4_pay5 (F := Ideal) x0 x1 x2 x3 acc (ix2 0 q)
      = FloatOps.addf (acc (ix2 0 q)) (∑ p : Fin 4000, FloatOps.mulf (k4_pay3 (F := Ideal) x0 x1 x2 x3 (ix2 p q))
          (k4_pay3 (F := Ideal) x0 x1 x2 x3 (ix2 p q))) := by
  unfold k4_pay5
  show FloatOps.addf (shapeCast S1x128 acc _ (ix2 0 q))
      (shapeCast S1x128 (multiReduction (F := Ideal) .add [0] S128
        (mulf (k4_pay3 (F := Ideal) x0 x1 x2 x3) (k4_pay3 (F := Ideal) x0 x1 x2 x3)) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The zero rows the reset stores. -/
theorem pay1_apply (j : S1x128.Idx) : k4_pay1 (F := Ideal) j = 0 := Ideal.ofBits_zero_f32
theorem pay2_apply (j : S1x128.Idx) : k4_pay2 (F := Ideal) j = 0 := Ideal.ofBits_zero_f32

/-! ## The windows' blocks, read at an index -/

/-- The index maps over the grid: the three row-blocked inputs and output 4 move one block of 4000 rows per point;
    the bias row and the two running rows stay. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- The aggregate's block at point t is rows 4000 t … 4000 t + 3999 of its array. -/
theorem iblk_0_apply (c : Dev nD) (t : Fin cfg4.N) (x : S4000x128.Idx) (k : S100000x128.Idx)
    (hk0 : (k 0).val = 4000 * t.val + (x 0).val) (hk1 : (k 1).val = (x 1).val) :
    (iblk4 V c 0 t : Vec Ideal S4000x128 .f32) x = (V c (Pipeline.arrRef spec4 0) : S100000x128.Idx → Elt Ideal .f32) k := by
  obtain ⟨⟨h0, h1⟩, -⟩ := idx_facts t
  unfold iblk4
  rw [View.read_apply]
  refine congrArg (V c (Pipeline.arrRef spec4 0)) ?_
  funext a
  apply Fin.ext
  match a with
  | ⟨0, _⟩ => show win4_0.index t 0 * 4000 + 1 * (x 0).val = (k 0).val; rw [h0, hk0]; omega
  | ⟨1, _⟩ => show win4_0.index t 1 * 128 + 1 * (x 1).val = (k 1).val; rw [h1, hk1]; omega

/-- The product's block at point t is the same rows of its array. -/
theorem iblk_1_apply (c : Dev nD) (t : Fin cfg4.N) (x : S4000x128.Idx) (k : S100000x128.Idx)
    (hk0 : (k 0).val = 4000 * t.val + (x 0).val) (hk1 : (k 1).val = (x 1).val) :
    (iblk4 V c 1 t : Vec Ideal S4000x128 .f32) x = (V c (Pipeline.arrRef spec4 1) : S100000x128.Idx → Elt Ideal .f32) k := by
  obtain ⟨-, ⟨h0, h1⟩, -⟩ := idx_facts t
  unfold iblk4
  rw [View.read_apply]
  refine congrArg (V c (Pipeline.arrRef spec4 1)) ?_
  funext a
  apply Fin.ext
  match a with
  | ⟨0, _⟩ => show win4_1.index t 0 * 4000 + 1 * (x 0).val = (k 0).val; rw [h0, hk0]; omega
  | ⟨1, _⟩ => show win4_1.index t 1 * 128 + 1 * (x 1).val = (k 1).val; rw [h1, hk1]; omega

/-- The self weights' block at point t is the same rows of the weight column. -/
theorem iblk_2_apply (c : Dev nD) (t : Fin cfg4.N) (x : S4000x1.Idx) (k : S100000x1.Idx)
    (hk0 : (k 0).val = 4000 * t.val + (x 0).val) (hk1 : (k 1).val = (x 1).val) :
    (iblk4 V c 2 t : Vec Ideal S4000x1 .f32) x = (V c (Pipeline.arrRef spec4 2) : S100000x1.Idx → Elt Ideal .f32) k := by
  obtain ⟨-, -, ⟨h0, h1⟩, -⟩ := idx_facts t
  unfold iblk4
  rw [View.read_apply]
  refine congrArg (V c (Pipeline.arrRef spec4 2)) ?_
  funext a
  apply Fin.ext
  match a with
  | ⟨0, _⟩ => show win4_2.index t 0 * 4000 + 1 * (x 0).val = (k 0).val; rw [h0, hk0]; omega
  | ⟨1, _⟩ => show win4_2.index t 1 * 1 + 1 * (x 1).val = (k 1).val; rw [h1, hk1]; omega

/-- The bias row's block at every point is the whole row. -/
theorem iblk_3_apply (c : Dev nD) (t : Fin cfg4.N) (x : S1x128.Idx) (k : S1x128.Idx)
    (hk0 : (k 0).val = (x 0).val) (hk1 : (k 1).val = (x 1).val) :
    (iblk4 V c 3 t : Vec Ideal S1x128 .f32) x = (V c (Pipeline.arrRef spec4 3) : S1x128.Idx → Elt Ideal .f32) k := by
  obtain ⟨-, -, -, ⟨h0, h1⟩, -⟩ := idx_facts t
  unfold iblk4
  rw [View.read_apply]
  refine congrArg (V c (Pipeline.arrRef spec4 3)) ?_
  funext a
  apply Fin.ext
  match a with
  | ⟨0, _⟩ => show win4_3.index t 0 * 1 + 1 * (x 0).val = (k 0).val; rw [h0, hk0]; omega
  | ⟨1, _⟩ => show win4_3.index t 1 * 128 + 1 * (x 1).val = (k 1).val; rw [h1, hk1]; omega

/-- The convolution output of the four arrays the region found. -/
abbrev convOf (c : Dev nD) : FVec Ideal ⟨2, ![100000, 128]⟩ .f32 :=
  KSpec.conv 128 (V c (Pipeline.arrRef spec4 0)) (V c (Pipeline.arrRef spec4 1)) (V c (Pipeline.arrRef spec4 2))
    (V c (Pipeline.arrRef spec4 3))

/-- The combined block of point t at (p, q) is the convolution output at row 4000 t + p, column q. -/
theorem blk_conv (c : Dev nD) (t : Fin cfg4.N) (p : Fin 4000) (q : Fin 128) (hr : 4000 * t.val + p.val < 100000) :
    k4_pay3 (F := Ideal) (iblk4 V c 0 t) (iblk4 V c 1 t) (iblk4 V c 2 t) (iblk4 V c 3 t) (ix2 p q) = convOf V c (ix2 ⟨4000 * t.val + p.val, hr⟩ q) := by
  refine (pay3_apply _ _ _ _ p q).trans ?_
  exact congrArg₂ FloatOps.addf (congrArg₂ FloatOps.addf (iblk_0_apply V c t (ix2 p q) (ix2 ⟨4000 * t.val + p.val, hr⟩ q) rfl rfl)
    (congrArg₂ FloatOps.mulf (iblk_1_apply V c t (ix2 p q) (ix2 ⟨4000 * t.val + p.val, hr⟩ q) rfl rfl) (iblk_2_apply V c t (ix2 p 0) (ix2 ⟨4000 * t.val + p.val, hr⟩ 0) rfl rfl))) (iblk_3_apply V c t (ix2 0 q) (ix2 0 q) rfl rfl)

/-! ## What the outputs hold after each point -/

/-- Output 4 after point `t`, in either case: the point's combined block. -/
theorem outsAt4_fst (c : Dev nD) (t : Fin cfg4.N) :
    (outsAt4 V c t.val t.isLt).1 = k4_pay3 (iblk4 V c 0 t) (iblk4 V c 1 t) (iblk4 V c 2 t) (iblk4 V c 3 t) := by
  by_cases h0 : t.val % 25 = 0
  · rw [outsAt4_A V c t h0]
    dsimp only
    exact out4_A_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out4_B_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- Output 5 after a resetting point: the point's column sums added to the zero row. -/
theorem outsAt4_snd_A (c : Dev nD) (t : Fin cfg4.N) (h0 : t.val % 25 = 0) :
    (outsAt4 V c t.val t.isLt).2.1 = k4_pay4 (iblk4 V c 0 t) (iblk4 V c 1 t) (iblk4 V c 2 t) (iblk4 V c 3 t) (k4_pay1 (F := Ideal)) := by
  rw [outsAt4_A V c t h0]
  dsimp only
  exact out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)

/-- Output 5 after an accumulating point: the point's column sums added to what the point before left. -/
theorem outsAt4_snd_B (c : Dev nD) (t : Fin cfg4.N) (h0 : ¬t.val % 25 = 0) :
    (outsAt4 V c t.val t.isLt).2.1 = k4_pay4 (iblk4 V c 0 t) (iblk4 V c 1 t) (iblk4 V c 2 t) (iblk4 V c 3 t) (outsAt4 V c (t.val - 1) (Nat.lt_of_le_of_lt (Nat.sub_le _ _) t.isLt)).2.1 := by
  rw [outsAt4_B V c t h0]
  dsimp only
  exact out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- Output 6 after a resetting point: the point's column sums of squares added to the zero row. -/
theorem outsAt4_trd_A (c : Dev nD) (t : Fin cfg4.N) (h0 : t.val % 25 = 0) :
    (outsAt4 V c t.val t.isLt).2.2 = k4_pay5 (iblk4 V c 0 t) (iblk4 V c 1 t) (iblk4 V c 2 t) (iblk4 V c 3 t) (k4_pay2 (F := Ideal)) := by
  rw [outsAt4_A V c t h0]
  dsimp only
  exact out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)

/-- Output 6 after an accumulating point: the point's column sums of squares added to what the point before left. -/
theorem outsAt4_trd_B (c : Dev nD) (t : Fin cfg4.N) (h0 : ¬t.val % 25 = 0) :
    (outsAt4 V c t.val t.isLt).2.2 = k4_pay5 (iblk4 V c 0 t) (iblk4 V c 1 t) (iblk4 V c 2 t) (iblk4 V c 3 t) (outsAt4 V c (t.val - 1) (Nat.lt_of_le_of_lt (Nat.sub_le _ _) t.isLt)).2.2 := by
  rw [outsAt4_B V c t h0]
  dsimp only
  exact out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-! ## Output 4: every point writes back its block of the convolution output -/

theorem flushed_eq4 (c : Dev nD) (t : Fin cfg4.N) :
    (dat4 V c).flushed 4 t = ((cfg4.win 4).blk t).view.read (Elt Ideal) (convOf V c) := by
  obtain ⟨-, -, -, -, ⟨h4, h5⟩, -⟩ := idx_facts t
  show (cfg4.win 4).cut (grid4.coords t) ((dat4 V c).after 4 t) = _
  rw [after4_4, outsAt4_fst]
  funext j
  obtain ⟨p, q, rfl⟩ : ∃ (p : Fin 4000) (q : Fin 128), j = ix2 p q := ⟨j 0, j 1, eq_ix2 j⟩
  have hr : 4000 * t.val + p.val < 100000 := by have := t.isLt; have : cfg4.N = 25 := rfl; have := p.isLt; omega
  rw [View.read_apply]
  refine (blk_conv V c t p q hr).trans ?_
  congr 1
  funext a
  apply Fin.ext
  match a with
  | ⟨0, _⟩ => show 4000 * t.val + p.val = win4_4.index t 0 * 4000 + 1 * p.val; rw [h4]; omega
  | ⟨1, _⟩ => show q.val = win4_4.index t 1 * 128 + 1 * q.val; rw [h5]; omega

/-- An index of output 4's array is in point t's block iff its row is among that block's rows. -/
theorem mem_blk4 (t : Fin cfg4.N) (i : S100000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole (Pipeline.arrRef spec4 4)).slice (win4_4.rect t)).set ↔ _
  rw [View.set_slice_whole, Rect.mem_set_unit]
  exact Iff.rfl

/-- OUTPUT 4's ARRAY after the region: the convolution output of the arrays the region found. -/
theorem final4 (c : Dev nD) : (dat4 V c).arrAt 4 cfg4.N
    = KSpec.conv 128 (V c (Pipeline.arrRef spec4 0)) (V c (Pipeline.arrRef spec4 1)) (V c (Pipeline.arrRef spec4 2)) (V c (Pipeline.arrRef spec4 3)) :=
  (dat4 V c).arrAt_eq_of_cover 4 _ (fun t _ => flushed_eq4 V c t) fun i => by
    have hi0 : (i 0).val < 100000 := (i 0).isLt
    have hi1 : (i 1).val < 128 := (i 1).isLt
    have hN : cfg4.N = 25 := rfl
    refine ⟨⟨(i 0).val / 4000, by rw [hN]; omega⟩, flush4_4 _, ?_⟩
    rw [mem_blk4]
    obtain ⟨-, -, -, -, ⟨h4, h5⟩, -⟩ := idx_facts ⟨(i 0).val / 4000, by rw [hN]; omega⟩
    intro a
    match a with
    | ⟨0, _⟩ => show win4_4.index _ 0 * 4000 ≤ (i 0).val ∧ (i 0).val < win4_4.index _ 0 * 4000 + 4000; rw [h4]; show (i 0).val / 4000 * 4000 ≤ _ ∧ _ < (i 0).val / 4000 * 4000 + 4000; omega
    | ⟨1, _⟩ => show win4_4.index _ 1 * 128 ≤ (i 1).val ∧ (i 1).val < win4_4.index _ 1 * 128 + 128; rw [h5]; omega

/-! ## Outputs 5 and 6: the running rows, and their one write-back -/

/-- Column q of the convolution output, by row; and its squares. -/
abbrev colOf (c : Dev nD) (q : Fin 128) : Fin 100000 → EReal := fun r => convOf V c (ix2 r q)
abbrev colSqOf (c : Dev nD) (q : Fin 128) : Fin 100000 → EReal :=
  fun r => FloatOps.mulf (convOf V c (ix2 r q)) (convOf V c (ix2 r q))

/-- The column sum of point t's combined block is block t's part of the column's sum over all rows. -/
theorem blk_sum (c : Dev nD) (q : Fin 128) (t : Fin cfg4.N) :
    ∑ p : Fin 4000, k4_pay3 (F := Ideal) (iblk4 V c 0 t) (iblk4 V c 1 t) (iblk4 V c 2 t) (iblk4 V c 3 t) (ix2 p q) = blockSum (colOf V c q) t.val := by
  refine Eq.trans ?_ (blockSum_of_lt (colOf V c q) t.val t.isLt).symm
  exact Finset.sum_congr rfl fun p _ => blk_conv V c t p q _

theorem blk_sumsq (c : Dev nD) (q : Fin 128) (t : Fin cfg4.N) :
    ∑ p : Fin 4000, FloatOps.mulf (k4_pay3 (F := Ideal) (iblk4 V c 0 t) (iblk4 V c 1 t) (iblk4 V c 2 t) (iblk4 V c 3 t) (ix2 p q)) (k4_pay3 (F := Ideal) (iblk4 V c 0 t) (iblk4 V c 1 t) (iblk4 V c 2 t) (iblk4 V c 3 t) (ix2 p q))
      = blockSum (colSqOf V c q) t.val := by
  refine Eq.trans ?_ (blockSum_of_lt (colSqOf V c q) t.val t.isLt).symm
  exact Finset.sum_congr rfl fun p _ => congrArg₂ FloatOps.mulf (blk_conv V c t p q _) (blk_conv V c t p q _)

/-- The running column sums after point n, at column q: the sum of the blocks' sums up to block n — by induction on
    the point; the reset contributes the zero it stores, and addition of extended reals is taken as it comes (each
    point adds its block's sum on the right). -/
theorem acc5 (c : Dev nD) (q : Fin 128) : ∀ (n : ℕ) (h : n < cfg4.N),
    (outsAt4 V c n h).2.1 (ix2 0 q) = ∑ t ∈ Finset.range (n + 1), blockSum (colOf V c q) t
  | 0, h => by
    refine (congrFun (outsAt4_snd_A V c ⟨0, h⟩ (Nat.zero_mod _)) (ix2 0 q)).trans ?_
    refine (pay4_apply _ _ _ _ _ q).trans ?_
    refine Eq.trans ?_ (Finset.sum_range_one _).symm
    exact Eq.trans (congrArg₂ (fun a b : EReal => a + b) (pay1_apply _) (blk_sum V c q ⟨0, h⟩)) (zero_add _)
  | n + 1, h => by
    have hN : cfg4.N = 25 := rfl
    have hB : ¬(⟨n + 1, h⟩ : Fin cfg4.N).val % 25 = 0 := by dsimp only; omega
    refine (congrFun (outsAt4_snd_B V c ⟨n + 1, h⟩ hB) (ix2 0 q)).trans ?_
    refine (pay4_apply _ _ _ _ _ q).trans ?_
    refine Eq.trans ?_ (Finset.sum_range_succ _ _).symm
    exact congrArg₂ (fun a b : EReal => a + b) (acc5 c q n (Nat.lt_of_succ_lt h)) (blk_sum V c q ⟨n + 1, h⟩)

/-- The running column sums of squares after point n, at column q: the sum of the blocks' sums up to block n — by induction on
    the point; the reset contributes the zero it stores, and addition of extended reals is taken as it comes (each
    point adds its block's sum on the right). -/
theorem acc6 (c : Dev nD) (q : Fin 128) : ∀ (n : ℕ) (h : n < cfg4.N),
    (outsAt4 V c n h).2.2 (ix2 0 q) = ∑ t ∈ Finset.range (n + 1), blockSum (colSqOf V c q) t
  | 0, h => by
    refine (congrFun (outsAt4_trd_A V c ⟨0, h⟩ (Nat.zero_mod _)) (ix2 0 q)).trans ?_
    refine (pay5_apply _ _ _ _ _ q).trans ?_
    refine Eq.trans ?_ (Finset.sum_range_one _).symm
    exact Eq.trans (congrArg₂ (fun a b : EReal => a + b) (pay2_apply _) (blk_sumsq V c q ⟨0, h⟩)) (zero_add _)
  | n + 1, h => by
    have hN : cfg4.N = 25 := rfl
    have hB : ¬(⟨n + 1, h⟩ : Fin cfg4.N).val % 25 = 0 := by dsimp only; omega
    refine (congrFun (outsAt4_trd_B V c ⟨n + 1, h⟩ hB) (ix2 0 q)).trans ?_
    refine (pay5_apply _ _ _ _ _ q).trans ?_
    refine Eq.trans ?_ (Finset.sum_range_succ _ _).symm
    exact congrArg₂ (fun a b : EReal => a + b) (acc6 c q n (Nat.lt_of_succ_lt h)) (blk_sumsq V c q ⟨n + 1, h⟩)

/-- Output 5's one write-back, at the last point, writes the column sums of the convolution output. -/
theorem flushed_eq5 (c : Dev nD) (t : Fin cfg4.N) (hf : (cfg4.win 5).flush t = true) :
    (dat4 V c).flushed 5 t = ((cfg4.win 5).blk t).view.read (Elt Ideal) (KSpec.colsum 128 (convOf V c)) := by
  have hN : cfg4.N = 25 := rfl
  have h24 : t.val = 24 := by have := (flush4_5 t).mp hf; have := t.isLt; omega
  obtain ⟨-, -, -, -, -, ⟨h0, h1⟩, -⟩ := idx_facts t
  show (cfg4.win 5).cut (grid4.coords t) ((dat4 V c).after 5 t) = _
  rw [after4_5]
  funext j
  obtain ⟨p, q, rfl⟩ : ∃ (p : Fin 1) (q : Fin 128), j = ix2 p q := ⟨j 0, j 1, eq_ix2 j⟩
  obtain rfl : p = 0 := Subsingleton.elim _ _
  rw [View.read_apply]
  refine (acc5 V c q t.val t.isLt).trans ?_
  have e : ∑ s ∈ Finset.range (t.val + 1), blockSum (colOf V c q) s = ∑ r : Fin 100000, colOf V c q r := by
    rw [h24]; exact sum_range_blockSum _
  refine e.trans ?_
  show KSpec.colsum 128 (convOf V c) (ix2 0 q) = _
  congr 1
  funext a
  apply Fin.ext
  match a with
  | ⟨0, _⟩ => show 0 = win4_5.index t 0 * 1 + 1 * 0; rw [h0]
  | ⟨1, _⟩ => show q.val = win4_5.index t 1 * 128 + 1 * q.val; rw [h1]; omega

/-- Every index of output 5's one-row array is in the block of the last point. -/
theorem mem_blk5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole (Pipeline.arrRef spec4 5)).slice (win4_5.rect t)).set ↔ _
  rw [View.set_slice_whole, Rect.mem_set_unit]
  exact Iff.rfl

/-- OUTPUT 5's ARRAY after the region: the column sums of the convolution output. -/
theorem final5 (c : Dev nD) : (dat4 V c).arrAt 5 cfg4.N
    = KSpec.colsum 128 (KSpec.conv 128 (V c (Pipeline.arrRef spec4 0)) (V c (Pipeline.arrRef spec4 1)) (V c (Pipeline.arrRef spec4 2)) (V c (Pipeline.arrRef spec4 3))) :=
  (dat4 V c).arrAt_eq_of_cover 5 _ (flushed_eq5 V c) fun i => by
    have hi0 : (i 0).val < 1 := (i 0).isLt
    have hi1 : (i 1).val < 128 := (i 1).isLt
    have hN : cfg4.N = 25 := rfl
    refine ⟨⟨24, by rw [hN]; omega⟩, (flush4_5 _).mpr rfl, ?_⟩
    rw [mem_blk5]
    obtain ⟨-, -, -, -, -, ⟨h0, h1⟩, -⟩ := idx_facts ⟨24, by rw [hN]; omega⟩
    intro a
    match a with
    | ⟨0, _⟩ => show win4_5.index _ 0 * 1 ≤ (i 0).val ∧ (i 0).val < win4_5.index _ 0 * 1 + 1; rw [h0]; omega
    | ⟨1, _⟩ => show win4_5.index _ 1 * 128 ≤ (i 1).val ∧ (i 1).val < win4_5.index _ 1 * 128 + 128; rw [h1]; omega

/-- Output 6's one write-back, at the last point, writes the column sums of squares of the convolution output. -/
theorem flushed_eq6 (c : Dev nD) (t : Fin cfg4.N) (hf : (cfg4.win 6).flush t = true) :
    (dat4 V c).flushed 6 t = ((cfg4.win 6).blk t).view.read (Elt Ideal) (KSpec.colsumsq 128 (convOf V c)) := by
  have hN : cfg4.N = 25 := rfl
  have h24 : t.val = 24 := by have := (flush4_6 t).mp hf; have := t.isLt; omega
  obtain ⟨-, -, -, -, -, -, ⟨h0, h1⟩⟩ := idx_facts t
  show (cfg4.win 6).cut (grid4.coords t) ((dat4 V c).after 6 t) = _
  rw [after4_6]
  funext j
  obtain ⟨p, q, rfl⟩ : ∃ (p : Fin 1) (q : Fin 128), j = ix2 p q := ⟨j 0, j 1, eq_ix2 j⟩
  obtain rfl : p = 0 := Subsingleton.elim _ _
  rw [View.read_apply]
  refine (acc6 V c q t.val t.isLt).trans ?_
  have e : ∑ s ∈ Finset.range (t.val + 1), blockSum (colSqOf V c q) s = ∑ r : Fin 100000, colSqOf V c q r := by
    rw [h24]; exact sum_range_blockSum _
  refine e.trans ?_
  show KSpec.colsumsq 128 (convOf V c) (ix2 0 q) = _
  congr 1
  funext a
  apply Fin.ext
  match a with
  | ⟨0, _⟩ => show 0 = win4_6.index t 0 * 1 + 1 * 0; rw [h0]
  | ⟨1, _⟩ => show q.val = win4_6.index t 1 * 128 + 1 * q.val; rw [h1]; omega

/-- Every index of output 6's one-row array is in the block of the last point. -/
theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole (Pipeline.arrRef spec4 6)).slice (win4_6.rect t)).set ↔ _
  rw [View.set_slice_whole, Rect.mem_set_unit]
  exact Iff.rfl

/-- OUTPUT 6's ARRAY after the region: the column sums of squares of the convolution output. -/
theorem final6 (c : Dev nD) : (dat4 V c).arrAt 6 cfg4.N
    = KSpec.colsumsq 128 (KSpec.conv 128 (V c (Pipeline.arrRef spec4 0)) (V c (Pipeline.arrRef spec4 1)) (V c (Pipeline.arrRef spec4 2)) (V c (Pipeline.arrRef spec4 3))) :=
  (dat4 V c).arrAt_eq_of_cover 6 _ (flushed_eq6 V c) fun i => by
    have hi0 : (i 0).val < 1 := (i 0).isLt
    have hi1 : (i 1).val < 128 := (i 1).isLt
    have hN : cfg4.N = 25 := rfl
    refine ⟨⟨24, by rw [hN]; omega⟩, (flush4_6 _).mpr rfl, ?_⟩
    rw [mem_blk6]
    obtain ⟨-, -, -, -, -, -, ⟨h0, h1⟩⟩ := idx_facts ⟨24, by rw [hN]; omega⟩
    intro a
    match a with
    | ⟨0, _⟩ => show win4_6.index _ 0 * 1 ≤ (i 0).val ∧ (i 0).val < win4_6.index _ 0 * 1 + 1; rw [h0]; omega
    | ⟨1, _⟩ => show win4_6.index _ 1 * 128 ≤ (i 1).val ∧ (i 1).val < win4_6.index _ 1 * 128 + 128; rw [h1]; omega

end Cert.KernelIdeal.KReg4
-- ==== Proof.KReg5.lean ====
/-
  Region 5 of the idealized kernel program: batch normalisation and the clamp at zero, by blocks of 4000 rows.

  Grid point t takes rows 4000 t … 4000 t + 3999 of the convolution output and the four rows [1, 128] — mean,
  variance, scale, shift — and stores, at (p, c),  max ((x − mean_c) · (var_c + ε)^(−1/2) · g_c + be_c, 0).  Every
  operation is pointwise and the four rows are the same at every point, so the block is the restriction
  of one whole-array function, and the 25 blocks cover the output.
-/
import proofs.«153408_j3753801416995_1_alg».proof.Proof.Gen.KernelIdeal.Frame
import proofs.«153408_j3753801416995_1_alg».proof.Proof.KSpec
import proofs.«153408_j3753801416995_1_alg».proof.Proof.LibRows
import Idealize.ShloMosaic.Lib.Pipeline.Value

set_option maxRecDepth 16384

noncomputable section

namespace Cert.KernelIdeal.KReg5

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the data window and the output move one block of rows per point,
    the four row windows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The data window's block at point t is rows 4000 t … 4000 t + 3999 of its array. -/
theorem iblk_x_apply (c : Dev nD) (t : Fin cfg5.N) (x : S4000x128.Idx) (k : S100000x128.Idx)
    (hk0 : (k 0).val = 4000 * t.val + (x 0).val) (hk1 : (k 1).val = (x 1).val) :
    (iblk5 V c 0 t : Vec Ideal S4000x128 .f32) x = (V c (Pipeline.arrRef spec5 0) : S100000x128.Idx → Elt Ideal .f32) k := by
  obtain ⟨h0, h1, -⟩ := idx_facts t
  have he : ((cfg5.win 0).blk t).view.emb x = k := by
    funext a
    apply Fin.ext
    match a with
    | ⟨0, _⟩ => show win5_0.index t 0 * 4000 + 1 * (x 0).val = (k 0).val; rw [h0, hk0]; omega
    | ⟨1, _⟩ => show win5_0.index t 1 * 128 + 1 * (x 1).val = (k 1).val; rw [h1, hk1]; omega
  unfold iblk5
  rw [View.read_apply, he]
  rfl

/-- Row window 1's block at every point is its whole row. -/
theorem iblk_row1_apply (c : Dev nD) (t : Fin cfg5.N) (x : S1x128.Idx) :
    (iblk5 V c 1 t : Vec Ideal S1x128 .f32) x = (V c (Pipeline.arrRef spec5 1) : S1x128.Idx → Elt Ideal .f32) x := by
  have ha := (idx_facts t).2.2.1
  have hb := (idx_facts t).2.2.2.1
  have he : ((cfg5.win 1).blk t).view.emb x = x := by
    funext a
    apply Fin.ext
    match a with
    | ⟨0, _⟩ => show win5_1.index t 0 * 1 + 1 * (x 0).val = (x 0).val; rw [ha]; omega
    | ⟨1, _⟩ => show win5_1.index t 1 * 128 + 1 * (x 1).val = (x 1).val; rw [hb]; omega
  unfold iblk5
  rw [View.read_apply, he]
  rfl

/-- Row window 2's block at every point is its whole row. -/
theorem iblk_row2_apply (c : Dev nD) (t : Fin cfg5.N) (x : S1x128.Idx) :
    (iblk5 V c 2 t : Vec Ideal S1x128 .f32) x = (V c (Pipeline.arrRef spec5 2) : S1x128.Idx → Elt Ideal .f32) x := by
  have ha := (idx_facts t).2.2.2.2.1
  have hb := (idx_facts t).2.2.2.2.2.1
  have he : ((cfg5.win 2).blk t).view.emb x = x := by
    funext a
    apply Fin.ext
    match a with
    | ⟨0, _⟩ => show win5_2.index t 0 * 1 + 1 * (x 0).val = (x 0).val; rw [ha]; omega
    | ⟨1, _⟩ => show win5_2.index t 1 * 128 + 1 * (x 1).val = (x 1).val; rw [hb]; omega
  unfold iblk5
  rw [View.read_apply, he]
  rfl

/-- Row window 3's block at every point is its whole row. -/
theorem iblk_row3_apply (c : Dev nD) (t : Fin cfg5.N) (x : S1x128.Idx) :
    (iblk5 V c 3 t : Vec Ideal S1x128 .f32) x = (V c (Pipeline.arrRef spec5 3) : S1x128.Idx → Elt Ideal .f32) x := by
  have ha := (idx_facts t).2.2.2.2.2.2.1
  have hb := (idx_facts t).2.2.2.2.2.2.2.1
  have he : ((cfg5.win 3).blk t).view.emb x = x := by
    funext a
    apply Fin.ext
    match a with
    | ⟨0, _⟩ => show win5_3.index t 0 * 1 + 1 * (x 0).val = (x 0).val; rw [ha]; omega
    | ⟨1, _⟩ => show win5_3.index t 1 * 128 + 1 * (x 1).val = (x 1).val; rw [hb]; omega
  unfold iblk5
  rw [View.read_apply, he]
  rfl

/-- Row window 4's block at every point is its whole row. -/
theorem iblk_row4_apply (c : Dev nD) (t : Fin cfg5.N) (x : S1x128.Idx) :
    (iblk5 V c 4 t : Vec Ideal S1x128 .f32) x = (V c (Pipeline.arrRef spec5 4) : S1x128.Idx → Elt Ideal .f32) x := by
  have ha := (idx_facts t).2.2.2.2.2.2.2.2.1
  have hb := (idx_facts t).2.2.2.2.2.2.2.2.2.1
  have he : ((cfg5.win 4).blk t).view.emb x = x := by
    funext a
    apply Fin.ext
    match a with
    | ⟨0, _⟩ => show win5_4.index t 0 * 1 + 1 * (x 0).val = (x 0).val; rw [ha]; omega
    | ⟨1, _⟩ => show win5_4.index t 1 * 128 + 1 * (x 1).val = (x 1).val; rw [hb]; omega
  unfold iblk5
  rw [View.read_apply, he]
  rfl

/-- The body's payload read at (p, q): the pointwise formula over the block's entry and the four rows' entries of column q. -/
theorem pay_apply (x0 : Vec Ideal S4000x128 .f32) (x1 x2 x3 x4 : Vec Ideal S1x128 .f32) (p : Fin 4000) (q : Fin 128) :
    k5_pay1 x0 x1 x2 x3 x4 (ix2 p q)
      = FloatOps.maximumf
          (FloatOps.addf
            (FloatOps.mulf
              (FloatOps.mulf (FloatOps.subf (x0 (ix2 p q)) (x1 (ix2 0 q)))
                (FloatOps.rsqrt (FloatOps.addf (x2 (ix2 0 q)) (Scalar.ofBits (F := Ideal) .f32 0x3727C5AC#32))))
              (x3 (ix2 0 q)))
            (x4 (ix2 0 q)))
          (Scalar.ofBits (F := Ideal) .f32 0x00000000#32) := by
  unfold k5_pay1
  simp only [shapeCast_self]
  show FloatOps.maximumf (FloatOps.addf (FloatOps.mulf (FloatOps.mulf (FloatOps.subf (x0 (ix2 p q)) (broadcastTo S4000x128 x1 broadcasts_S1x128_S4000x128 (ix2 p q)))
      (broadcastTo S4000x128 (rsqrt (addf x2 (broadcast S1x128 (Scalar.ofBits (F := Ideal) .f32 0x3727C5AC#32)))) broadcasts_S1x128_S4000x128 (ix2 p q)))
      (broadcastTo S4000x128 x3 broadcasts_S1x128_S4000x128 (ix2 p q))) (broadcastTo S4000x128 x4 broadcasts_S1x128_S4000x128 (ix2 p q))) _ = _
  rw [Cert.Lib.Rows.broadcastTo_row_apply, Cert.Lib.Rows.broadcastTo_row_apply, Cert.Lib.Rows.broadcastTo_row_apply, Cert.Lib.Rows.broadcastTo_row_apply]
  rfl

/-- The payload at (p, q) is the whole-array function at (r, q), when the block's row p is row r of the data
    array and the four row blocks are the four rows. -/
theorem pay_spec (x0 : Vec Ideal S4000x128 .f32) (x1 x2 x3 x4 : Vec Ideal S1x128 .f32)
    (X : FVec Ideal ⟨2, ![100000, 128]⟩ .f32) (M Vr G B : FVec Ideal ⟨2, ![1, 128]⟩ .f32) (p : Fin 4000) (q : Fin 128) (r : Fin 100000)
    (hx : x0 (ix2 p q) = X (ix2 r q)) (h1 : x1 (ix2 0 q) = M (ix2 0 q)) (h2 : x2 (ix2 0 q) = Vr (ix2 0 q))
    (h3 : x3 (ix2 0 q) = G (ix2 0 q)) (h4 : x4 (ix2 0 q) = B (ix2 0 q)) :
    k5_pay1 x0 x1 x2 x3 x4 (ix2 p q) = KSpec.bnrelu 128 X M Vr G B (ix2 r q) := by
  rw [pay_apply, hx, h1, h2, h3, h4]
  rfl

set_option maxHeartbeats 1000000 in
/-- WHAT POINT t WRITES BACK is block t of the whole-array function of the five arrays the region found. -/
theorem flushed_eq (c : Dev nD) (t : Fin cfg5.N) :
    (dat5 V c).flushed 5 t = ((cfg5.win 5).blk t).view.read (Elt Ideal)
      (KSpec.bnrelu 128 (V c (Pipeline.arrRef spec5 0)) (V c (Pipeline.arrRef spec5 1)) (V c (Pipeline.arrRef spec5 2))
        (V c (Pipeline.arrRef spec5 3)) (V c (Pipeline.arrRef spec5 4))) := by
  have h10 := (idx_facts t).2.2.2.2.2.2.2.2.2.2.1
  have h11 := (idx_facts t).2.2.2.2.2.2.2.2.2.2.2
  show (cfg5.win 5).cut (grid5.coords t) ((dat5 V c).after 5 t) = _
  rw [after5_5]
  unfold out5_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  have hr : 4000 * t.val + p.val < 100000 := by have := t.isLt; have : cfg5.N = 25 := rfl; have := p.isLt; omega
  have he : ((cfg5.win 5).blk t).view.emb (ix2 p q) = ix2 (⟨4000 * t.val + p.val, hr⟩ : Fin 100000) q := by
    funext a
    apply Fin.ext
    match a with
    | ⟨0, _⟩ => show win5_5.index t 0 * 4000 + 1 * p.val = 4000 * t.val + p.val; rw [h10]; omega
    | ⟨1, _⟩ => show win5_5.index t 1 * 128 + 1 * q.val = q.val; rw [h11]; omega
  rw [View.read_apply, he]
  show k5_pay1 (iblk5 V c 0 t) (iblk5 V c 1 t) (iblk5 V c 2 t) (iblk5 V c 3 t) (iblk5 V c 4 t) (ix2 p q)
    = KSpec.bnrelu 128 (V c (Pipeline.arrRef spec5 0)) (V c (Pipeline.arrRef spec5 1)) (V c (Pipeline.arrRef spec5 2))
        (V c (Pipeline.arrRef spec5 3)) (V c (Pipeline.arrRef spec5 4)) (ix2 (⟨4000 * t.val + p.val, hr⟩ : Fin 100000) q)
  exact pay_spec (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) p q ⟨4000 * t.val + p.val, hr⟩
    (iblk_x_apply V c t (ix2 p q) (ix2 ⟨4000 * t.val + p.val, hr⟩ q) rfl rfl)
    (iblk_row1_apply V c t (ix2 0 q)) (iblk_row2_apply V c t (ix2 0 q)) (iblk_row3_apply V c t (ix2 0 q)) (iblk_row4_apply V c t (ix2 0 q))

/-- An index of the output array is in point t's block iff its row is among that block's rows. -/
theorem mem_blk (t : Fin cfg5.N) (i : S100000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole (Pipeline.arrRef spec5 5)).slice (win5_5.rect t)).set ↔ _
  rw [View.set_slice_whole, Rect.mem_set_unit]
  exact Iff.rfl

/-- THE OUTPUT ARRAY after the region. -/
theorem final (c : Dev nD) : (dat5 V c).arrAt 5 cfg5.N
    = KSpec.bnrelu 128 (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed_eq V c t) fun i => by
    have hi0 : (i 0).val < 100000 := (i 0).isLt
    have hi1 : (i 1).val < 128 := (i 1).isLt
    have hN : cfg5.N = 25 := rfl
    refine ⟨⟨(i 0).val / 4000, by rw [hN]; omega⟩, flush5_5 _, ?_⟩
    rw [mem_blk]
    have h10 := (idx_facts ⟨(i 0).val / 4000, by rw [hN]; omega⟩).2.2.2.2.2.2.2.2.2.2.1
    have h11 := (idx_facts ⟨(i 0).val / 4000, by rw [hN]; omega⟩).2.2.2.2.2.2.2.2.2.2.2
    intro a
    match a with
    | ⟨0, _⟩ => show win5_5.index _ 0 * 4000 ≤ (i 0).val ∧ (i 0).val < win5_5.index _ 0 * 4000 + 4000; rw [h10]; show (i 0).val / 4000 * 4000 ≤ _ ∧ _ < (i 0).val / 4000 * 4000 + 4000; omega
    | ⟨1, _⟩ => show win5_5.index _ 1 * 128 ≤ (i 1).val ∧ (i 1).val < win5_5.index _ 1 * 128 + 128; rw [h11]; omega

end Cert.KernelIdeal.KReg5

end
-- ==== Proof.KReg6.lean ====
/-
  Region 6 of the idealized kernel program: a feature product computed by blocks of 4000 rows.

  Grid point t multiplies rows 4000 t … 4000 t + 3999 of the left array by the whole weight matrix on the
  matrix unit, into a zero accumulator, and writes the block of products back to the same rows of the
  output.  At the ideal values the entry (p, c) of that block is the sum over k of left (4000 t + p, k) ·
  weight (k, c): the entry (4000 t + p, c) of the whole product.  The 25 blocks cover the output, so the
  output array after the region is the whole product of the two arrays the region found.
-/
import proofs.«153408_j3753801416995_1_alg».proof.Proof.Gen.KernelIdeal.Frame
import proofs.«153408_j3753801416995_1_alg».proof.Proof.KSpec
import proofs.«153408_j3753801416995_1_alg».proof.Proof.LibRowBlocks
import Idealize.ShloMosaic.Lib.Pipeline.Value

set_option maxRecDepth 16384

noncomputable section

namespace Cert.KernelIdeal.KReg6

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output move one block of rows per point,
    the weight window stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left window's block at point t is rows 4000 t … 4000 t + 3999 of its array. -/
theorem iblk_lhs_apply (c : Dev nD) (t : Fin cfg6.N) (x : S4000x128.Idx) (k : S100000x128.Idx)
    (hk0 : (k 0).val = 4000 * t.val + (x 0).val) (hk1 : (k 1).val = (x 1).val) :
    (iblk6 V c 0 t : Vec Ideal S4000x128 .f32) x = (V c (Pipeline.arrRef spec6 0) : S100000x128.Idx → Elt Ideal .f32) k := by
  obtain ⟨h0, h1, -⟩ := idx_facts t
  have he : ((cfg6.win 0).blk t).view.emb x = k := by
    funext a
    apply Fin.ext
    match a with
    | ⟨0, _⟩ => show win6_0.index t 0 * 4000 + 1 * (x 0).val = (k 0).val; rw [h0, hk0]; omega
    | ⟨1, _⟩ => show win6_0.index t 1 * 128 + 1 * (x 1).val = (k 1).val; rw [h1, hk1]; omega
  unfold iblk6
  rw [View.read_apply, he]
  rfl

/-- The weight window's block at every point is the whole weight matrix. -/
theorem iblk_rhs_apply (c : Dev nD) (t : Fin cfg6.N) (x : S128x64.Idx) :
    (iblk6 V c 1 t : Vec Ideal S128x64 .f32) x = (V c (Pipeline.arrRef spec6 1) : S128x64.Idx → Elt Ideal .f32) x := by
  obtain ⟨-, -, h2, h3, -⟩ := idx_facts t
  have he : ((cfg6.win 1).blk t).view.emb x = x := by
    funext a
    apply Fin.ext
    match a with
    | ⟨0, _⟩ => show win6_1.index t 0 * 128 + 1 * (x 0).val = (x 0).val; rw [h2]; omega
    | ⟨1, _⟩ => show win6_1.index t 1 * 64 + 1 * (x 1).val = (x 1).val; rw [h3]; omega
  unfold iblk6
  rw [View.read_apply, he]
  rfl

/-- The body's product of a block of rows, read at (p, q): the whole product's entry at the row of the
    whole array that the block's row p is. -/
theorem pay_apply (x0 : Vec Ideal S4000x128 .f32) (x1 : Vec Ideal S128x64 .f32)
    (X : FVec Ideal ⟨2, ![100000, 128]⟩ .f32) (W : FVec Ideal ⟨2, ![128, 64]⟩ .f32) (p : Fin 4000) (q : Fin 64) (r : Fin 100000)
    (hx : ∀ k : Fin 128, x0 (ix2 p k) = X (ix2 r k)) (hw : ∀ k : Fin 128, x1 (ix2 k q) = W (ix2 k q)) :
    k6_pay1 x0 x1 (ix2 p q) = KSpec.mm 64 X W (ix2 r q) := by
  unfold k6_pay1
  simp only [shapeCast_self]
  exact Cert.Lib.RowBlocks.matmul_rows_eq_dotGeneral (M := 100000) (K := 128) (N := 64) (B := 4000) none none X W _ _ p r q hx hw

/-- WHAT POINT t WRITES BACK is block t of the whole product of the two arrays the region found. -/
theorem flushed_eq (c : Dev nD) (t : Fin cfg6.N) :
    (dat6 V c).flushed 2 t = ((cfg6.win 2).blk t).view.read (Elt Ideal)
      (KSpec.mm 64 (V c (Pipeline.arrRef spec6 0)) (V c (Pipeline.arrRef spec6 1))) := by
  obtain ⟨-, -, -, -, h4, h5⟩ := idx_facts t
  show (cfg6.win 2).cut (grid6.coords t) ((dat6 V c).after 2 t) = _
  rw [after6_2]
  unfold out6_2
  rw [View.canon_unit_zero hz]
  simp only [View.ld_unit_zero (S := S4000x128) hz, View.ld_unit_zero (S := S128x64) hz]
  funext j
  obtain ⟨p, q, rfl⟩ : ∃ (p : Fin 4000) (q : Fin 64), j = ix2 p q := ⟨j 0, j 1, eq_ix2 j⟩
  have hr : 4000 * t.val + p.val < 100000 := by have := t.isLt; have : cfg6.N = 25 := rfl; have := p.isLt; omega
  have he : ((cfg6.win 2).blk t).view.emb (ix2 p q) = ix2 (⟨4000 * t.val + p.val, hr⟩ : Fin 100000) q := by
    funext a
    apply Fin.ext
    match a with
    | ⟨0, _⟩ => show win6_2.index t 0 * 4000 + 1 * p.val = 4000 * t.val + p.val; rw [h4]; omega
    | ⟨1, _⟩ => show win6_2.index t 1 * 64 + 1 * q.val = q.val; rw [h5]; omega
  rw [View.read_apply, he]
  exact (pay_apply _ _ (V c (Pipeline.arrRef spec6 0)) (V c (Pipeline.arrRef spec6 1)) p q ⟨4000 * t.val + p.val, hr⟩
    (fun k => iblk_lhs_apply V c t (ix2 p k) (ix2 ⟨4000 * t.val + p.val, hr⟩ k) rfl rfl)
    (fun k => iblk_rhs_apply V c t (ix2 k q)))

/-- An index of the output array is in point t's block iff its row is among that block's rows. -/
theorem mem_blk (t : Fin cfg6.N) (i : S100000x64.Idx) :
    i ∈ ((cfg6.win 2).blk t).view.set ↔ ∀ a : Fin 2, win6_2.index t a * S4000x64.size a ≤ (i a).val ∧ (i a).val < win6_2.index t a * S4000x64.size a + S4000x64.size a := by
  show i ∈ ((View.whole (Pipeline.arrRef spec6 2)).slice (win6_2.rect t)).set ↔ _
  rw [View.set_slice_whole, Rect.mem_set_unit]
  exact Iff.rfl

/-- THE OUTPUT ARRAY after the region: the whole product of the arrays the region found. -/
theorem final (c : Dev nD) : (dat6 V c).arrAt 2 cfg6.N
    = KSpec.mm 64 (V c (Pipeline.arrRef spec6 0)) (V c (Pipeline.arrRef spec6 1)) :=
  (dat6 V c).arrAt_eq_of_cover 2 _ (fun t _ => flushed_eq V c t) fun i => by
    have hi0 : (i 0).val < 100000 := (i 0).isLt
    have hi1 : (i 1).val < 64 := (i 1).isLt
    have hN : cfg6.N = 25 := rfl
    refine ⟨⟨(i 0).val / 4000, by rw [hN]; omega⟩, flush6_2 _, ?_⟩
    rw [mem_blk]
    obtain ⟨-, -, -, -, h4, h5⟩ := idx_facts ⟨(i 0).val / 4000, by rw [hN]; omega⟩
    intro a
    match a with
    | ⟨0, _⟩ => show win6_2.index _ 0 * 4000 ≤ (i 0).val ∧ (i 0).val < win6_2.index _ 0 * 4000 + 4000; rw [h4]; show (i 0).val / 4000 * 4000 ≤ _ ∧ _ < (i 0).val / 4000 * 4000 + 4000; omega
    | ⟨1, _⟩ => show win6_2.index _ 1 * 64 ≤ (i 1).val ∧ (i 1).val < win6_2.index _ 1 * 64 + 64; rw [h5]; omega

end Cert.KernelIdeal.KReg6

end
-- ==== Proof.KReg7.lean ====
/-
  Region 7 of the idealized kernel program: the combine kernel at width 64, read through to the arrays it leaves.

  The region visits the 25 blocks of 4000 rows in order.  At block t it reads rows 4000 t … 4000 t + 3999 of the
  aggregate and of the feature product, the same rows of the self-weight column, and the bias row, and writes back
  the same rows of the convolution output  y (r, c) = (agg (r, c) + hw (r, c) · sn (r)) + b (c).  The 25 blocks cover
  the output, so output 4's array ends as the whole convolution output of the four arrays the region found.

  Outputs 5 and 6 are one row each, kept in place over the whole sweep and written back once, after block 24.  Block 0
  resets them to zero; block t then adds, at column c, the sum over the block's 4000 rows of y (resp. of y · y).  After
  block n the row therefore holds the sum of the first n + 1 blocks' sums (by induction on n: the extended reals under
  addition are a commutative monoid, with no finiteness needed), and after block 24 the sum over all 100000 rows,
  because every row lies in exactly one block.  So output 5's array ends as the column sums of the convolution output and
  output 6's as its column sums of squares.
-/
import proofs.«153408_j3753801416995_1_alg».proof.Proof.Gen.KernelIdeal.Frame
import proofs.«153408_j3753801416995_1_alg».proof.Proof.KPieces
import proofs.«153408_j3753801416995_1_alg».proof.Proof.KSpec
import proofs.«153408_j3753801416995_1_alg».proof.Proof.LibRows
import Idealize.ShloMosaic.Lib.Pipeline.Value
import Idealize.ShloMosaic.Lib.ValueIdx
import Idealize.ShloMosaic.PureOps.Ideal.Laws
import proofs.«153408_j3753801416995_1_alg».proof.Proof.LibSumBlocks

set_option maxRecDepth 16384

noncomputable section

namespace Cert.KernelIdeal.KReg7

open Cert.KernelIdeal Cert.KernelIdeal.Gen Cert.KernelIdeal.KPieces
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Cert.Lib.SumBlocks

variable (V : (c : Dev nD) → (b : Ref sig .tc) → Buf (Elt Ideal) ((c : Thread nD τ).loc b))

/-- A column [R, 1] broadcast along the columns of [R, C], read at (r, c), is the column at (r, 0). -/
theorem broadcastTo_col_apply {α : Type} {R C : Nat} (x : (⟨2, ![R, 1]⟩ : Shape).Idx → α)
    (h : (⟨2, ![R, 1]⟩ : Shape).Broadcasts ⟨2, ![R, C]⟩) (r : Fin R) (c : Fin C) :
    broadcastTo ⟨2, ![R, C]⟩ x h (ix2 r c) = x (ix2 r 0) :=
  broadcastTo_apply x h (ix2 r c) (ix2 r 0) (fun a => by
    match a with
    | ⟨0, _⟩ =>
      show r.val = if R = 1 then 0 else r.val
      by_cases hR : R = 1
      · rw [if_pos hR]; have := r.isLt; omega
      · rw [if_neg hR]
    | ⟨1, _⟩ => show (0 : Nat) = if (1 : Nat) = 1 then 0 else c.val; rw [if_pos rfl])

/-- The combined block at (p, q): the aggregate entry plus the product entry times the row's self weight, plus
    the bias of column q. -/
theorem pay3_apply (x0 x1 : FVec Ideal S4000x64 .f32) (x2 : FVec Ideal S4000x1 .f32) (x3 : FVec Ideal S1x64 .f32)
    (p : Fin 4000) (q : Fin 64) :
    k7_pay3 (F := Ideal) x0 x1 x2 x3 (ix2 p q)
      = FloatOps.addf (FloatOps.addf (x0 (ix2 p q)) (FloatOps.mulf (x1 (ix2 p q)) (x2 (ix2 p 0)))) (x3 (ix2 0 q)) := by
  unfold k7_pay3
  show FloatOps.addf (FloatOps.addf (shapeCast S4000x64 x0 _ (ix2 p q))
      (FloatOps.mulf (shapeCast S4000x64 x1 _ (ix2 p q)) (broadcastTo S4000x64 (shapeCast S4000x1 x2 _) _ (ix2 p q))))
      (broadcastTo S4000x64 (shapeCast S1x64 (shapeCast S1x64 x3 _) _) _ (ix2 p q)) = _
  refine congrArg₂ FloatOps.addf (congrArg₂ FloatOps.addf (congrFun (shapeCast_self x0 _) _)
    (congrArg₂ FloatOps.mulf (congrFun (shapeCast_self x1 _) _) ?_)) ?_
  · refine (broadcastTo_col_apply _ _ p q).trans ?_
    exact congrFun (shapeCast_self x2 _) _
  · refine (Cert.Lib.Rows.broadcastTo_row_apply _ _ p q).trans ?_
    refine (congrFun (shapeCast_self _ _) _).trans ?_
    exact congrFun (shapeCast_self x3 _) _

/-- A lane sum down the 4000 rows of a block, read at column q. -/
theorem colred_apply (src : FVec Ideal S4000x64 .f32) (h : S4000x64.Reduces [0] S64) (hφ : FKind.Formats .f32)
    (hacc : (0x00000000#32 : BitVec 32) = FKind.add.neutral .f32 hφ) (q : Fin 64) :
    multiReduction (F := Ideal) .add [0] S64 src 0x00000000#32 h hφ hacc (ix1 q) = ∑ p : Fin 4000, src (ix2 p q) := by
  refine (Ideal.multiReduction_add_single src 0x00000000#32 h hφ hacc (ix1 q)).trans ?_
  refine Finset.sum_congr rfl fun p _ => congrArg src ?_
  funext a
  apply Fin.ext
  match a with
  | ⟨0, _⟩ => rfl
  | ⟨1, _⟩ => rfl

/-- The running column sums after one body: the accumulator's entry plus the column's sum over the block's rows. -/
theorem pay4_apply (x0 x1 : FVec Ideal S4000x64 .f32) (x2 : FVec Ideal S4000x1 .f32) (x3 acc : FVec Ideal S1x64 .f32)
    (q : Fin 64) :
    k7_pay4 (F := Ideal) x0 x1 x2 x3 acc (ix2 0 q)
      = FloatOps.addf (acc (ix2 0 q)) (∑ p : Fin 4000, k7_pay3 (F := Ideal) x0 x1 x2 x3 (ix2 p q)) := by
  unfold k7_pay4
  show FloatOps.addf (shapeCast S1x64 acc _ (ix2 0 q))
      (shapeCast S1x64 (multiReduction (F := Ideal) .add [0] S64 (k7_pay3 (F := Ideal) x0 x1 x2 x3) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The running column sums of squares after one body. -/
theorem pay5_apply (x0 x1 : FVec Ideal S4000x64 .f32) (x2 : FVec Ideal S4000x1 .f32) (x3 acc : FVec Ideal S1x64 .f32)
    (q : Fin 64) :
    k7_pay5 (F := Ideal) x0 x1 x2 x3 acc (ix2 0 q)
      = FloatOps.addf (acc (ix2 0 q)) (∑ p : Fin 4000, FloatOps.mulf (k7_pay3 (F := Ideal) x0 x1 x2 x3 (ix2 p q))
          (k7_pay3 (F := Ideal) x0 x1 x2 x3 (ix2 p q))) := by
  unfold k7_pay5
  show FloatOps.addf (shapeCast S1x64 acc _ (ix2 0 q))
      (shapeCast S1x64 (multiReduction (F := Ideal) .add [0] S64
        (mulf (k7_pay3 (F := Ideal) x0 x1 x2 x3) (k7_pay3 (F := Ideal) x0 x1 x2 x3)) 0x00000000#32 _ _ _) _ (ix2 0 q)) = _
  refine congrArg₂ FloatOps.addf (congrFun (shapeCast_self acc _) _) ?_
  refine (Cert.Lib.Rows.shapeCast_vec_row_apply _ _ q).trans ?_
  exact colred_apply _ _ _ _ q

/-- The zero rows the reset stores. -/
theorem pay1_apply (j : S1x64.Idx) : k7_pay1 (F := Ideal) j = 0 := Ideal.ofBits_zero_f32
theorem pay2_apply (j : S1x64.Idx) : k7_pay2 (F := Ideal) j = 0 := Ideal.ofBits_zero_f32

/-! ## The windows' blocks, read at an index -/

/-- The index maps over the grid: the three row-blocked inputs and output 4 move one block of 4000 rows per point;
    the bias row and the two running rows stay. -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = t.val ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0) :=
  (by decide +kernel : ∀ t : Fin grid7.N, _)

/-- The aggregate's block at point t is rows 4000 t … 4000 t + 3999 of its array. -/
theorem iblk_0_apply (c : Dev nD) (t : Fin cfg7.N) (x : S4000x64.Idx) (k : S100000x64.Idx)
    (hk0 : (k 0).val = 4000 * t.val + (x 0).val) (hk1 : (k 1).val = (x 1).val) :
    (iblk7 V c 0 t : Vec Ideal S4000x64 .f32) x = (V c (Pipeline.arrRef spec7 0) : S100000x64.Idx → Elt Ideal .f32) k := by
  obtain ⟨⟨h0, h1⟩, -⟩ := idx_facts t
  unfold iblk7
  rw [View.read_apply]
  refine congrArg (V c (Pipeline.arrRef spec7 0)) ?_
  funext a
  apply Fin.ext
  match a with
  | ⟨0, _⟩ => show win7_0.index t 0 * 4000 + 1 * (x 0).val = (k 0).val; rw [h0, hk0]; omega
  | ⟨1, _⟩ => show win7_0.index t 1 * 64 + 1 * (x 1).val = (k 1).val; rw [h1, hk1]; omega

/-- The product's block at point t is the same rows of its array. -/
theorem iblk_1_apply (c : Dev nD) (t : Fin cfg7.N) (x : S4000x64.Idx) (k : S100000x64.Idx)
    (hk0 : (k 0).val = 4000 * t.val + (x 0).val) (hk1 : (k 1).val = (x 1).val) :
    (iblk7 V c 1 t : Vec Ideal S4000x64 .f32) x = (V c (Pipeline.arrRef spec7 1) : S100000x64.Idx → Elt Ideal .f32) k := by
  obtain ⟨-, ⟨h0, h1⟩, -⟩ := idx_facts t
  unfold iblk7
  rw [View.read_apply]
  refine congrArg (V c (Pipeline.arrRef spec7 1)) ?_
  funext a
  apply Fin.ext
  match a with
  | ⟨0, _⟩ => show win7_1.index t 0 * 4000 + 1 * (x 0).val = (k 0).val; rw [h0, hk0]; omega
  | ⟨1, _⟩ => show win7_1.index t 1 * 64 + 1 * (x 1).val = (k 1).val; rw [h1, hk1]; omega

/-- The self weights' block at point t is the same rows of the weight column. -/
theorem iblk_2_apply (c : Dev nD) (t : Fin cfg7.N) (x : S4000x1.Idx) (k : S100000x1.Idx)
    (hk0 : (k 0).val = 4000 * t.val + (x 0).val) (hk1 : (k 1).val = (x 1).val) :
    (iblk7 V c 2 t : Vec Ideal S4000x1 .f32) x = (V c (Pipeline.arrRef spec7 2) : S100000x1.Idx → Elt Ideal .f32) k := by
  obtain ⟨-, -, ⟨h0, h1⟩, -⟩ := idx_facts t
  unfold iblk7
  rw [View.read_apply]
  refine congrArg (V c (Pipeline.arrRef spec7 2)) ?_
  funext a
  apply Fin.ext
  match a with
  | ⟨0, _⟩ => show win7_2.index t 0 * 4000 + 1 * (x 0).val = (k 0).val; rw [h0, hk0]; omega
  | ⟨1, _⟩ => show win7_2.index t 1 * 1 + 1 * (x 1).val = (k 1).val; rw [h1, hk1]; omega

/-- The bias row's block at every point is the whole row. -/
theorem iblk_3_apply (c : Dev nD) (t : Fin cfg7.N) (x : S1x64.Idx) (k : S1x64.Idx)
    (hk0 : (k 0).val = (x 0).val) (hk1 : (k 1).val = (x 1).val) :
    (iblk7 V c 3 t : Vec Ideal S1x64 .f32) x = (V c (Pipeline.arrRef spec7 3) : S1x64.Idx → Elt Ideal .f32) k := by
  obtain ⟨-, -, -, ⟨h0, h1⟩, -⟩ := idx_facts t
  unfold iblk7
  rw [View.read_apply]
  refine congrArg (V c (Pipeline.arrRef spec7 3)) ?_
  funext a
  apply Fin.ext
  match a with
  | ⟨0, _⟩ => show win7_3.index t 0 * 1 + 1 * (x 0).val = (k 0).val; rw [h0, hk0]; omega
  | ⟨1, _⟩ => show win7_3.index t 1 * 64 + 1 * (x 1).val = (k 1).val; rw [h1, hk1]; omega

/-- The convolution output of the four arrays the region found. -/
abbrev convOf (c : Dev nD) : FVec Ideal ⟨2, ![100000, 64]⟩ .f32 :=
  KSpec.conv 64 (V c (Pipeline.arrRef spec7 0)) (V c (Pipeline.arrRef spec7 1)) (V c (Pipeline.arrRef spec7 2))
    (V c (Pipeline.arrRef spec7 3))

/-- The combined block of point t at (p, q) is the convolution output at row 4000 t + p, column q. -/
theorem blk_conv (c : Dev nD) (t : Fin cfg7.N) (p : Fin 4000) (q : Fin 64) (hr : 4000 * t.val + p.val < 100000) :
    k7_pay3 (F := Ideal) (iblk7 V c 0 t) (iblk7 V c 1 t) (iblk7 V c 2 t) (iblk7 V c 3 t) (ix2 p q) = convOf V c (ix2 ⟨4000 * t.val + p.val, hr⟩ q) := by
  refine (pay3_apply _ _ _ _ p q).trans ?_
  exact congrArg₂ FloatOps.addf (congrArg₂ FloatOps.addf (iblk_0_apply V c t (ix2 p q) (ix2 ⟨4000 * t.val + p.val, hr⟩ q) rfl rfl)
    (congrArg₂ FloatOps.mulf (iblk_1_apply V c t (ix2 p q) (ix2 ⟨4000 * t.val + p.val, hr⟩ q) rfl rfl) (iblk_2_apply V c t (ix2 p 0) (ix2 ⟨4000 * t.val + p.val, hr⟩ 0) rfl rfl))) (iblk_3_apply V c t (ix2 0 q) (ix2 0 q) rfl rfl)

/-! ## What the outputs hold after each point -/

/-- Output 4 after point `t`, in either case: the point's combined block. -/
theorem outsAt7_fst (c : Dev nD) (t : Fin cfg7.N) :
    (outsAt7 V c t.val t.isLt).1 = k7_pay3 (iblk7 V c 0 t) (iblk7 V c 1 t) (iblk7 V c 2 t) (iblk7 V c 3 t) := by
  by_cases h0 : t.val % 25 = 0
  · rw [outsAt7_A V c t h0]
    dsimp only
    exact out7_A_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) ((hcond7_0 t).mpr h0) (iblk7 V c 0 t) (iblk7 V c 1 t) (iblk7 V c 2 t) (iblk7 V c 3 t)
  · rw [outsAt7_B V c t h0]
    dsimp only
    exact out7_B_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (fun h => h0 ((hcond7_0 t).mp h)) (iblk7 V c 0 t) (iblk7 V c 1 t) (iblk7 V c 2 t) (iblk7 V c 3 t) (outsAt7 V c (t.val - 1) (Nat.lt_of_le_of_lt (Nat.sub_le _ _) t.isLt)).2.1 (outsAt7 V c (t.val - 1) (Nat.lt_of_le_of_lt (Nat.sub_le _ _) t.isLt)).2.2

/-- Output 5 after a resetting point: the point's column sums added to the zero row. -/
theorem outsAt7_snd_A (c : Dev nD) (t : Fin cfg7.N) (h0 : t.val % 25 = 0) :
    (outsAt7 V c t.val t.isLt).2.1 = k7_pay4 (iblk7 V c 0 t) (iblk7 V c 1 t) (iblk7 V c 2 t) (iblk7 V c 3 t) (k7_pay1 (F := Ideal)) := by
  rw [outsAt7_A V c t h0]
  dsimp only
  exact out7_A_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) ((hcond7_0 t).mpr h0) (iblk7 V c 0 t) (iblk7 V c 1 t) (iblk7 V c 2 t) (iblk7 V c 3 t)

/-- Output 5 after an accumulating point: the point's column sums added to what the point before left. -/
theorem outsAt7_snd_B (c : Dev nD) (t : Fin cfg7.N) (h0 : ¬t.val % 25 = 0) :
    (outsAt7 V c t.val t.isLt).2.1 = k7_pay4 (iblk7 V c 0 t) (iblk7 V c 1 t) (iblk7 V c 2 t) (iblk7 V c 3 t) (outsAt7 V c (t.val - 1) (Nat.lt_of_le_of_lt (Nat.sub_le _ _) t.isLt)).2.1 := by
  rw [outsAt7_B V c t h0]
  dsimp only
  exact out7_B_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (fun h => h0 ((hcond7_0 t).mp h)) (iblk7 V c 0 t) (iblk7 V c 1 t) (iblk7 V c 2 t) (iblk7 V c 3 t) (outsAt7 V c (t.val - 1) (Nat.lt_of_le_of_lt (Nat.sub_le _ _) t.isLt)).2.1 (outsAt7 V c (t.val - 1) (Nat.lt_of_le_of_lt (Nat.sub_le _ _) t.isLt)).2.2

/-- Output 6 after a resetting point: the point's column sums of squares added to the zero row. -/
theorem outsAt7_trd_A (c : Dev nD) (t : Fin cfg7.N) (h0 : t.val % 25 = 0) :
    (outsAt7 V c t.val t.isLt).2.2 = k7_pay5 (iblk7 V c 0 t) (iblk7 V c 1 t) (iblk7 V c 2 t) (iblk7 V c 3 t) (k7_pay2 (F := Ideal)) := by
  rw [outsAt7_A V c t h0]
  dsimp only
  exact out7_A_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) ((hcond7_0 t).mpr h0) (iblk7 V c 0 t) (iblk7 V c 1 t) (iblk7 V c 2 t) (iblk7 V c 3 t)

/-- Output 6 after an accumulating point: the point's column sums of squares added to what the point before left. -/
theorem outsAt7_trd_B (c : Dev nD) (t : Fin cfg7.N) (h0 : ¬t.val % 25 = 0) :
    (outsAt7 V c t.val t.isLt).2.2 = k7_pay5 (iblk7 V c 0 t) (iblk7 V c 1 t) (iblk7 V c 2 t) (iblk7 V c 3 t) (outsAt7 V c (t.val - 1) (Nat.lt_of_le_of_lt (Nat.sub_le _ _) t.isLt)).2.2 := by
  rw [outsAt7_B V c t h0]
  dsimp only
  exact out7_B_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (fun h => h0 ((hcond7_0 t).mp h)) (iblk7 V c 0 t) (iblk7 V c 1 t) (iblk7 V c 2 t) (iblk7 V c 3 t) (outsAt7 V c (t.val - 1) (Nat.lt_of_le_of_lt (Nat.sub_le _ _) t.isLt)).2.1 (outsAt7 V c (t.val - 1) (Nat.lt_of_le_of_lt (Nat.sub_le _ _) t.isLt)).2.2

/-! ## Output 4: every point writes back its block of the convolution output -/

theorem flushed_eq4 (c : Dev nD) (t : Fin cfg7.N) :
    (dat7 V c).flushed 4 t = ((cfg7.win 4).blk t).view.read (Elt Ideal) (convOf V c) := by
  obtain ⟨-, -, -, -, ⟨h4, h5⟩, -⟩ := idx_facts t
  show (cfg7.win 4).cut (grid7.coords t) ((dat7 V c).after 4 t) = _
  rw [after7_4, outsAt7_fst]
  funext j
  obtain ⟨p, q, rfl⟩ : ∃ (p : Fin 4000) (q : Fin 64), j = ix2 p q := ⟨j 0, j 1, eq_ix2 j⟩
  have hr : 4000 * t.val + p.val < 100000 := by have := t.isLt; have : cfg7.N = 25 := rfl; have := p.isLt; omega
  rw [View.read_apply]
  refine (blk_conv V c t p q hr).trans ?_
  congr 1
  funext a
  apply Fin.ext
  match a with
  | ⟨0, _⟩ => show 4000 * t.val + p.val = win7_4.index t 0 * 4000 + 1 * p.val; rw [h4]; omega
  | ⟨1, _⟩ => show q.val = win7_4.index t 1 * 64 + 1 * q.val; rw [h5]; omega

/-- An index of output 4's array is in point t's block iff its row is among that block's rows. -/
theorem mem_blk4 (t : Fin cfg7.N) (i : S100000x64.Idx) :
    i ∈ ((cfg7.win 4).blk t).view.set ↔ ∀ a : Fin 2, win7_4.index t a * S4000x64.size a ≤ (i a).val ∧ (i a).val < win7_4.index t a * S4000x64.size a + S4000x64.size a := by
  show i ∈ ((View.whole (Pipeline.arrRef spec7 4)).slice (win7_4.rect t)).set ↔ _
  rw [View.set_slice_whole, Rect.mem_set_unit]
  exact Iff.rfl

/-- OUTPUT 4's ARRAY after the region: the convolution output of the arrays the region found. -/
theorem final4 (c : Dev nD) : (dat7 V c).arrAt 4 cfg7.N
    = KSpec.conv 64 (V c (Pipeline.arrRef spec7 0)) (V c (Pipeline.arrRef spec7 1)) (V c (Pipeline.arrRef spec7 2)) (V c (Pipeline.arrRef spec7 3)) :=
  (dat7 V c).arrAt_eq_of_cover 4 _ (fun t _ => flushed_eq4 V c t) fun i => by
    have hi0 : (i 0).val < 100000 := (i 0).isLt
    have hi1 : (i 1).val < 64 := (i 1).isLt
    have hN : cfg7.N = 25 := rfl
    refine ⟨⟨(i 0).val / 4000, by rw [hN]; omega⟩, flush7_4 _, ?_⟩
    rw [mem_blk4]
    obtain ⟨-, -, -, -, ⟨h4, h5⟩, -⟩ := idx_facts ⟨(i 0).val / 4000, by rw [hN]; omega⟩
    intro a
    match a with
    | ⟨0, _⟩ => show win7_4.index _ 0 * 4000 ≤ (i 0).val ∧ (i 0).val < win7_4.index _ 0 * 4000 + 4000; rw [h4]; show (i 0).val / 4000 * 4000 ≤ _ ∧ _ < (i 0).val / 4000 * 4000 + 4000; omega
    | ⟨1, _⟩ => show win7_4.index _ 1 * 64 ≤ (i 1).val ∧ (i 1).val < win7_4.index _ 1 * 64 + 64; rw [h5]; omega

/-! ## Outputs 5 and 6: the running rows, and their one write-back -/

/-- Column q of the convolution output, by row; and its squares. -/
abbrev colOf (c : Dev nD) (q : Fin 64) : Fin 100000 → EReal := fun r => convOf V c (ix2 r q)
abbrev colSqOf (c : Dev nD) (q : Fin 64) : Fin 100000 → EReal :=
  fun r => FloatOps.mulf (convOf V c (ix2 r q)) (convOf V c (ix2 r q))

/-- The column sum of point t's combined block is block t's part of the column's sum over all rows. -/
theorem blk_sum (c : Dev nD) (q : Fin 64) (t : Fin cfg7.N) :
    ∑ p : Fin 4000, k7_pay3 (F := Ideal) (iblk7 V c 0 t) (iblk7 V c 1 t) (iblk7 V c 2 t) (iblk7 V c 3 t) (ix2 p q) = blockSum (colOf V c q) t.val := by
  refine Eq.trans ?_ (blockSum_of_lt (colOf V c q) t.val t.isLt).symm
  exact Finset.sum_congr rfl fun p _ => blk_conv V c t p q _

theorem blk_sumsq (c : Dev nD) (q : Fin 64) (t : Fin cfg7.N) :
    ∑ p : Fin 4000, FloatOps.mulf (k7_pay3 (F := Ideal) (iblk7 V c 0 t) (iblk7 V c 1 t) (iblk7 V c 2 t) (iblk7 V c 3 t) (ix2 p q)) (k7_pay3 (F := Ideal) (iblk7 V c 0 t) (iblk7 V c 1 t) (iblk7 V c 2 t) (iblk7 V c 3 t) (ix2 p q))
      = blockSum (colSqOf V c q) t.val := by
  refine Eq.trans ?_ (blockSum_of_lt (colSqOf V c q) t.val t.isLt).symm
  exact Finset.sum_congr rfl fun p _ => congrArg₂ FloatOps.mulf (blk_conv V c t p q _) (blk_conv V c t p q _)

/-- The running column sums after point n, at column q: the sum of the blocks' sums up to block n — by induction on
    the point; the reset contributes the zero it stores, and addition of extended reals is taken as it comes (each
    point adds its block's sum on the right). -/
theorem acc5 (c : Dev nD) (q : Fin 64) : ∀ (n : ℕ) (h : n < cfg7.N),
    (outsAt7 V c n h).2.1 (ix2 0 q) = ∑ t ∈ Finset.range (n + 1), blockSum (colOf V c q) t
  | 0, h => by
    refine (congrFun (outsAt7_snd_A V c ⟨0, h⟩ (Nat.zero_mod _)) (ix2 0 q)).trans ?_
    refine (pay4_apply _ _ _ _ _ q).trans ?_
    refine Eq.trans ?_ (Finset.sum_range_one _).symm
    exact Eq.trans (congrArg₂ (fun a b : EReal => a + b) (pay1_apply _) (blk_sum V c q ⟨0, h⟩)) (zero_add _)
  | n + 1, h => by
    have hN : cfg7.N = 25 := rfl
    have hB : ¬(⟨n + 1, h⟩ : Fin cfg7.N).val % 25 = 0 := by dsimp only; omega
    refine (congrFun (outsAt7_snd_B V c ⟨n + 1, h⟩ hB) (ix2 0 q)).trans ?_
    refine (pay4_apply _ _ _ _ _ q).trans ?_
    refine Eq.trans ?_ (Finset.sum_range_succ _ _).symm
    exact congrArg₂ (fun a b : EReal => a + b) (acc5 c q n (Nat.lt_of_succ_lt h)) (blk_sum V c q ⟨n + 1, h⟩)

/-- The running column sums of squares after point n, at column q: the sum of the blocks' sums up to block n — by induction on
    the point; the reset contributes the zero it stores, and addition of extended reals is taken as it comes (each
    point adds its block's sum on the right). -/
theorem acc6 (c : Dev nD) (q : Fin 64) : ∀ (n : ℕ) (h : n < cfg7.N),
    (outsAt7 V c n h).2.2 (ix2 0 q) = ∑ t ∈ Finset.range (n + 1), blockSum (colSqOf V c q) t
  | 0, h => by
    refine (congrFun (outsAt7_trd_A V c ⟨0, h⟩ (Nat.zero_mod _)) (ix2 0 q)).trans ?_
    refine (pay5_apply _ _ _ _ _ q).trans ?_
    refine Eq.trans ?_ (Finset.sum_range_one _).symm
    exact Eq.trans (congrArg₂ (fun a b : EReal => a + b) (pay2_apply _) (blk_sumsq V c q ⟨0, h⟩)) (zero_add _)
  | n + 1, h => by
    have hN : cfg7.N = 25 := rfl
    have hB : ¬(⟨n + 1, h⟩ : Fin cfg7.N).val % 25 = 0 := by dsimp only; omega
    refine (congrFun (outsAt7_trd_B V c ⟨n + 1, h⟩ hB) (ix2 0 q)).trans ?_
    refine (pay5_apply _ _ _ _ _ q).trans ?_
    refine Eq.trans ?_ (Finset.sum_range_succ _ _).symm
    exact congrArg₂ (fun a b : EReal => a + b) (acc6 c q n (Nat.lt_of_succ_lt h)) (blk_sumsq V c q ⟨n + 1, h⟩)

/-- Output 5's one write-back, at the last point, writes the column sums of the convolution output. -/
theorem flushed_eq5 (c : Dev nD) (t : Fin cfg7.N) (hf : (cfg7.win 5).flush t = true) :
    (dat7 V c).flushed 5 t = ((cfg7.win 5).blk t).view.read (Elt Ideal) (KSpec.colsum 64 (convOf V c)) := by
  have hN : cfg7.N = 25 := rfl
  have h24 : t.val = 24 := by have := (flush7_5 t).mp hf; have := t.isLt; omega
  obtain ⟨-, -, -, -, -, ⟨h0, h1⟩, -⟩ := idx_facts t
  show (cfg7.win 5).cut (grid7.coords t) ((dat7 V c).after 5 t) = _
  rw [after7_5]
  funext j
  obtain ⟨p, q, rfl⟩ : ∃ (p : Fin 1) (q : Fin 64), j = ix2 p q := ⟨j 0, j 1, eq_ix2 j⟩
  obtain rfl : p = 0 := Subsingleton.elim _ _
  rw [View.read_apply]
  refine (acc5 V c q t.val t.isLt).trans ?_
  have e : ∑ s ∈ Finset.range (t.val + 1), blockSum (colOf V c q) s = ∑ r : Fin 100000, colOf V c q r := by
    rw [h24]; exact sum_range_blockSum _
  refine e.trans ?_
  show KSpec.colsum 64 (convOf V c) (ix2 0 q) = _
  congr 1
  funext a
  apply Fin.ext
  match a with
  | ⟨0, _⟩ => show 0 = win7_5.index t 0 * 1 + 1 * 0; rw [h0]
  | ⟨1, _⟩ => show q.val = win7_5.index t 1 * 64 + 1 * q.val; rw [h1]; omega

/-- Every index of output 5's one-row array is in the block of the last point. -/
theorem mem_blk5 (t : Fin cfg7.N) (i : S1x64.Idx) :
    i ∈ ((cfg7.win 5).blk t).view.set ↔ ∀ a : Fin 2, win7_5.index t a * S1x64.size a ≤ (i a).val ∧ (i a).val < win7_5.index t a * S1x64.size a + S1x64.size a := by
  show i ∈ ((View.whole (Pipeline.arrRef spec7 5)).slice (win7_5.rect t)).set ↔ _
  rw [View.set_slice_whole, Rect.mem_set_unit]
  exact Iff.rfl

/-- OUTPUT 5's ARRAY after the region: the column sums of the convolution output. -/
theorem final5 (c : Dev nD) : (dat7 V c).arrAt 5 cfg7.N
    = KSpec.colsum 64 (KSpec.conv 64 (V c (Pipeline.arrRef spec7 0)) (V c (Pipeline.arrRef spec7 1)) (V c (Pipeline.arrRef spec7 2)) (V c (Pipeline.arrRef spec7 3))) :=
  (dat7 V c).arrAt_eq_of_cover 5 _ (flushed_eq5 V c) fun i => by
    have hi0 : (i 0).val < 1 := (i 0).isLt
    have hi1 : (i 1).val < 64 := (i 1).isLt
    have hN : cfg7.N = 25 := rfl
    refine ⟨⟨24, by rw [hN]; omega⟩, (flush7_5 _).mpr rfl, ?_⟩
    rw [mem_blk5]
    obtain ⟨-, -, -, -, -, ⟨h0, h1⟩, -⟩ := idx_facts ⟨24, by rw [hN]; omega⟩
    intro a
    match a with
    | ⟨0, _⟩ => show win7_5.index _ 0 * 1 ≤ (i 0).val ∧ (i 0).val < win7_5.index _ 0 * 1 + 1; rw [h0]; omega
    | ⟨1, _⟩ => show win7_5.index _ 1 * 64 ≤ (i 1).val ∧ (i 1).val < win7_5.index _ 1 * 64 + 64; rw [h1]; omega

/-- Output 6's one write-back, at the last point, writes the column sums of squares of the convolution output. -/
theorem flushed_eq6 (c : Dev nD) (t : Fin cfg7.N) (hf : (cfg7.win 6).flush t = true) :
    (dat7 V c).flushed 6 t = ((cfg7.win 6).blk t).view.read (Elt Ideal) (KSpec.colsumsq 64 (convOf V c)) := by
  have hN : cfg7.N = 25 := rfl
  have h24 : t.val = 24 := by have := (flush7_6 t).mp hf; have := t.isLt; omega
  obtain ⟨-, -, -, -, -, -, ⟨h0, h1⟩⟩ := idx_facts t
  show (cfg7.win 6).cut (grid7.coords t) ((dat7 V c).after 6 t) = _
  rw [after7_6]
  funext j
  obtain ⟨p, q, rfl⟩ : ∃ (p : Fin 1) (q : Fin 64), j = ix2 p q := ⟨j 0, j 1, eq_ix2 j⟩
  obtain rfl : p = 0 := Subsingleton.elim _ _
  rw [View.read_apply]
  refine (acc6 V c q t.val t.isLt).trans ?_
  have e : ∑ s ∈ Finset.range (t.val + 1), blockSum (colSqOf V c q) s = ∑ r : Fin 100000, colSqOf V c q r := by
    rw [h24]; exact sum_range_blockSum _
  refine e.trans ?_
  show KSpec.colsumsq 64 (convOf V c) (ix2 0 q) = _
  congr 1
  funext a
  apply Fin.ext
  match a with
  | ⟨0, _⟩ => show 0 = win7_6.index t 0 * 1 + 1 * 0; rw [h0]
  | ⟨1, _⟩ => show q.val = win7_6.index t 1 * 64 + 1 * q.val; rw [h1]; omega

/-- Every index of output 6's one-row array is in the block of the last point. -/
theorem mem_blk6 (t : Fin cfg7.N) (i : S1x64.Idx) :
    i ∈ ((cfg7.win 6).blk t).view.set ↔ ∀ a : Fin 2, win7_6.index t a * S1x64.size a ≤ (i a).val ∧ (i a).val < win7_6.index t a * S1x64.size a + S1x64.size a := by
  show i ∈ ((View.whole (Pipeline.arrRef spec7 6)).slice (win7_6.rect t)).set ↔ _
  rw [View.set_slice_whole, Rect.mem_set_unit]
  exact Iff.rfl

/-- OUTPUT 6's ARRAY after the region: the column sums of squares of the convolution output. -/
theorem final6 (c : Dev nD) : (dat7 V c).arrAt 6 cfg7.N
    = KSpec.colsumsq 64 (KSpec.conv 64 (V c (Pipeline.arrRef spec7 0)) (V c (Pipeline.arrRef spec7 1)) (V c (Pipeline.arrRef spec7 2)) (V c (Pipeline.arrRef spec7 3))) :=
  (dat7 V c).arrAt_eq_of_cover 6 _ (flushed_eq6 V c) fun i => by
    have hi0 : (i 0).val < 1 := (i 0).isLt
    have hi1 : (i 1).val < 64 := (i 1).isLt
    have hN : cfg7.N = 25 := rfl
    refine ⟨⟨24, by rw [hN]; omega⟩, (flush7_6 _).mpr rfl, ?_⟩
    rw [mem_blk6]
    obtain ⟨-, -, -, -, -, -, ⟨h0, h1⟩⟩ := idx_facts ⟨24, by rw [hN]; omega⟩
    intro a
    match a with
    | ⟨0, _⟩ => show win7_6.index _ 0 * 1 ≤ (i 0).val ∧ (i 0).val < win7_6.index _ 0 * 1 + 1; rw [h0]; omega
    | ⟨1, _⟩ => show win7_6.index _ 1 * 64 ≤ (i 1).val ∧ (i 1).val < win7_6.index _ 1 * 64 + 64; rw [h1]; omega

end Cert.KernelIdeal.KReg7
-- ==== Proof.lean ====
/-
  The certificate of a three-layer graph convolution network: a kernel program of eight kernel regions
  among host operations, its idealization, and a plain reference.

  The three frame claims: each program runs, nothing faulting, and ends with its argument arrays as
  launched — the two kernel programs by their region-by-region runs, the reference by its run read
  back operation by operation.  The idealization rewrote nothing, so what it preserves is trivial.
  The algebraic claim, at the ideal values (floats extended reals, every operation exact): both programs
  end at one and the same result array.  The kernel program's result is walked back, segment by segment,
  to a term of the twelve arguments — each region's output array a whole-array function of what it
  found: the feature product of all rows, the convolution output with its column sums and sums of
  squares, the batch normalisation with the clamp at zero — and that term equals the reference's, layer
  by layer; the one place where the two differ in form, the variance as the mean of squares minus the
  squared mean against the mean of squared deviations, is where the arguments' finiteness is used.
-/
import proofs.«153408_j3753801416995_1_alg».proof.Defs
import proofs.«153408_j3753801416995_1_alg».proof.Proof.Assemble
import proofs.«153408_j3753801416995_1_alg».proof.Proof.Bridge
import proofs.«153408_j3753801416995_1_alg».proof.Proof.KChain
import proofs.«153408_j3753801416995_1_alg».proof.Proof.KReg0
import proofs.«153408_j3753801416995_1_alg».proof.Proof.KReg1
import proofs.«153408_j3753801416995_1_alg».proof.Proof.KReg2
import proofs.«153408_j3753801416995_1_alg».proof.Proof.KReg3
import proofs.«153408_j3753801416995_1_alg».proof.Proof.KReg4
import proofs.«153408_j3753801416995_1_alg».proof.Proof.KReg5
import proofs.«153408_j3753801416995_1_alg».proof.Proof.KReg6
import proofs.«153408_j3753801416995_1_alg».proof.Proof.KReg7

noncomputable section

namespace Cert.Proof

open Idealize.ShloMosaic Idealize.SL.Sem Cert.KernelIdeal

/-- Region 0: layer 1's feature product. -/
theorem r0 : KChain.HR0 := fun V c => KReg0.final V c
/-- Region 1: layer 1's convolution output. -/
theorem r1a : KChain.HR1a := fun V c => KReg1.final4 V c
/-- Region 1: its column sums. -/
theorem r1b : KChain.HR1b := fun V c => KReg1.final5 V c
/-- Region 1: its column sums of squares. -/
theorem r1c : KChain.HR1c := fun V c => KReg1.final6 V c
/-- Region 2: layer 1 normalised and clamped. -/
theorem r2 : KChain.HR2 := fun V c => KReg2.final V c
/-- Region 3: layer 2's feature product. -/
theorem r3 : KChain.HR3 := fun V c => KReg3.final V c
/-- Region 4: layer 2's convolution output. -/
theorem r4a : KChain.HR4a := fun V c => KReg4.final4 V c
/-- Region 4: its column sums. -/
theorem r4b : KChain.HR4b := fun V c => KReg4.final5 V c
/-- Region 4: its column sums of squares. -/
theorem r4c : KChain.HR4c := fun V c => KReg4.final6 V c
/-- Region 5: layer 2 normalised and clamped. -/
theorem r5 : KChain.HR5 := fun V c => KReg5.final V c
/-- Region 6: layer 3's feature product. -/
theorem r6 : KChain.HR6 := fun V c => KReg6.final V c
/-- Region 7: layer 3's convolution output, the result. -/
theorem r7a : KChain.HR7a := fun V c => KReg7.final4 V c

/-- The kernel program's result buffer after the run is the named term of the arguments. -/
theorem chain : Cert.Proof.Parts.Chain := fun m ρ c =>
  Cert.KernelIdeal.KChain.out_eq m ρ r0 r1a r1b r1c r2 r3 r4a r4b r4c r5 r6 r7a c

/-- For finite arguments that term is the reference's. -/
theorem bridge : Cert.Proof.Parts.Bridge :=
  fun _ _ _ _ _ _ _ _ _ _ _ _ h0 h2 h3 h4 h5 h6 h7 => Cert.Bridge.result_eq h0 h2 h3 h4 h5 h6 h7

theorem claim : Cert.Claim := Cert.Proof.Parts.claim_of chain bridge

end Cert.Proof

end
